-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v269) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x1200000 : Shape := ⟨2, ![2, 1200000]⟩
abbrev S200000 : Shape := ⟨1, ![200000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x6 : Shape := ⟨2, ![32, 6]⟩
abbrev S6 : Shape := ⟨1, ![6]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x6 : S_.BroadcastsInDim S32x6 (![] : Fin 0 → Fin S32x6.rank)
  reducesTo_S32x6_S_d0_1 : S32x6.ReducesTo [0, 1] S_
  bcast_S_S6 : S_.BroadcastsInDim S6 (![] : Fin 0 → Fin S6.rank)
  reducesTo_S6_S_d0 : S6.ReducesTo [0] S_

variable [Facts]

def fn_part6 {F : FTy → Type} [FloatOps F] (main_arg23 : FVec F S32x6 .f32) (main_arg24 : FVec F S6 .f32) (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  let main_v104 : FVec F S32x6 .f32 := Host.absf main_arg23
  let main_cst_40 : FVec F S_ .f32 := constant S_ .f32 0x7F800000#32
  let main_v105 : FVec F S32x6 .f32 := broadcastInDim S32x6 ![] bcast_S_S32x6 main_cst_40
  let main_v106 : IVec S32x6 1 := cmpf .olt main_v104 main_v105
  let main_c_41 : IVec S_ 1 := constantI S_ 1 1#1
  let main_v107 : IVec S_ 1 := (fun x v => Host.reduce IntOp.andi x v reducesTo_S32x6_S_d0_1 h_S_) main_v106 main_c_41
  let main_v108 : IVec S_ 1 := andi main_v103 main_v107
  let main_v109 : FVec F S6 .f32 := Host.absf main_arg24
  let main_cst_42 : FVec F S_ .f32 := constant S_ .f32 0x7F800000#32
  let main_v110 : FVec F S6 .f32 := broadcastInDim S6 ![] bcast_S_S6 main_cst_42
  let main_v111 : IVec S6 1 := cmpf .olt main_v109 main_v110
  let main_c_43 : IVec S_ 1 := constantI S_ 1 1#1
  let main_v112 : IVec S_ 1 := (fun x v => Host.reduce IntOp.andi x v reducesTo_S6_S_d0 h_S_) main_v111 main_c_43
  let main_v113 : IVec S_ 1 := andi main_v108 main_v112
  main_v113

def fn_part5 {F : FTy → Type} [FloatOps F] (main_arg20 : FVec F S3x64 .f32) (main_arg21 : FVec F S64x32 .f32) (main_arg22 : FVec F S32 .f32) (main_arg23 : FVec F S32x6 .f32) (main_arg24 : FVec F S6 .f32) (main_v83 : IVec S_ 1) (main_v84 : FVec F S3x64 .f32) (main_cst_32 : FVec F S_ .f32) : IVec S_ 1 :=
  let main_v85 : FVec F S3x64 .f32 := broadcastInDim S3x64 ![] bcast_S_S3x64 main_cst_32
  let main_v86 : IVec S3x64 1 := cmpf .olt main_v84 main_v85
  let main_c_33 : IVec S_ 1 := constantI S_ 1 1#1
  let main_v87 : IVec S_ 1 := (fun x v => Host.reduce IntOp.andi x v reducesTo_S3x64_S_d0_1 h_S_) main_v86 main_c_33
  let main_v88 : IVec S_ 1 := andi main_v83 main_v87
  let main_v89 : FVec F S3x64 .f32 := Host.absf main_arg20
  let main_cst_34 : FVec F S_ .f32 := constant S_ .f32 0x7F800000#32
  let main_v90 : FVec F S3x64 .f32 := broadcastInDim S3x64 ![] bcast_S_S3x64 main_cst_34
  let main_v91 : IVec S3x64 1 := cmpf .olt main_v89 main_v90
  let main_c_35 : IVec S_ 1 := constantI S_ 1 1#1
  let main_v92 : IVec S_ 1 := (fun x v => Host.reduce IntOp.andi x v reducesTo_S3x64_S_d0_1 h_S_) main_v91 main_c_35
  let main_v93 : IVec S_ 1 := andi main_v88 main_v92
  let main_v94 : FVec F S64x32 .f32 := Host.absf main_arg21
  let main_cst_36 : FVec F S_ .f32 := constant S_ .f32 0x7F800000#32
  let main_v95 : FVec F S64x32 .f32 := broadcastInDim S64x32 ![] bcast_S_S64x32 main_cst_36
  let main_v96 : IVec S64x32 1 := cmpf .olt main_v94 main_v95
  let main_c_37 : IVec S_ 1 := constantI S_ 1 1#1
  let main_v97 : IVec S_ 1 := (fun x v => Host.reduce IntOp.andi x v reducesTo_S64x32_S_d0_1 h_S_) main_v96 main_c_37
  let main_v98 : IVec S_ 1 := andi main_v93 main_v97
  let main_v99 : FVec F S32 .f32 := Host.absf main_arg22
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S3x64 .f32) (main_arg17 : FVec F S3x64 .f32) (main_arg18 : FVec F S3x64 .f32) (main_arg19 : FVec F S3x64 .f32) (main_arg20 : FVec F S3x64 .f32) (main_arg21 : FVec F S64x32 .f32) (main_arg22 : FVec F S32 .f32) (main_arg23 : FVec F S32x6 .f32) (main_arg24 : FVec F S6 .f32) (main_v63 : IVec S_ 1) (main_v67 : IVec S_ 1) : IVec S_ 1 :=
  let main_v68 : IVec S_ 1 := andi main_v63 main_v67
  let main_v69 : FVec F S3x64 .f32 := Host.absf main_arg16
  let main_cst_26 : FVec F S_ .f32 := constant S_ .f32 0x7F800000#32
  let main_v70 : FVec F S3x64 .f32 := broadcastInDim S3x64 ![] bcast_S_S3x64 main_cst_26
  let main_v71 : IVec S3x64 1 := cmpf .olt main_v69 main_v70
  let main_c_27 : IVec S_ 1 := constantI S_ 1 1#1
  let main_v72 : IVec S_ 1 := (fun x v => Host.reduce IntOp.andi x v reducesTo_S3x64_S_d0_1 h_S_) main_v71 main_c_27
  let main_v73 : IVec S_ 1 := andi main_v68 main_v72
  let main_v74 : FVec F S3x64 .f32 := Host.absf main_arg17
  let main_cst_28 : FVec F S_ .f32 := constant S_ .f32 0x7F800000#32
  let main_v75 : FVec F S3x64 .f32 := broadcastInDim S3x64 ![] bcast_S_S3x64 main_cst_28
  let main_v76 : IVec S3x64 1 := cmpf .olt main_v74 main_v75
  let main_c_29 : IVec S_ 1 := constantI S_ 1 1#1
  let main_v77 : IVec S_ 1 := (fun x v => Host.reduce IntOp.andi x v reducesTo_S3x64_S_d0_1 h_S_) main_v76 main_c_29
  let main_v78 : IVec S_ 1 := andi main_v73 main_v77
  let main_v79 : FVec F S3x64 .f32 := Host.absf main_arg18
  let main_cst_30 : FVec F S_ .f32 := constant S_ .f32 0x7F800000#32
  let main_v80 : FVec F S3x64 .f32 := broadcastInDim S3x64 ![] bcast_S_S3x64 main_cst_30
  let main_v81 : IVec S3x64 1 := cmpf .olt main_v79 main_v80
  let main_c_31 : IVec S_ 1 := constantI S_ 1 1#1
  let main_v82 : IVec S_ 1 := (fun x v => Host.reduce IntOp.andi x v reducesTo_S3x64_S_d0_1 h_S_) main_v81 main_c_31
  let main_v83 : IVec S_ 1 := andi main_v78 main_v82
  let main_v84 : FVec F S3x64 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S3x64 .f32) (main_arg14 : FVec F S3x64 .f32) (main_arg15 : FVec F S3x64x64 .f32) (main_arg16 : FVec F S3x64 .f32) (main_arg17 : FVec F S3x64 .f32) (main_arg18 : FVec F S3x64 .f32) (main_arg19 : FVec F S3x64 .f32) (main_arg20 : FVec F S3x64 .f32) (main_arg21 : FVec F S64x32 .f32) (main_arg22 : FVec F S32 .f32) (main_arg23 : FVec F S32x6 .f32) (main_arg24 : FVec F S6 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S3x64 .f32 := Host.absf main_arg13
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S3x64 .f32 := Host.absf main_arg14
  let main_cst_22 : FVec F S_ .f32 := constant S_ .f32 0x7F800000#32
  let main_v60 : FVec F S3x64 .f32 := broadcastInDim S3x64 ![] bcast_S_S3x64 main_cst_22
  let main_v61 : IVec S3x64 1 := cmpf .olt main_v59 main_v60
  let main_c_23 : IVec S_ 1 := constantI S_ 1 1#1
  let main_v62 : IVec S_ 1 := (fun x v => Host.reduce IntOp.andi x v reducesTo_S3x64_S_d0_1 h_S_) main_v61 main_c_23
  let main_v63 : IVec S_ 1 := andi main_v58 main_v62
  let main_v64 : FVec F S3x64x64 .f32 := Host.absf main_arg15
  let main_cst_24 : FVec F S_ .f32 := constant S_ .f32 0x7F800000#32
  let main_v65 : FVec F S3x64x64 .f32 := broadcastInDim S3x64x64 ![] bcast_S_S3x64x64 main_cst_24
  let main_v66 : IVec S3x64x64 1 := cmpf .olt main_v64 main_v65
  let main_c_25 : IVec S_ 1 := constantI S_ 1 1#1
  let main_v67 : IVec S_ 1 := (fun x v => Host.reduce IntOp.andi x v reducesTo_S3x64x64_S_d0_1_2 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S3x64x64 .f32) (main_arg10 : FVec F S3x64 .f32) (main_arg11 : FVec F S3x64 .f32) (main_arg12 : FVec F S3x64 .f32) (main_arg13 : FVec F S3x64 .f32) (main_arg14 : FVec F S3x64 .f32) (main_arg15 : FVec F S3x64x64 .f32) (main_arg16 : FVec F S3x64 .f32) (main_arg17 : FVec F S3x64 .f32) (main_arg18 : FVec F S3x64 .f32) (main_arg19 : FVec F S3x64 .f32) (main_arg20 : FVec F S3x64 .f32) (main_arg21 : FVec F S64x32 .f32) (main_arg22 : FVec F S32 .f32) (main_arg23 : FVec F S32x6 .f32) (main_arg24 : FVec F S6 .f32) (main_v33 : IVec S_ 1) : IVec S_ 1 :=
  let main_v34 : FVec F S3x64x64 .f32 := Host.absf main_arg9
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg10
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64 .f32 := Host.absf main_arg11
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x64 .f32 := Host.absf main_arg12
  let main_cst_18 : FVec F S_ .f32 := constant S_ .f32 0x7F800000#32
  let main_v50 : FVec F S3x64 .f32 := broadcastInDim S3x64 ![] bcast_S_S3x64 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S64 .f32) (main_arg7 : FVec F S64 .f32) (main_arg8 : FVec F S64 .f32) (main_arg9 : FVec F S3x64x64 .f32) (main_arg10 : FVec F S3x64 .f32) (main_arg11 : FVec F S3x64 .f32) (main_arg12 : FVec F S3x64 .f32) (main_arg13 : FVec F S3x64 .f32) (main_arg14 : FVec F S3x64 .f32) (main_arg15 : FVec F S3x64x64 .f32) (main_arg16 : FVec F S3x64 .f32) (main_arg17 : FVec F S3x64 .f32) (main_arg18 : FVec F S3x64 .f32) (main_arg19 : FVec F S3x64 .f32) (main_arg20 : FVec F S3x64 .f32) (main_arg21 : FVec F S64x32 .f32) (main_arg22 : FVec F S32 .f32) (main_arg23 : FVec F S32x6 .f32) (main_arg24 : FVec F S6 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S200000x128 .f32) (main_arg1 : IVec S2x1200000 32) (main_arg2 : IVec S200000 32) (main_arg3 : FVec F S128x64 .f32) (main_arg4 : FVec F S64 .f32) (main_arg5 : FVec F S64 .f32) (main_arg6 : FVec F S64 .f32) (main_arg7 : FVec F S64 .f32) (main_arg8 : FVec F S64 .f32) (main_arg9 : FVec F S3x64x64 .f32) (main_arg10 : FVec F S3x64 .f32) (main_arg11 : FVec F S3x64 .f32) (main_arg12 : FVec F S3x64 .f32) (main_arg13 : FVec F S3x64 .f32) (main_arg14 : FVec F S3x64 .f32) (main_arg15 : FVec F S3x64x64 .f32) (main_arg16 : FVec F S3x64 .f32) (main_arg17 : FVec F S3x64 .f32) (main_arg18 : FVec F S3x64 .f32) (main_arg19 : FVec F S3x64 .f32) (main_arg20 : FVec F S3x64 .f32) (main_arg21 : FVec F S64x32 .f32) (main_arg22 : FVec F S32 .f32) (main_arg23 : FVec F S32x6 .f32) (main_arg24 : FVec F S6 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S200000x128 : Shape := ⟨2, ![200000, 128]⟩
abbrev S2x1200000 : Shape := ⟨2, ![2, 1200000]⟩
abbrev S200000 : Shape := ⟨1, ![200000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x6 : Shape := ⟨2, ![32, 6]⟩
abbrev S6 : Shape := ⟨1, ![6]⟩
abbrev S1x1200000 : Shape := ⟨2, ![1, 1200000]⟩
abbrev S1200000 : Shape := ⟨1, ![1200000]⟩
abbrev S200000x64 : Shape := ⟨2, ![200000, 64]⟩
abbrev S5000x128 : Shape := ⟨2, ![5000, 128]⟩
abbrev S5000x64 : Shape := ⟨2, ![5000, 64]⟩
abbrev S1x64 : Shape := ⟨2, ![1, 64]⟩
abbrev S_ : Shape := ⟨0, ![]⟩
abbrev S1200000x1 : Shape := ⟨2, ![1200000, 1]⟩
abbrev S1200000x64 : Shape := ⟨2, ![1200000, 64]⟩
abbrev S1x64x64 : Shape := ⟨3, ![1, 64, 64]⟩
abbrev S64x64 : Shape := ⟨2, ![64, 64]⟩
abbrev S1024x64 : Shape := ⟨2, ![1024, 64]⟩
abbrev S200000x1 : Shape := ⟨2, ![200000, 1]⟩
abbrev S1024 : Shape := ⟨1, ![1024]⟩
abbrev S1024x1 : Shape := ⟨2, ![1024, 1]⟩
abbrev S1024x6 : Shape := ⟨2, ![1024, 6]⟩
abbrev S1024x32 : Shape := ⟨2, ![1024, 32]⟩
abbrev S1x32 : Shape := ⟨2, ![1, 32]⟩
abbrev S1x6 : Shape := ⟨2, ![1, 6]⟩

abbrev nBuf : Space → Nat
  | .hbm => 168
  | .vmem => 78
  | .smem => 0
  | _ => 0

abbrev hbmTy0_0 (i : Nat) : BufTy := match i % 128 with
  | 0 => ⟨S200000x128, .f32⟩
  | 1 => ⟨S2x1200000, .i32⟩
  | 2 => ⟨S200000, .i32⟩
  | 3 => ⟨S128x64, .f32⟩
  | 4 => ⟨S64, .f32⟩
  | 5 => ⟨S64, .f32⟩
  | 6 => ⟨S64, .f32⟩
  | 7 => ⟨S64, .f32⟩
  | 8 => ⟨S64, .f32⟩
  | 9 => ⟨S3x64x64, .f32⟩
  | 10 => ⟨S3x64, .f32⟩
  | 11 => ⟨S3x64, .f32⟩
  | 12 => ⟨S3x64, .f32⟩
  | 13 => ⟨S3x64, .f32⟩
  | 14 => ⟨S3x64, .f32⟩
  | 15 => ⟨S3x64x64, .f32⟩
  | 16 => ⟨S3x64, .f32⟩
  | 17 => ⟨S3x64, .f32⟩
  | 18 => ⟨S3x64, .f32⟩
  | 19 => ⟨S3x64, .f32⟩
  | 20 => ⟨S3x64, .f32⟩
  | 21 => ⟨S64x32, .f32⟩
  | 22 => ⟨S32, .f32⟩
  | 23 => ⟨S32x6, .f32⟩
  | 24 => ⟨S6, .f32⟩
  | 25 => ⟨S1x1200000, .i32⟩
  | 26 => ⟨S1200000, .i32⟩
  | 27 => ⟨S1x1200000, .i32⟩
  | 28 => ⟨S1200000, .i32⟩
  | 29 => ⟨S200000x64, .f32⟩
  | 30 => ⟨S200000x64, .bf16⟩
  | 31 => ⟨S_, .i32⟩
  | 32 => ⟨S1200000, .i32⟩
  | 33 => ⟨S1200000, .i1⟩
  | 34 => ⟨S_, .i32⟩
  | 35 => ⟨S1200000, .i32⟩
  | 36 => ⟨S1200000, .i32⟩
  | 37 => ⟨S1200000, .i32⟩
  | 38 => ⟨S1200000x1, .i32⟩
  | 39 => ⟨S1200000x64, .bf16⟩
  | 40 => ⟨S1200000x64, .f32⟩
  | 41 => ⟨S_, .f32⟩
  | 42 => ⟨S200000x64, .f32⟩
  | 43 => ⟨S1200000x1, .i32⟩
  | 44 => ⟨S200000x64, .f32⟩
  | 45 => ⟨S1x64x64, .f32⟩
  | 46 => ⟨S64x64, .f32⟩
  | 47 => ⟨S1x64, .f32⟩
  | 48 => ⟨S64, .f32⟩
  | 49 => ⟨S1x64, .f32⟩
  | 50 => ⟨S64, .f32⟩
  | 51 => ⟨S1x64, .f32⟩
  | 52 => ⟨S64, .f32⟩
  | 53 => ⟨S1x64, .f32⟩
  | 54 => ⟨S64, .f32⟩
  | 55 => ⟨S1x64, .f32⟩
  | 56 => ⟨S64, .f32⟩
  | 57 => ⟨S1x64x64, .f32⟩
  | 58 => ⟨S64x64, .f32⟩
  | 59 => ⟨S1x64, .f32⟩
  | 60 => ⟨S64, .f32⟩
  | 61 => ⟨S1x64, .f32⟩
  | 62 => ⟨S64, .f32⟩
  | 63 => ⟨S1x64, .f32⟩
  | 64 => ⟨S64, .f32⟩
  | 65 => ⟨S1x64, .f32⟩
  | 66 => ⟨S64, .f32⟩
  | 67 => ⟨S1x64, .f32⟩
  | 68 => ⟨S64, .f32⟩
  | 69 => ⟨S200000x64, .f32⟩
  | 70 => ⟨S200000x64, .bf16⟩
  | 71 => ⟨S_, .i32⟩
  | 72 => ⟨S1200000, .i32⟩
  | 73 => ⟨S1200000, .i1⟩
  | 74 => ⟨S_, .i32⟩
  | 75 => ⟨S1200000, .i32⟩
  | 76 => ⟨S1200000, .i32⟩
  | 77 => ⟨S1200000, .i32⟩
  | 78 => ⟨S1200000x1, .i32⟩
  | 79 => ⟨S1200000x64, .bf16⟩
  | 80 => ⟨S1200000x64, .f32⟩
  | 81 => ⟨S_, .f32⟩
  | 82 => ⟨S200000x64, .f32⟩
  | 83 => ⟨S1200000x1, .i32⟩
  | 84 => ⟨S200000x64, .f32⟩
  | 85 => ⟨S1x64x64, .f32⟩
  | 86 => ⟨S64x64, .f32⟩
  | 87 => ⟨S1x64, .f32⟩
  | 88 => ⟨S64, .f32⟩
  | 89 => ⟨S1x64, .f32⟩
  | 90 => ⟨S64, .f32⟩
  | 91 => ⟨S1x64, .f32⟩
  | 92 => ⟨S64, .f32⟩
  | 93 => ⟨S1x64, .f32⟩
  | 94 => ⟨S64, .f32⟩
  | 95 => ⟨S1x64, .f32⟩
  | 96 => ⟨S64, .f32⟩
  | 97 => ⟨S1x64x64, .f32⟩
  | 98 => ⟨S64x64, .f32⟩
  | 99 => ⟨S1x64, .f32⟩
  | 100 => ⟨S64, .f32⟩
  | 101 => ⟨S1x64, .f32⟩
  | 102 => ⟨S64, .f32⟩
  | 103 => ⟨S1x64, .f32⟩
  | 104 => ⟨S64, .f32⟩
  | 105 => ⟨S1x64, .f32⟩
  | 106 => ⟨S64, .f32⟩
  | 107 => ⟨S1x64, .f32⟩
  | 108 => ⟨S64, .f32⟩
  | 109 => ⟨S200000x64, .f32⟩
  | 110 => ⟨S200000x64, .bf16⟩
  | 111 => ⟨S_, .i32⟩
  | 112 => ⟨S1200000, .i32⟩
  | 113 => ⟨S1200000, .i1⟩
  | 114 => ⟨S_, .i32⟩
  | 115 => ⟨S1200000, .i32⟩
  | 116 => ⟨S1200000, .i32⟩
  | 117 => ⟨S1200000, .i32⟩
  | 118 => ⟨S1200000x1, .i32⟩
  | 119 => ⟨S1200000x64, .bf16⟩
  | 120 => ⟨S1200000x64, .f32⟩
  | 121 => ⟨S_, .f32⟩
  | 122 => ⟨S200000x64, .f32⟩
  | 123 => ⟨S1200000x1, .i32⟩
  | 124 => ⟨S200000x64, .f32⟩
  | 125 => ⟨S1x64x64, .f32⟩
  | 126 => ⟨S64x64, .f32⟩
  | 127 => ⟨S1x64, .f32⟩
  | _ => ⟨S200000x128, .f32⟩

abbrev hbmTy0_1 (i : Nat) : BufTy := match i % 128 with
  | 0 => ⟨S64, .f32⟩
  | 1 => ⟨S1x64, .f32⟩
  | 2 => ⟨S64, .f32⟩
  | 3 => ⟨S1x64, .f32⟩
  | 4 => ⟨S64, .f32⟩
  | 5 => ⟨S1x64, .f32⟩
  | 6 => ⟨S64, .f32⟩
  | 7 => ⟨S1x64, .f32⟩
  | 8 => ⟨S64, .f32⟩
  | 9 => ⟨S1x64x64, .f32⟩
  | 10 => ⟨S64x64, .f32⟩
  | 11 => ⟨S1x64, .f32⟩
  | 12 => ⟨S64, .f32⟩
  | 13 => ⟨S1x64, .f32⟩
  | 14 => ⟨S64, .f32⟩
  | 15 => ⟨S1x64, .f32⟩
  | 16 => ⟨S64, .f32⟩
  | 17 => ⟨S1x64, .f32⟩
  | 18 => ⟨S64, .f32⟩
  | 19 => ⟨S1x64, .f32⟩
  | 20 => ⟨S64, .f32⟩
  | 21 => ⟨S200000x64, .f32⟩
  | 22 => ⟨S200000x64, .bf16⟩
  | 23 => ⟨S_, .f32⟩
  | 24 => ⟨S1024x64, .f32⟩
  | 25 => ⟨S200000x1, .i32⟩
  | 26 => ⟨S1024x64, .f32⟩
  | 27 => ⟨S_, .f32⟩
  | 28 => ⟨S200000, .f32⟩
  | 29 => ⟨S_, .f32⟩
  | 30 => ⟨S1024, .f32⟩
  | 31 => ⟨S200000x1, .i32⟩
  | 32 => ⟨S1024, .f32⟩
  | 33 => ⟨S_, .f32⟩
  | 34 => ⟨S1024, .f32⟩
  | 35 => ⟨S1024, .f32⟩
  | 36 => ⟨S1024x1, .f32⟩
  | 37 => ⟨S1024x64, .f32⟩
  | 38 => ⟨S1024x64, .f32⟩
  | 39 => ⟨S1024x6, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S64, .f32⟩
  | .local _ .vmem, ⟨4, _⟩ => ⟨S64, .f32⟩
  | .local _ .vmem, ⟨5, _⟩ => ⟨S64, .f32⟩
  | .local _ .vmem, ⟨6, _⟩ => ⟨S64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | .local _ .vmem, ⟨10, _⟩ => ⟨S5000x64, .bf16⟩
  | .local _ .vmem, ⟨11, _⟩ => ⟨S5000x64, .bf16⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S64, .f32⟩
  | .local _ .vmem, ⟨18, _⟩ => ⟨S64, .f32⟩
  | .local _ .vmem, ⟨19, _⟩ => ⟨S64, .f32⟩
  | .local _ .vmem, ⟨20, _⟩ => ⟨S64, .f32⟩
  | .local _ .vmem, ⟨21, _⟩ => ⟨S64, .f32⟩
  | .local _ .vmem, ⟨22, _⟩ => ⟨S64x64, .f32⟩
  | .local _ .vmem, ⟨23, _⟩ => ⟨S64, .f32⟩
  | .local _ .vmem, ⟨24, _⟩ => ⟨S64, .f32⟩
  | .local _ .vmem, ⟨25, _⟩ => ⟨S64, .f32⟩
  | .local _ .vmem, ⟨26, _⟩ => ⟨S64, .f32⟩
  | .local _ .vmem, ⟨27, _⟩ => ⟨S64, .f32⟩
  | .local _ .vmem, ⟨28, _⟩ => ⟨S5000x64, .f32⟩
  | .local _ .vmem, ⟨29, _⟩ => ⟨S5000x64, .f32⟩
  | .local _ .vmem, ⟨30, _⟩ => ⟨S5000x64, .bf16⟩
  | .local _ .vmem, ⟨31, _⟩ => ⟨S5000x64, .bf16⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S64x64, .f32⟩
  | .local _ .vmem, ⟨37, _⟩ => ⟨S64, .f32⟩
  | .local _ .vmem, ⟨38, _⟩ => ⟨S64, .f32⟩
  | .local _ .vmem, ⟨39, _⟩ => ⟨S64, .f32⟩
  | .local _ .vmem, ⟨40, _⟩ => ⟨S64, .f32⟩
  | .local _ .vmem, ⟨41, _⟩ => ⟨S64, .f32⟩
  | .local _ .vmem, ⟨42, _⟩ => ⟨S64x64, .f32⟩
  | .local _ .vmem, ⟨43, _⟩ => ⟨S64, .f32⟩
  | .local _ .vmem, ⟨44, _⟩ => ⟨S64, .f32⟩
  | .local _ .vmem, ⟨45, _⟩ => ⟨S64, .f32⟩
  | .local _ .vmem, ⟨46, _⟩ => ⟨S64, .f32⟩
  | .local _ .vmem, ⟨47, _⟩ => ⟨S64, .f32⟩
  | .local _ .vmem, ⟨48, _⟩ => ⟨S5000x64, .f32⟩
  | .local _ .vmem, ⟨49, _⟩ => ⟨S5000x64, .f32⟩
  | .local _ .vmem, ⟨50, _⟩ => ⟨S5000x64, .bf16⟩
  | .local _ .vmem, ⟨51, _⟩ => ⟨S5000x64, .bf16⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S64x64, .f32⟩
  | .local _ .vmem, ⟨57, _⟩ => ⟨S64, .f32⟩
  | .local _ .vmem, ⟨58, _⟩ => ⟨S64, .f32⟩
  | .local _ .vmem, ⟨59, _⟩ => ⟨S64, .f32⟩
  | .local _ .vmem, ⟨60, _⟩ => ⟨S64, .f32⟩
  | .local _ .vmem, ⟨61, _⟩ => ⟨S64, .f32⟩
  | .local _ .vmem, ⟨62, _⟩ => ⟨S64x64, .f32⟩
  | .local _ .vmem, ⟨63, _⟩ => ⟨S64, .f32⟩
  | .local _ .vmem, ⟨64, _⟩ => ⟨S64, .f32⟩
  | .local _ .vmem, ⟨65, _⟩ => ⟨S64, .f32⟩
  | .local _ .vmem, ⟨66, _⟩ => ⟨S64, .f32⟩
  | .local _ .vmem, ⟨67, _⟩ => ⟨S64, .f32⟩
  | .local _ .vmem, ⟨68, _⟩ => ⟨S5000x64, .f32⟩
  | .local _ .vmem, ⟨69, _⟩ => ⟨S5000x64, .f32⟩
  | .local _ .vmem, ⟨70, _⟩ => ⟨S5000x64, .bf16⟩
  | .local _ .vmem, ⟨71, _⟩ => ⟨S5000x64, .bf16⟩
  | .local _ .vmem, ⟨72, _⟩ => ⟨S1024x64, .f32⟩
  | .local _ .vmem, ⟨73, _⟩ => ⟨S64x32, .f32⟩
  | .local _ .vmem, ⟨74, _⟩ => ⟨S32, .f32⟩
  | .local _ .vmem, ⟨75, _⟩ => ⟨S32x6, .f32⟩
  | .local _ .vmem, ⟨76, _⟩ => ⟨S6, .f32⟩
  | .local _ .vmem, ⟨77, _⟩ => ⟨S1024x6, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4_0 : Ref sig .tc := ⟨.hbm, 29, rfl⟩
abbrev main_v4_1 : Ref sig .tc := ⟨.hbm, 30, rfl⟩
abbrev main_c : Ref sig .tc := ⟨.hbm, 31, rfl⟩
abbrev main_v5 : Ref sig .tc := ⟨.hbm, 32, rfl⟩
abbrev main_v6 : Ref sig .tc := ⟨.hbm, 33, rfl⟩
abbrev main_c_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40_0 : Ref sig .tc := ⟨.hbm, 69, rfl⟩
abbrev main_v40_1 : Ref sig .tc := ⟨.hbm, 70, rfl⟩
abbrev main_c_1 : Ref sig .tc := ⟨.hbm, 71, rfl⟩
abbrev main_v41 : Ref sig .tc := ⟨.hbm, 72, rfl⟩
abbrev main_v42 : Ref sig .tc := ⟨.hbm, 73, rfl⟩
abbrev main_c_2 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_3 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76_0 : Ref sig .tc := ⟨.hbm, 109, rfl⟩
abbrev main_v76_1 : Ref sig .tc := ⟨.hbm, 110, rfl⟩
abbrev main_c_4 : Ref sig .tc := ⟨.hbm, 111, rfl⟩
abbrev main_v77 : Ref sig .tc := ⟨.hbm, 112, rfl⟩
abbrev main_v78 : Ref sig .tc := ⟨.hbm, 113, rfl⟩
abbrev main_c_5 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_6 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112_0 : Ref sig .tc := ⟨.hbm, 149, rfl⟩
abbrev main_v112_1 : Ref sig .tc := ⟨.hbm, 150, rfl⟩
abbrev main_cst_7 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_8 : Ref sig .tc := ⟨.hbm, 155, rfl⟩
abbrev main_v116 : Ref sig .tc := ⟨.hbm, 156, rfl⟩
abbrev main_cst_9 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_10 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg11_0 : Ref sig .tc := ⟨.vmem, 25, rfl⟩
abbrev cc1_stg12_0 : Ref sig .tc := ⟨.vmem, 26, rfl⟩
abbrev cc1_stg13_0 : Ref sig .tc := ⟨.vmem, 27, rfl⟩
abbrev cc1_stg14_0 : Ref sig .tc := ⟨.vmem, 28, rfl⟩
abbrev cc1_stg14_1 : Ref sig .tc := ⟨.vmem, 29, rfl⟩
abbrev cc1_stg15_0 : Ref sig .tc := ⟨.vmem, 30, rfl⟩
abbrev cc1_stg15_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg3_0 : Ref sig .tc := ⟨.vmem, 37, rfl⟩
abbrev cc2_stg4_0 : Ref sig .tc := ⟨.vmem, 38, rfl⟩
abbrev cc2_stg5_0 : Ref sig .tc := ⟨.vmem, 39, rfl⟩
abbrev cc2_stg6_0 : Ref sig .tc := ⟨.vmem, 40, rfl⟩
abbrev cc2_stg7_0 : Ref sig .tc := ⟨.vmem, 41, rfl⟩
abbrev cc2_stg8_0 : Ref sig .tc := ⟨.vmem, 42, rfl⟩
abbrev cc2_stg9_0 : Ref sig .tc := ⟨.vmem, 43, rfl⟩
abbrev cc2_stg10_0 : Ref sig .tc := ⟨.vmem, 44, rfl⟩
abbrev cc2_stg11_0 : Ref sig .tc := ⟨.vmem, 45, rfl⟩
abbrev cc2_stg12_0 : Ref sig .tc := ⟨.vmem, 46, rfl⟩
abbrev cc2_stg13_0 : Ref sig .tc := ⟨.vmem, 47, rfl⟩
abbrev cc2_stg14_0 : Ref sig .tc := ⟨.vmem, 48, rfl⟩
abbrev cc2_stg14_1 : Ref sig .tc := ⟨.vmem, 49, rfl⟩
abbrev cc2_stg15_0 : Ref sig .tc := ⟨.vmem, 50, rfl⟩
abbrev cc2_stg15_1 : Ref sig .tc := ⟨.vmem, 51, rfl⟩
abbrev cc3_stg0_0 : Ref sig .tc := ⟨.vmem, 52, rfl⟩
abbrev cc3_stg0_1 : Ref sig .tc := ⟨.vmem, 53, rfl⟩
abbrev cc3_stg1_0 : Ref sig .tc := ⟨.vmem, 54, rfl⟩
abbrev cc3_stg1_1 : Ref sig .tc := ⟨.vmem, 55, rfl⟩
abbrev cc3_stg2_0 : Ref sig .tc := ⟨.vmem, 56, rfl⟩
abbrev cc3_stg3_0 : Ref sig .tc := ⟨.vmem, 57, rfl⟩
abbrev cc3_stg4_0 : Ref sig .tc := ⟨.vmem, 58, rfl⟩
abbrev cc3_stg5_0 : Ref sig .tc := ⟨.vmem, 59, rfl⟩
abbrev cc3_stg6_0 : Ref sig .tc := ⟨.vmem, 60, rfl⟩
abbrev cc3_stg7_0 : Ref sig .tc := ⟨.vmem, 61, rfl⟩
abbrev cc3_stg8_0 : Ref sig .tc := ⟨.vmem, 62, rfl⟩
abbrev cc3_stg9_0 : Ref sig .tc := ⟨.vmem, 63, rfl⟩
abbrev cc3_stg10_0 : Ref sig .tc := ⟨.vmem, 64, rfl⟩
abbrev cc3_stg11_0 : Ref sig .tc := ⟨.vmem, 65, rfl⟩
abbrev cc3_stg12_0 : Ref sig .tc := ⟨.vmem, 66, rfl⟩
abbrev cc3_stg13_0 : Ref sig .tc := ⟨.vmem, 67, rfl⟩
abbrev cc3_stg14_0 : Ref sig .tc := ⟨.vmem, 68, rfl⟩
abbrev cc3_stg14_1 : Ref sig .tc := ⟨.vmem, 69, rfl⟩
abbrev cc3_stg15_0 : Ref sig .tc := ⟨.vmem, 70, rfl⟩
abbrev cc3_stg15_1 : Ref sig .tc := ⟨.vmem, 71, rfl⟩
abbrev cc4_stg0_0 : Ref sig .tc := ⟨.vmem, 72, rfl⟩
abbrev cc4_stg1_0 : Ref sig .tc := ⟨.vmem, 73, rfl⟩
abbrev cc4_stg2_0 : Ref sig .tc := ⟨.vmem, 74, rfl⟩
abbrev cc4_stg3_0 : Ref sig .tc := ⟨.vmem, 75, rfl⟩
abbrev cc4_stg4_0 : Ref sig .tc := ⟨.vmem, 76, rfl⟩
abbrev cc4_stg5_0 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem12_0 : DmaSem sig := 26
abbrev cc1_sem13_0 : DmaSem sig := 27
abbrev cc1_sem14_0 : DmaSem sig := 28
abbrev cc1_sem14_1 : DmaSem sig := 29
abbrev cc1_sem15_0 : DmaSem sig := 30
abbrev cc1_sem15_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem3_0 : DmaSem sig := 37
abbrev cc2_sem4_0 : DmaSem sig := 38
abbrev cc2_sem5_0 : DmaSem sig := 39
abbrev cc2_sem6_0 : DmaSem sig := 40
abbrev cc2_sem7_0 : DmaSem sig := 41
abbrev cc2_sem8_0 : DmaSem sig := 42
abbrev cc2_sem9_0 : DmaSem sig := 43
abbrev cc2_sem10_0 : DmaSem sig := 44
abbrev cc2_sem11_0 : DmaSem sig := 45
abbrev cc2_sem12_0 : DmaSem sig := 46
abbrev cc2_sem13_0 : DmaSem sig := 47
abbrev cc2_sem14_0 : DmaSem sig := 48
abbrev cc2_sem14_1 : DmaSem sig := 49
abbrev cc2_sem15_0 : DmaSem sig := 50
abbrev cc2_sem15_1 : DmaSem sig := 51
abbrev cc3_sem0_0 : DmaSem sig := 52
abbrev cc3_sem0_1 : DmaSem sig := 53
abbrev cc3_sem1_0 : DmaSem sig := 54
abbrev cc3_sem1_1 : DmaSem sig := 55
abbrev cc3_sem2_0 : DmaSem sig := 56
abbrev cc3_sem3_0 : DmaSem sig := 57
abbrev cc3_sem4_0 : DmaSem sig := 58
abbrev cc3_sem5_0 : DmaSem sig := 59
abbrev cc3_sem6_0 : DmaSem sig := 60
abbrev cc3_sem7_0 : DmaSem sig := 61
abbrev cc3_sem8_0 : DmaSem sig := 62
abbrev cc3_sem9_0 : DmaSem sig := 63
abbrev cc3_sem10_0 : DmaSem sig := 64
abbrev cc3_sem11_0 : DmaSem sig := 65
abbrev cc3_sem12_0 : DmaSem sig := 66
abbrev cc3_sem13_0 : DmaSem sig := 67
abbrev cc3_sem14_0 : DmaSem sig := 68
abbrev cc3_sem14_1 : DmaSem sig := 69
abbrev cc3_sem15_0 : DmaSem sig := 70
abbrev cc3_sem15_1 : DmaSem sig := 71
abbrev cc4_sem0_0 : DmaSem sig := 72
abbrev cc4_sem1_0 : DmaSem sig := 73
abbrev cc4_sem2_0 : DmaSem sig := 74
abbrev cc4_sem3_0 : DmaSem sig := 75
abbrev cc4_sem4_0 : DmaSem sig := 76
abbrev cc4_sem5_0 : DmaSem sig := 77

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S5000x64 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S5000x64 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_12 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_13 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S5000x64 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S5000x64 .bf16 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_11 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_12 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_13 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_15 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S64 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S64 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S64 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 2 → Memref sig .tc .vmem S5000x64 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev stage3_15 : Fin 2 → Memref sig .tc .vmem S5000x64 .bf16 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1024x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x6 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S6 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1024x6 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S200000x64 : S_.BroadcastsInDim S200000x64 (![] : Fin 0 → Fin S200000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64_S64 : S64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S1024x64 : S_.BroadcastsInDim S1024x64 (![] : Fin 0 → Fin S1024x64.rank)
  bcast_S200000_S200000x1_0 : S200000.BroadcastsInDim S200000x1 (![0] : Fin 1 → Fin S200000x1.rank)
  bcast_S_S200000 : S_.BroadcastsInDim S200000 (![] : Fin 0 → Fin S200000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S1024x32 : S1x32.Broadcasts S1024x32
  inb_S32x6_S32x6_0_0 : ∀ a, (![0, 0] : Fin 2 → Nat) a + S32x6.size a ≤ S32x6.size a
  h_S32x6 : 0 < S32x6.numel
  inb_S6_S6_0 : ∀ a, (![0] : Fin 1 → Nat) a + S6.size a ≤ S6.size a
  h_S6 : 0 < S6.numel
  shapeCasts_S6_S1x6 : S6.ShapeCasts S1x6
  broadcasts_S1x6_S1024x6 : S1x6.Broadcasts S1024x6
  inb_S1024x6_S1024x6_0_0 : ∀ a, (![0, 0] : Fin 2 → Nat) a + S1024x6.size a ≤ S1024x6.size a
  h_S1024x6 : 0 < S1024x6.numel
  dot_S5000x128_S128x64_S5000x64_1_0_0_1_n_n_wf : DotDims.WF S5000x128 S128x64 S5000x64 [1] [0] [0] [1] [] []
  gather_S200000x64_S1200000x1_S1200000x64_1_0_n_n_0_1_164_wf : GatherDims.WF S200000x64 S1200000x1 S1200000x64 [1] [0] [] [0] [] 1 ![1, 64]
  scatter_S200000x64_S1200000x1_S1200000x64_1_0_0_1_wf : ScatterDims.WF S200000x64 S1200000x1 S1200000x64 [1] [0] [0] 1
  dot_S5000x64_S64x64_S5000x64_1_0_0_1_n_n_wf : DotDims.WF S5000x64 S64x64 S5000x64 [1] [0] [0] [1] [] []
  scatter_S1024x64_S200000x1_S200000x64_1_0_0_1_wf : ScatterDims.WF S1024x64 S200000x1 S200000x64 [1] [0] [0] 1
  scatter_S1024_S200000x1_S200000_n_0_0_1_wf : ScatterDims.WF S1024 S200000x1 S200000 [] [0] [0] 1
  dot_S1024x64_S64x32_S1024x32_1_0_0_1_n_n_wf : DotDims.WF S1024x64 S64x32 S1024x32 [1] [0] [0] [1] [] []
  dot_S1024x32_S32x6_S1024x6_1_0_0_1_n_n_wf : DotDims.WF S1024x32 S32x6 S1024x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S200000x128.size a
  hwx0_0 : ∀ i : grid0.Coords, EltTy.bits .f32 = 32 ∨ (Rect.block (s := S200000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S200000x64.size a
  hwx0_7 : ∀ i : grid0.Coords, EltTy.bits .f32 = 32 ∨ (Rect.block (s := S200000x64) S5000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S200000x64.size a
  hwx0_8 : ∀ i : grid0.Coords, EltTy.bits .bf16 = 32 ∨ (Rect.block (s := S200000x64) S5000x64.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S200000x64.size a
  hwx1_0 : ∀ i : grid1.Coords, EltTy.bits .f32 = 32 ∨ (Rect.block (s := S200000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S200000x64.size a
  hwx1_1 : ∀ i : grid1.Coords, EltTy.bits .f32 = 32 ∨ (Rect.block (s := S200000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64.size a ≤ S64.size a
  hwx1_9 : ∀ i : grid1.Coords, EltTy.bits .f32 = 32 ∨ (Rect.block (s := S64) S64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64.size a ≤ S64.size a
  hwx1_10 : ∀ i : grid1.Coords, EltTy.bits .f32 = 32 ∨ (Rect.block (s := S64) S64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64.size a ≤ S64.size a
  hwx1_11 : ∀ i : grid1.Coords, EltTy.bits .f32 = 32 ∨ (Rect.block (s := S64) S64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S64.size a ≤ S64.size a
  hwx1_12 : ∀ i : grid1.Coords, EltTy.bits .f32 = 32 ∨ (Rect.block (s := S64) S64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S64.size a ≤ S64.size a
  hwx1_13 : ∀ i : grid1.Coords, EltTy.bits .f32 = 32 ∨ (Rect.block (s := S64) S64.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S5000x64.size a ≤ S200000x64.size a
  hwx1_14 : ∀ i : grid1.Coords, EltTy.bits .f32 = 32 ∨ (Rect.block (s := S200000x64) S5000x64.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S5000x64.size a ≤ S200000x64.size a
  hwx1_15 : ∀ i : grid1.Coords, EltTy.bits .bf16 = 32 ∨ (Rect.block (s := S200000x64) S5000x64.size (cc1_transform_15 i) (hinb1_15 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S200000x64.size a
  hwx2_0 : ∀ i : grid2.Coords, EltTy.bits .f32 = 32 ∨ (Rect.block (s := S200000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S200000x64.size a
  hwx2_1 : ∀ i : grid2.Coords, EltTy.bits .f32 = 32 ∨ (Rect.block (s := S200000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64.size a ≤ S64.size a
  hwx2_7 : ∀ i : grid2.Coords, EltTy.bits .f32 = 32 ∨ (Rect.block (s := S64) S64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64.size a ≤ S64.size a
  hwx2_9 : ∀ i : grid2.Coords, EltTy.bits .f32 = 32 ∨ (Rect.block (s := S64) S64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64.size a ≤ S64.size a
  hwx2_10 : ∀ i : grid2.Coords, EltTy.bits .f32 = 32 ∨ (Rect.block (s := S64) S64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S64.size a ≤ S64.size a
  hwx2_11 : ∀ i : grid2.Coords, EltTy.bits .f32 = 32 ∨ (Rect.block (s := S64) S64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S64.size a ≤ S64.size a
  hwx2_12 : ∀ i : grid2.Coords, EltTy.bits .f32 = 32 ∨ (Rect.block (s := S64) S64.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S64.size a ≤ S64.size a
  hwx2_13 : ∀ i : grid2.Coords, EltTy.bits .f32 = 32 ∨ (Rect.block (s := S64) S64.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S5000x64.size a ≤ S200000x64.size a
  hwx2_14 : ∀ i : grid2.Coords, EltTy.bits .f32 = 32 ∨ (Rect.block (s := S200000x64) S5000x64.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S5000x64.size a ≤ S200000x64.size a
  hwx2_15 : ∀ i : grid2.Coords, EltTy.bits .bf16 = 32 ∨ (Rect.block (s := S200000x64) S5000x64.size (cc2_transform_15 i) (hinb2_15 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S200000x64.size a
  hwx3_0 : ∀ i : grid3.Coords, EltTy.bits .f32 = 32 ∨ (Rect.block (s := S200000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S200000x64.size a
  hwx3_1 : ∀ i : grid3.Coords, EltTy.bits .f32 = 32 ∨ (Rect.block (s := S200000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64.size a ≤ S64.size a
  hwx3_5 : ∀ i : grid3.Coords, EltTy.bits .f32 = 32 ∨ (Rect.block (s := S64) S64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64.size a ≤ S64.size a
  hwx3_6 : ∀ i : grid3.Coords, EltTy.bits .f32 = 32 ∨ (Rect.block (s := S64) S64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64.size a ≤ S64.size a
  hwx3_7 : ∀ i : grid3.Coords, EltTy.bits .f32 = 32 ∨ (Rect.block (s := S64) S64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x64.size a ≤ S64x64.size a
  hwx3_8 : ∀ i : grid3.Coords, EltTy.bits .f32 = 32 ∨ (Rect.block (s := S64x64) S64x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S64.size a ≤ S64.size a
  hwx3_9 : ∀ i : grid3.Coords, EltTy.bits .f32 = 32 ∨ (Rect.block (s := S64) S64.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S64.size a ≤ S64.size a
  hwx3_10 : ∀ i : grid3.Coords, EltTy.bits .f32 = 32 ∨ (Rect.block (s := S64) S64.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S64.size a ≤ S64.size a
  hwx3_11 : ∀ i : grid3.Coords, EltTy.bits .f32 = 32 ∨ (Rect.block (s := S64) S64.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S64.size a ≤ S64.size a
  hwx3_12 : ∀ i : grid3.Coords, EltTy.bits .f32 = 32 ∨ (Rect.block (s := S64) S64.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S64.size a ≤ S64.size a
  hwx3_13 : ∀ i : grid3.Coords, EltTy.bits .f32 = 32 ∨ (Rect.block (s := S64) S64.size (cc3_transform_13 i) (hinb3_13 i)).WholeWords (EltTy.packing .f32)
  hstage3_14 : ∀ j, (stage3_14 j).IsWhole
  nbuf3_14 : grid3.bufCount reads3_14 false = 2
  hreads3_14 : ∀ i i' : grid3.Coords, (∀ a, reads3_14 a = true → i a = i' a) → cc3_transform_14 i = cc3_transform_14 i'
  hinb3_14 : ∀ (i : grid3.Coords) a, (cc3_transform_14 i a + 1) * S5000x64.size a ≤ S200000x64.size a
  hwx3_14 : ∀ i : grid3.Coords, EltTy.bits .f32 = 32 ∨ (Rect.block (s := S200000x64) S5000x64.size (cc3_transform_14 i) (hinb3_14 i)).WholeWords (EltTy.packing .f32)
  hstage3_15 : ∀ j, (stage3_15 j).IsWhole
  nbuf3_15 : grid3.bufCount reads3_15 false = 2
  hreads3_15 : ∀ i i' : grid3.Coords, (∀ a, reads3_15 a = true → i a = i' a) → cc3_transform_15 i = cc3_transform_15 i'
  hinb3_15 : ∀ (i : grid3.Coords) a, (cc3_transform_15 i a + 1) * S5000x64.size a ≤ S200000x64.size a
  hwx3_15 : ∀ i : grid3.Coords, EltTy.bits .bf16 = 32 ∨ (Rect.block (s := S200000x64) S5000x64.size (cc3_transform_15 i) (hinb3_15 i)).WholeWords (EltTy.packing .bf16)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1024x64.size a ≤ S1024x64.size a
  hwx4_0 : ∀ i : grid4.Coords, EltTy.bits .f32 = 32 ∨ (Rect.block (s := S1024x64) S1024x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32.size a ≤ S32.size a
  hwx4_2 : ∀ i : grid4.Coords, EltTy.bits .f32 = 32 ∨ (Rect.block (s := S32) S32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x6.size a ≤ S32x6.size a
  hwx4_3 : ∀ i : grid4.Coords, EltTy.bits .f32 = 32 ∨ (Rect.block (s := S32x6) S32x6.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S6.size a ≤ S6.size a
  hwx4_4 : ∀ i : grid4.Coords, EltTy.bits .f32 = 32 ∨ (Rect.block (s := S6) S6.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1024x6.size a ≤ S1024x6.size a
  hwx4_5 : ∀ i : grid4.Coords, EltTy.bits .f32 = 32 ∨ (Rect.block (s := S1024x6) S1024x6.size (cc4_transform_5 i) (hinb4_5 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S200000x64_S1200000x1_S1200000x64_1_0_n_n_0_1_164 : GatherDims S200000x64 S1200000x1 S1200000x64 where
  offsetDims := [1]
  collapsedSliceDims := [0]
  operandBatchingDims := []
  startIndicesBatchingDims := []
  startIndexMap := [0]
  indexVectorDim := 1
  sliceSizes := ![1, 64]
  wf := gather_S200000x64_S1200000x1_S1200000x64_1_0_n_n_0_1_164_wf
def scatter_S200000x64_S1200000x1_S1200000x64_1_0_0_1 : ScatterDims S200000x64 S1200000x1 S1200000x64 where
  updateWindowDims := [1]
  insertedWindowDims := [0]
  scatterDimsToOperandDims := [0]
  indexVectorDim := 1
  wf := scatter_S200000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S1024x64_S200000x1_S200000x64_1_0_0_1 : ScatterDims S1024x64 S200000x1 S200000x64 where
  updateWindowDims := [1]
  insertedWindowDims := [0]
  scatterDimsToOperandDims := [0]
  indexVectorDim := 1
  wf := scatter_S1024x64_S200000x1_S200000x64_1_0_0_1_wf
def scatter_S1024_S200000x1_S200000_n_0_0_1 : ScatterDims S1024 S200000x1 S200000 where
  updateWindowDims := []
  insertedWindowDims := [0]
  scatterDimsToOperandDims := [0]
  indexVectorDim := 1
  wf := scatter_S1024_S200000x1_S200000_n_0_0_1_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x6_S1024x6_1_0_0_1_n_n : DotDims S1024x32 S32x6 S1024x6 where
  lhsContracting := [1]
  rhsContracting := [0]
  lhsNonContracting := [0]
  rhsNonContracting := [1]
  lhsBatch := []
  rhsBatch := []
  wf := dot_S1024x32_S32x6_S1024x6_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S5000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S5000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v4_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v29) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v31) S64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v33) S64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v35) S64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v37) S64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v39) S64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v40_0) S5000x64.size cc1_transform_14 reads1_14 true false 2 stage1_14 sem1_14
    hrank1 hreads1_14 hinb1_14 nbuf1_14 (Memref.isWhole_whole _) hwx1_14 hstage1_14

abbrev win1_15 : Pipeline.Window sig grid1 :=
  Pipeline.Window.ofSpec (Memref.whole main_v40_1) S5000x64.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

abbrev win2_0 : Pipeline.Window sig grid2 :=
  Pipeline.Window.ofSpec (Memref.whole main_v40_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v63) S64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v65) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v67) S64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v69) S64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v71) S64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v73) S64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v75) S64.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v76_0) S5000x64.size cc2_transform_14 reads2_14 true false 2 stage2_14 sem2_14
    hrank2 hreads2_14 hinb2_14 nbuf2_14 (Memref.isWhole_whole _) hwx2_14 hstage2_14

abbrev win2_15 : Pipeline.Window sig grid2 :=
  Pipeline.Window.ofSpec (Memref.whole main_v76_1) S5000x64.size cc2_transform_15 reads2_15 true false 2 stage2_15 sem2_15
    hrank2 hreads2_15 hinb2_15 nbuf2_15 (Memref.isWhole_whole _) hwx2_15 hstage2_15

abbrev win2 : Fin 16 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | ⟨_ + 16, h⟩ => absurd h (Nat.not_lt.2 (Nat.le_add_left _ _))
abbrev spec2 : Fin 16 → Pipeline.WinSpec sig grid2.rank := fun w => (win2 w).toWinSpec

abbrev win3_0 : Pipeline.Window sig grid3 :=
  Pipeline.Window.ofSpec (Memref.whole main_v76_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v87) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v89) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v91) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v93) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v95) S64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v97) S64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v99) S64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v101) S64x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v103) S64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v105) S64.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v107) S64.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v109) S64.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v111) S64.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v112_0) S5000x64.size cc3_transform_14 reads3_14 true false 2 stage3_14 sem3_14
    hrank3 hreads3_14 hinb3_14 nbuf3_14 (Memref.isWhole_whole _) hwx3_14 hstage3_14

abbrev win3_15 : Pipeline.Window sig grid3 :=
  Pipeline.Window.ofSpec (Memref.whole main_v112_1) S5000x64.size cc3_transform_15 reads3_15 true false 2 stage3_15 sem3_15
    hrank3 hreads3_15 hinb3_15 nbuf3_15 (Memref.isWhole_whole _) hwx3_15 hstage3_15

abbrev win3 : Fin 16 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | ⟨_ + 16, h⟩ => absurd h (Nat.not_lt.2 (Nat.le_add_left _ _))
abbrev spec3 : Fin 16 → Pipeline.WinSpec sig grid3.rank := fun w => (win3 w).toWinSpec

abbrev win4_0 : Pipeline.Window sig grid4 :=
  Pipeline.Window.ofSpec (Memref.whole main_v124) S1024x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg21) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg22) S32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg23) S32x6.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg24) S6.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v125) S1024x6.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S200000x128 : Shape := ⟨2, ![200000, 128]⟩
abbrev S2x1200000 : Shape := ⟨2, ![2, 1200000]⟩
abbrev S200000 : Shape := ⟨1, ![200000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x6 : Shape := ⟨2, ![32, 6]⟩
abbrev S6 : Shape := ⟨1, ![6]⟩
abbrev S1x1200000 : Shape := ⟨2, ![1, 1200000]⟩
abbrev S1200000 : Shape := ⟨1, ![1200000]⟩
abbrev S200000x64 : Shape := ⟨2, ![200000, 64]⟩
abbrev S1x64 : Shape := ⟨2, ![1, 64]⟩
abbrev S_ : Shape := ⟨0, ![]⟩
abbrev S1200000x1 : Shape := ⟨2, ![1200000, 1]⟩
abbrev S1200000x64 : Shape := ⟨2, ![1200000, 64]⟩
abbrev S1x64x64 : Shape := ⟨3, ![1, 64, 64]⟩
abbrev S64x64 : Shape := ⟨2, ![64, 64]⟩
abbrev S1024x64 : Shape := ⟨2, ![1024, 64]⟩
abbrev S200000x1 : Shape := ⟨2, ![200000, 1]⟩
abbrev S1024 : Shape := ⟨1, ![1024]⟩
abbrev S1024x1 : Shape := ⟨2, ![1024, 1]⟩
abbrev S1024x32 : Shape := ⟨2, ![1024, 32]⟩
abbrev S1x32 : Shape := ⟨2, ![1, 32]⟩
abbrev S1024x6 : Shape := ⟨2, ![1024, 6]⟩
abbrev S1x6 : Shape := ⟨2, ![1, 6]⟩

abbrev nBuf : Space → Nat
  | .hbm => 331
  | .vmem => 0
  | .smem => 0
  | _ => 0

abbrev hbmTy0_0 (i : Nat) : BufTy := match i % 128 with
  | 0 => ⟨S200000x128, .f32⟩
  | 1 => ⟨S2x1200000, .i32⟩
  | 2 => ⟨S200000, .i32⟩
  | 3 => ⟨S128x64, .f32⟩
  | 4 => ⟨S64, .f32⟩
  | 5 => ⟨S64, .f32⟩
  | 6 => ⟨S64, .f32⟩
  | 7 => ⟨S64, .f32⟩
  | 8 => ⟨S64, .f32⟩
  | 9 => ⟨S3x64x64, .f32⟩
  | 10 => ⟨S3x64, .f32⟩
  | 11 => ⟨S3x64, .f32⟩
  | 12 => ⟨S3x64, .f32⟩
  | 13 => ⟨S3x64, .f32⟩
  | 14 => ⟨S3x64, .f32⟩
  | 15 => ⟨S3x64x64, .f32⟩
  | 16 => ⟨S3x64, .f32⟩
  | 17 => ⟨S3x64, .f32⟩
  | 18 => ⟨S3x64, .f32⟩
  | 19 => ⟨S3x64, .f32⟩
  | 20 => ⟨S3x64, .f32⟩
  | 21 => ⟨S64x32, .f32⟩
  | 22 => ⟨S32, .f32⟩
  | 23 => ⟨S32x6, .f32⟩
  | 24 => ⟨S6, .f32⟩
  | 25 => ⟨S1x1200000, .i32⟩
  | 26 => ⟨S1200000, .i32⟩
  | 27 => ⟨S1x1200000, .i32⟩
  | 28 => ⟨S1200000, .i32⟩
  | 29 => ⟨S200000x64, .f32⟩
  | 30 => ⟨S1x64, .f32⟩
  | 31 => ⟨S200000x64, .f32⟩
  | 32 => ⟨S200000x64, .f32⟩
  | 33 => ⟨S1x64, .f32⟩
  | 34 => ⟨S200000x64, .f32⟩
  | 35 => ⟨S200000x64, .f32⟩
  | 36 => ⟨S_, .f32⟩
  | 37 => ⟨S64, .f32⟩
  | 38 => ⟨S64, .f32⟩
  | 39 => ⟨S64, .f32⟩
  | 40 => ⟨S1x64, .f32⟩
  | 41 => ⟨S200000x64, .f32⟩
  | 42 => ⟨S200000x64, .f32⟩
  | 43 => ⟨S1x64, .f32⟩
  | 44 => ⟨S200000x64, .f32⟩
  | 45 => ⟨S200000x64, .f32⟩
  | 46 => ⟨S1x64, .f32⟩
  | 47 => ⟨S200000x64, .f32⟩
  | 48 => ⟨S200000x64, .f32⟩
  | 49 => ⟨S_, .f32⟩
  | 50 => ⟨S200000x64, .f32⟩
  | 51 => ⟨S200000x64, .f32⟩
  | 52 => ⟨S_, .i32⟩
  | 53 => ⟨S1200000, .i32⟩
  | 54 => ⟨S1200000, .i1⟩
  | 55 => ⟨S_, .i32⟩
  | 56 => ⟨S1200000, .i32⟩
  | 57 => ⟨S1200000, .i32⟩
  | 58 => ⟨S1200000, .i32⟩
  | 59 => ⟨S1200000x1, .i32⟩
  | 60 => ⟨S1200000x64, .f32⟩
  | 61 => ⟨S_, .f32⟩
  | 62 => ⟨S200000x64, .f32⟩
  | 63 => ⟨S1200000x1, .i32⟩
  | 64 => ⟨S200000x64, .f32⟩
  | 65 => ⟨S200000x64, .f32⟩
  | 66 => ⟨S1x64x64, .f32⟩
  | 67 => ⟨S64x64, .f32⟩
  | 68 => ⟨S200000x64, .f32⟩
  | 69 => ⟨S1x64, .f32⟩
  | 70 => ⟨S64, .f32⟩
  | 71 => ⟨S1x64, .f32⟩
  | 72 => ⟨S200000x64, .f32⟩
  | 73 => ⟨S200000x64, .f32⟩
  | 74 => ⟨S1x64, .f32⟩
  | 75 => ⟨S64, .f32⟩
  | 76 => ⟨S1x64, .f32⟩
  | 77 => ⟨S64, .f32⟩
  | 78 => ⟨S1x64, .f32⟩
  | 79 => ⟨S64, .f32⟩
  | 80 => ⟨S1x64, .f32⟩
  | 81 => ⟨S64, .f32⟩
  | 82 => ⟨S1x64, .f32⟩
  | 83 => ⟨S200000x64, .f32⟩
  | 84 => ⟨S200000x64, .f32⟩
  | 85 => ⟨S_, .f32⟩
  | 86 => ⟨S64, .f32⟩
  | 87 => ⟨S64, .f32⟩
  | 88 => ⟨S64, .f32⟩
  | 89 => ⟨S1x64, .f32⟩
  | 90 => ⟨S200000x64, .f32⟩
  | 91 => ⟨S200000x64, .f32⟩
  | 92 => ⟨S1x64, .f32⟩
  | 93 => ⟨S200000x64, .f32⟩
  | 94 => ⟨S200000x64, .f32⟩
  | 95 => ⟨S1x64, .f32⟩
  | 96 => ⟨S200000x64, .f32⟩
  | 97 => ⟨S200000x64, .f32⟩
  | 98 => ⟨S_, .f32⟩
  | 99 => ⟨S200000x64, .f32⟩
  | 100 => ⟨S200000x64, .f32⟩
  | 101 => ⟨S1x64x64, .f32⟩
  | 102 => ⟨S64x64, .f32⟩
  | 103 => ⟨S200000x64, .f32⟩
  | 104 => ⟨S1x64, .f32⟩
  | 105 => ⟨S64, .f32⟩
  | 106 => ⟨S1x64, .f32⟩
  | 107 => ⟨S200000x64, .f32⟩
  | 108 => ⟨S200000x64, .f32⟩
  | 109 => ⟨S1x64, .f32⟩
  | 110 => ⟨S64, .f32⟩
  | 111 => ⟨S1x64, .f32⟩
  | 112 => ⟨S64, .f32⟩
  | 113 => ⟨S1x64, .f32⟩
  | 114 => ⟨S64, .f32⟩
  | 115 => ⟨S1x64, .f32⟩
  | 116 => ⟨S64, .f32⟩
  | 117 => ⟨S1x64, .f32⟩
  | 118 => ⟨S200000x64, .f32⟩
  | 119 => ⟨S200000x64, .f32⟩
  | 120 => ⟨S_, .f32⟩
  | 121 => ⟨S64, .f32⟩
  | 122 => ⟨S64, .f32⟩
  | 123 => ⟨S64, .f32⟩
  | 124 => ⟨S1x64, .f32⟩
  | 125 => ⟨S200000x64, .f32⟩
  | 126 => ⟨S200000x64, .f32⟩
  | 127 => ⟨S1x64, .f32⟩
  | _ => ⟨S200000x128, .f32⟩

abbrev hbmTy0_1 (i : Nat) : BufTy := match i % 128 with
  | 0 => ⟨S200000x64, .f32⟩
  | 1 => ⟨S200000x64, .f32⟩
  | 2 => ⟨S1x64, .f32⟩
  | 3 => ⟨S200000x64, .f32⟩
  | 4 => ⟨S200000x64, .f32⟩
  | 5 => ⟨S_, .f32⟩
  | 6 => ⟨S200000x64, .f32⟩
  | 7 => ⟨S200000x64, .f32⟩
  | 8 => ⟨S_, .i32⟩
  | 9 => ⟨S1200000, .i32⟩
  | 10 => ⟨S1200000, .i1⟩
  | 11 => ⟨S_, .i32⟩
  | 12 => ⟨S1200000, .i32⟩
  | 13 => ⟨S1200000, .i32⟩
  | 14 => ⟨S1200000, .i32⟩
  | 15 => ⟨S1200000x1, .i32⟩
  | 16 => ⟨S1200000x64, .f32⟩
  | 17 => ⟨S_, .f32⟩
  | 18 => ⟨S200000x64, .f32⟩
  | 19 => ⟨S1200000x1, .i32⟩
  | 20 => ⟨S200000x64, .f32⟩
  | 21 => ⟨S200000x64, .f32⟩
  | 22 => ⟨S1x64x64, .f32⟩
  | 23 => ⟨S64x64, .f32⟩
  | 24 => ⟨S200000x64, .f32⟩
  | 25 => ⟨S1x64, .f32⟩
  | 26 => ⟨S64, .f32⟩
  | 27 => ⟨S1x64, .f32⟩
  | 28 => ⟨S200000x64, .f32⟩
  | 29 => ⟨S200000x64, .f32⟩
  | 30 => ⟨S1x64, .f32⟩
  | 31 => ⟨S64, .f32⟩
  | 32 => ⟨S1x64, .f32⟩
  | 33 => ⟨S64, .f32⟩
  | 34 => ⟨S1x64, .f32⟩
  | 35 => ⟨S64, .f32⟩
  | 36 => ⟨S1x64, .f32⟩
  | 37 => ⟨S64, .f32⟩
  | 38 => ⟨S1x64, .f32⟩
  | 39 => ⟨S200000x64, .f32⟩
  | 40 => ⟨S200000x64, .f32⟩
  | 41 => ⟨S_, .f32⟩
  | 42 => ⟨S64, .f32⟩
  | 43 => ⟨S64, .f32⟩
  | 44 => ⟨S64, .f32⟩
  | 45 => ⟨S1x64, .f32⟩
  | 46 => ⟨S200000x64, .f32⟩
  | 47 => ⟨S200000x64, .f32⟩
  | 48 => ⟨S1x64, .f32⟩
  | 49 => ⟨S200000x64, .f32⟩
  | 50 => ⟨S200000x64, .f32⟩
  | 51 => ⟨S1x64, .f32⟩
  | 52 => ⟨S200000x64, .f32⟩
  | 53 => ⟨S200000x64, .f32⟩
  | 54 => ⟨S_, .f32⟩
  | 55 => ⟨S200000x64, .f32⟩
  | 56 => ⟨S200000x64, .f32⟩
  | 57 => ⟨S1x64x64, .f32⟩
  | 58 => ⟨S64x64, .f32⟩
  | 59 => ⟨S200000x64, .f32⟩
  | 60 => ⟨S1x64, .f32⟩
  | 61 => ⟨S64, .f32⟩
  | 62 => ⟨S1x64, .f32⟩
  | 63 => ⟨S200000x64, .f32⟩
  | 64 => ⟨S200000x64, .f32⟩
  | 65 => ⟨S1x64, .f32⟩
  | 66 => ⟨S64, .f32⟩
  | 67 => ⟨S1x64, .f32⟩
  | 68 => ⟨S64, .f32⟩
  | 69 => ⟨S1x64, .f32⟩
  | 70 => ⟨S64, .f32⟩
  | 71 => ⟨S1x64, .f32⟩
  | 72 => ⟨S64, .f32⟩
  | 73 => ⟨S1x64, .f32⟩
  | 74 => ⟨S200000x64, .f32⟩
  | 75 => ⟨S200000x64, .f32⟩
  | 76 => ⟨S_, .f32⟩
  | 77 => ⟨S64, .f32⟩
  | 78 => ⟨S64, .f32⟩
  | 79 => ⟨S64, .f32⟩
  | 80 => ⟨S1x64, .f32⟩
  | 81 => ⟨S200000x64, .f32⟩
  | 82 => ⟨S200000x64, .f32⟩
  | 83 => ⟨S1x64, .f32⟩
  | 84 => ⟨S200000x64, .f32⟩
  | 85 => ⟨S200000x64, .f32⟩
  | 86 => ⟨S1x64, .f32⟩
  | 87 => ⟨S200000x64, .f32⟩
  | 88 => ⟨S200000x64, .f32⟩
  | 89 => ⟨S_, .f32⟩
  | 90 => ⟨S200000x64, .f32⟩
  | 91 => ⟨S200000x64, .f32⟩
  | 92 => ⟨S_, .i32⟩
  | 93 => ⟨S1200000, .i32⟩
  | 94 => ⟨S1200000, .i1⟩
  | 95 => ⟨S_, .i32⟩
  | 96 => ⟨S1200000, .i32⟩
  | 97 => ⟨S1200000, .i32⟩
  | 98 => ⟨S1200000, .i32⟩
  | 99 => ⟨S1200000x1, .i32⟩
  | 100 => ⟨S1200000x64, .f32⟩
  | 101 => ⟨S_, .f32⟩
  | 102 => ⟨S200000x64, .f32⟩
  | 103 => ⟨S1200000x1, .i32⟩
  | 104 => ⟨S200000x64, .f32⟩
  | 105 => ⟨S200000x64, .f32⟩
  | 106 => ⟨S1x64x64, .f32⟩
  | 107 => ⟨S64x64, .f32⟩
  | 108 => ⟨S200000x64, .f32⟩
  | 109 => ⟨S1x64, .f32⟩
  | 110 => ⟨S64, .f32⟩
  | 111 => ⟨S1x64, .f32⟩
  | 112 => ⟨S200000x64, .f32⟩
  | 113 => ⟨S200000x64, .f32⟩
  | 114 => ⟨S1x64, .f32⟩
  | 115 => ⟨S64, .f32⟩
  | 116 => ⟨S1x64, .f32⟩
  | 117 => ⟨S64, .f32⟩
  | 118 => ⟨S1x64, .f32⟩
  | 119 => ⟨S64, .f32⟩
  | 120 => ⟨S1x64, .f32⟩
  | 121 => ⟨S64, .f32⟩
  | 122 => ⟨S1x64, .f32⟩
  | 123 => ⟨S200000x64, .f32⟩
  | 124 => ⟨S200000x64, .f32⟩
  | 125 => ⟨S_, .f32⟩
  | 126 => ⟨S64, .f32⟩
  | 127 => ⟨S64, .f32⟩
  | _ => ⟨S200000x128, .f32⟩

abbrev hbmTy0_2 (i : Nat) : BufTy := match i % 128 with
  | 0 => ⟨S64, .f32⟩
  | 1 => ⟨S1x64, .f32⟩
  | 2 => ⟨S200000x64, .f32⟩
  | 3 => ⟨S200000x64, .f32⟩
  | 4 => ⟨S1x64, .f32⟩
  | 5 => ⟨S200000x64, .f32⟩
  | 6 => ⟨S200000x64, .f32⟩
  | 7 => ⟨S1x64, .f32⟩
  | 8 => ⟨S200000x64, .f32⟩
  | 9 => ⟨S200000x64, .f32⟩
  | 10 => ⟨S_, .f32⟩
  | 11 => ⟨S200000x64, .f32⟩
  | 12 => ⟨S200000x64, .f32⟩
  | 13 => ⟨S1x64x64, .f32⟩
  | 14 => ⟨S64x64, .f32⟩
  | 15 => ⟨S200000x64, .f32⟩
  | 16 => ⟨S1x64, .f32⟩
  | 17 => ⟨S64, .f32⟩
  | 18 => ⟨S1x64, .f32⟩
  | 19 => ⟨S200000x64, .f32⟩
  | 20 => ⟨S200000x64, .f32⟩
  | 21 => ⟨S1x64, .f32⟩
  | 22 => ⟨S64, .f32⟩
  | 23 => ⟨S1x64, .f32⟩
  | 24 => ⟨S64, .f32⟩
  | 25 => ⟨S1x64, .f32⟩
  | 26 => ⟨S64, .f32⟩
  | 27 => ⟨S1x64, .f32⟩
  | 28 => ⟨S64, .f32⟩
  | 29 => ⟨S1x64, .f32⟩
  | 30 => ⟨S200000x64, .f32⟩
  | 31 => ⟨S200000x64, .f32⟩
  | 32 => ⟨S_, .f32⟩
  | 33 => ⟨S64, .f32⟩
  | 34 => ⟨S64, .f32⟩
  | 35 => ⟨S64, .f32⟩
  | 36 => ⟨S1x64, .f32⟩
  | 37 => ⟨S200000x64, .f32⟩
  | 38 => ⟨S200000x64, .f32⟩
  | 39 => ⟨S1x64, .f32⟩
  | 40 => ⟨S200000x64, .f32⟩
  | 41 => ⟨S200000x64, .f32⟩
  | 42 => ⟨S1x64, .f32⟩
  | 43 => ⟨S200000x64, .f32⟩
  | 44 => ⟨S200000x64, .f32⟩
  | 45 => ⟨S_, .f32⟩
  | 46 => ⟨S200000x64, .f32⟩
  | 47 => ⟨S200000x64, .f32⟩
  | 48 => ⟨S_, .f32⟩
  | 49 => ⟨S1024x64, .f32⟩
  | 50 => ⟨S200000x1, .i32⟩
  | 51 => ⟨S1024x64, .f32⟩
  | 52 => ⟨S_, .f32⟩
  | 53 => ⟨S200000, .f32⟩
  | 54 => ⟨S_, .f32⟩
  | 55 => ⟨S1024, .f32⟩
  | 56 => ⟨S200000x1, .i32⟩
  | 57 => ⟨S1024, .f32⟩
  | 58 => ⟨S_, .f32⟩
  | 59 => ⟨S1024, .f32⟩
  | 60 => ⟨S1024, .f32⟩
  | 61 => ⟨S1024x1, .f32⟩
  | 62 => ⟨S1024x64, .f32⟩
  | 63 => ⟨S1024x64, .f32⟩
  | 64 => ⟨S1024x32, .f32⟩
  | 65 => ⟨S1x32, .f32⟩
  | 66 => ⟨S1024x32, .f32⟩
  | 67 => ⟨S1024x32, .f32⟩
  | 68 => ⟨S_, .f32⟩
  | 69 => ⟨S1024x32, .f32⟩
  | 70 => ⟨S1024x32, .f32⟩
  | 71 => ⟨S1024x6, .f32⟩
  | 72 => ⟨S1x6, .f32⟩
  | 73 => ⟨S1024x6, .f32⟩
  | 74 => ⟨S1024x6, .f32⟩
  | _ => ⟨S200000x128, .f32⟩

abbrev hbmTy (i : Nat) : BufTy := match i / 128 with
  | 0 => hbmTy0_0 i
  | 1 => hbmTy0_1 i
  | 2 => hbmTy0_2 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_call0_cst : Ref sig .tc := ⟨.hbm, 49, rfl⟩
abbrev main_call0_v0 : Ref sig .tc := ⟨.hbm, 50, rfl⟩
abbrev main_v23 : Ref sig .tc := ⟨.hbm, 51, rfl⟩
abbrev main_c : Ref sig .tc := ⟨.hbm, 52, rfl⟩
abbrev main_v24 : Ref sig .tc := ⟨.hbm, 53, rfl⟩
abbrev main_v25 : Ref sig .tc := ⟨.hbm, 54, rfl⟩
abbrev main_c_0 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_1 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_2 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_call1_cst : Ref sig .tc := ⟨.hbm, 98, rfl⟩
abbrev main_call1_v0 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_3 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_call2_cst : Ref sig .tc := ⟨.hbm, 133, rfl⟩
abbrev main_call2_v0 : Ref sig .tc := ⟨.hbm, 134, rfl⟩
abbrev main_v98 : Ref sig .tc := ⟨.hbm, 135, rfl⟩
abbrev main_c_4 : Ref sig .tc := ⟨.hbm, 136, rfl⟩
abbrev main_v99 : Ref sig .tc := ⟨.hbm, 137, rfl⟩
abbrev main_v100 : Ref sig .tc := ⟨.hbm, 138, rfl⟩
abbrev main_c_5 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_6 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_cst_7 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_call3_cst : Ref sig .tc := ⟨.hbm, 182, rfl⟩
abbrev main_call3_v0 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_cst_8 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_call4_cst : Ref sig .tc := ⟨.hbm, 217, rfl⟩
abbrev main_call4_v0 : Ref sig .tc := ⟨.hbm, 218, rfl⟩
abbrev main_v173 : Ref sig .tc := ⟨.hbm, 219, rfl⟩
abbrev main_c_9 : Ref sig .tc := ⟨.hbm, 220, rfl⟩
abbrev main_v174 : Ref sig .tc := ⟨.hbm, 221, rfl⟩
abbrev main_v175 : Ref sig .tc := ⟨.hbm, 222, rfl⟩
abbrev main_c_10 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_cst_11 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_cst_12 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_call5_cst : Ref sig .tc := ⟨.hbm, 266, rfl⟩
abbrev main_call5_v0 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_cst_13 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_v240 : Ref sig .tc := ⟨.hbm, 293, rfl⟩
abbrev main_v241 : Ref sig .tc := ⟨.hbm, 294, rfl⟩
abbrev main_v242 : Ref sig .tc := ⟨.hbm, 295, rfl⟩
abbrev main_v243 : Ref sig .tc := ⟨.hbm, 296, rfl⟩
abbrev main_v244 : Ref sig .tc := ⟨.hbm, 297, rfl⟩
abbrev main_v245 : Ref sig .tc := ⟨.hbm, 298, rfl⟩
abbrev main_v246 : Ref sig .tc := ⟨.hbm, 299, rfl⟩
abbrev main_v247 : Ref sig .tc := ⟨.hbm, 300, rfl⟩
abbrev main_call6_cst : Ref sig .tc := ⟨.hbm, 301, rfl⟩
abbrev main_call6_v0 : Ref sig .tc := ⟨.hbm, 302, rfl⟩
abbrev main_v248 : Ref sig .tc := ⟨.hbm, 303, rfl⟩
abbrev main_cst_14 : Ref sig .tc := ⟨.hbm, 304, rfl⟩
abbrev main_v249 : Ref sig .tc := ⟨.hbm, 305, rfl⟩
abbrev main_v250 : Ref sig .tc := ⟨.hbm, 306, rfl⟩
abbrev main_v251 : Ref sig .tc := ⟨.hbm, 307, rfl⟩
abbrev main_cst_15 : Ref sig .tc := ⟨.hbm, 308, rfl⟩
abbrev main_v252 : Ref sig .tc := ⟨.hbm, 309, rfl⟩
abbrev main_cst_16 : Ref sig .tc := ⟨.hbm, 310, rfl⟩
abbrev main_v253 : Ref sig .tc := ⟨.hbm, 311, rfl⟩
abbrev main_v254 : Ref sig .tc := ⟨.hbm, 312, rfl⟩
abbrev main_v255 : Ref sig .tc := ⟨.hbm, 313, rfl⟩
abbrev main_cst_17 : Ref sig .tc := ⟨.hbm, 314, rfl⟩
abbrev main_v256 : Ref sig .tc := ⟨.hbm, 315, rfl⟩
abbrev main_v257 : Ref sig .tc := ⟨.hbm, 316, rfl⟩
abbrev main_v258 : Ref sig .tc := ⟨.hbm, 317, rfl⟩
abbrev main_v259 : Ref sig .tc := ⟨.hbm, 318, rfl⟩
abbrev main_v260 : Ref sig .tc := ⟨.hbm, 319, rfl⟩
abbrev main_v261 : Ref sig .tc := ⟨.hbm, 320, rfl⟩
abbrev main_v262 : Ref sig .tc := ⟨.hbm, 321, rfl⟩
abbrev main_v263 : Ref sig .tc := ⟨.hbm, 322, rfl⟩
abbrev main_v264 : Ref sig .tc := ⟨.hbm, 323, rfl⟩
abbrev main_call7_cst : Ref sig .tc := ⟨.hbm, 324, rfl⟩
abbrev main_call7_v0 : Ref sig .tc := ⟨.hbm, 325, rfl⟩
abbrev main_v265 : Ref sig .tc := ⟨.hbm, 326, rfl⟩
abbrev main_v266 : Ref sig .tc := ⟨.hbm, 327, rfl⟩
abbrev main_v267 : Ref sig .tc := ⟨.hbm, 328, rfl⟩
abbrev main_v268 : Ref sig .tc := ⟨.hbm, 329, rfl⟩
abbrev main_v269 : Ref sig .tc := ⟨.hbm, 330, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S64 : S_.BroadcastsInDim S64 (![] : Fin 0 → Fin S64.rank)
  bcast_S_S200000x64 : S_.BroadcastsInDim S200000x64 (![] : Fin 0 → Fin S200000x64.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S1024x64 : S_.BroadcastsInDim S1024x64 (![] : Fin 0 → Fin S1024x64.rank)
  bcast_S200000_S200000x1_0 : S200000.BroadcastsInDim S200000x1 (![0] : Fin 1 → Fin S200000x1.rank)
  bcast_S_S200000 : S_.BroadcastsInDim S200000 (![] : Fin 0 → Fin S200000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S32_S1x32_1 : S32.BroadcastsInDim S1x32 (![1] : Fin 1 → Fin S1x32.rank)
  bcast_S1x32_S1024x32_0_1 : S1x32.BroadcastsInDim S1024x32 (![0, 1] : Fin 2 → Fin S1024x32.rank)
  bcast_S_S1024x32 : S_.BroadcastsInDim S1024x32 (![] : Fin 0 → Fin S1024x32.rank)
  bcast_S6_S1x6_1 : S6.BroadcastsInDim S1x6 (![1] : Fin 1 → Fin S1x6.rank)
  bcast_S1x6_S1024x6_0_1 : S1x6.BroadcastsInDim S1024x6 (![0, 1] : Fin 2 → Fin S1024x6.rank)
  dot_S200000x128_S128x64_S200000x64_1_0_0_1_n_n_wf : DotDims.WF S200000x128 S128x64 S200000x64 [1] [0] [0] [1] [] []
  gather_S200000x64_S1200000x1_S1200000x64_1_0_n_n_0_1_164_wf : GatherDims.WF S200000x64 S1200000x1 S1200000x64 [1] [0] [] [0] [] 1 ![1, 64]
  scatter_S200000x64_S1200000x1_S1200000x64_1_0_0_1_wf : ScatterDims.WF S200000x64 S1200000x1 S1200000x64 [1] [0] [0] 1
  dot_S200000x64_S64x64_S200000x64_1_0_0_1_n_n_wf : DotDims.WF S200000x64 S64x64 S200000x64 [1] [0] [0] [1] [] []
  scatter_S1024x64_S200000x1_S200000x64_1_0_0_1_wf : ScatterDims.WF S1024x64 S200000x1 S200000x64 [1] [0] [0] 1
  scatter_S1024_S200000x1_S200000_n_0_0_1_wf : ScatterDims.WF S1024 S200000x1 S200000 [] [0] [0] 1
  dot_S1024x64_S64x32_S1024x32_1_0_0_1_n_n_wf : DotDims.WF S1024x64 S64x32 S1024x32 [1] [0] [0] [1] [] []
  dot_S1024x32_S32x6_S1024x6_1_0_0_1_n_n_wf : DotDims.WF S1024x32 S32x6 S1024x6 [1] [0] [0] [1] [] []

variable [Facts₀]

def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def gather_S200000x64_S1200000x1_S1200000x64_1_0_n_n_0_1_164 : GatherDims S200000x64 S1200000x1 S1200000x64 where
  offsetDims := [1]
  collapsedSliceDims := [0]
  operandBatchingDims := []
  startIndicesBatchingDims := []
  startIndexMap := [0]
  indexVectorDim := 1
  sliceSizes := ![1, 64]
  wf := gather_S200000x64_S1200000x1_S1200000x64_1_0_n_n_0_1_164_wf
def scatter_S200000x64_S1200000x1_S1200000x64_1_0_0_1 : ScatterDims S200000x64 S1200000x1 S1200000x64 where
  updateWindowDims := [1]
  insertedWindowDims := [0]
  scatterDimsToOperandDims := [0]
  indexVectorDim := 1
  wf := scatter_S200000x64_S1200000x1_S1200000x64_1_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def scatter_S1024x64_S200000x1_S200000x64_1_0_0_1 : ScatterDims S1024x64 S200000x1 S200000x64 where
  updateWindowDims := [1]
  insertedWindowDims := [0]
  scatterDimsToOperandDims := [0]
  indexVectorDim := 1
  wf := scatter_S1024x64_S200000x1_S200000x64_1_0_0_1_wf
def scatter_S1024_S200000x1_S200000_n_0_0_1 : ScatterDims S1024 S200000x1 S200000 where
  updateWindowDims := []
  insertedWindowDims := [0]
  scatterDimsToOperandDims := [0]
  indexVectorDim := 1
  wf := scatter_S1024_S200000x1_S200000_n_0_0_1_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x6_S1024x6_1_0_0_1_n_n : DotDims S1024x32 S32x6 S1024x6 where
  lhsContracting := [1]
  rhsContracting := [0]
  lhsNonContracting := [0]
  rhsNonContracting := [1]
  lhsBatch := []
  rhsBatch := []
  wf := dot_S1024x32_S32x6_S1024x6_1_0_0_1_n_n_wf

class Facts : Prop extends Facts₀ where

variable [Facts]
-- ==== Proof.KernelRun.lean ====
/-
  The idealized kernel's whole run, with its result named.

  The program is five tiled regions among stretches of whole-array operations. Its run from any launch memory ends,
  on every core, with each buffer at the contents the segments compose one after the other; here that is read at
  the buffer the program returns, beside the arguments, which no segment writes.
-/
import proofs.«152072_j43654047596746_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from a memory with zero counters terminates without a fault; on every core the
    returned buffer then holds what the last region leaves in it, and every argument what it held at launch. -/
theorem run_result : θ_run defs (onTc (τ := τ) (main (F := F))) ⟨m, fun _ => 0, ρ⟩ (fun r => ∀ c : Dev nD,
      r.2.mem ((c.tc : Thread nD τ).loc main_v125) = W10 m ρ c (Proc.devRef .tc main_v125)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v125 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c),
       (h c _ (mem_uc main_arg20 (by decide))).trans (W10_main_arg20 m ρ c),
       (h c _ (mem_uc main_arg21 (by decide))).trans (W10_main_arg21 m ρ c),
       (h c _ (mem_uc main_arg22 (by decide))).trans (W10_main_arg22 m ρ c),
       (h c _ (mem_uc main_arg23 (by decide))).trans (W10_main_arg23 m ρ c),
       (h c _ (mem_uc main_arg24 (by decide))).trans (W10_main_arg24 m ρ c)⟩)

end Cert.KernelIdeal.Result

end
-- ==== Proof.Spec.lean ====
/-
  The layers of the network, entry by entry, on the extended reals.

  A graph-isomorphism network is a chain of dense layers applied row by row to a matrix of node features. Every
  hidden layer is the same function of one row: an affine map `x ↦ x · W + b`, a normalisation with fixed statistics
  `(z − μ) · (σ² + ε)^(-1/2) · γ + β`, and a clamp at zero. The output head is an affine map and a clamp, then an
  affine map. This module states those layers for matrices of any extents, as functions of the index of the result,
  and nothing else: the entry `(r, c)` of a layer's result depends on row `r` of its input only.
-/
import Idealize.ShloMosaic.Lib.ValueIdx
import Idealize.ShloMosaic.PureOps.Ideal.Laws

noncomputable section

namespace Cert.Gin

open Idealize.ShloMosaic Idealize.ShloMosaic.ValueIdx

/-- One entry normalised with fixed statistics `μ`, `σ²`, scaled by `γ`, shifted by `β`, and clamped at zero; the
    two float words are the variance's guard `ε` and zero. -/
def normRelu (z μ v γ β : EReal) : EReal :=
  max ((z - μ) * Ideal.rsqrt (v + Ideal.ofBits .f32 0x3727C5AC#32) * γ + β) (Ideal.ofBits .f32 0x00000000#32)

variable {M K N : ℕ}

/-- The affine map `X · W + b` at `(r, c)`. -/
def affineAt (X : (⟨2, ![M, K]⟩ : Shape).Idx → EReal) (W : (⟨2, ![K, N]⟩ : Shape).Idx → EReal)
    (b : (⟨1, ![N]⟩ : Shape).Idx → EReal) (r : Fin M) (c : Fin N) : EReal :=
  (∑ k : Fin K, X (ix2 r k) * W (ix2 k c)) + b (ix1 c)

/-- The entrywise sum of two matrices: a node's own features and the aggregate of its neighbours'. -/
def addRows (A B : (⟨2, ![M, K]⟩ : Shape).Idx → EReal) : (⟨2, ![M, K]⟩ : Shape).Idx → EReal := fun i => A i + B i

/-- The sum at an entry is decided by the two summands at that entry. -/
theorem addRows_congr {M' : ℕ} {A B : (⟨2, ![M, K]⟩ : Shape).Idx → EReal} {A' B' : (⟨2, ![M', K]⟩ : Shape).Idx → EReal}
    {i : (⟨2, ![M, K]⟩ : Shape).Idx} {i' : (⟨2, ![M', K]⟩ : Shape).Idx} (hA : A i = A' i') (hB : B i = B' i') :
    addRows A B i = addRows A' B' i' := by
  unfold addRows
  rw [hA, hB]

/-- A hidden layer: affine, normalised, clamped. -/
def hidden (X : (⟨2, ![M, K]⟩ : Shape).Idx → EReal) (W : (⟨2, ![K, N]⟩ : Shape).Idx → EReal)
    (b γ β μ v : (⟨1, ![N]⟩ : Shape).Idx → EReal) : (⟨2, ![M, N]⟩ : Shape).Idx → EReal :=
  fun i => normRelu (affineAt X W b (i 0) (i 1)) (μ (ix1 (i 1))) (v (ix1 (i 1))) (γ (ix1 (i 1))) (β (ix1 (i 1)))

/-- The head's first layer: affine, clamped. -/
def affineRelu (X : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => max (affineAt X W b (i 0) (i 1)) (Ideal.ofBits .f32 0x00000000#32)

/-- The head's second layer: affine. -/
def affine (X : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => affineAt X W b (i 0) (i 1)

/-- The affine map's entry `(r, c)` is decided by row `r` of the input, column `c` of the weights and lane `c` of the
    bias: two computations that agree there agree at the entry, whatever the number of rows of each. -/
theorem affineAt_congr {M' : ℕ} {X : (⟨2, ![M, K]⟩ : Shape).Idx → EReal} {X' : (⟨2, ![M', K]⟩ : Shape).Idx → EReal}
    {W W' : (⟨2, ![K, N]⟩ : Shape).Idx → EReal} {b b' : (⟨1, ![N]⟩ : Shape).Idx → EReal}
    {r : Fin M} {r' : Fin M'} {c : Fin N}
    (hX : ∀ k : Fin K, X (ix2 r k) = X' (ix2 r' k)) (hW : ∀ k : Fin K, W (ix2 k c) = W' (ix2 k c))
    (hb : b (ix1 c) = b' (ix1 c)) : affineAt X W b r c = affineAt X' W' b' r' c := by
  unfold affineAt
  rw [hb, Finset.sum_congr rfl fun k _ => by rw [hX k, hW k]]

/-- A hidden layer's entry `(r, c)` is decided by row `r` of its input, column `c` of its weights and lane `c` of its
    five vectors. -/
theorem hidden_congr {M' : ℕ} {X : (⟨2, ![M, K]⟩ : Shape).Idx → EReal} {X' : (⟨2, ![M', K]⟩ : Shape).Idx → EReal}
    {W W' : (⟨2, ![K, N]⟩ : Shape).Idx → EReal} {b b' γ γ' β β' μ μ' v v' : (⟨1, ![N]⟩ : Shape).Idx → EReal}
    {r : Fin M} {r' : Fin M'} {c : Fin N}
    (hX : ∀ k : Fin K, X (ix2 r k) = X' (ix2 r' k)) (hW : ∀ k : Fin K, W (ix2 k c) = W' (ix2 k c))
    (hb : b (ix1 c) = b' (ix1 c)) (hγ : γ (ix1 c) = γ' (ix1 c)) (hβ : β (ix1 c) = β' (ix1 c))
    (hμ : μ (ix1 c) = μ' (ix1 c)) (hv : v (ix1 c) = v' (ix1 c)) :
    hidden X W b γ β μ v (ix2 r c) = hidden X' W' b' γ' β' μ' v' (ix2 r' c) := by
  show normRelu (affineAt X W b r c) (μ (ix1 c)) (v (ix1 c)) (γ (ix1 c)) (β (ix1 c))
    = normRelu (affineAt X' W' b' r' c) (μ' (ix1 c)) (v' (ix1 c)) (γ' (ix1 c)) (β' (ix1 c))
  rw [affineAt_congr hX hW hb, hγ, hβ, hμ, hv]

/-- The clamped affine map's entry `(r, c)` is decided likewise. -/
theorem affineRelu_congr {M' : ℕ} {X : (⟨2, ![M, K]⟩ : Shape).Idx → EReal} {X' : (⟨2, ![M', K]⟩ : Shape).Idx → EReal}
    {W W' : (⟨2, ![K, N]⟩ : Shape).Idx → EReal} {b b' : (⟨1, ![N]⟩ : Shape).Idx → EReal}
    {r : Fin M} {r' : Fin M'} {c : Fin N}
    (hX : ∀ k : Fin K, X (ix2 r k) = X' (ix2 r' k)) (hW : ∀ k : Fin K, W (ix2 k c) = W' (ix2 k c))
    (hb : b (ix1 c) = b' (ix1 c)) : affineRelu X W b (ix2 r c) = affineRelu X' W' b' (ix2 r' c) := by
  show max (affineAt X W b r c) _ = max (affineAt X' W' b' r' c) _
  rw [affineAt_congr hX hW hb]

/-- The affine map as an array, at `(r, c)`. -/
theorem affine_congr {M' : ℕ} {X : (⟨2, ![M, K]⟩ : Shape).Idx → EReal} {X' : (⟨2, ![M', K]⟩ : Shape).Idx → EReal}
    {W W' : (⟨2, ![K, N]⟩ : Shape).Idx → EReal} {b b' : (⟨1, ![N]⟩ : Shape).Idx → EReal}
    {r : Fin M} {r' : Fin M'} {c : Fin N}
    (hX : ∀ k : Fin K, X (ix2 r k) = X' (ix2 r' k)) (hW : ∀ k : Fin K, W (ix2 k c) = W' (ix2 k c))
    (hb : b (ix1 c) = b' (ix1 c)) : affine X W b (ix2 r c) = affine X' W' b' (ix2 r' c) :=
  affineAt_congr hX hW hb

end Cert.Gin

end
-- ==== Proof.Net.lean ====
/-
  The whole network as one function of its arguments.

  Between the dense layers the network moves data by whole-array operations that both programs spell alike: the two rows
  of the edge list, cut out and flattened; a node's in-neighbours' features gathered by the source row (a negative
  index counted from the end) and scatter-added into zeros by the destination row; layer `l`'s slice of each stacked
  parameter; and the mean of the nodes of each graph — the features scatter-added by graph number, divided by the
  number of nodes of the graph, at least one. They are named here once, over the reference's own operations, and the
  network is the dense layers of the specification chained through them.
-/
import proofs.«152072_j43654047596746_2_alg».proof.Proof.Gen.ReferenceIdeal
import proofs.«152072_j43654047596746_2_alg».proof.Proof.Spec

noncomputable section

namespace Cert.Gin.Net

open Cert.ReferenceIdeal Cert.ReferenceIdeal.Gen Idealize.ShloMosaic

/-- Row 0 of the edge list: each edge's source node. -/
def srcRow (e : IVec S2x1200000 32) : IVec S1200000 32 :=
  shapeCast _ (extractStridedSlice S1x1200000 ![0, 0] e slices_S2x1200000_S1x1200000_0_0) shapeCasts_S1x1200000_S1200000

/-- Row 1 of the edge list: each edge's destination node. -/
def dstRow (e : IVec S2x1200000 32) : IVec S1200000 32 :=
  shapeCast _ (extractStridedSlice S1x1200000 ![1, 0] e slices_S2x1200000_S1x1200000_1_0) shapeCasts_S1x1200000_S1200000

/-- The sum of every node's in-neighbours' features: gathered along the sources, scatter-added along the
    destinations into zeros. -/
def agg (e : IVec S2x1200000 32) (h : FVec Ideal S200000x64 .f32) : FVec Ideal S200000x64 .f32 :=
  Host.scatterAdd scatter_S200000x64_S1200000x1_S1200000x64_1_0_0_1
    (broadcastInDim S200000x64 ![] bcast_S_S200000x64 (constant S_ .f32 0x00000000#32))
    (broadcastInDim S1200000x1 ![0] bcast_S1200000_S1200000x1_0 (dstRow e))
    (Host.gather gather_S200000x64_S1200000x1_S1200000x64_1_0_n_n_0_1_164 h
      (broadcastInDim S1200000x1 ![0] bcast_S1200000_S1200000x1_0
        (select (cmpi .slt (srcRow e) (broadcastInDim S1200000 ![] bcast_S_S1200000 (constantI S_ 32 0#32)))
          (addi (srcRow e) (broadcastInDim S1200000 ![] bcast_S_S1200000 (constantI S_ 32 200000#32))) (srcRow e))))

/-- Layer 0's, 1's and 2's weight matrix out of the three stacked. -/
def mat0 (w : FVec Ideal S3x64x64 .f32) : FVec Ideal S64x64 .f32 :=
  shapeCast _ (extractStridedSlice S1x64x64 ![0, 0, 0] w slices_S3x64x64_S1x64x64_0_0_0) shapeCasts_S1x64x64_S64x64
def mat1 (w : FVec Ideal S3x64x64 .f32) : FVec Ideal S64x64 .f32 :=
  shapeCast _ (extractStridedSlice S1x64x64 ![1, 0, 0] w slices_S3x64x64_S1x64x64_1_0_0) shapeCasts_S1x64x64_S64x64
def mat2 (w : FVec Ideal S3x64x64 .f32) : FVec Ideal S64x64 .f32 :=
  shapeCast _ (extractStridedSlice S1x64x64 ![2, 0, 0] w slices_S3x64x64_S1x64x64_2_0_0) shapeCasts_S1x64x64_S64x64

/-- Layer 0's, 1's and 2's vector out of the three stacked. -/
def vec0 (v : FVec Ideal S3x64 .f32) : FVec Ideal S64 .f32 :=
  shapeCast _ (extractStridedSlice S1x64 ![0, 0] v slices_S3x64_S1x64_0_0) shapeCasts_S1x64_S64
def vec1 (v : FVec Ideal S3x64 .f32) : FVec Ideal S64 .f32 :=
  shapeCast _ (extractStridedSlice S1x64 ![1, 0] v slices_S3x64_S1x64_1_0) shapeCasts_S1x64_S64
def vec2 (v : FVec Ideal S3x64 .f32) : FVec Ideal S64 .f32 :=
  shapeCast _ (extractStridedSlice S1x64 ![2, 0] v slices_S3x64_S1x64_2_0) shapeCasts_S1x64_S64

/-- The mean of the nodes' features over each graph: summed by graph number and divided by the graph's size, at
    least one. -/
def pool (b : IVec S200000 32) (h : FVec Ideal S200000x64 .f32) : FVec Ideal S1024x64 .f32 :=
  Host.divf
    (Host.scatterAdd scatter_S1024x64_S200000x1_S200000x64_1_0_0_1
      (broadcastInDim S1024x64 ![] bcast_S_S1024x64 (constant S_ .f32 0x00000000#32))
      (broadcastInDim S200000x1 ![0] bcast_S200000_S200000x1_0 b) h)
    (broadcastInDim S1024x64 ![0, 1] bcast_S1024x1_S1024x64_0_1 (broadcastInDim S1024x1 ![0] bcast_S1024_S1024x1_0
      (maximumf
        (Host.scatterAdd scatter_S1024_S200000x1_S200000_n_0_0_1
          (broadcastInDim S1024 ![] bcast_S_S1024 (constant S_ .f32 0x00000000#32))
          (broadcastInDim S200000x1 ![0] bcast_S200000_S200000x1_0 b)
          (broadcastInDim S200000 ![] bcast_S_S200000 (constant S_ .f32 0x3F800000#32)))
        (broadcastInDim S1024 ![] bcast_S_S1024 (constant S_ .f32 0x3F800000#32)))))

/-- One graph layer: two hidden layers over a node's features plus its in-neighbours'. -/
def layer (e : IVec S2x1200000 32) (h : FVec Ideal S200000x64 .f32)
    (w1 : FVec Ideal S64x64 .f32) (b1 γ1 β1 μ1 v1 : FVec Ideal S64 .f32)
    (w2 : FVec Ideal S64x64 .f32) (b2 γ2 β2 μ2 v2 : FVec Ideal S64 .f32) : FVec Ideal S200000x64 .f32 :=
  hidden (M := 200000) (K := 64) (N := 64)
    (hidden (M := 200000) (K := 64) (N := 64) (addRows (M := 200000) (K := 64) h (agg e h)) w1 b1 γ1 β1 μ1 v1) w2 b2 γ2 β2 μ2 v2

/-- The embedded features. -/
def h0 (x : FVec Ideal S200000x128 .f32) (ew : FVec Ideal S128x64 .f32) (eb γ β μ v : FVec Ideal S64 .f32) :
    FVec Ideal S200000x64 .f32 :=
  hidden (M := 200000) (K := 128) (N := 64) x ew eb γ β μ v

/-- The head over the pooled features. -/
def head (p : FVec Ideal S1024x64 .f32) (w1 : FVec Ideal S64x32 .f32) (b1 : FVec Ideal S32 .f32)
    (w2 : FVec Ideal S32x6 .f32) (b2 : FVec Ideal S6 .f32) : FVec Ideal S1024x6 .f32 :=
  affine (M := 1024) (K := 32) (N := 6) (affineRelu (M := 1024) (K := 64) (N := 32) p w1 b1) w2 b2

/-- The node features after the first, second and third graph layer, and the network's result, as functions of the
    arguments in the order the programs take them. -/
def feat1 (a0 : FVec Ideal S200000x128 .f32) (a1 : IVec S2x1200000 32) (a3 : FVec Ideal S128x64 .f32) (a4 : FVec Ideal S64 .f32) (a5 : FVec Ideal S64 .f32) (a6 : FVec Ideal S64 .f32) (a7 : FVec Ideal S64 .f32) (a8 : FVec Ideal S64 .f32) (a9 : FVec Ideal S3x64x64 .f32) (a10 : FVec Ideal S3x64 .f32) (a11 : FVec Ideal S3x64 .f32) (a12 : FVec Ideal S3x64 .f32) (a13 : FVec Ideal S3x64 .f32) (a14 : FVec Ideal S3x64 .f32) (a15 : FVec Ideal S3x64x64 .f32) (a16 : FVec Ideal S3x64 .f32) (a17 : FVec Ideal S3x64 .f32) (a18 : FVec Ideal S3x64 .f32) (a19 : FVec Ideal S3x64 .f32) (a20 : FVec Ideal S3x64 .f32) : FVec Ideal S200000x64 .f32 :=
  layer a1 (h0 a0 a3 a4 a5 a6 a7 a8) (mat0 a9) (vec0 a10) (vec0 a11) (vec0 a12) (vec0 a13) (vec0 a14) (mat0 a15) (vec0 a16) (vec0 a17) (vec0 a18) (vec0 a19) (vec0 a20)
def feat2 (a0 : FVec Ideal S200000x128 .f32) (a1 : IVec S2x1200000 32) (a3 : FVec Ideal S128x64 .f32) (a4 : FVec Ideal S64 .f32) (a5 : FVec Ideal S64 .f32) (a6 : FVec Ideal S64 .f32) (a7 : FVec Ideal S64 .f32) (a8 : FVec Ideal S64 .f32) (a9 : FVec Ideal S3x64x64 .f32) (a10 : FVec Ideal S3x64 .f32) (a11 : FVec Ideal S3x64 .f32) (a12 : FVec Ideal S3x64 .f32) (a13 : FVec Ideal S3x64 .f32) (a14 : FVec Ideal S3x64 .f32) (a15 : FVec Ideal S3x64x64 .f32) (a16 : FVec Ideal S3x64 .f32) (a17 : FVec Ideal S3x64 .f32) (a18 : FVec Ideal S3x64 .f32) (a19 : FVec Ideal S3x64 .f32) (a20 : FVec Ideal S3x64 .f32) : FVec Ideal S200000x64 .f32 :=
  layer a1 (feat1 a0 a1 a3 a4 a5 a6 a7 a8 a9 a10 a11 a12 a13 a14 a15 a16 a17 a18 a19 a20) (mat1 a9) (vec1 a10) (vec1 a11) (vec1 a12) (vec1 a13) (vec1 a14) (mat1 a15) (vec1 a16) (vec1 a17) (vec1 a18) (vec1 a19) (vec1 a20)
def feat3 (a0 : FVec Ideal S200000x128 .f32) (a1 : IVec S2x1200000 32) (a3 : FVec Ideal S128x64 .f32) (a4 : FVec Ideal S64 .f32) (a5 : FVec Ideal S64 .f32) (a6 : FVec Ideal S64 .f32) (a7 : FVec Ideal S64 .f32) (a8 : FVec Ideal S64 .f32) (a9 : FVec Ideal S3x64x64 .f32) (a10 : FVec Ideal S3x64 .f32) (a11 : FVec Ideal S3x64 .f32) (a12 : FVec Ideal S3x64 .f32) (a13 : FVec Ideal S3x64 .f32) (a14 : FVec Ideal S3x64 .f32) (a15 : FVec Ideal S3x64x64 .f32) (a16 : FVec Ideal S3x64 .f32) (a17 : FVec Ideal S3x64 .f32) (a18 : FVec Ideal S3x64 .f32) (a19 : FVec Ideal S3x64 .f32) (a20 : FVec Ideal S3x64 .f32) : FVec Ideal S200000x64 .f32 :=
  layer a1 (feat2 a0 a1 a3 a4 a5 a6 a7 a8 a9 a10 a11 a12 a13 a14 a15 a16 a17 a18 a19 a20) (mat2 a9) (vec2 a10) (vec2 a11) (vec2 a12) (vec2 a13) (vec2 a14) (mat2 a15) (vec2 a16) (vec2 a17) (vec2 a18) (vec2 a19) (vec2 a20)
def out (a0 : FVec Ideal S200000x128 .f32) (a1 : IVec S2x1200000 32) (a2 : IVec S200000 32) (a3 : FVec Ideal S128x64 .f32) (a4 : FVec Ideal S64 .f32) (a5 : FVec Ideal S64 .f32) (a6 : FVec Ideal S64 .f32) (a7 : FVec Ideal S64 .f32) (a8 : FVec Ideal S64 .f32) (a9 : FVec Ideal S3x64x64 .f32) (a10 : FVec Ideal S3x64 .f32) (a11 : FVec Ideal S3x64 .f32) (a12 : FVec Ideal S3x64 .f32) (a13 : FVec Ideal S3x64 .f32) (a14 : FVec Ideal S3x64 .f32) (a15 : FVec Ideal S3x64x64 .f32) (a16 : FVec Ideal S3x64 .f32) (a17 : FVec Ideal S3x64 .f32) (a18 : FVec Ideal S3x64 .f32) (a19 : FVec Ideal S3x64 .f32) (a20 : FVec Ideal S3x64 .f32) (a21 : FVec Ideal S64x32 .f32) (a22 : FVec Ideal S32 .f32) (a23 : FVec Ideal S32x6 .f32) (a24 : FVec Ideal S6 .f32) : FVec Ideal S1024x6 .f32 :=
  head (pool a2 (feat3 a0 a1 a3 a4 a5 a6 a7 a8 a9 a10 a11 a12 a13 a14 a15 a16 a17 a18 a19 a20)) a21 a22 a23 a24

end Cert.Gin.Net

end
-- ==== Proof.KernelKept.lean ====
/-
  Buffers no later segment writes.

  The program's weights, its graph indices and the two index rows cut from the edge list are written once — at launch,
  or by the first stretch of whole-array operations — and only read afterwards. Followed through the segments in
  order, each such buffer holds at every later boundary what it held first: a stretch of whole-array operations
  leaves every buffer that is none of its results, and a region leaves every buffer that is none of its windows'
  arrays.
-/
import proofs.«152072_j43654047596746_2_alg».proof.Proof.Gen.KernelIdeal.Frame
import proofs.«152072_j43654047596746_2_alg».proof.Proof.Net
import Idealize.ShloMosaic.PureOps.Ideal.Laws

set_option maxRecDepth 16384

noncomputable section

namespace Cert.Gin.Kept

open Cert.Gin Cert.KernelIdeal Cert.KernelIdeal.Gen Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

theorem W1_main_arg0 : W1 m ρ c (Proc.devRef .tc main_arg0) = m ((c : Thread nD τ).loc main_arg0) := by
  show StableHlo.after hostOps0 (W0 m ρ c) (Proc.devRef .tc main_arg0) = _
  after_results_simp <;> rfl

theorem W1_main_arg3 : W1 m ρ c (Proc.devRef .tc main_arg3) = m ((c : Thread nD τ).loc main_arg3) := by
  show StableHlo.after hostOps0 (W0 m ρ c) (Proc.devRef .tc main_arg3) = _
  after_results_simp <;> rfl

theorem W1_main_arg4 : W1 m ρ c (Proc.devRef .tc main_arg4) = m ((c : Thread nD τ).loc main_arg4) := by
  show StableHlo.after hostOps0 (W0 m ρ c) (Proc.devRef .tc main_arg4) = _
  after_results_simp <;> rfl

theorem W1_main_arg5 : W1 m ρ c (Proc.devRef .tc main_arg5) = m ((c : Thread nD τ).loc main_arg5) := by
  show StableHlo.after hostOps0 (W0 m ρ c) (Proc.devRef .tc main_arg5) = _
  after_results_simp <;> rfl

theorem W1_main_arg6 : W1 m ρ c (Proc.devRef .tc main_arg6) = m ((c : Thread nD τ).loc main_arg6) := by
  show StableHlo.after hostOps0 (W0 m ρ c) (Proc.devRef .tc main_arg6) = _
  after_results_simp <;> rfl

theorem W1_main_arg7 : W1 m ρ c (Proc.devRef .tc main_arg7) = m ((c : Thread nD τ).loc main_arg7) := by
  show StableHlo.after hostOps0 (W0 m ρ c) (Proc.devRef .tc main_arg7) = _
  after_results_simp <;> rfl

theorem W1_main_arg8 : W1 m ρ c (Proc.devRef .tc main_arg8) = m ((c : Thread nD τ).loc main_arg8) := by
  show StableHlo.after hostOps0 (W0 m ρ c) (Proc.devRef .tc main_arg8) = _
  after_results_simp <;> rfl

theorem W1_main_arg9 : W1 m ρ c (Proc.devRef .tc main_arg9) = m ((c : Thread nD τ).loc main_arg9) := by
  show StableHlo.after hostOps0 (W0 m ρ c) (Proc.devRef .tc main_arg9) = _
  after_results_simp <;> rfl

theorem W2_main_arg9 : W2 m ρ c (Proc.devRef .tc main_arg9) = m ((c : Thread nD τ).loc main_arg9) :=
  (W2_of_ne m ρ c main_arg9 (by decide)).trans (W1_main_arg9 m ρ c)

theorem W3_main_arg9 : W3 m ρ c (Proc.devRef .tc main_arg9) = m ((c : Thread nD τ).loc main_arg9) := by
  show StableHlo.after hostOps1 (W2 m ρ c) (Proc.devRef .tc main_arg9) = _
  after_results_simp
  exact W2_main_arg9 m ρ c

theorem W4_main_arg9 : W4 m ρ c (Proc.devRef .tc main_arg9) = m ((c : Thread nD τ).loc main_arg9) :=
  (W4_of_ne m ρ c main_arg9 (by decide)).trans (W3_main_arg9 m ρ c)

theorem W5_main_arg9 : W5 m ρ c (Proc.devRef .tc main_arg9) = m ((c : Thread nD τ).loc main_arg9) := by
  show StableHlo.after hostOps2 (W4 m ρ c) (Proc.devRef .tc main_arg9) = _
  after_results_simp
  exact W4_main_arg9 m ρ c

theorem W6_main_arg9 : W6 m ρ c (Proc.devRef .tc main_arg9) = m ((c : Thread nD τ).loc main_arg9) :=
  (W6_of_ne m ρ c main_arg9 (by decide)).trans (W5_main_arg9 m ρ c)

theorem W1_main_arg10 : W1 m ρ c (Proc.devRef .tc main_arg10) = m ((c : Thread nD τ).loc main_arg10) := by
  show StableHlo.after hostOps0 (W0 m ρ c) (Proc.devRef .tc main_arg10) = _
  after_results_simp <;> rfl

theorem W2_main_arg10 : W2 m ρ c (Proc.devRef .tc main_arg10) = m ((c : Thread nD τ).loc main_arg10) :=
  (W2_of_ne m ρ c main_arg10 (by decide)).trans (W1_main_arg10 m ρ c)

theorem W3_main_arg10 : W3 m ρ c (Proc.devRef .tc main_arg10) = m ((c : Thread nD τ).loc main_arg10) := by
  show StableHlo.after hostOps1 (W2 m ρ c) (Proc.devRef .tc main_arg10) = _
  after_results_simp
  exact W2_main_arg10 m ρ c

theorem W4_main_arg10 : W4 m ρ c (Proc.devRef .tc main_arg10) = m ((c : Thread nD τ).loc main_arg10) :=
  (W4_of_ne m ρ c main_arg10 (by decide)).trans (W3_main_arg10 m ρ c)

theorem W5_main_arg10 : W5 m ρ c (Proc.devRef .tc main_arg10) = m ((c : Thread nD τ).loc main_arg10) := by
  show StableHlo.after hostOps2 (W4 m ρ c) (Proc.devRef .tc main_arg10) = _
  after_results_simp
  exact W4_main_arg10 m ρ c

theorem W6_main_arg10 : W6 m ρ c (Proc.devRef .tc main_arg10) = m ((c : Thread nD τ).loc main_arg10) :=
  (W6_of_ne m ρ c main_arg10 (by decide)).trans (W5_main_arg10 m ρ c)

theorem W1_main_arg11 : W1 m ρ c (Proc.devRef .tc main_arg11) = m ((c : Thread nD τ).loc main_arg11) := by
  show StableHlo.after hostOps0 (W0 m ρ c) (Proc.devRef .tc main_arg11) = _
  after_results_simp <;> rfl

theorem W2_main_arg11 : W2 m ρ c (Proc.devRef .tc main_arg11) = m ((c : Thread nD τ).loc main_arg11) :=
  (W2_of_ne m ρ c main_arg11 (by decide)).trans (W1_main_arg11 m ρ c)

theorem W3_main_arg11 : W3 m ρ c (Proc.devRef .tc main_arg11) = m ((c : Thread nD τ).loc main_arg11) := by
  show StableHlo.after hostOps1 (W2 m ρ c) (Proc.devRef .tc main_arg11) = _
  after_results_simp
  exact W2_main_arg11 m ρ c

theorem W4_main_arg11 : W4 m ρ c (Proc.devRef .tc main_arg11) = m ((c : Thread nD τ).loc main_arg11) :=
  (W4_of_ne m ρ c main_arg11 (by decide)).trans (W3_main_arg11 m ρ c)

theorem W5_main_arg11 : W5 m ρ c (Proc.devRef .tc main_arg11) = m ((c : Thread nD τ).loc main_arg11) := by
  show StableHlo.after hostOps2 (W4 m ρ c) (Proc.devRef .tc main_arg11) = _
  after_results_simp
  exact W4_main_arg11 m ρ c

theorem W6_main_arg11 : W6 m ρ c (Proc.devRef .tc main_arg11) = m ((c : Thread nD τ).loc main_arg11) :=
  (W6_of_ne m ρ c main_arg11 (by decide)).trans (W5_main_arg11 m ρ c)

theorem W1_main_arg12 : W1 m ρ c (Proc.devRef .tc main_arg12) = m ((c : Thread nD τ).loc main_arg12) := by
  show StableHlo.after hostOps0 (W0 m ρ c) (Proc.devRef .tc main_arg12) = _
  after_results_simp <;> rfl

theorem W2_main_arg12 : W2 m ρ c (Proc.devRef .tc main_arg12) = m ((c : Thread nD τ).loc main_arg12) :=
  (W2_of_ne m ρ c main_arg12 (by decide)).trans (W1_main_arg12 m ρ c)

theorem W3_main_arg12 : W3 m ρ c (Proc.devRef .tc main_arg12) = m ((c : Thread nD τ).loc main_arg12) := by
  show StableHlo.after hostOps1 (W2 m ρ c) (Proc.devRef .tc main_arg12) = _
  after_results_simp
  exact W2_main_arg12 m ρ c

theorem W4_main_arg12 : W4 m ρ c (Proc.devRef .tc main_arg12) = m ((c : Thread nD τ).loc main_arg12) :=
  (W4_of_ne m ρ c main_arg12 (by decide)).trans (W3_main_arg12 m ρ c)

theorem W5_main_arg12 : W5 m ρ c (Proc.devRef .tc main_arg12) = m ((c : Thread nD τ).loc main_arg12) := by
  show StableHlo.after hostOps2 (W4 m ρ c) (Proc.devRef .tc main_arg12) = _
  after_results_simp
  exact W4_main_arg12 m ρ c

theorem W6_main_arg12 : W6 m ρ c (Proc.devRef .tc main_arg12) = m ((c : Thread nD τ).loc main_arg12) :=
  (W6_of_ne m ρ c main_arg12 (by decide)).trans (W5_main_arg12 m ρ c)

theorem W1_main_arg13 : W1 m ρ c (Proc.devRef .tc main_arg13) = m ((c : Thread nD τ).loc main_arg13) := by
  show StableHlo.after hostOps0 (W0 m ρ c) (Proc.devRef .tc main_arg13) = _
  after_results_simp <;> rfl

theorem W2_main_arg13 : W2 m ρ c (Proc.devRef .tc main_arg13) = m ((c : Thread nD τ).loc main_arg13) :=
  (W2_of_ne m ρ c main_arg13 (by decide)).trans (W1_main_arg13 m ρ c)

theorem W3_main_arg13 : W3 m ρ c (Proc.devRef .tc main_arg13) = m ((c : Thread nD τ).loc main_arg13) := by
  show StableHlo.after hostOps1 (W2 m ρ c) (Proc.devRef .tc main_arg13) = _
  after_results_simp
  exact W2_main_arg13 m ρ c

theorem W4_main_arg13 : W4 m ρ c (Proc.devRef .tc main_arg13) = m ((c : Thread nD τ).loc main_arg13) :=
  (W4_of_ne m ρ c main_arg13 (by decide)).trans (W3_main_arg13 m ρ c)

theorem W5_main_arg13 : W5 m ρ c (Proc.devRef .tc main_arg13) = m ((c : Thread nD τ).loc main_arg13) := by
  show StableHlo.after hostOps2 (W4 m ρ c) (Proc.devRef .tc main_arg13) = _
  after_results_simp
  exact W4_main_arg13 m ρ c

theorem W6_main_arg13 : W6 m ρ c (Proc.devRef .tc main_arg13) = m ((c : Thread nD τ).loc main_arg13) :=
  (W6_of_ne m ρ c main_arg13 (by decide)).trans (W5_main_arg13 m ρ c)

theorem W1_main_arg14 : W1 m ρ c (Proc.devRef .tc main_arg14) = m ((c : Thread nD τ).loc main_arg14) := by
  show StableHlo.after hostOps0 (W0 m ρ c) (Proc.devRef .tc main_arg14) = _
  after_results_simp <;> rfl

theorem W2_main_arg14 : W2 m ρ c (Proc.devRef .tc main_arg14) = m ((c : Thread nD τ).loc main_arg14) :=
  (W2_of_ne m ρ c main_arg14 (by decide)).trans (W1_main_arg14 m ρ c)

theorem W3_main_arg14 : W3 m ρ c (Proc.devRef .tc main_arg14) = m ((c : Thread nD τ).loc main_arg14) := by
  show StableHlo.after hostOps1 (W2 m ρ c) (Proc.devRef .tc main_arg14) = _
  after_results_simp
  exact W2_main_arg14 m ρ c

theorem W4_main_arg14 : W4 m ρ c (Proc.devRef .tc main_arg14) = m ((c : Thread nD τ).loc main_arg14) :=
  (W4_of_ne m ρ c main_arg14 (by decide)).trans (W3_main_arg14 m ρ c)

theorem W5_main_arg14 : W5 m ρ c (Proc.devRef .tc main_arg14) = m ((c : Thread nD τ).loc main_arg14) := by
  show StableHlo.after hostOps2 (W4 m ρ c) (Proc.devRef .tc main_arg14) = _
  after_results_simp
  exact W4_main_arg14 m ρ c

theorem W6_main_arg14 : W6 m ρ c (Proc.devRef .tc main_arg14) = m ((c : Thread nD τ).loc main_arg14) :=
  (W6_of_ne m ρ c main_arg14 (by decide)).trans (W5_main_arg14 m ρ c)

theorem W1_main_arg15 : W1 m ρ c (Proc.devRef .tc main_arg15) = m ((c : Thread nD τ).loc main_arg15) := by
  show StableHlo.after hostOps0 (W0 m ρ c) (Proc.devRef .tc main_arg15) = _
  after_results_simp <;> rfl

theorem W2_main_arg15 : W2 m ρ c (Proc.devRef .tc main_arg15) = m ((c : Thread nD τ).loc main_arg15) :=
  (W2_of_ne m ρ c main_arg15 (by decide)).trans (W1_main_arg15 m ρ c)

theorem W3_main_arg15 : W3 m ρ c (Proc.devRef .tc main_arg15) = m ((c : Thread nD τ).loc main_arg15) := by
  show StableHlo.after hostOps1 (W2 m ρ c) (Proc.devRef .tc main_arg15) = _
  after_results_simp
  exact W2_main_arg15 m ρ c

theorem W4_main_arg15 : W4 m ρ c (Proc.devRef .tc main_arg15) = m ((c : Thread nD τ).loc main_arg15) :=
  (W4_of_ne m ρ c main_arg15 (by decide)).trans (W3_main_arg15 m ρ c)

theorem W5_main_arg15 : W5 m ρ c (Proc.devRef .tc main_arg15) = m ((c : Thread nD τ).loc main_arg15) := by
  show StableHlo.after hostOps2 (W4 m ρ c) (Proc.devRef .tc main_arg15) = _
  after_results_simp
  exact W4_main_arg15 m ρ c

theorem W6_main_arg15 : W6 m ρ c (Proc.devRef .tc main_arg15) = m ((c : Thread nD τ).loc main_arg15) :=
  (W6_of_ne m ρ c main_arg15 (by decide)).trans (W5_main_arg15 m ρ c)

theorem W1_main_arg16 : W1 m ρ c (Proc.devRef .tc main_arg16) = m ((c : Thread nD τ).loc main_arg16) := by
  show StableHlo.after hostOps0 (W0 m ρ c) (Proc.devRef .tc main_arg16) = _
  after_results_simp <;> rfl

theorem W2_main_arg16 : W2 m ρ c (Proc.devRef .tc main_arg16) = m ((c : Thread nD τ).loc main_arg16) :=
  (W2_of_ne m ρ c main_arg16 (by decide)).trans (W1_main_arg16 m ρ c)

theorem W3_main_arg16 : W3 m ρ c (Proc.devRef .tc main_arg16) = m ((c : Thread nD τ).loc main_arg16) := by
  show StableHlo.after hostOps1 (W2 m ρ c) (Proc.devRef .tc main_arg16) = _
  after_results_simp
  exact W2_main_arg16 m ρ c

theorem W4_main_arg16 : W4 m ρ c (Proc.devRef .tc main_arg16) = m ((c : Thread nD τ).loc main_arg16) :=
  (W4_of_ne m ρ c main_arg16 (by decide)).trans (W3_main_arg16 m ρ c)

theorem W5_main_arg16 : W5 m ρ c (Proc.devRef .tc main_arg16) = m ((c : Thread nD τ).loc main_arg16) := by
  show StableHlo.after hostOps2 (W4 m ρ c) (Proc.devRef .tc main_arg16) = _
  after_results_simp
  exact W4_main_arg16 m ρ c

theorem W6_main_arg16 : W6 m ρ c (Proc.devRef .tc main_arg16) = m ((c : Thread nD τ).loc main_arg16) :=
  (W6_of_ne m ρ c main_arg16 (by decide)).trans (W5_main_arg16 m ρ c)

theorem W1_main_arg17 : W1 m ρ c (Proc.devRef .tc main_arg17) = m ((c : Thread nD τ).loc main_arg17) := by
  show StableHlo.after hostOps0 (W0 m ρ c) (Proc.devRef .tc main_arg17) = _
  after_results_simp <;> rfl

theorem W2_main_arg17 : W2 m ρ c (Proc.devRef .tc main_arg17) = m ((c : Thread nD τ).loc main_arg17) :=
  (W2_of_ne m ρ c main_arg17 (by decide)).trans (W1_main_arg17 m ρ c)

theorem W3_main_arg17 : W3 m ρ c (Proc.devRef .tc main_arg17) = m ((c : Thread nD τ).loc main_arg17) := by
  show StableHlo.after hostOps1 (W2 m ρ c) (Proc.devRef .tc main_arg17) = _
  after_results_simp
  exact W2_main_arg17 m ρ c

theorem W4_main_arg17 : W4 m ρ c (Proc.devRef .tc main_arg17) = m ((c : Thread nD τ).loc main_arg17) :=
  (W4_of_ne m ρ c main_arg17 (by decide)).trans (W3_main_arg17 m ρ c)

theorem W5_main_arg17 : W5 m ρ c (Proc.devRef .tc main_arg17) = m ((c : Thread nD τ).loc main_arg17) := by
  show StableHlo.after hostOps2 (W4 m ρ c) (Proc.devRef .tc main_arg17) = _
  after_results_simp
  exact W4_main_arg17 m ρ c

theorem W6_main_arg17 : W6 m ρ c (Proc.devRef .tc main_arg17) = m ((c : Thread nD τ).loc main_arg17) :=
  (W6_of_ne m ρ c main_arg17 (by decide)).trans (W5_main_arg17 m ρ c)

theorem W1_main_arg18 : W1 m ρ c (Proc.devRef .tc main_arg18) = m ((c : Thread nD τ).loc main_arg18) := by
  show StableHlo.after hostOps0 (W0 m ρ c) (Proc.devRef .tc main_arg18) = _
  after_results_simp <;> rfl

theorem W2_main_arg18 : W2 m ρ c (Proc.devRef .tc main_arg18) = m ((c : Thread nD τ).loc main_arg18) :=
  (W2_of_ne m ρ c main_arg18 (by decide)).trans (W1_main_arg18 m ρ c)

theorem W3_main_arg18 : W3 m ρ c (Proc.devRef .tc main_arg18) = m ((c : Thread nD τ).loc main_arg18) := by
  show StableHlo.after hostOps1 (W2 m ρ c) (Proc.devRef .tc main_arg18) = _
  after_results_simp
  exact W2_main_arg18 m ρ c

theorem W4_main_arg18 : W4 m ρ c (Proc.devRef .tc main_arg18) = m ((c : Thread nD τ).loc main_arg18) :=
  (W4_of_ne m ρ c main_arg18 (by decide)).trans (W3_main_arg18 m ρ c)

theorem W5_main_arg18 : W5 m ρ c (Proc.devRef .tc main_arg18) = m ((c : Thread nD τ).loc main_arg18) := by
  show StableHlo.after hostOps2 (W4 m ρ c) (Proc.devRef .tc main_arg18) = _
  after_results_simp
  exact W4_main_arg18 m ρ c

theorem W6_main_arg18 : W6 m ρ c (Proc.devRef .tc main_arg18) = m ((c : Thread nD τ).loc main_arg18) :=
  (W6_of_ne m ρ c main_arg18 (by decide)).trans (W5_main_arg18 m ρ c)

theorem W1_main_arg19 : W1 m ρ c (Proc.devRef .tc main_arg19) = m ((c : Thread nD τ).loc main_arg19) := by
  show StableHlo.after hostOps0 (W0 m ρ c) (Proc.devRef .tc main_arg19) = _
  after_results_simp <;> rfl

theorem W2_main_arg19 : W2 m ρ c (Proc.devRef .tc main_arg19) = m ((c : Thread nD τ).loc main_arg19) :=
  (W2_of_ne m ρ c main_arg19 (by decide)).trans (W1_main_arg19 m ρ c)

theorem W3_main_arg19 : W3 m ρ c (Proc.devRef .tc main_arg19) = m ((c : Thread nD τ).loc main_arg19) := by
  show StableHlo.after hostOps1 (W2 m ρ c) (Proc.devRef .tc main_arg19) = _
  after_results_simp
  exact W2_main_arg19 m ρ c

theorem W4_main_arg19 : W4 m ρ c (Proc.devRef .tc main_arg19) = m ((c : Thread nD τ).loc main_arg19) :=
  (W4_of_ne m ρ c main_arg19 (by decide)).trans (W3_main_arg19 m ρ c)

theorem W5_main_arg19 : W5 m ρ c (Proc.devRef .tc main_arg19) = m ((c : Thread nD τ).loc main_arg19) := by
  show StableHlo.after hostOps2 (W4 m ρ c) (Proc.devRef .tc main_arg19) = _
  after_results_simp
  exact W4_main_arg19 m ρ c

theorem W6_main_arg19 : W6 m ρ c (Proc.devRef .tc main_arg19) = m ((c : Thread nD τ).loc main_arg19) :=
  (W6_of_ne m ρ c main_arg19 (by decide)).trans (W5_main_arg19 m ρ c)

theorem W1_main_arg20 : W1 m ρ c (Proc.devRef .tc main_arg20) = m ((c : Thread nD τ).loc main_arg20) := by
  show StableHlo.after hostOps0 (W0 m ρ c) (Proc.devRef .tc main_arg20) = _
  after_results_simp <;> rfl

theorem W2_main_arg20 : W2 m ρ c (Proc.devRef .tc main_arg20) = m ((c : Thread nD τ).loc main_arg20) :=
  (W2_of_ne m ρ c main_arg20 (by decide)).trans (W1_main_arg20 m ρ c)

theorem W3_main_arg20 : W3 m ρ c (Proc.devRef .tc main_arg20) = m ((c : Thread nD τ).loc main_arg20) := by
  show StableHlo.after hostOps1 (W2 m ρ c) (Proc.devRef .tc main_arg20) = _
  after_results_simp
  exact W2_main_arg20 m ρ c

theorem W4_main_arg20 : W4 m ρ c (Proc.devRef .tc main_arg20) = m ((c : Thread nD τ).loc main_arg20) :=
  (W4_of_ne m ρ c main_arg20 (by decide)).trans (W3_main_arg20 m ρ c)

theorem W5_main_arg20 : W5 m ρ c (Proc.devRef .tc main_arg20) = m ((c : Thread nD τ).loc main_arg20) := by
  show StableHlo.after hostOps2 (W4 m ρ c) (Proc.devRef .tc main_arg20) = _
  after_results_simp
  exact W4_main_arg20 m ρ c

theorem W6_main_arg20 : W6 m ρ c (Proc.devRef .tc main_arg20) = m ((c : Thread nD τ).loc main_arg20) :=
  (W6_of_ne m ρ c main_arg20 (by decide)).trans (W5_main_arg20 m ρ c)

theorem W1_main_arg2 : W1 m ρ c (Proc.devRef .tc main_arg2) = m ((c : Thread nD τ).loc main_arg2) := by
  show StableHlo.after hostOps0 (W0 m ρ c) (Proc.devRef .tc main_arg2) = _
  after_results_simp <;> rfl

theorem W2_main_arg2 : W2 m ρ c (Proc.devRef .tc main_arg2) = m ((c : Thread nD τ).loc main_arg2) :=
  (W2_of_ne m ρ c main_arg2 (by decide)).trans (W1_main_arg2 m ρ c)

theorem W3_main_arg2 : W3 m ρ c (Proc.devRef .tc main_arg2) = m ((c : Thread nD τ).loc main_arg2) := by
  show StableHlo.after hostOps1 (W2 m ρ c) (Proc.devRef .tc main_arg2) = _
  after_results_simp
  exact W2_main_arg2 m ρ c

theorem W4_main_arg2 : W4 m ρ c (Proc.devRef .tc main_arg2) = m ((c : Thread nD τ).loc main_arg2) :=
  (W4_of_ne m ρ c main_arg2 (by decide)).trans (W3_main_arg2 m ρ c)

theorem W5_main_arg2 : W5 m ρ c (Proc.devRef .tc main_arg2) = m ((c : Thread nD τ).loc main_arg2) := by
  show StableHlo.after hostOps2 (W4 m ρ c) (Proc.devRef .tc main_arg2) = _
  after_results_simp
  exact W4_main_arg2 m ρ c

theorem W6_main_arg2 : W6 m ρ c (Proc.devRef .tc main_arg2) = m ((c : Thread nD τ).loc main_arg2) :=
  (W6_of_ne m ρ c main_arg2 (by decide)).trans (W5_main_arg2 m ρ c)

theorem W7_main_arg2 : W7 m ρ c (Proc.devRef .tc main_arg2) = m ((c : Thread nD τ).loc main_arg2) := by
  show StableHlo.after hostOps3 (W6 m ρ c) (Proc.devRef .tc main_arg2) = _
  after_results_simp
  exact W6_main_arg2 m ρ c

theorem W8_main_arg2 : W8 m ρ c (Proc.devRef .tc main_arg2) = m ((c : Thread nD τ).loc main_arg2) :=
  (W8_of_ne m ρ c main_arg2 (by decide)).trans (W7_main_arg2 m ρ c)

theorem W1_main_arg21 : W1 m ρ c (Proc.devRef .tc main_arg21) = m ((c : Thread nD τ).loc main_arg21) := by
  show StableHlo.after hostOps0 (W0 m ρ c) (Proc.devRef .tc main_arg21) = _
  after_results_simp <;> rfl

theorem W2_main_arg21 : W2 m ρ c (Proc.devRef .tc main_arg21) = m ((c : Thread nD τ).loc main_arg21) :=
  (W2_of_ne m ρ c main_arg21 (by decide)).trans (W1_main_arg21 m ρ c)

theorem W3_main_arg21 : W3 m ρ c (Proc.devRef .tc main_arg21) = m ((c : Thread nD τ).loc main_arg21) := by
  show StableHlo.after hostOps1 (W2 m ρ c) (Proc.devRef .tc main_arg21) = _
  after_results_simp
  exact W2_main_arg21 m ρ c

theorem W4_main_arg21 : W4 m ρ c (Proc.devRef .tc main_arg21) = m ((c : Thread nD τ).loc main_arg21) :=
  (W4_of_ne m ρ c main_arg21 (by decide)).trans (W3_main_arg21 m ρ c)

theorem W5_main_arg21 : W5 m ρ c (Proc.devRef .tc main_arg21) = m ((c : Thread nD τ).loc main_arg21) := by
  show StableHlo.after hostOps2 (W4 m ρ c) (Proc.devRef .tc main_arg21) = _
  after_results_simp
  exact W4_main_arg21 m ρ c

theorem W6_main_arg21 : W6 m ρ c (Proc.devRef .tc main_arg21) = m ((c : Thread nD τ).loc main_arg21) :=
  (W6_of_ne m ρ c main_arg21 (by decide)).trans (W5_main_arg21 m ρ c)

theorem W7_main_arg21 : W7 m ρ c (Proc.devRef .tc main_arg21) = m ((c : Thread nD τ).loc main_arg21) := by
  show StableHlo.after hostOps3 (W6 m ρ c) (Proc.devRef .tc main_arg21) = _
  after_results_simp
  exact W6_main_arg21 m ρ c

theorem W8_main_arg21 : W8 m ρ c (Proc.devRef .tc main_arg21) = m ((c : Thread nD τ).loc main_arg21) :=
  (W8_of_ne m ρ c main_arg21 (by decide)).trans (W7_main_arg21 m ρ c)

theorem W9_main_arg21 : W9 m ρ c (Proc.devRef .tc main_arg21) = m ((c : Thread nD τ).loc main_arg21) := by
  show StableHlo.after hostOps4 (W8 m ρ c) (Proc.devRef .tc main_arg21) = _
  after_results_simp
  exact W8_main_arg21 m ρ c

theorem W1_main_arg22 : W1 m ρ c (Proc.devRef .tc main_arg22) = m ((c : Thread nD τ).loc main_arg22) := by
  show StableHlo.after hostOps0 (W0 m ρ c) (Proc.devRef .tc main_arg22) = _
  after_results_simp <;> rfl

theorem W2_main_arg22 : W2 m ρ c (Proc.devRef .tc main_arg22) = m ((c : Thread nD τ).loc main_arg22) :=
  (W2_of_ne m ρ c main_arg22 (by decide)).trans (W1_main_arg22 m ρ c)

theorem W3_main_arg22 : W3 m ρ c (Proc.devRef .tc main_arg22) = m ((c : Thread nD τ).loc main_arg22) := by
  show StableHlo.after hostOps1 (W2 m ρ c) (Proc.devRef .tc main_arg22) = _
  after_results_simp
  exact W2_main_arg22 m ρ c

theorem W4_main_arg22 : W4 m ρ c (Proc.devRef .tc main_arg22) = m ((c : Thread nD τ).loc main_arg22) :=
  (W4_of_ne m ρ c main_arg22 (by decide)).trans (W3_main_arg22 m ρ c)

theorem W5_main_arg22 : W5 m ρ c (Proc.devRef .tc main_arg22) = m ((c : Thread nD τ).loc main_arg22) := by
  show StableHlo.after hostOps2 (W4 m ρ c) (Proc.devRef .tc main_arg22) = _
  after_results_simp
  exact W4_main_arg22 m ρ c

theorem W6_main_arg22 : W6 m ρ c (Proc.devRef .tc main_arg22) = m ((c : Thread nD τ).loc main_arg22) :=
  (W6_of_ne m ρ c main_arg22 (by decide)).trans (W5_main_arg22 m ρ c)

theorem W7_main_arg22 : W7 m ρ c (Proc.devRef .tc main_arg22) = m ((c : Thread nD τ).loc main_arg22) := by
  show StableHlo.after hostOps3 (W6 m ρ c) (Proc.devRef .tc main_arg22) = _
  after_results_simp
  exact W6_main_arg22 m ρ c

theorem W8_main_arg22 : W8 m ρ c (Proc.devRef .tc main_arg22) = m ((c : Thread nD τ).loc main_arg22) :=
  (W8_of_ne m ρ c main_arg22 (by decide)).trans (W7_main_arg22 m ρ c)

theorem W9_main_arg22 : W9 m ρ c (Proc.devRef .tc main_arg22) = m ((c : Thread nD τ).loc main_arg22) := by
  show StableHlo.after hostOps4 (W8 m ρ c) (Proc.devRef .tc main_arg22) = _
  after_results_simp
  exact W8_main_arg22 m ρ c

theorem W1_main_arg23 : W1 m ρ c (Proc.devRef .tc main_arg23) = m ((c : Thread nD τ).loc main_arg23) := by
  show StableHlo.after hostOps0 (W0 m ρ c) (Proc.devRef .tc main_arg23) = _
  after_results_simp <;> rfl

theorem W2_main_arg23 : W2 m ρ c (Proc.devRef .tc main_arg23) = m ((c : Thread nD τ).loc main_arg23) :=
  (W2_of_ne m ρ c main_arg23 (by decide)).trans (W1_main_arg23 m ρ c)

theorem W3_main_arg23 : W3 m ρ c (Proc.devRef .tc main_arg23) = m ((c : Thread nD τ).loc main_arg23) := by
  show StableHlo.after hostOps1 (W2 m ρ c) (Proc.devRef .tc main_arg23) = _
  after_results_simp
  exact W2_main_arg23 m ρ c

theorem W4_main_arg23 : W4 m ρ c (Proc.devRef .tc main_arg23) = m ((c : Thread nD τ).loc main_arg23) :=
  (W4_of_ne m ρ c main_arg23 (by decide)).trans (W3_main_arg23 m ρ c)

theorem W5_main_arg23 : W5 m ρ c (Proc.devRef .tc main_arg23) = m ((c : Thread nD τ).loc main_arg23) := by
  show StableHlo.after hostOps2 (W4 m ρ c) (Proc.devRef .tc main_arg23) = _
  after_results_simp
  exact W4_main_arg23 m ρ c

theorem W6_main_arg23 : W6 m ρ c (Proc.devRef .tc main_arg23) = m ((c : Thread nD τ).loc main_arg23) :=
  (W6_of_ne m ρ c main_arg23 (by decide)).trans (W5_main_arg23 m ρ c)

theorem W7_main_arg23 : W7 m ρ c (Proc.devRef .tc main_arg23) = m ((c : Thread nD τ).loc main_arg23) := by
  show StableHlo.after hostOps3 (W6 m ρ c) (Proc.devRef .tc main_arg23) = _
  after_results_simp
  exact W6_main_arg23 m ρ c

theorem W8_main_arg23 : W8 m ρ c (Proc.devRef .tc main_arg23) = m ((c : Thread nD τ).loc main_arg23) :=
  (W8_of_ne m ρ c main_arg23 (by decide)).trans (W7_main_arg23 m ρ c)

theorem W9_main_arg23 : W9 m ρ c (Proc.devRef .tc main_arg23) = m ((c : Thread nD τ).loc main_arg23) := by
  show StableHlo.after hostOps4 (W8 m ρ c) (Proc.devRef .tc main_arg23) = _
  after_results_simp
  exact W8_main_arg23 m ρ c

theorem W1_main_arg24 : W1 m ρ c (Proc.devRef .tc main_arg24) = m ((c : Thread nD τ).loc main_arg24) := by
  show StableHlo.after hostOps0 (W0 m ρ c) (Proc.devRef .tc main_arg24) = _
  after_results_simp <;> rfl

theorem W2_main_arg24 : W2 m ρ c (Proc.devRef .tc main_arg24) = m ((c : Thread nD τ).loc main_arg24) :=
  (W2_of_ne m ρ c main_arg24 (by decide)).trans (W1_main_arg24 m ρ c)

theorem W3_main_arg24 : W3 m ρ c (Proc.devRef .tc main_arg24) = m ((c : Thread nD τ).loc main_arg24) := by
  show StableHlo.after hostOps1 (W2 m ρ c) (Proc.devRef .tc main_arg24) = _
  after_results_simp
  exact W2_main_arg24 m ρ c

theorem W4_main_arg24 : W4 m ρ c (Proc.devRef .tc main_arg24) = m ((c : Thread nD τ).loc main_arg24) :=
  (W4_of_ne m ρ c main_arg24 (by decide)).trans (W3_main_arg24 m ρ c)

theorem W5_main_arg24 : W5 m ρ c (Proc.devRef .tc main_arg24) = m ((c : Thread nD τ).loc main_arg24) := by
  show StableHlo.after hostOps2 (W4 m ρ c) (Proc.devRef .tc main_arg24) = _
  after_results_simp
  exact W4_main_arg24 m ρ c

theorem W6_main_arg24 : W6 m ρ c (Proc.devRef .tc main_arg24) = m ((c : Thread nD τ).loc main_arg24) :=
  (W6_of_ne m ρ c main_arg24 (by decide)).trans (W5_main_arg24 m ρ c)

theorem W7_main_arg24 : W7 m ρ c (Proc.devRef .tc main_arg24) = m ((c : Thread nD τ).loc main_arg24) := by
  show StableHlo.after hostOps3 (W6 m ρ c) (Proc.devRef .tc main_arg24) = _
  after_results_simp
  exact W6_main_arg24 m ρ c

theorem W8_main_arg24 : W8 m ρ c (Proc.devRef .tc main_arg24) = m ((c : Thread nD τ).loc main_arg24) :=
  (W8_of_ne m ρ c main_arg24 (by decide)).trans (W7_main_arg24 m ρ c)

theorem W9_main_arg24 : W9 m ρ c (Proc.devRef .tc main_arg24) = m ((c : Thread nD τ).loc main_arg24) := by
  show StableHlo.after hostOps4 (W8 m ρ c) (Proc.devRef .tc main_arg24) = _
  after_results_simp
  exact W8_main_arg24 m ρ c

theorem W1_main_v1 : W1 m ρ c (Proc.devRef .tc main_v1) = Net.srcRow (m ((c : Thread nD τ).loc main_arg1)) := by
  show StableHlo.after hostOps0 (W0 m ρ c) (Proc.devRef .tc main_v1) = _
  after_results_simp <;> rfl

theorem W2_main_v1 : W2 m ρ c (Proc.devRef .tc main_v1) = Net.srcRow (m ((c : Thread nD τ).loc main_arg1)) :=
  (W2_of_ne m ρ c main_v1 (by decide)).trans (W1_main_v1 m ρ c)

theorem W3_main_v1 : W3 m ρ c (Proc.devRef .tc main_v1) = Net.srcRow (m ((c : Thread nD τ).loc main_arg1)) := by
  show StableHlo.after hostOps1 (W2 m ρ c) (Proc.devRef .tc main_v1) = _
  after_results_simp
  exact W2_main_v1 m ρ c

theorem W4_main_v1 : W4 m ρ c (Proc.devRef .tc main_v1) = Net.srcRow (m ((c : Thread nD τ).loc main_arg1)) :=
  (W4_of_ne m ρ c main_v1 (by decide)).trans (W3_main_v1 m ρ c)

theorem W5_main_v1 : W5 m ρ c (Proc.devRef .tc main_v1) = Net.srcRow (m ((c : Thread nD τ).loc main_arg1)) := by
  show StableHlo.after hostOps2 (W4 m ρ c) (Proc.devRef .tc main_v1) = _
  after_results_simp
  exact W4_main_v1 m ρ c

theorem W6_main_v1 : W6 m ρ c (Proc.devRef .tc main_v1) = Net.srcRow (m ((c : Thread nD τ).loc main_arg1)) :=
  (W6_of_ne m ρ c main_v1 (by decide)).trans (W5_main_v1 m ρ c)

theorem W1_main_v3 : W1 m ρ c (Proc.devRef .tc main_v3) = Net.dstRow (m ((c : Thread nD τ).loc main_arg1)) := by
  show StableHlo.after hostOps0 (W0 m ρ c) (Proc.devRef .tc main_v3) = _
  after_results_simp <;> rfl

theorem W2_main_v3 : W2 m ρ c (Proc.devRef .tc main_v3) = Net.dstRow (m ((c : Thread nD τ).loc main_arg1)) :=
  (W2_of_ne m ρ c main_v3 (by decide)).trans (W1_main_v3 m ρ c)

theorem W3_main_v3 : W3 m ρ c (Proc.devRef .tc main_v3) = Net.dstRow (m ((c : Thread nD τ).loc main_arg1)) := by
  show StableHlo.after hostOps1 (W2 m ρ c) (Proc.devRef .tc main_v3) = _
  after_results_simp
  exact W2_main_v3 m ρ c

theorem W4_main_v3 : W4 m ρ c (Proc.devRef .tc main_v3) = Net.dstRow (m ((c : Thread nD τ).loc main_arg1)) :=
  (W4_of_ne m ρ c main_v3 (by decide)).trans (W3_main_v3 m ρ c)

theorem W5_main_v3 : W5 m ρ c (Proc.devRef .tc main_v3) = Net.dstRow (m ((c : Thread nD τ).loc main_arg1)) := by
  show StableHlo.after hostOps2 (W4 m ρ c) (Proc.devRef .tc main_v3) = _
  after_results_simp
  exact W4_main_v3 m ρ c

theorem W6_main_v3 : W6 m ρ c (Proc.devRef .tc main_v3) = Net.dstRow (m ((c : Thread nD τ).loc main_arg1)) :=
  (W6_of_ne m ρ c main_v3 (by decide)).trans (W5_main_v3 m ρ c)

end Cert.Gin.Kept

end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.Tiles.lean ====
/-
  The kernels' tiles at one entry.

  Each region of the program computes, per grid point, a tile of 5000 rows (the classifier: all 1024 rows at once).
  The tile's arithmetic is one pure term of the blocks the point loads. Read at an entry `(p, c)` on the extended
  reals, where a change of float format is the identity and the matrix unit's product into a zero accumulator is the
  plain sum over the contracted coordinate, every tile is the layer of the specification applied to the loaded
  blocks: the embedding a hidden layer, a graph layer two hidden layers over the sum of its two inputs, the classifier
  an affine map, a clamp and an affine map.
-/
import proofs.«152072_j43654047596746_2_alg».proof.Proof.Gen.KernelIdeal.Skeleton
import proofs.«152072_j43654047596746_2_alg».proof.Proof.Spec
import proofs.«152072_j43654047596746_2_alg».proof.Proof.LibPlainMatmul
import Idealize.ShloMosaic.Lib.ValueLayout
import Idealize.ShloMosaic.Lib.Pipeline.Value

noncomputable section

namespace Cert.Gin.Tile

open Cert.KernelIdeal Cert.KernelIdeal.Gen Idealize.ShloMosaic Idealize.ShloMosaic.ValueIdx

/-- A vector of `b` lanes laid out as one row and repeated down `a` rows reads, at `(p, c)`, its lane `c`. -/
theorem row_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- The four products of the tiles, each the plain sum over its contracted coordinate. -/
theorem dot128 (a : FVec Ideal S5000x128 .bf16) (b : FVec Ideal S128x64 .bf16) (p : Fin 5000) (c : Fin 64) :
    matmul dot_S5000x128_S128x64_S5000x64_1_0_0_1_n_n none a b (constant S5000x64 .f32 0x00000000#32) (ix2 p c)
      = ∑ k : Fin 128, a (ix2 p k) * b (ix2 k c) :=
  Cert.PlainMatmul.plain_apply (M := 5000) (K := 128) (N := 64) a b p c

theorem dot64 (a : FVec Ideal S5000x64 .bf16) (b : FVec Ideal S64x64 .bf16) (p : Fin 5000) (c : Fin 64) :
    matmul dot_S5000x64_S64x64_S5000x64_1_0_0_1_n_n none a b (constant S5000x64 .f32 0x00000000#32) (ix2 p c)
      = ∑ k : Fin 64, a (ix2 p k) * b (ix2 k c) :=
  Cert.PlainMatmul.plain_apply (M := 5000) (K := 64) (N := 64) a b p c

theorem dot64x32 (a : FVec Ideal S1024x64 .bf16) (b : FVec Ideal S64x32 .bf16) (p : Fin 1024) (c : Fin 32) :
    matmul dot_S1024x64_S64x32_S1024x32_1_0_0_1_n_n none a b (constant S1024x32 .f32 0x00000000#32) (ix2 p c)
      = ∑ k : Fin 64, a (ix2 p k) * b (ix2 k c) :=
  Cert.PlainMatmul.plain_apply (M := 1024) (K := 64) (N := 32) a b p c

theorem dot32x6 (a : FVec Ideal S1024x32 .bf16) (b : FVec Ideal S32x6 .bf16) (p : Fin 1024) (c : Fin 6) :
    matmul dot_S1024x32_S32x6_S1024x6_1_0_0_1_n_n none a b (constant S1024x6 .f32 0x00000000#32) (ix2 p c)
      = ∑ k : Fin 32, a (ix2 p k) * b (ix2 k c) :=
  Cert.PlainMatmul.plain_apply (M := 1024) (K := 32) (N := 6) a b p c

/-! ## The embedding's tile -/

/-- The embedding's tile at `(p, c)`: a hidden layer of the loaded rows. -/
theorem embed_tile (x0 : Vec Ideal S5000x128 .f32) (x1 : Vec Ideal S128x64 .f32) (x2 x3 x4 x5 x6 : Vec Ideal S64 .f32)
    (p : Fin 5000) (c : Fin 64) :
    k0_pay1 x0 x1 x2 x3 x4 x5 x6 (ix2 p c) = hidden x0 x1 x2 x3 x4 x5 x6 (ix2 p c) := by
  unfold k0_pay1
  simp only [maximumf_apply, addf_apply, subf_apply, mulf_apply, truncf_apply, row_apply, dot128]
  rfl

/-! ## The graph layer 1's tile -/

/-- The first half of the layer at one entry: the sum of a node's features and its neighbours' aggregate goes through
    a hidden layer. -/
theorem layer1_first (v0 v2 : Vec Ideal S5000x64 .f32) (v6 : Vec Ideal S64x64 .f32) (v10 v15 v17 v19 v21 : Vec Ideal S64 .f32)
    (p : Fin 5000) (c : Fin 64) :
    k1_pay3 v0 v2 v6 v10 v15 v17 v19 v21 (ix2 p c) = hidden (addRows v0 v2) v6 v10 v15 v17 v19 v21 (ix2 p c) := by
  unfold k1_pay3
  simp only [shapeCast_self, maximumf_apply, addf_apply, subf_apply, mulf_apply, truncf_apply, row_apply, dot64]
  rfl

/-- The second half of the layer at one entry: a hidden layer of the first half's result. -/
theorem layer1_second (v40 : FVec Ideal S5000x64 .bf16) (v42 : FVec Ideal S64x64 .f32) (v45 v50 v52 v54 v56 : Vec Ideal S64 .f32)
    (p : Fin 5000) (c : Fin 64) :
    k1_pay1 v40 v42 v45 v50 v52 v54 v56 (ix2 p c) = hidden v40 v42 v45 v50 v52 v54 v56 (ix2 p c) := by
  unfold k1_pay1
  simp only [shapeCast_self, maximumf_apply, addf_apply, subf_apply, mulf_apply, truncf_apply, row_apply, dot64]
  rfl

/-- The second weight matrix reaches the second half as loaded. -/
theorem layer1_weights (v41 : Vec Ideal S64x64 .f32) : k1_pay4 v41 = v41 := shapeCast_self _ _

/-- The layer's tile at `(p, c)`: two hidden layers one after the other, row `p` of the tile only. -/
theorem layer1_tile (x0 x1 : Vec Ideal S5000x64 .f32) (x2 : Vec Ideal S64x64 .f32) (x3 x4 x5 x6 x7 : Vec Ideal S64 .f32)
    (x8 : Vec Ideal S64x64 .f32) (x9 x10 x11 x12 x13 : Vec Ideal S64 .f32) (p : Fin 5000) (c : Fin 64) :
    k1_pay1 (k1_pay3 x0 x1 x2 x3 x4 x5 x6 x7) (k1_pay4 x8) x9 x10 x11 x12 x13 (ix2 p c)
      = hidden (hidden (addRows x0 x1) x2 x3 x4 x5 x6 x7) x8 x9 x10 x11 x12 x13 (ix2 p c) := by
  rw [layer1_second, layer1_weights]
  exact hidden_congr (fun k => layer1_first x0 x1 x2 x3 x4 x5 x6 x7 p k) (fun _ => rfl) rfl rfl rfl rfl rfl

/-! ## The graph layer 2's tile -/

/-- The first half of the layer at one entry: the sum of a node's features and its neighbours' aggregate goes through
    a hidden layer. -/
theorem layer2_first (v0 v2 : Vec Ideal S5000x64 .f32) (v6 : Vec Ideal S64x64 .f32) (v10 v15 v17 v19 v21 : Vec Ideal S64 .f32)
    (p : Fin 5000) (c : Fin 64) :
    k2_pay3 v0 v2 v6 v10 v15 v17 v19 v21 (ix2 p c) = hidden (addRows v0 v2) v6 v10 v15 v17 v19 v21 (ix2 p c) := by
  unfold k2_pay3
  simp only [shapeCast_self, maximumf_apply, addf_apply, subf_apply, mulf_apply, truncf_apply, row_apply, dot64]
  rfl

/-- The second half of the layer at one entry: a hidden layer of the first half's result. -/
theorem layer2_second (v40 : FVec Ideal S5000x64 .bf16) (v42 : FVec Ideal S64x64 .f32) (v45 v50 v52 v54 v56 : Vec Ideal S64 .f32)
    (p : Fin 5000) (c : Fin 64) :
    k2_pay1 v40 v42 v45 v50 v52 v54 v56 (ix2 p c) = hidden v40 v42 v45 v50 v52 v54 v56 (ix2 p c) := by
  unfold k2_pay1
  simp only [shapeCast_self, maximumf_apply, addf_apply, subf_apply, mulf_apply, truncf_apply, row_apply, dot64]
  rfl

/-- The second weight matrix reaches the second half as loaded. -/
theorem layer2_weights (v41 : Vec Ideal S64x64 .f32) : k2_pay4 v41 = v41 := shapeCast_self _ _

/-- The layer's tile at `(p, c)`: two hidden layers one after the other, row `p` of the tile only. -/
theorem layer2_tile (x0 x1 : Vec Ideal S5000x64 .f32) (x2 : Vec Ideal S64x64 .f32) (x3 x4 x5 x6 x7 : Vec Ideal S64 .f32)
    (x8 : Vec Ideal S64x64 .f32) (x9 x10 x11 x12 x13 : Vec Ideal S64 .f32) (p : Fin 5000) (c : Fin 64) :
    k2_pay1 (k2_pay3 x0 x1 x2 x3 x4 x5 x6 x7) (k2_pay4 x8) x9 x10 x11 x12 x13 (ix2 p c)
      = hidden (hidden (addRows x0 x1) x2 x3 x4 x5 x6 x7) x8 x9 x10 x11 x12 x13 (ix2 p c) := by
  rw [layer2_second, layer2_weights]
  exact hidden_congr (fun k => layer2_first x0 x1 x2 x3 x4 x5 x6 x7 p k) (fun _ => rfl) rfl rfl rfl rfl rfl

/-! ## The graph layer 3's tile -/

/-- The first half of the layer at one entry: the sum of a node's features and its neighbours' aggregate goes through
    a hidden layer. -/
theorem layer3_first (v0 v2 : Vec Ideal S5000x64 .f32) (v6 : Vec Ideal S64x64 .f32) (v10 v15 v17 v19 v21 : Vec Ideal S64 .f32)
    (p : Fin 5000) (c : Fin 64) :
    k3_pay3 v0 v2 v6 v10 v15 v17 v19 v21 (ix2 p c) = hidden (addRows v0 v2) v6 v10 v15 v17 v19 v21 (ix2 p c) := by
  unfold k3_pay3
  simp only [shapeCast_self, maximumf_apply, addf_apply, subf_apply, mulf_apply, truncf_apply, row_apply, dot64]
  rfl

/-- The second half of the layer at one entry: a hidden layer of the first half's result. -/
theorem layer3_second (v40 : FVec Ideal S5000x64 .bf16) (v42 : FVec Ideal S64x64 .f32) (v45 v50 v52 v54 v56 : Vec Ideal S64 .f32)
    (p : Fin 5000) (c : Fin 64) :
    k3_pay1 v40 v42 v45 v50 v52 v54 v56 (ix2 p c) = hidden v40 v42 v45 v50 v52 v54 v56 (ix2 p c) := by
  unfold k3_pay1
  simp only [shapeCast_self, maximumf_apply, addf_apply, subf_apply, mulf_apply, truncf_apply, row_apply, dot64]
  rfl

/-- The second weight matrix reaches the second half as loaded. -/
theorem layer3_weights (v41 : Vec Ideal S64x64 .f32) : k3_pay4 v41 = v41 := shapeCast_self _ _

/-- The layer's tile at `(p, c)`: two hidden layers one after the other, row `p` of the tile only. -/
theorem layer3_tile (x0 x1 : Vec Ideal S5000x64 .f32) (x2 : Vec Ideal S64x64 .f32) (x3 x4 x5 x6 x7 : Vec Ideal S64 .f32)
    (x8 : Vec Ideal S64x64 .f32) (x9 x10 x11 x12 x13 : Vec Ideal S64 .f32) (p : Fin 5000) (c : Fin 64) :
    k3_pay1 (k3_pay3 x0 x1 x2 x3 x4 x5 x6 x7) (k3_pay4 x8) x9 x10 x11 x12 x13 (ix2 p c)
      = hidden (hidden (addRows x0 x1) x2 x3 x4 x5 x6 x7) x8 x9 x10 x11 x12 x13 (ix2 p c) := by
  rw [layer3_second, layer3_weights]
  exact hidden_congr (fun k => layer3_first x0 x1 x2 x3 x4 x5 x6 x7 p k) (fun _ => rfl) rfl rfl rfl rfl rfl

/-! ## The classifier's tile -/

/-- The classifier at `(p, c)`: affine and clamped, then affine. -/
theorem head_tile (x0 : Vec Ideal S1024x64 .f32) (x1 : Vec Ideal S64x32 .f32) (x2 : Vec Ideal S32 .f32)
    (x3 : Vec Ideal S32x6 .f32) (x4 : Vec Ideal S6 .f32) (p : Fin 1024) (c : Fin 6) :
    k4_pay1 x0 x1 x2 x3 x4 (ix2 p c) = affine (affineRelu x0 x1 x2) x3 x4 (ix2 p c) := by
  unfold k4_pay1
  simp only [shapeCast_self, addf_apply, truncf_apply, maximumf_apply, row_apply, dot32x6, dot64x32]
  rfl

end Cert.Gin.Tile

end
-- ==== Proof.RegionEmbed.lean ====
/-
  The embedding region: the array it leaves.

  The region walks the 200000 rows in 40 tiles of 5000. Point `t` loads rows `5000 t … 5000 t + 4999` of the features and the
  whole weight matrix and vectors, and writes back the same rows of two outputs: the layer's result, and its copy in
  a narrower float format, which on the extended reals is the same array. Since an entry of a hidden layer depends on
  its own row of the input only, what point `t` writes back is block `t` of the hidden layer of the WHOLE arrays; the
  blocks cover every row, so each output array ends holding that layer — whatever the arrays the region finds.
-/
import proofs.«152072_j43654047596746_2_alg».proof.Proof.Gen.KernelIdeal.Frame
import proofs.«152072_j43654047596746_2_alg».proof.Proof.Tiles

set_option maxRecDepth 16384

noncomputable section

namespace Cert.Gin.Embed

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The hidden layer of the whole arrays the region finds. -/
abbrev G (c : Dev nD) : S200000x64.Idx → EReal :=
  hidden (M := 200000) (K := 128) (N := 64) (V c main_arg0) (V c main_arg3) (V c main_arg4) (V c main_arg5)
    (V c main_arg6) (V c main_arg7) (V c main_arg8)

/-- The printed index maps over the grid: the features and both outputs move one block of rows per point, the weights
    and the five vectors stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 1) = 0 ∧ win0_6.index t (0 : Fin 1) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- The tile of point `t` at `(p, q)` is the whole layer at row `5000 t + p`. -/
theorem tile_eq (c : Dev nD) (t : Fin cfg0.N) (p : Fin 5000) (q : Fin 64) (r : Fin 200000) (hr : r.val = t.val * 5000 + p.val) :
    k0_pay1 (iblk0 V c 0 t) (iblk0 V c 1 t) (iblk0 V c 2 t) (iblk0 V c 3 t) (iblk0 V c 4 t) (iblk0 V c 5 t) (iblk0 V c 6 t) (ix2 p q)
      = G V c (ix2 r q) := by
  obtain ⟨e00, e01, e10, e11, e2, e3, e4, e5, e6, e70, e71, e80, e81⟩ := idx_facts t
  refine (Tile.embed_tile _ _ _ _ _ _ _ p q).trans ?_
  refine hidden_congr (fun k => ?_) (fun k => ?_) ?_ ?_ ?_ ?_ ?_
  · show V c main_arg0 (((cfg0.win 0).blk t).view.emb (ix2 p k)) = V c main_arg0 (ix2 r k)
    refine congrArg _ (funext fun a => Fin.ext ?_)
    match a with
    | ⟨0, _⟩ => show win0_0.index t (0 : Fin 2) * 5000 + 1 * p.val = r.val; omega
    | ⟨1, _⟩ => show win0_0.index t (1 : Fin 2) * 128 + 1 * k.val = k.val; omega
  · show V c main_arg3 (((cfg0.win 1).blk t).view.emb (ix2 k q)) = V c main_arg3 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega
  · show V c main_arg4 (((cfg0.win 2).blk t).view.emb (ix1 q)) = V c main_arg4 (ix1 q)
    refine congrArg _ (funext fun a => Fin.ext ?_)
    match a with
    | ⟨0, _⟩ => show win0_2.index t (0 : Fin 1) * 64 + 1 * q.val = q.val; omega
  · show V c main_arg5 (((cfg0.win 3).blk t).view.emb (ix1 q)) = V c main_arg5 (ix1 q)
    refine congrArg _ (funext fun a => Fin.ext ?_)
    match a with
    | ⟨0, _⟩ => show win0_3.index t (0 : Fin 1) * 64 + 1 * q.val = q.val; omega
  · show V c main_arg6 (((cfg0.win 4).blk t).view.emb (ix1 q)) = V c main_arg6 (ix1 q)
    refine congrArg _ (funext fun a => Fin.ext ?_)
    match a with
    | ⟨0, _⟩ => show win0_4.index t (0 : Fin 1) * 64 + 1 * q.val = q.val; omega
  · show V c main_arg7 (((cfg0.win 5).blk t).view.emb (ix1 q)) = V c main_arg7 (ix1 q)
    refine congrArg _ (funext fun a => Fin.ext ?_)
    match a with
    | ⟨0, _⟩ => show win0_5.index t (0 : Fin 1) * 64 + 1 * q.val = q.val; omega
  · show V c main_arg8 (((cfg0.win 6).blk t).view.emb (ix1 q)) = V c main_arg8 (ix1 q)
    refine congrArg _ (funext fun a => Fin.ext ?_)
    match a with
    | ⟨0, _⟩ => show win0_6.index t (0 : Fin 1) * 64 + 1 * q.val = q.val; omega

/-- What point `t` writes back to the first output is block `t` of the whole layer. -/
theorem flushed7 (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  unfold out0_7
  rw [View.canon_unit_zero hz2]
  simp only [View.ld_unit_zero (S := S5000x128) hz2, View.ld_unit_zero (S := S128x64) hz2, View.ld_unit_zero (S := S64) hz1]
  obtain ⟨e00, e01, e10, e11, e2, e3, e4, e5, e6, e70, e71, e80, e81⟩ := idx_facts t
  have ht : t.val < 40 := lt_of_lt_of_eq t.isLt N_0
  funext j
  have hp : (j 0).val < 5000 := (j 0).isLt
  have hE : ((cfg0.win 7).blk t).view.emb j = ix2 (⟨t.val * 5000 + (j 0).val, by omega⟩ : Fin 200000) (⟨(j 1).val, (j 1).isLt⟩ : Fin 64) := by
    funext a; apply Fin.ext
    match a with
    | ⟨0, _⟩ => show win0_7.index t (0 : Fin 2) * 5000 + 1 * (j 0).val = t.val * 5000 + (j 0).val; omega
    | ⟨1, _⟩ => show win0_7.index t (1 : Fin 2) * 64 + 1 * (j 1).val = (j 1).val; omega
  show k0_pay1 (iblk0 V c 0 t) (iblk0 V c 1 t) (iblk0 V c 2 t) (iblk0 V c 3 t) (iblk0 V c 4 t) (iblk0 V c 5 t) (iblk0 V c 6 t) j
      = G V c (((cfg0.win 7).blk t).view.emb j)
  rw [hE]
  exact (congrArg _ (eq_ix2 (n0 := 5000) (n1 := 64) j)).trans (tile_eq V c t ⟨(j 0).val, (j 0).isLt⟩ ⟨(j 1).val, (j 1).isLt⟩ _ rfl)

/-- Every row is in some point's block. -/
theorem mem_blk7 (t : Fin cfg0.N) (i : S200000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v4_0).slice (win0_7.rect t)).set ↔ _
  rw [View.set_slice_whole, Rect.mem_set_unit]
  exact Iff.rfl

theorem cover7 (i : S200000x64.Idx) : ∃ t : Fin cfg0.N, (cfg0.win 7).flush t = true ∧ i ∈ ((cfg0.win 7).blk t).view.set := by
  have hi0 : (i 0).val < 200000 := (i 0).isLt
  have hi1 : (i 1).val < 64 := (i 1).isLt
  let t : Fin cfg0.N := ⟨(i 0).val / 5000, lt_of_lt_of_eq (by omega : (i 0).val / 5000 < 40) N_0.symm⟩
  obtain ⟨e00, e01, e10, e11, e2, e3, e4, e5, e6, e70, e71, e80, e81⟩ := idx_facts t
  have htv : t.val = (i 0).val / 5000 := rfl
  refine ⟨t, flush0_7 t, ?_⟩
  rw [mem_blk7]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 64 ≤ (i 1).val ∧ (i 1).val < win0_7.index t (1 : Fin 2) * 64 + 64; omega

/-- The first output array after the region: the hidden layer of the arrays the region found. -/
theorem final7 (c : Dev nD) : (dat0 V c).arrAt 7 cfg0.N = G V c :=
  (dat0 V c).arrAt_eq_of_cover 7 (G V c) (fun t _ => flushed7 V c t) (cover7)

/-- What point `t` writes back to the second output, the copy in the narrower format, is the same block. -/
theorem flushed8 (c : Dev nD) (t : Fin cfg0.N) :
    (dat0 V c).flushed 8 t = ((cfg0.win 8).blk t).view.read (Elt Ideal) (G V c) := by
  show (cfg0.win 8).cut (grid0.coords t) ((dat0 V c).after 8 t) = _
  rw [after0_8]
  unfold out0_8
  rw [View.canon_unit_zero hz2]
  simp only [View.ld_unit_zero (S := S5000x128) hz2, View.ld_unit_zero (S := S128x64) hz2, View.ld_unit_zero (S := S64) hz1]
  obtain ⟨e00, e01, e10, e11, e2, e3, e4, e5, e6, e70, e71, e80, e81⟩ := idx_facts t
  have ht : t.val < 40 := lt_of_lt_of_eq t.isLt N_0
  funext j
  have hp : (j 0).val < 5000 := (j 0).isLt
  have hE : ((cfg0.win 8).blk t).view.emb j = ix2 (⟨t.val * 5000 + (j 0).val, by omega⟩ : Fin 200000) (⟨(j 1).val, (j 1).isLt⟩ : Fin 64) := by
    funext a; apply Fin.ext
    match a with
    | ⟨0, _⟩ => show win0_8.index t (0 : Fin 2) * 5000 + 1 * (j 0).val = t.val * 5000 + (j 0).val; omega
    | ⟨1, _⟩ => show win0_8.index t (1 : Fin 2) * 64 + 1 * (j 1).val = (j 1).val; omega
  show k0_pay1 (iblk0 V c 0 t) (iblk0 V c 1 t) (iblk0 V c 2 t) (iblk0 V c 3 t) (iblk0 V c 4 t) (iblk0 V c 5 t) (iblk0 V c 6 t) j
      = G V c (((cfg0.win 8).blk t).view.emb j)
  rw [hE]
  exact (congrArg _ (eq_ix2 (n0 := 5000) (n1 := 64) j)).trans (tile_eq V c t ⟨(j 0).val, (j 0).isLt⟩ ⟨(j 1).val, (j 1).isLt⟩ _ rfl)

theorem mem_blk8 (t : Fin cfg0.N) (i : S200000x64.Idx) :
    i ∈ ((cfg0.win 8).blk t).view.set ↔ ∀ a : Fin 2, win0_8.index t a * S5000x64.size a ≤ (i a).val ∧ (i a).val < win0_8.index t a * S5000x64.size a + S5000x64.size a := by
  show i ∈ ((View.whole main_v4_1).slice (win0_8.rect t)).set ↔ _
  rw [View.set_slice_whole, Rect.mem_set_unit]
  exact Iff.rfl

theorem cover8 (i : S200000x64.Idx) : ∃ t : Fin cfg0.N, (cfg0.win 8).flush t = true ∧ i ∈ ((cfg0.win 8).blk t).view.set := by
  have hi0 : (i 0).val < 200000 := (i 0).isLt
  have hi1 : (i 1).val < 64 := (i 1).isLt
  let t : Fin cfg0.N := ⟨(i 0).val / 5000, lt_of_lt_of_eq (by omega : (i 0).val / 5000 < 40) N_0.symm⟩
  obtain ⟨e00, e01, e10, e11, e2, e3, e4, e5, e6, e70, e71, e80, e81⟩ := idx_facts t
  have htv : t.val = (i 0).val / 5000 := rfl
  refine ⟨t, flush0_8 t, ?_⟩
  rw [mem_blk8]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 64 ≤ (i 1).val ∧ (i 1).val < win0_8.index t (1 : Fin 2) * 64 + 64; omega

/-- The second output array after the region: the same hidden layer. -/
theorem final8 (c : Dev nD) : (dat0 V c).arrAt 8 cfg0.N = G V c :=
  (dat0 V c).arrAt_eq_of_cover 8 (G V c) (fun t _ => flushed8 V c t) (cover8)

end Cert.Gin.Embed

end
-- ==== Proof.RegionLayer1.lean ====
/-
  Graph layer 1's region: the arrays it leaves.

  The region walks the 200000 nodes in 40 tiles of 5000 rows. Point `t` loads rows `5000 t … 5000 t + 4999` of the node
  features and of the neighbours' aggregate, and the layer's two weight matrices and ten vectors whole, and writes
  back the same rows of two outputs: the layer's result and its copy in a narrower float format, the same array on
  the extended reals. The layer is two hidden layers over the sum of its two inputs, and an entry of a hidden layer
  depends on its own row of the input only; so what point `t` writes back is block `t` of the layer of the WHOLE
  arrays, the blocks cover every row, and each output array ends holding that layer, whatever the region finds.
-/
import proofs.«152072_j43654047596746_2_alg».proof.Proof.Gen.KernelIdeal.Frame
import proofs.«152072_j43654047596746_2_alg».proof.Proof.Tiles

set_option maxRecDepth 16384

noncomputable section

namespace Cert.Gin.Layer1

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The layer of the whole arrays the region finds. -/
abbrev G (c : Dev nD) : S200000x64.Idx → EReal :=
  hidden (M := 200000) (K := 64) (N := 64)
    (hidden (M := 200000) (K := 64) (N := 64) (addRows (M := 200000) (K := 64) (V c main_v4_0) (V c main_v15)) (V c main_v17) (V c main_v19) (V c main_v21)
      (V c main_v23) (V c main_v25) (V c main_v27))
    (V c main_v29) (V c main_v31) (V c main_v33) (V c main_v35) (V c main_v37) (V c main_v39)

/-- The printed index maps over the grid: the two row inputs and both outputs move one block of rows per point, the
    weights and the vectors stay. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 1) = 0
    ∧ win1_4.index t (0 : Fin 1) = 0
    ∧ win1_5.index t (0 : Fin 1) = 0
    ∧ win1_6.index t (0 : Fin 1) = 0
    ∧ win1_7.index t (0 : Fin 1) = 0
    ∧ win1_8.index t (0 : Fin 2) = 0
    ∧ win1_8.index t (1 : Fin 2) = 0
    ∧ win1_9.index t (0 : Fin 1) = 0
    ∧ win1_10.index t (0 : Fin 1) = 0
    ∧ win1_11.index t (0 : Fin 1) = 0
    ∧ win1_12.index t (0 : Fin 1) = 0
    ∧ win1_13.index t (0 : Fin 1) = 0
    ∧ win1_14.index t (0 : Fin 2) = t.val
    ∧ win1_14.index t (1 : Fin 2) = 0
    ∧ win1_15.index t (0 : Fin 2) = t.val
    ∧ win1_15.index t (1 : Fin 2) = 0 :=
  (by decide +kernel : ∀ t : Fin grid1.N, _)

/-! ## Each window's block, read where it sits in its array -/

theorem rows0 (c : Dev nD) (t : Fin cfg1.N) (p : Fin 5000) (k : Fin 64) (r : Fin 200000) (hr : r.val = t.val * 5000 + p.val) :
    iblk1 V c 0 t (ix2 p k) = V c main_v4_0 (ix2 r k) := by
  obtain ⟨e0a, e0b, e1a, e1b, e2a, e2b, e3, e4, e5, e6, e7, e8a, e8b, e9, e10, e11, e12, e13, e14a, e14b, e15a, e15b⟩ := idx_facts t
  show V c main_v4_0 (((cfg1.win 0).blk t).view.emb (ix2 p k)) = V c main_v4_0 (ix2 r k)
  refine congrArg _ (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

theorem rows1 (c : Dev nD) (t : Fin cfg1.N) (p : Fin 5000) (k : Fin 64) (r : Fin 200000) (hr : r.val = t.val * 5000 + p.val) :
    iblk1 V c 1 t (ix2 p k) = V c main_v15 (ix2 r k) := by
  obtain ⟨e0a, e0b, e1a, e1b, e2a, e2b, e3, e4, e5, e6, e7, e8a, e8b, e9, e10, e11, e12, e13, e14a, e14b, e15a, e15b⟩ := idx_facts t
  show V c main_v15 (((cfg1.win 1).blk t).view.emb (ix2 p k)) = V c main_v15 (ix2 r k)
  refine congrArg _ (funext fun a => Fin.ext ?_)
  match a with
  | ⟨0, _⟩ => show win1_1.index t (0 : Fin 2) * 5000 + 1 * p.val = r.val; omega
  | ⟨1, _⟩ => show win1_1.index t (1 : Fin 2) * 64 + 1 * k.val = k.val; omega

theorem mat2 (c : Dev nD) (t : Fin cfg1.N) (a b : Fin 64) : iblk1 V c 2 t (ix2 a b) = V c main_v17 (ix2 a b) := by
  obtain ⟨e0a, e0b, e1a, e1b, e2a, e2b, e3, e4, e5, e6, e7, e8a, e8b, e9, e10, e11, e12, e13, e14a, e14b, e15a, e15b⟩ := idx_facts t
  show V c main_v17 (((cfg1.win 2).blk t).view.emb (ix2 a b)) = V c main_v17 (ix2 a b)
  refine congrArg _ (funext fun d => Fin.ext ?_)
  match d with
  | ⟨0, _⟩ => show win1_2.index t (0 : Fin 2) * 64 + 1 * a.val = a.val; omega
  | ⟨1, _⟩ => show win1_2.index t (1 : Fin 2) * 64 + 1 * b.val = b.val; omega

theorem vec3 (c : Dev nD) (t : Fin cfg1.N) (a : Fin 64) : iblk1 V c 3 t (ix1 a) = V c main_v19 (ix1 a) := by
  obtain ⟨e0a, e0b, e1a, e1b, e2a, e2b, e3, e4, e5, e6, e7, e8a, e8b, e9, e10, e11, e12, e13, e14a, e14b, e15a, e15b⟩ := idx_facts t
  show V c main_v19 (((cfg1.win 3).blk t).view.emb (ix1 a)) = V c main_v19 (ix1 a)
  refine congrArg _ (funext fun d => Fin.ext ?_)
  match d with
  | ⟨0, _⟩ => show win1_3.index t (0 : Fin 1) * 64 + 1 * a.val = a.val; omega

theorem vec4 (c : Dev nD) (t : Fin cfg1.N) (a : Fin 64) : iblk1 V c 4 t (ix1 a) = V c main_v21 (ix1 a) := by
  obtain ⟨e0a, e0b, e1a, e1b, e2a, e2b, e3, e4, e5, e6, e7, e8a, e8b, e9, e10, e11, e12, e13, e14a, e14b, e15a, e15b⟩ := idx_facts t
  show V c main_v21 (((cfg1.win 4).blk t).view.emb (ix1 a)) = V c main_v21 (ix1 a)
  refine congrArg _ (funext fun d => Fin.ext ?_)
  match d with
  | ⟨0, _⟩ => show win1_4.index t (0 : Fin 1) * 64 + 1 * a.val = a.val; omega

theorem vec5 (c : Dev nD) (t : Fin cfg1.N) (a : Fin 64) : iblk1 V c 5 t (ix1 a) = V c main_v23 (ix1 a) := by
  obtain ⟨e0a, e0b, e1a, e1b, e2a, e2b, e3, e4, e5, e6, e7, e8a, e8b, e9, e10, e11, e12, e13, e14a, e14b, e15a, e15b⟩ := idx_facts t
  show V c main_v23 (((cfg1.win 5).blk t).view.emb (ix1 a)) = V c main_v23 (ix1 a)
  refine congrArg _ (funext fun d => Fin.ext ?_)
  match d with
  | ⟨0, _⟩ => show win1_5.index t (0 : Fin 1) * 64 + 1 * a.val = a.val; omega

theorem vec6 (c : Dev nD) (t : Fin cfg1.N) (a : Fin 64) : iblk1 V c 6 t (ix1 a) = V c main_v25 (ix1 a) := by
  obtain ⟨e0a, e0b, e1a, e1b, e2a, e2b, e3, e4, e5, e6, e7, e8a, e8b, e9, e10, e11, e12, e13, e14a, e14b, e15a, e15b⟩ := idx_facts t
  show V c main_v25 (((cfg1.win 6).blk t).view.emb (ix1 a)) = V c main_v25 (ix1 a)
  refine congrArg _ (funext fun d => Fin.ext ?_)
  match d with
  | ⟨0, _⟩ => show win1_6.index t (0 : Fin 1) * 64 + 1 * a.val = a.val; omega

theorem vec7 (c : Dev nD) (t : Fin cfg1.N) (a : Fin 64) : iblk1 V c 7 t (ix1 a) = V c main_v27 (ix1 a) := by
  obtain ⟨e0a, e0b, e1a, e1b, e2a, e2b, e3, e4, e5, e6, e7, e8a, e8b, e9, e10, e11, e12, e13, e14a, e14b, e15a, e15b⟩ := idx_facts t
  show V c main_v27 (((cfg1.win 7).blk t).view.emb (ix1 a)) = V c main_v27 (ix1 a)
  refine congrArg _ (funext fun d => Fin.ext ?_)
  match d with
  | ⟨0, _⟩ => show win1_7.index t (0 : Fin 1) * 64 + 1 * a.val = a.val; omega

theorem mat8 (c : Dev nD) (t : Fin cfg1.N) (a b : Fin 64) : iblk1 V c 8 t (ix2 a b) = V c main_v29 (ix2 a b) := by
  obtain ⟨e0a, e0b, e1a, e1b, e2a, e2b, e3, e4, e5, e6, e7, e8a, e8b, e9, e10, e11, e12, e13, e14a, e14b, e15a, e15b⟩ := idx_facts t
  show V c main_v29 (((cfg1.win 8).blk t).view.emb (ix2 a b)) = V c main_v29 (ix2 a b)
  refine congrArg _ (funext fun d => Fin.ext ?_)
  match d with
  | ⟨0, _⟩ => show win1_8.index t (0 : Fin 2) * 64 + 1 * a.val = a.val; omega
  | ⟨1, _⟩ => show win1_8.index t (1 : Fin 2) * 64 + 1 * b.val = b.val; omega

theorem vec9 (c : Dev nD) (t : Fin cfg1.N) (a : Fin 64) : iblk1 V c 9 t (ix1 a) = V c main_v31 (ix1 a) := by
  obtain ⟨e0a, e0b, e1a, e1b, e2a, e2b, e3, e4, e5, e6, e7, e8a, e8b, e9, e10, e11, e12, e13, e14a, e14b, e15a, e15b⟩ := idx_facts t
  show V c main_v31 (((cfg1.win 9).blk t).view.emb (ix1 a)) = V c main_v31 (ix1 a)
  refine congrArg _ (funext fun d => Fin.ext ?_)
  match d with
  | ⟨0, _⟩ => show win1_9.index t (0 : Fin 1) * 64 + 1 * a.val = a.val; omega

theorem vec10 (c : Dev nD) (t : Fin cfg1.N) (a : Fin 64) : iblk1 V c 10 t (ix1 a) = V c main_v33 (ix1 a) := by
  obtain ⟨e0a, e0b, e1a, e1b, e2a, e2b, e3, e4, e5, e6, e7, e8a, e8b, e9, e10, e11, e12, e13, e14a, e14b, e15a, e15b⟩ := idx_facts t
  show V c main_v33 (((cfg1.win 10).blk t).view.emb (ix1 a)) = V c main_v33 (ix1 a)
  refine congrArg _ (funext fun d => Fin.ext ?_)
  match d with
  | ⟨0, _⟩ => show win1_10.index t (0 : Fin 1) * 64 + 1 * a.val = a.val; omega

theorem vec11 (c : Dev nD) (t : Fin cfg1.N) (a : Fin 64) : iblk1 V c 11 t (ix1 a) = V c main_v35 (ix1 a) := by
  obtain ⟨e0a, e0b, e1a, e1b, e2a, e2b, e3, e4, e5, e6, e7, e8a, e8b, e9, e10, e11, e12, e13, e14a, e14b, e15a, e15b⟩ := idx_facts t
  show V c main_v35 (((cfg1.win 11).blk t).view.emb (ix1 a)) = V c main_v35 (ix1 a)
  refine congrArg _ (funext fun d => Fin.ext ?_)
  match d with
  | ⟨0, _⟩ => show win1_11.index t (0 : Fin 1) * 64 + 1 * a.val = a.val; omega

theorem vec12 (c : Dev nD) (t : Fin cfg1.N) (a : Fin 64) : iblk1 V c 12 t (ix1 a) = V c main_v37 (ix1 a) := by
  obtain ⟨e0a, e0b, e1a, e1b, e2a, e2b, e3, e4, e5, e6, e7, e8a, e8b, e9, e10, e11, e12, e13, e14a, e14b, e15a, e15b⟩ := idx_facts t
  show V c main_v37 (((cfg1.win 12).blk t).view.emb (ix1 a)) = V c main_v37 (ix1 a)
  refine congrArg _ (funext fun d => Fin.ext ?_)
  match d with
  | ⟨0, _⟩ => show win1_12.index t (0 : Fin 1) * 64 + 1 * a.val = a.val; omega

theorem vec13 (c : Dev nD) (t : Fin cfg1.N) (a : Fin 64) : iblk1 V c 13 t (ix1 a) = V c main_v39 (ix1 a) := by
  obtain ⟨e0a, e0b, e1a, e1b, e2a, e2b, e3, e4, e5, e6, e7, e8a, e8b, e9, e10, e11, e12, e13, e14a, e14b, e15a, e15b⟩ := idx_facts t
  show V c main_v39 (((cfg1.win 13).blk t).view.emb (ix1 a)) = V c main_v39 (ix1 a)
  refine congrArg _ (funext fun d => Fin.ext ?_)
  match d with
  | ⟨0, _⟩ => show win1_13.index t (0 : Fin 1) * 64 + 1 * a.val = a.val; omega

/-- The tile of point `t` at `(p, q)` is the whole layer at row `5000 t + p`. -/
theorem tile_eq (c : Dev nD) (t : Fin cfg1.N) (p : Fin 5000) (q : Fin 64) (r : Fin 200000) (hr : r.val = t.val * 5000 + p.val) :
    k1_pay1 (k1_pay3 (iblk1 V c 0 t) (iblk1 V c 1 t) (iblk1 V c 2 t) (iblk1 V c 3 t) (iblk1 V c 4 t) (iblk1 V c 5 t) (iblk1 V c 6 t) (iblk1 V c 7 t)) (k1_pay4 (iblk1 V c 8 t)) (iblk1 V c 9 t) (iblk1 V c 10 t) (iblk1 V c 11 t) (iblk1 V c 12 t) (iblk1 V c 13 t) (ix2 p q)
      = G V c (ix2 r q) := by
  refine (Tile.layer1_tile _ _ _ _ _ _ _ _ _ _ _ _ _ _ p q).trans ?_
  refine hidden_congr (fun k' => ?_) (fun k' => mat8 V c t k' q) (vec9 V c t q) (vec10 V c t q) (vec11 V c t q) (vec12 V c t q) (vec13 V c t q)
  refine hidden_congr (fun k => ?_) (fun k => mat2 V c t k k') (vec3 V c t k') (vec4 V c t k') (vec5 V c t k') (vec6 V c t k') (vec7 V c t k')
  exact addRows_congr (rows0 V c t p k r hr) (rows1 V c t p k r hr)

/-- What point `t` writes back to output 14 is block `t` of the whole layer. -/
theorem flushed14 (c : Dev nD) (t : Fin cfg1.N) :
    (dat1 V c).flushed 14 t = ((cfg1.win 14).blk t).view.read (Elt Ideal) (G V c) := by
  show (cfg1.win 14).cut (grid1.coords t) ((dat1 V c).after 14 t) = _
  rw [after1_14]
  unfold out1_14
  rw [View.canon_unit_zero hz2]
  simp only [View.ld_unit_zero (S := S5000x64) hz2, View.ld_unit_zero (S := S64x64) hz2, View.ld_unit_zero (S := S64) hz1]
  obtain ⟨e0a, e0b, e1a, e1b, e2a, e2b, e3, e4, e5, e6, e7, e8a, e8b, e9, e10, e11, e12, e13, e14a, e14b, e15a, e15b⟩ := idx_facts t
  have ht : t.val < 40 := lt_of_lt_of_eq t.isLt N_1
  funext j
  have hp : (j 0).val < 5000 := (j 0).isLt
  have hE : ((cfg1.win 14).blk t).view.emb j = ix2 (⟨t.val * 5000 + (j 0).val, by omega⟩ : Fin 200000) (⟨(j 1).val, (j 1).isLt⟩ : Fin 64) := by
    funext a; apply Fin.ext
    match a with
    | ⟨0, _⟩ => show win1_14.index t (0 : Fin 2) * 5000 + 1 * (j 0).val = t.val * 5000 + (j 0).val; omega
    | ⟨1, _⟩ => show win1_14.index t (1 : Fin 2) * 64 + 1 * (j 1).val = (j 1).val; omega
  show k1_pay1 (k1_pay3 (iblk1 V c 0 t) (iblk1 V c 1 t) (iblk1 V c 2 t) (iblk1 V c 3 t) (iblk1 V c 4 t) (iblk1 V c 5 t) (iblk1 V c 6 t) (iblk1 V c 7 t)) (k1_pay4 (iblk1 V c 8 t)) (iblk1 V c 9 t) (iblk1 V c 10 t) (iblk1 V c 11 t) (iblk1 V c 12 t) (iblk1 V c 13 t) j
      = G V c (((cfg1.win 14).blk t).view.emb j)
  rw [hE]
  exact (congrArg _ (eq_ix2 (n0 := 5000) (n1 := 64) j)).trans (tile_eq V c t ⟨(j 0).val, (j 0).isLt⟩ ⟨(j 1).val, (j 1).isLt⟩ _ rfl)

theorem mem_blk14 (t : Fin cfg1.N) (i : S200000x64.Idx) :
    i ∈ ((cfg1.win 14).blk t).view.set ↔ ∀ a : Fin 2, win1_14.index t a * S5000x64.size a ≤ (i a).val ∧ (i a).val < win1_14.index t a * S5000x64.size a + S5000x64.size a := by
  show i ∈ ((View.whole main_v40_0).slice (win1_14.rect t)).set ↔ _
  rw [View.set_slice_whole, Rect.mem_set_unit]
  exact Iff.rfl

theorem cover14 (i : S200000x64.Idx) : ∃ t : Fin cfg1.N, (cfg1.win 14).flush t = true ∧ i ∈ ((cfg1.win 14).blk t).view.set := by
  have hi0 : (i 0).val < 200000 := (i 0).isLt
  have hi1 : (i 1).val < 64 := (i 1).isLt
  let t : Fin cfg1.N := ⟨(i 0).val / 5000, lt_of_lt_of_eq (by omega : (i 0).val / 5000 < 40) N_1.symm⟩
  obtain ⟨e0a, e0b, e1a, e1b, e2a, e2b, e3, e4, e5, e6, e7, e8a, e8b, e9, e10, e11, e12, e13, e14a, e14b, e15a, e15b⟩ := idx_facts t
  have htv : t.val = (i 0).val / 5000 := rfl
  refine ⟨t, flush1_14 t, ?_⟩
  rw [mem_blk14]
  intro a
  match a with
  | ⟨0, _⟩ => show win1_14.index t (0 : Fin 2) * 5000 ≤ (i 0).val ∧ (i 0).val < win1_14.index t (0 : Fin 2) * 5000 + 5000; omega
  | ⟨1, _⟩ => show win1_14.index t (1 : Fin 2) * 64 ≤ (i 1).val ∧ (i 1).val < win1_14.index t (1 : Fin 2) * 64 + 64; omega

/-- Output 14's array after the region: the layer of the arrays the region found. -/
theorem final14 (c : Dev nD) : (dat1 V c).arrAt 14 cfg1.N = G V c :=
  (dat1 V c).arrAt_eq_of_cover 14 (G V c) (fun t _ => flushed14 V c t) (cover14)

/-- What point `t` writes back to output 15 is block `t` of the whole layer. -/
theorem flushed15 (c : Dev nD) (t : Fin cfg1.N) :
    (dat1 V c).flushed 15 t = ((cfg1.win 15).blk t).view.read (Elt Ideal) (G V c) := by
  show (cfg1.win 15).cut (grid1.coords t) ((dat1 V c).after 15 t) = _
  rw [after1_15]
  unfold out1_15
  rw [View.canon_unit_zero hz2]
  simp only [View.ld_unit_zero (S := S5000x64) hz2, View.ld_unit_zero (S := S64x64) hz2, View.ld_unit_zero (S := S64) hz1]
  obtain ⟨e0a, e0b, e1a, e1b, e2a, e2b, e3, e4, e5, e6, e7, e8a, e8b, e9, e10, e11, e12, e13, e14a, e14b, e15a, e15b⟩ := idx_facts t
  have ht : t.val < 40 := lt_of_lt_of_eq t.isLt N_1
  funext j
  have hp : (j 0).val < 5000 := (j 0).isLt
  have hE : ((cfg1.win 15).blk t).view.emb j = ix2 (⟨t.val * 5000 + (j 0).val, by omega⟩ : Fin 200000) (⟨(j 1).val, (j 1).isLt⟩ : Fin 64) := by
    funext a; apply Fin.ext
    match a with
    | ⟨0, _⟩ => show win1_15.index t (0 : Fin 2) * 5000 + 1 * (j 0).val = t.val * 5000 + (j 0).val; omega
    | ⟨1, _⟩ => show win1_15.index t (1 : Fin 2) * 64 + 1 * (j 1).val = (j 1).val; omega
  show k1_pay1 (k1_pay3 (iblk1 V c 0 t) (iblk1 V c 1 t) (iblk1 V c 2 t) (iblk1 V c 3 t) (iblk1 V c 4 t) (iblk1 V c 5 t) (iblk1 V c 6 t) (iblk1 V c 7 t)) (k1_pay4 (iblk1 V c 8 t)) (iblk1 V c 9 t) (iblk1 V c 10 t) (iblk1 V c 11 t) (iblk1 V c 12 t) (iblk1 V c 13 t) j
      = G V c (((cfg1.win 15).blk t).view.emb j)
  rw [hE]
  exact (congrArg _ (eq_ix2 (n0 := 5000) (n1 := 64) j)).trans (tile_eq V c t ⟨(j 0).val, (j 0).isLt⟩ ⟨(j 1).val, (j 1).isLt⟩ _ rfl)

theorem mem_blk15 (t : Fin cfg1.N) (i : S200000x64.Idx) :
    i ∈ ((cfg1.win 15).blk t).view.set ↔ ∀ a : Fin 2, win1_15.index t a * S5000x64.size a ≤ (i a).val ∧ (i a).val < win1_15.index t a * S5000x64.size a + S5000x64.size a := by
  show i ∈ ((View.whole main_v40_1).slice (win1_15.rect t)).set ↔ _
  rw [View.set_slice_whole, Rect.mem_set_unit]
  exact Iff.rfl

theorem cover15 (i : S200000x64.Idx) : ∃ t : Fin cfg1.N, (cfg1.win 15).flush t = true ∧ i ∈ ((cfg1.win 15).blk t).view.set := by
  have hi0 : (i 0).val < 200000 := (i 0).isLt
  have hi1 : (i 1).val < 64 := (i 1).isLt
  let t : Fin cfg1.N := ⟨(i 0).val / 5000, lt_of_lt_of_eq (by omega : (i 0).val / 5000 < 40) N_1.symm⟩
  obtain ⟨e0a, e0b, e1a, e1b, e2a, e2b, e3, e4, e5, e6, e7, e8a, e8b, e9, e10, e11, e12, e13, e14a, e14b, e15a, e15b⟩ := idx_facts t
  have htv : t.val = (i 0).val / 5000 := rfl
  refine ⟨t, flush1_15 t, ?_⟩
  rw [mem_blk15]
  intro a
  match a with
  | ⟨0, _⟩ => show win1_15.index t (0 : Fin 2) * 5000 ≤ (i 0).val ∧ (i 0).val < win1_15.index t (0 : Fin 2) * 5000 + 5000; omega
  | ⟨1, _⟩ => show win1_15.index t (1 : Fin 2) * 64 ≤ (i 1).val ∧ (i 1).val < win1_15.index t (1 : Fin 2) * 64 + 64; omega

/-- Output 15's array after the region: the layer of the arrays the region found. -/
theorem final15 (c : Dev nD) : (dat1 V c).arrAt 15 cfg1.N = G V c :=
  (dat1 V c).arrAt_eq_of_cover 15 (G V c) (fun t _ => flushed15 V c t) (cover15)

end Cert.Gin.Layer1

end
-- ==== Proof.RegionLayer2.lean ====
/-
  Graph layer 2's region: the arrays it leaves.

  The region walks the 200000 nodes in 40 tiles of 5000 rows. Point `t` loads rows `5000 t … 5000 t + 4999` of the node
  features and of the neighbours' aggregate, and the layer's two weight matrices and ten vectors whole, and writes
  back the same rows of two outputs: the layer's result and its copy in a narrower float format, the same array on
  the extended reals. The layer is two hidden layers over the sum of its two inputs, and an entry of a hidden layer
  depends on its own row of the input only; so what point `t` writes back is block `t` of the layer of the WHOLE
  arrays, the blocks cover every row, and each output array ends holding that layer, whatever the region finds.
-/
import proofs.«152072_j43654047596746_2_alg».proof.Proof.Gen.KernelIdeal.Frame
import proofs.«152072_j43654047596746_2_alg».proof.Proof.Tiles

set_option maxRecDepth 16384

noncomputable section

namespace Cert.Gin.Layer2

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The layer of the whole arrays the region finds. -/
abbrev G (c : Dev nD) : S200000x64.Idx → EReal :=
  hidden (M := 200000) (K := 64) (N := 64)
    (hidden (M := 200000) (K := 64) (N := 64) (addRows (M := 200000) (K := 64) (V c main_v40_0) (V c main_v51)) (V c main_v53) (V c main_v55) (V c main_v57)
      (V c main_v59) (V c main_v61) (V c main_v63))
    (V c main_v65) (V c main_v67) (V c main_v69) (V c main_v71) (V c main_v73) (V c main_v75)

/-- The printed index maps over the grid: the two row inputs and both outputs move one block of rows per point, the
    weights and the vectors stay. -/
theorem idx_facts : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 1) = 0
    ∧ win2_4.index t (0 : Fin 1) = 0
    ∧ win2_5.index t (0 : Fin 1) = 0
    ∧ win2_6.index t (0 : Fin 1) = 0
    ∧ win2_7.index t (0 : Fin 1) = 0
    ∧ win2_8.index t (0 : Fin 2) = 0
    ∧ win2_8.index t (1 : Fin 2) = 0
    ∧ win2_9.index t (0 : Fin 1) = 0
    ∧ win2_10.index t (0 : Fin 1) = 0
    ∧ win2_11.index t (0 : Fin 1) = 0
    ∧ win2_12.index t (0 : Fin 1) = 0
    ∧ win2_13.index t (0 : Fin 1) = 0
    ∧ win2_14.index t (0 : Fin 2) = t.val
    ∧ win2_14.index t (1 : Fin 2) = 0
    ∧ win2_15.index t (0 : Fin 2) = t.val
    ∧ win2_15.index t (1 : Fin 2) = 0 :=
  (by decide +kernel : ∀ t : Fin grid2.N, _)

/-! ## Each window's block, read where it sits in its array -/

theorem rows0 (c : Dev nD) (t : Fin cfg2.N) (p : Fin 5000) (k : Fin 64) (r : Fin 200000) (hr : r.val = t.val * 5000 + p.val) :
    iblk2 V c 0 t (ix2 p k) = V c main_v40_0 (ix2 r k) := by
  obtain ⟨e0a, e0b, e1a, e1b, e2a, e2b, e3, e4, e5, e6, e7, e8a, e8b, e9, e10, e11, e12, e13, e14a, e14b, e15a, e15b⟩ := idx_facts t
  show V c main_v40_0 (((cfg2.win 0).blk t).view.emb (ix2 p k)) = V c main_v40_0 (ix2 r k)
  refine congrArg _ (funext fun a => Fin.ext ?_)
  match a with
  | ⟨0, _⟩ => show win2_0.index t (0 : Fin 2) * 5000 + 1 * p.val = r.val; omega
  | ⟨1, _⟩ => show win2_0.index t (1 : Fin 2) * 64 + 1 * k.val = k.val; omega

theorem rows1 (c : Dev nD) (t : Fin cfg2.N) (p : Fin 5000) (k : Fin 64) (r : Fin 200000) (hr : r.val = t.val * 5000 + p.val) :
    iblk2 V c 1 t (ix2 p k) = V c main_v51 (ix2 r k) := by
  obtain ⟨e0a, e0b, e1a, e1b, e2a, e2b, e3, e4, e5, e6, e7, e8a, e8b, e9, e10, e11, e12, e13, e14a, e14b, e15a, e15b⟩ := idx_facts t
  show V c main_v51 (((cfg2.win 1).blk t).view.emb (ix2 p k)) = V c main_v51 (ix2 r k)
  refine congrArg _ (funext fun a => Fin.ext ?_)
  match a with
  | ⟨0, _⟩ => show win2_1.index t (0 : Fin 2) * 5000 + 1 * p.val = r.val; omega
  | ⟨1, _⟩ => show win2_1.index t (1 : Fin 2) * 64 + 1 * k.val = k.val; omega

theorem mat2 (c : Dev nD) (t : Fin cfg2.N) (a b : Fin 64) : iblk2 V c 2 t (ix2 a b) = V c main_v53 (ix2 a b) := by
  obtain ⟨e0a, e0b, e1a, e1b, e2a, e2b, e3, e4, e5, e6, e7, e8a, e8b, e9, e10, e11, e12, e13, e14a, e14b, e15a, e15b⟩ := idx_facts t
  show V c main_v53 (((cfg2.win 2).blk t).view.emb (ix2 a b)) = V c main_v53 (ix2 a b)
  refine congrArg _ (funext fun d => Fin.ext ?_)
  match d with
  | ⟨0, _⟩ => show win2_2.index t (0 : Fin 2) * 64 + 1 * a.val = a.val; omega
  | ⟨1, _⟩ => show win2_2.index t (1 : Fin 2) * 64 + 1 * b.val = b.val; omega

theorem vec3 (c : Dev nD) (t : Fin cfg2.N) (a : Fin 64) : iblk2 V c 3 t (ix1 a) = V c main_v55 (ix1 a) := by
  obtain ⟨e0a, e0b, e1a, e1b, e2a, e2b, e3, e4, e5, e6, e7, e8a, e8b, e9, e10, e11, e12, e13, e14a, e14b, e15a, e15b⟩ := idx_facts t
  show V c main_v55 (((cfg2.win 3).blk t).view.emb (ix1 a)) = V c main_v55 (ix1 a)
  refine congrArg _ (funext fun d => Fin.ext ?_)
  match d with
  | ⟨0, _⟩ => show win2_3.index t (0 : Fin 1) * 64 + 1 * a.val = a.val; omega

theorem vec4 (c : Dev nD) (t : Fin cfg2.N) (a : Fin 64) : iblk2 V c 4 t (ix1 a) = V c main_v57 (ix1 a) := by
  obtain ⟨e0a, e0b, e1a, e1b, e2a, e2b, e3, e4, e5, e6, e7, e8a, e8b, e9, e10, e11, e12, e13, e14a, e14b, e15a, e15b⟩ := idx_facts t
  show V c main_v57 (((cfg2.win 4).blk t).view.emb (ix1 a)) = V c main_v57 (ix1 a)
  refine congrArg _ (funext fun d => Fin.ext ?_)
  match d with
  | ⟨0, _⟩ => show win2_4.index t (0 : Fin 1) * 64 + 1 * a.val = a.val; omega

theorem vec5 (c : Dev nD) (t : Fin cfg2.N) (a : Fin 64) : iblk2 V c 5 t (ix1 a) = V c main_v59 (ix1 a) := by
  obtain ⟨e0a, e0b, e1a, e1b, e2a, e2b, e3, e4, e5, e6, e7, e8a, e8b, e9, e10, e11, e12, e13, e14a, e14b, e15a, e15b⟩ := idx_facts t
  show V c main_v59 (((cfg2.win 5).blk t).view.emb (ix1 a)) = V c main_v59 (ix1 a)
  refine congrArg _ (funext fun d => Fin.ext ?_)
  match d with
  | ⟨0, _⟩ => show win2_5.index t (0 : Fin 1) * 64 + 1 * a.val = a.val; omega

theorem vec6 (c : Dev nD) (t : Fin cfg2.N) (a : Fin 64) : iblk2 V c 6 t (ix1 a) = V c main_v61 (ix1 a) := by
  obtain ⟨e0a, e0b, e1a, e1b, e2a, e2b, e3, e4, e5, e6, e7, e8a, e8b, e9, e10, e11, e12, e13, e14a, e14b, e15a, e15b⟩ := idx_facts t
  show V c main_v61 (((cfg2.win 6).blk t).view.emb (ix1 a)) = V c main_v61 (ix1 a)
  refine congrArg _ (funext fun d => Fin.ext ?_)
  match d with
  | ⟨0, _⟩ => show win2_6.index t (0 : Fin 1) * 64 + 1 * a.val = a.val; omega

theorem vec7 (c : Dev nD) (t : Fin cfg2.N) (a : Fin 64) : iblk2 V c 7 t (ix1 a) = V c main_v63 (ix1 a) := by
  obtain ⟨e0a, e0b, e1a, e1b, e2a, e2b, e3, e4, e5, e6, e7, e8a, e8b, e9, e10, e11, e12, e13, e14a, e14b, e15a, e15b⟩ := idx_facts t
  show V c main_v63 (((cfg2.win 7).blk t).view.emb (ix1 a)) = V c main_v63 (ix1 a)
  refine congrArg _ (funext fun d => Fin.ext ?_)
  match d with
  | ⟨0, _⟩ => show win2_7.index t (0 : Fin 1) * 64 + 1 * a.val = a.val; omega

theorem mat8 (c : Dev nD) (t : Fin cfg2.N) (a b : Fin 64) : iblk2 V c 8 t (ix2 a b) = V c main_v65 (ix2 a b) := by
  obtain ⟨e0a, e0b, e1a, e1b, e2a, e2b, e3, e4, e5, e6, e7, e8a, e8b, e9, e10, e11, e12, e13, e14a, e14b, e15a, e15b⟩ := idx_facts t
  show V c main_v65 (((cfg2.win 8).blk t).view.emb (ix2 a b)) = V c main_v65 (ix2 a b)
  refine congrArg _ (funext fun d => Fin.ext ?_)
  match d with
  | ⟨0, _⟩ => show win2_8.index t (0 : Fin 2) * 64 + 1 * a.val = a.val; omega
  | ⟨1, _⟩ => show win2_8.index t (1 : Fin 2) * 64 + 1 * b.val = b.val; omega

theorem vec9 (c : Dev nD) (t : Fin cfg2.N) (a : Fin 64) : iblk2 V c 9 t (ix1 a) = V c main_v67 (ix1 a) := by
  obtain ⟨e0a, e0b, e1a, e1b, e2a, e2b, e3, e4, e5, e6, e7, e8a, e8b, e9, e10, e11, e12, e13, e14a, e14b, e15a, e15b⟩ := idx_facts t
  show V c main_v67 (((cfg2.win 9).blk t).view.emb (ix1 a)) = V c main_v67 (ix1 a)
  refine congrArg _ (funext fun d => Fin.ext ?_)
  match d with
  | ⟨0, _⟩ => show win2_9.index t (0 : Fin 1) * 64 + 1 * a.val = a.val; omega

theorem vec10 (c : Dev nD) (t : Fin cfg2.N) (a : Fin 64) : iblk2 V c 10 t (ix1 a) = V c main_v69 (ix1 a) := by
  obtain ⟨e0a, e0b, e1a, e1b, e2a, e2b, e3, e4, e5, e6, e7, e8a, e8b, e9, e10, e11, e12, e13, e14a, e14b, e15a, e15b⟩ := idx_facts t
  show V c main_v69 (((cfg2.win 10).blk t).view.emb (ix1 a)) = V c main_v69 (ix1 a)
  refine congrArg _ (funext fun d => Fin.ext ?_)
  match d with
  | ⟨0, _⟩ => show win2_10.index t (0 : Fin 1) * 64 + 1 * a.val = a.val; omega

theorem vec11 (c : Dev nD) (t : Fin cfg2.N) (a : Fin 64) : iblk2 V c 11 t (ix1 a) = V c main_v71 (ix1 a) := by
  obtain ⟨e0a, e0b, e1a, e1b, e2a, e2b, e3, e4, e5, e6, e7, e8a, e8b, e9, e10, e11, e12, e13, e14a, e14b, e15a, e15b⟩ := idx_facts t
  show V c main_v71 (((cfg2.win 11).blk t).view.emb (ix1 a)) = V c main_v71 (ix1 a)
  refine congrArg _ (funext fun d => Fin.ext ?_)
  match d with
  | ⟨0, _⟩ => show win2_11.index t (0 : Fin 1) * 64 + 1 * a.val = a.val; omega

theorem vec12 (c : Dev nD) (t : Fin cfg2.N) (a : Fin 64) : iblk2 V c 12 t (ix1 a) = V c main_v73 (ix1 a) := by
  obtain ⟨e0a, e0b, e1a, e1b, e2a, e2b, e3, e4, e5, e6, e7, e8a, e8b, e9, e10, e11, e12, e13, e14a, e14b, e15a, e15b⟩ := idx_facts t
  show V c main_v73 (((cfg2.win 12).blk t).view.emb (ix1 a)) = V c main_v73 (ix1 a)
  refine congrArg _ (funext fun d => Fin.ext ?_)
  match d with
  | ⟨0, _⟩ => show win2_12.index t (0 : Fin 1) * 64 + 1 * a.val = a.val; omega

theorem vec13 (c : Dev nD) (t : Fin cfg2.N) (a : Fin 64) : iblk2 V c 13 t (ix1 a) = V c main_v75 (ix1 a) := by
  obtain ⟨e0a, e0b, e1a, e1b, e2a, e2b, e3, e4, e5, e6, e7, e8a, e8b, e9, e10, e11, e12, e13, e14a, e14b, e15a, e15b⟩ := idx_facts t
  show V c main_v75 (((cfg2.win 13).blk t).view.emb (ix1 a)) = V c main_v75 (ix1 a)
  refine congrArg _ (funext fun d => Fin.ext ?_)
  match d with
  | ⟨0, _⟩ => show win2_13.index t (0 : Fin 1) * 64 + 1 * a.val = a.val; omega

/-- The tile of point `t` at `(p, q)` is the whole layer at row `5000 t + p`. -/
theorem tile_eq (c : Dev nD) (t : Fin cfg2.N) (p : Fin 5000) (q : Fin 64) (r : Fin 200000) (hr : r.val = t.val * 5000 + p.val) :
    k2_pay1 (k2_pay3 (iblk2 V c 0 t) (iblk2 V c 1 t) (iblk2 V c 2 t) (iblk2 V c 3 t) (iblk2 V c 4 t) (iblk2 V c 5 t) (iblk2 V c 6 t) (iblk2 V c 7 t)) (k2_pay4 (iblk2 V c 8 t)) (iblk2 V c 9 t) (iblk2 V c 10 t) (iblk2 V c 11 t) (iblk2 V c 12 t) (iblk2 V c 13 t) (ix2 p q)
      = G V c (ix2 r q) := by
  refine (Tile.layer2_tile _ _ _ _ _ _ _ _ _ _ _ _ _ _ p q).trans ?_
  refine hidden_congr (fun k' => ?_) (fun k' => mat8 V c t k' q) (vec9 V c t q) (vec10 V c t q) (vec11 V c t q) (vec12 V c t q) (vec13 V c t q)
  refine hidden_congr (fun k => ?_) (fun k => mat2 V c t k k') (vec3 V c t k') (vec4 V c t k') (vec5 V c t k') (vec6 V c t k') (vec7 V c t k')
  exact addRows_congr (rows0 V c t p k r hr) (rows1 V c t p k r hr)

/-- What point `t` writes back to output 14 is block `t` of the whole layer. -/
theorem flushed14 (c : Dev nD) (t : Fin cfg2.N) :
    (dat2 V c).flushed 14 t = ((cfg2.win 14).blk t).view.read (Elt Ideal) (G V c) := by
  show (cfg2.win 14).cut (grid2.coords t) ((dat2 V c).after 14 t) = _
  rw [after2_14]
  unfold out2_14
  rw [View.canon_unit_zero hz2]
  simp only [View.ld_unit_zero (S := S5000x64) hz2, View.ld_unit_zero (S := S64x64) hz2, View.ld_unit_zero (S := S64) hz1]
  obtain ⟨e0a, e0b, e1a, e1b, e2a, e2b, e3, e4, e5, e6, e7, e8a, e8b, e9, e10, e11, e12, e13, e14a, e14b, e15a, e15b⟩ := idx_facts t
  have ht : t.val < 40 := lt_of_lt_of_eq t.isLt N_2
  funext j
  have hp : (j 0).val < 5000 := (j 0).isLt
  have hE : ((cfg2.win 14).blk t).view.emb j = ix2 (⟨t.val * 5000 + (j 0).val, by omega⟩ : Fin 200000) (⟨(j 1).val, (j 1).isLt⟩ : Fin 64) := by
    funext a; apply Fin.ext
    match a with
    | ⟨0, _⟩ => show win2_14.index t (0 : Fin 2) * 5000 + 1 * (j 0).val = t.val * 5000 + (j 0).val; omega
    | ⟨1, _⟩ => show win2_14.index t (1 : Fin 2) * 64 + 1 * (j 1).val = (j 1).val; omega
  show k2_pay1 (k2_pay3 (iblk2 V c 0 t) (iblk2 V c 1 t) (iblk2 V c 2 t) (iblk2 V c 3 t) (iblk2 V c 4 t) (iblk2 V c 5 t) (iblk2 V c 6 t) (iblk2 V c 7 t)) (k2_pay4 (iblk2 V c 8 t)) (iblk2 V c 9 t) (iblk2 V c 10 t) (iblk2 V c 11 t) (iblk2 V c 12 t) (iblk2 V c 13 t) j
      = G V c (((cfg2.win 14).blk t).view.emb j)
  rw [hE]
  exact (congrArg _ (eq_ix2 (n0 := 5000) (n1 := 64) j)).trans (tile_eq V c t ⟨(j 0).val, (j 0).isLt⟩ ⟨(j 1).val, (j 1).isLt⟩ _ rfl)

theorem mem_blk14 (t : Fin cfg2.N) (i : S200000x64.Idx) :
    i ∈ ((cfg2.win 14).blk t).view.set ↔ ∀ a : Fin 2, win2_14.index t a * S5000x64.size a ≤ (i a).val ∧ (i a).val < win2_14.index t a * S5000x64.size a + S5000x64.size a := by
  show i ∈ ((View.whole main_v76_0).slice (win2_14.rect t)).set ↔ _
  rw [View.set_slice_whole, Rect.mem_set_unit]
  exact Iff.rfl

theorem cover14 (i : S200000x64.Idx) : ∃ t : Fin cfg2.N, (cfg2.win 14).flush t = true ∧ i ∈ ((cfg2.win 14).blk t).view.set := by
  have hi0 : (i 0).val < 200000 := (i 0).isLt
  have hi1 : (i 1).val < 64 := (i 1).isLt
  let t : Fin cfg2.N := ⟨(i 0).val / 5000, lt_of_lt_of_eq (by omega : (i 0).val / 5000 < 40) N_2.symm⟩
  obtain ⟨e0a, e0b, e1a, e1b, e2a, e2b, e3, e4, e5, e6, e7, e8a, e8b, e9, e10, e11, e12, e13, e14a, e14b, e15a, e15b⟩ := idx_facts t
  have htv : t.val = (i 0).val / 5000 := rfl
  refine ⟨t, flush2_14 t, ?_⟩
  rw [mem_blk14]
  intro a
  match a with
  | ⟨0, _⟩ => show win2_14.index t (0 : Fin 2) * 5000 ≤ (i 0).val ∧ (i 0).val < win2_14.index t (0 : Fin 2) * 5000 + 5000; omega
  | ⟨1, _⟩ => show win2_14.index t (1 : Fin 2) * 64 ≤ (i 1).val ∧ (i 1).val < win2_14.index t (1 : Fin 2) * 64 + 64; omega

/-- Output 14's array after the region: the layer of the arrays the region found. -/
theorem final14 (c : Dev nD) : (dat2 V c).arrAt 14 cfg2.N = G V c :=
  (dat2 V c).arrAt_eq_of_cover 14 (G V c) (fun t _ => flushed14 V c t) (cover14)

/-- What point `t` writes back to output 15 is block `t` of the whole layer. -/
theorem flushed15 (c : Dev nD) (t : Fin cfg2.N) :
    (dat2 V c).flushed 15 t = ((cfg2.win 15).blk t).view.read (Elt Ideal) (G V c) := by
  show (cfg2.win 15).cut (grid2.coords t) ((dat2 V c).after 15 t) = _
  rw [after2_15]
  unfold out2_15
  rw [View.canon_unit_zero hz2]
  simp only [View.ld_unit_zero (S := S5000x64) hz2, View.ld_unit_zero (S := S64x64) hz2, View.ld_unit_zero (S := S64) hz1]
  obtain ⟨e0a, e0b, e1a, e1b, e2a, e2b, e3, e4, e5, e6, e7, e8a, e8b, e9, e10, e11, e12, e13, e14a, e14b, e15a, e15b⟩ := idx_facts t
  have ht : t.val < 40 := lt_of_lt_of_eq t.isLt N_2
  funext j
  have hp : (j 0).val < 5000 := (j 0).isLt
  have hE : ((cfg2.win 15).blk t).view.emb j = ix2 (⟨t.val * 5000 + (j 0).val, by omega⟩ : Fin 200000) (⟨(j 1).val, (j 1).isLt⟩ : Fin 64) := by
    funext a; apply Fin.ext
    match a with
    | ⟨0, _⟩ => show win2_15.index t (0 : Fin 2) * 5000 + 1 * (j 0).val = t.val * 5000 + (j 0).val; omega
    | ⟨1, _⟩ => show win2_15.index t (1 : Fin 2) * 64 + 1 * (j 1).val = (j 1).val; omega
  show k2_pay1 (k2_pay3 (iblk2 V c 0 t) (iblk2 V c 1 t) (iblk2 V c 2 t) (iblk2 V c 3 t) (iblk2 V c 4 t) (iblk2 V c 5 t) (iblk2 V c 6 t) (iblk2 V c 7 t)) (k2_pay4 (iblk2 V c 8 t)) (iblk2 V c 9 t) (iblk2 V c 10 t) (iblk2 V c 11 t) (iblk2 V c 12 t) (iblk2 V c 13 t) j
      = G V c (((cfg2.win 15).blk t).view.emb j)
  rw [hE]
  exact (congrArg _ (eq_ix2 (n0 := 5000) (n1 := 64) j)).trans (tile_eq V c t ⟨(j 0).val, (j 0).isLt⟩ ⟨(j 1).val, (j 1).isLt⟩ _ rfl)

theorem mem_blk15 (t : Fin cfg2.N) (i : S200000x64.Idx) :
    i ∈ ((cfg2.win 15).blk t).view.set ↔ ∀ a : Fin 2, win2_15.index t a * S5000x64.size a ≤ (i a).val ∧ (i a).val < win2_15.index t a * S5000x64.size a + S5000x64.size a := by
  show i ∈ ((View.whole main_v76_1).slice (win2_15.rect t)).set ↔ _
  rw [View.set_slice_whole, Rect.mem_set_unit]
  exact Iff.rfl

theorem cover15 (i : S200000x64.Idx) : ∃ t : Fin cfg2.N, (cfg2.win 15).flush t = true ∧ i ∈ ((cfg2.win 15).blk t).view.set := by
  have hi0 : (i 0).val < 200000 := (i 0).isLt
  have hi1 : (i 1).val < 64 := (i 1).isLt
  let t : Fin cfg2.N := ⟨(i 0).val / 5000, lt_of_lt_of_eq (by omega : (i 0).val / 5000 < 40) N_2.symm⟩
  obtain ⟨e0a, e0b, e1a, e1b, e2a, e2b, e3, e4, e5, e6, e7, e8a, e8b, e9, e10, e11, e12, e13, e14a, e14b, e15a, e15b⟩ := idx_facts t
  have htv : t.val = (i 0).val / 5000 := rfl
  refine ⟨t, flush2_15 t, ?_⟩
  rw [mem_blk15]
  intro a
  match a with
  | ⟨0, _⟩ => show win2_15.index t (0 : Fin 2) * 5000 ≤ (i 0).val ∧ (i 0).val < win2_15.index t (0 : Fin 2) * 5000 + 5000; omega
  | ⟨1, _⟩ => show win2_15.index t (1 : Fin 2) * 64 ≤ (i 1).val ∧ (i 1).val < win2_15.index t (1 : Fin 2) * 64 + 64; omega

/-- Output 15's array after the region: the layer of the arrays the region found. -/
theorem final15 (c : Dev nD) : (dat2 V c).arrAt 15 cfg2.N = G V c :=
  (dat2 V c).arrAt_eq_of_cover 15 (G V c) (fun t _ => flushed15 V c t) (cover15)

end Cert.Gin.Layer2

end
-- ==== Proof.RegionLayer3.lean ====
/-
  Graph layer 3's region: the arrays it leaves.

  The region walks the 200000 nodes in 40 tiles of 5000 rows. Point `t` loads rows `5000 t … 5000 t + 4999` of the node
  features and of the neighbours' aggregate, and the layer's two weight matrices and ten vectors whole, and writes
  back the same rows of two outputs: the layer's result and its copy in a narrower float format, the same array on
  the extended reals. The layer is two hidden layers over the sum of its two inputs, and an entry of a hidden layer
  depends on its own row of the input only; so what point `t` writes back is block `t` of the layer of the WHOLE
  arrays, the blocks cover every row, and each output array ends holding that layer, whatever the region finds.
-/
import proofs.«152072_j43654047596746_2_alg».proof.Proof.Gen.KernelIdeal.Frame
import proofs.«152072_j43654047596746_2_alg».proof.Proof.Tiles

set_option maxRecDepth 16384

noncomputable section

namespace Cert.Gin.Layer3

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The layer of the whole arrays the region finds. -/
abbrev G (c : Dev nD) : S200000x64.Idx → EReal :=
  hidden (M := 200000) (K := 64) (N := 64)
    (hidden (M := 200000) (K := 64) (N := 64) (addRows (M := 200000) (K := 64) (V c main_v76_0) (V c main_v87)) (V c main_v89) (V c main_v91) (V c main_v93)
      (V c main_v95) (V c main_v97) (V c main_v99))
    (V c main_v101) (V c main_v103) (V c main_v105) (V c main_v107) (V c main_v109) (V c main_v111)

/-- The printed index maps over the grid: the two row inputs and both outputs move one block of rows per point, the
    weights and the vectors stay. -/
theorem idx_facts : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 1) = 0
    ∧ win3_4.index t (0 : Fin 1) = 0
    ∧ win3_5.index t (0 : Fin 1) = 0
    ∧ win3_6.index t (0 : Fin 1) = 0
    ∧ win3_7.index t (0 : Fin 1) = 0
    ∧ win3_8.index t (0 : Fin 2) = 0
    ∧ win3_8.index t (1 : Fin 2) = 0
    ∧ win3_9.index t (0 : Fin 1) = 0
    ∧ win3_10.index t (0 : Fin 1) = 0
    ∧ win3_11.index t (0 : Fin 1) = 0
    ∧ win3_12.index t (0 : Fin 1) = 0
    ∧ win3_13.index t (0 : Fin 1) = 0
    ∧ win3_14.index t (0 : Fin 2) = t.val
    ∧ win3_14.index t (1 : Fin 2) = 0
    ∧ win3_15.index t (0 : Fin 2) = t.val
    ∧ win3_15.index t (1 : Fin 2) = 0 :=
  (by decide +kernel : ∀ t : Fin grid3.N, _)

/-! ## Each window's block, read where it sits in its array -/

theorem rows0 (c : Dev nD) (t : Fin cfg3.N) (p : Fin 5000) (k : Fin 64) (r : Fin 200000) (hr : r.val = t.val * 5000 + p.val) :
    iblk3 V c 0 t (ix2 p k) = V c main_v76_0 (ix2 r k) := by
  obtain ⟨e0a, e0b, e1a, e1b, e2a, e2b, e3, e4, e5, e6, e7, e8a, e8b, e9, e10, e11, e12, e13, e14a, e14b, e15a, e15b⟩ := idx_facts t
  show V c main_v76_0 (((cfg3.win 0).blk t).view.emb (ix2 p k)) = V c main_v76_0 (ix2 r k)
  refine congrArg _ (funext fun a => Fin.ext ?_)
  match a with
  | ⟨0, _⟩ => show win3_0.index t (0 : Fin 2) * 5000 + 1 * p.val = r.val; omega
  | ⟨1, _⟩ => show win3_0.index t (1 : Fin 2) * 64 + 1 * k.val = k.val; omega

theorem rows1 (c : Dev nD) (t : Fin cfg3.N) (p : Fin 5000) (k : Fin 64) (r : Fin 200000) (hr : r.val = t.val * 5000 + p.val) :
    iblk3 V c 1 t (ix2 p k) = V c main_v87 (ix2 r k) := by
  obtain ⟨e0a, e0b, e1a, e1b, e2a, e2b, e3, e4, e5, e6, e7, e8a, e8b, e9, e10, e11, e12, e13, e14a, e14b, e15a, e15b⟩ := idx_facts t
  show V c main_v87 (((cfg3.win 1).blk t).view.emb (ix2 p k)) = V c main_v87 (ix2 r k)
  refine congrArg _ (funext fun a => Fin.ext ?_)
  match a with
  | ⟨0, _⟩ => show win3_1.index t (0 : Fin 2) * 5000 + 1 * p.val = r.val; omega
  | ⟨1, _⟩ => show win3_1.index t (1 : Fin 2) * 64 + 1 * k.val = k.val; omega

theorem mat2 (c : Dev nD) (t : Fin cfg3.N) (a b : Fin 64) : iblk3 V c 2 t (ix2 a b) = V c main_v89 (ix2 a b) := by
  obtain ⟨e0a, e0b, e1a, e1b, e2a, e2b, e3, e4, e5, e6, e7, e8a, e8b, e9, e10, e11, e12, e13, e14a, e14b, e15a, e15b⟩ := idx_facts t
  show V c main_v89 (((cfg3.win 2).blk t).view.emb (ix2 a b)) = V c main_v89 (ix2 a b)
  refine congrArg _ (funext fun d => Fin.ext ?_)
  match d with
  | ⟨0, _⟩ => show win3_2.index t (0 : Fin 2) * 64 + 1 * a.val = a.val; omega
  | ⟨1, _⟩ => show win3_2.index t (1 : Fin 2) * 64 + 1 * b.val = b.val; omega

theorem vec3 (c : Dev nD) (t : Fin cfg3.N) (a : Fin 64) : iblk3 V c 3 t (ix1 a) = V c main_v91 (ix1 a) := by
  obtain ⟨e0a, e0b, e1a, e1b, e2a, e2b, e3, e4, e5, e6, e7, e8a, e8b, e9, e10, e11, e12, e13, e14a, e14b, e15a, e15b⟩ := idx_facts t
  show V c main_v91 (((cfg3.win 3).blk t).view.emb (ix1 a)) = V c main_v91 (ix1 a)
  refine congrArg _ (funext fun d => Fin.ext ?_)
  match d with
  | ⟨0, _⟩ => show win3_3.index t (0 : Fin 1) * 64 + 1 * a.val = a.val; omega

theorem vec4 (c : Dev nD) (t : Fin cfg3.N) (a : Fin 64) : iblk3 V c 4 t (ix1 a) = V c main_v93 (ix1 a) := by
  obtain ⟨e0a, e0b, e1a, e1b, e2a, e2b, e3, e4, e5, e6, e7, e8a, e8b, e9, e10, e11, e12, e13, e14a, e14b, e15a, e15b⟩ := idx_facts t
  show V c main_v93 (((cfg3.win 4).blk t).view.emb (ix1 a)) = V c main_v93 (ix1 a)
  refine congrArg _ (funext fun d => Fin.ext ?_)
  match d with
  | ⟨0, _⟩ => show win3_4.index t (0 : Fin 1) * 64 + 1 * a.val = a.val; omega

theorem vec5 (c : Dev nD) (t : Fin cfg3.N) (a : Fin 64) : iblk3 V c 5 t (ix1 a) = V c main_v95 (ix1 a) := by
  obtain ⟨e0a, e0b, e1a, e1b, e2a, e2b, e3, e4, e5, e6, e7, e8a, e8b, e9, e10, e11, e12, e13, e14a, e14b, e15a, e15b⟩ := idx_facts t
  show V c main_v95 (((cfg3.win 5).blk t).view.emb (ix1 a)) = V c main_v95 (ix1 a)
  refine congrArg _ (funext fun d => Fin.ext ?_)
  match d with
  | ⟨0, _⟩ => show win3_5.index t (0 : Fin 1) * 64 + 1 * a.val = a.val; omega

theorem vec6 (c : Dev nD) (t : Fin cfg3.N) (a : Fin 64) : iblk3 V c 6 t (ix1 a) = V c main_v97 (ix1 a) := by
  obtain ⟨e0a, e0b, e1a, e1b, e2a, e2b, e3, e4, e5, e6, e7, e8a, e8b, e9, e10, e11, e12, e13, e14a, e14b, e15a, e15b⟩ := idx_facts t
  show V c main_v97 (((cfg3.win 6).blk t).view.emb (ix1 a)) = V c main_v97 (ix1 a)
  refine congrArg _ (funext fun d => Fin.ext ?_)
  match d with
  | ⟨0, _⟩ => show win3_6.index t (0 : Fin 1) * 64 + 1 * a.val = a.val; omega

theorem vec7 (c : Dev nD) (t : Fin cfg3.N) (a : Fin 64) : iblk3 V c 7 t (ix1 a) = V c main_v99 (ix1 a) := by
  obtain ⟨e0a, e0b, e1a, e1b, e2a, e2b, e3, e4, e5, e6, e7, e8a, e8b, e9, e10, e11, e12, e13, e14a, e14b, e15a, e15b⟩ := idx_facts t
  show V c main_v99 (((cfg3.win 7).blk t).view.emb (ix1 a)) = V c main_v99 (ix1 a)
  refine congrArg _ (funext fun d => Fin.ext ?_)
  match d with
  | ⟨0, _⟩ => show win3_7.index t (0 : Fin 1) * 64 + 1 * a.val = a.val; omega

theorem mat8 (c : Dev nD) (t : Fin cfg3.N) (a b : Fin 64) : iblk3 V c 8 t (ix2 a b) = V c main_v101 (ix2 a b) := by
  obtain ⟨e0a, e0b, e1a, e1b, e2a, e2b, e3, e4, e5, e6, e7, e8a, e8b, e9, e10, e11, e12, e13, e14a, e14b, e15a, e15b⟩ := idx_facts t
  show V c main_v101 (((cfg3.win 8).blk t).view.emb (ix2 a b)) = V c main_v101 (ix2 a b)
  refine congrArg _ (funext fun d => Fin.ext ?_)
  match d with
  | ⟨0, _⟩ => show win3_8.index t (0 : Fin 2) * 64 + 1 * a.val = a.val; omega
  | ⟨1, _⟩ => show win3_8.index t (1 : Fin 2) * 64 + 1 * b.val = b.val; omega

theorem vec9 (c : Dev nD) (t : Fin cfg3.N) (a : Fin 64) : iblk3 V c 9 t (ix1 a) = V c main_v103 (ix1 a) := by
  obtain ⟨e0a, e0b, e1a, e1b, e2a, e2b, e3, e4, e5, e6, e7, e8a, e8b, e9, e10, e11, e12, e13, e14a, e14b, e15a, e15b⟩ := idx_facts t
  show V c main_v103 (((cfg3.win 9).blk t).view.emb (ix1 a)) = V c main_v103 (ix1 a)
  refine congrArg _ (funext fun d => Fin.ext ?_)
  match d with
  | ⟨0, _⟩ => show win3_9.index t (0 : Fin 1) * 64 + 1 * a.val = a.val; omega

theorem vec10 (c : Dev nD) (t : Fin cfg3.N) (a : Fin 64) : iblk3 V c 10 t (ix1 a) = V c main_v105 (ix1 a) := by
  obtain ⟨e0a, e0b, e1a, e1b, e2a, e2b, e3, e4, e5, e6, e7, e8a, e8b, e9, e10, e11, e12, e13, e14a, e14b, e15a, e15b⟩ := idx_facts t
  show V c main_v105 (((cfg3.win 10).blk t).view.emb (ix1 a)) = V c main_v105 (ix1 a)
  refine congrArg _ (funext fun d => Fin.ext ?_)
  match d with
  | ⟨0, _⟩ => show win3_10.index t (0 : Fin 1) * 64 + 1 * a.val = a.val; omega

theorem vec11 (c : Dev nD) (t : Fin cfg3.N) (a : Fin 64) : iblk3 V c 11 t (ix1 a) = V c main_v107 (ix1 a) := by
  obtain ⟨e0a, e0b, e1a, e1b, e2a, e2b, e3, e4, e5, e6, e7, e8a, e8b, e9, e10, e11, e12, e13, e14a, e14b, e15a, e15b⟩ := idx_facts t
  show V c main_v107 (((cfg3.win 11).blk t).view.emb (ix1 a)) = V c main_v107 (ix1 a)
  refine congrArg _ (funext fun d => Fin.ext ?_)
  match d with
  | ⟨0, _⟩ => show win3_11.index t (0 : Fin 1) * 64 + 1 * a.val = a.val; omega

theorem vec12 (c : Dev nD) (t : Fin cfg3.N) (a : Fin 64) : iblk3 V c 12 t (ix1 a) = V c main_v109 (ix1 a) := by
  obtain ⟨e0a, e0b, e1a, e1b, e2a, e2b, e3, e4, e5, e6, e7, e8a, e8b, e9, e10, e11, e12, e13, e14a, e14b, e15a, e15b⟩ := idx_facts t
  show V c main_v109 (((cfg3.win 12).blk t).view.emb (ix1 a)) = V c main_v109 (ix1 a)
  refine congrArg _ (funext fun d => Fin.ext ?_)
  match d with
  | ⟨0, _⟩ => show win3_12.index t (0 : Fin 1) * 64 + 1 * a.val = a.val; omega

theorem vec13 (c : Dev nD) (t : Fin cfg3.N) (a : Fin 64) : iblk3 V c 13 t (ix1 a) = V c main_v111 (ix1 a) := by
  obtain ⟨e0a, e0b, e1a, e1b, e2a, e2b, e3, e4, e5, e6, e7, e8a, e8b, e9, e10, e11, e12, e13, e14a, e14b, e15a, e15b⟩ := idx_facts t
  show V c main_v111 (((cfg3.win 13).blk t).view.emb (ix1 a)) = V c main_v111 (ix1 a)
  refine congrArg _ (funext fun d => Fin.ext ?_)
  match d with
  | ⟨0, _⟩ => show win3_13.index t (0 : Fin 1) * 64 + 1 * a.val = a.val; omega

/-- The tile of point `t` at `(p, q)` is the whole layer at row `5000 t + p`. -/
theorem tile_eq (c : Dev nD) (t : Fin cfg3.N) (p : Fin 5000) (q : Fin 64) (r : Fin 200000) (hr : r.val = t.val * 5000 + p.val) :
    k3_pay1 (k3_pay3 (iblk3 V c 0 t) (iblk3 V c 1 t) (iblk3 V c 2 t) (iblk3 V c 3 t) (iblk3 V c 4 t) (iblk3 V c 5 t) (iblk3 V c 6 t) (iblk3 V c 7 t)) (k3_pay4 (iblk3 V c 8 t)) (iblk3 V c 9 t) (iblk3 V c 10 t) (iblk3 V c 11 t) (iblk3 V c 12 t) (iblk3 V c 13 t) (ix2 p q)
      = G V c (ix2 r q) := by
  refine (Tile.layer3_tile _ _ _ _ _ _ _ _ _ _ _ _ _ _ p q).trans ?_
  refine hidden_congr (fun k' => ?_) (fun k' => mat8 V c t k' q) (vec9 V c t q) (vec10 V c t q) (vec11 V c t q) (vec12 V c t q) (vec13 V c t q)
  refine hidden_congr (fun k => ?_) (fun k => mat2 V c t k k') (vec3 V c t k') (vec4 V c t k') (vec5 V c t k') (vec6 V c t k') (vec7 V c t k')
  exact addRows_congr (rows0 V c t p k r hr) (rows1 V c t p k r hr)

/-- What point `t` writes back to output 14 is block `t` of the whole layer. -/
theorem flushed14 (c : Dev nD) (t : Fin cfg3.N) :
    (dat3 V c).flushed 14 t = ((cfg3.win 14).blk t).view.read (Elt Ideal) (G V c) := by
  show (cfg3.win 14).cut (grid3.coords t) ((dat3 V c).after 14 t) = _
  rw [after3_14]
  unfold out3_14
  rw [View.canon_unit_zero hz2]
  simp only [View.ld_unit_zero (S := S5000x64) hz2, View.ld_unit_zero (S := S64x64) hz2, View.ld_unit_zero (S := S64) hz1]
  obtain ⟨e0a, e0b, e1a, e1b, e2a, e2b, e3, e4, e5, e6, e7, e8a, e8b, e9, e10, e11, e12, e13, e14a, e14b, e15a, e15b⟩ := idx_facts t
  have ht : t.val < 40 := lt_of_lt_of_eq t.isLt N_3
  funext j
  have hp : (j 0).val < 5000 := (j 0).isLt
  have hE : ((cfg3.win 14).blk t).view.emb j = ix2 (⟨t.val * 5000 + (j 0).val, by omega⟩ : Fin 200000) (⟨(j 1).val, (j 1).isLt⟩ : Fin 64) := by
    funext a; apply Fin.ext
    match a with
    | ⟨0, _⟩ => show win3_14.index t (0 : Fin 2) * 5000 + 1 * (j 0).val = t.val * 5000 + (j 0).val; omega
    | ⟨1, _⟩ => show win3_14.index t (1 : Fin 2) * 64 + 1 * (j 1).val = (j 1).val; omega
  show k3_pay1 (k3_pay3 (iblk3 V c 0 t) (iblk3 V c 1 t) (iblk3 V c 2 t) (iblk3 V c 3 t) (iblk3 V c 4 t) (iblk3 V c 5 t) (iblk3 V c 6 t) (iblk3 V c 7 t)) (k3_pay4 (iblk3 V c 8 t)) (iblk3 V c 9 t) (iblk3 V c 10 t) (iblk3 V c 11 t) (iblk3 V c 12 t) (iblk3 V c 13 t) j
      = G V c (((cfg3.win 14).blk t).view.emb j)
  rw [hE]
  exact (congrArg _ (eq_ix2 (n0 := 5000) (n1 := 64) j)).trans (tile_eq V c t ⟨(j 0).val, (j 0).isLt⟩ ⟨(j 1).val, (j 1).isLt⟩ _ rfl)

theorem mem_blk14 (t : Fin cfg3.N) (i : S200000x64.Idx) :
    i ∈ ((cfg3.win 14).blk t).view.set ↔ ∀ a : Fin 2, win3_14.index t a * S5000x64.size a ≤ (i a).val ∧ (i a).val < win3_14.index t a * S5000x64.size a + S5000x64.size a := by
  show i ∈ ((View.whole main_v112_0).slice (win3_14.rect t)).set ↔ _
  rw [View.set_slice_whole, Rect.mem_set_unit]
  exact Iff.rfl

theorem cover14 (i : S200000x64.Idx) : ∃ t : Fin cfg3.N, (cfg3.win 14).flush t = true ∧ i ∈ ((cfg3.win 14).blk t).view.set := by
  have hi0 : (i 0).val < 200000 := (i 0).isLt
  have hi1 : (i 1).val < 64 := (i 1).isLt
  let t : Fin cfg3.N := ⟨(i 0).val / 5000, lt_of_lt_of_eq (by omega : (i 0).val / 5000 < 40) N_3.symm⟩
  obtain ⟨e0a, e0b, e1a, e1b, e2a, e2b, e3, e4, e5, e6, e7, e8a, e8b, e9, e10, e11, e12, e13, e14a, e14b, e15a, e15b⟩ := idx_facts t
  have htv : t.val = (i 0).val / 5000 := rfl
  refine ⟨t, flush3_14 t, ?_⟩
  rw [mem_blk14]
  intro a
  match a with
  | ⟨0, _⟩ => show win3_14.index t (0 : Fin 2) * 5000 ≤ (i 0).val ∧ (i 0).val < win3_14.index t (0 : Fin 2) * 5000 + 5000; omega
  | ⟨1, _⟩ => show win3_14.index t (1 : Fin 2) * 64 ≤ (i 1).val ∧ (i 1).val < win3_14.index t (1 : Fin 2) * 64 + 64; omega

/-- Output 14's array after the region: the layer of the arrays the region found. -/
theorem final14 (c : Dev nD) : (dat3 V c).arrAt 14 cfg3.N = G V c :=
  (dat3 V c).arrAt_eq_of_cover 14 (G V c) (fun t _ => flushed14 V c t) (cover14)

/-- What point `t` writes back to output 15 is block `t` of the whole layer. -/
theorem flushed15 (c : Dev nD) (t : Fin cfg3.N) :
    (dat3 V c).flushed 15 t = ((cfg3.win 15).blk t).view.read (Elt Ideal) (G V c) := by
  show (cfg3.win 15).cut (grid3.coords t) ((dat3 V c).after 15 t) = _
  rw [after3_15]
  unfold out3_15
  rw [View.canon_unit_zero hz2]
  simp only [View.ld_unit_zero (S := S5000x64) hz2, View.ld_unit_zero (S := S64x64) hz2, View.ld_unit_zero (S := S64) hz1]
  obtain ⟨e0a, e0b, e1a, e1b, e2a, e2b, e3, e4, e5, e6, e7, e8a, e8b, e9, e10, e11, e12, e13, e14a, e14b, e15a, e15b⟩ := idx_facts t
  have ht : t.val < 40 := lt_of_lt_of_eq t.isLt N_3
  funext j
  have hp : (j 0).val < 5000 := (j 0).isLt
  have hE : ((cfg3.win 15).blk t).view.emb j = ix2 (⟨t.val * 5000 + (j 0).val, by omega⟩ : Fin 200000) (⟨(j 1).val, (j 1).isLt⟩ : Fin 64) := by
    funext a; apply Fin.ext
    match a with
    | ⟨0, _⟩ => show win3_15.index t (0 : Fin 2) * 5000 + 1 * (j 0).val = t.val * 5000 + (j 0).val; omega
    | ⟨1, _⟩ => show win3_15.index t (1 : Fin 2) * 64 + 1 * (j 1).val = (j 1).val; omega
  show k3_pay1 (k3_pay3 (iblk3 V c 0 t) (iblk3 V c 1 t) (iblk3 V c 2 t) (iblk3 V c 3 t) (iblk3 V c 4 t) (iblk3 V c 5 t) (iblk3 V c 6 t) (iblk3 V c 7 t)) (k3_pay4 (iblk3 V c 8 t)) (iblk3 V c 9 t) (iblk3 V c 10 t) (iblk3 V c 11 t) (iblk3 V c 12 t) (iblk3 V c 13 t) j
      = G V c (((cfg3.win 15).blk t).view.emb j)
  rw [hE]
  exact (congrArg _ (eq_ix2 (n0 := 5000) (n1 := 64) j)).trans (tile_eq V c t ⟨(j 0).val, (j 0).isLt⟩ ⟨(j 1).val, (j 1).isLt⟩ _ rfl)

theorem mem_blk15 (t : Fin cfg3.N) (i : S200000x64.Idx) :
    i ∈ ((cfg3.win 15).blk t).view.set ↔ ∀ a : Fin 2, win3_15.index t a * S5000x64.size a ≤ (i a).val ∧ (i a).val < win3_15.index t a * S5000x64.size a + S5000x64.size a := by
  show i ∈ ((View.whole main_v112_1).slice (win3_15.rect t)).set ↔ _
  rw [View.set_slice_whole, Rect.mem_set_unit]
  exact Iff.rfl

theorem cover15 (i : S200000x64.Idx) : ∃ t : Fin cfg3.N, (cfg3.win 15).flush t = true ∧ i ∈ ((cfg3.win 15).blk t).view.set := by
  have hi0 : (i 0).val < 200000 := (i 0).isLt
  have hi1 : (i 1).val < 64 := (i 1).isLt
  let t : Fin cfg3.N := ⟨(i 0).val / 5000, lt_of_lt_of_eq (by omega : (i 0).val / 5000 < 40) N_3.symm⟩
  obtain ⟨e0a, e0b, e1a, e1b, e2a, e2b, e3, e4, e5, e6, e7, e8a, e8b, e9, e10, e11, e12, e13, e14a, e14b, e15a, e15b⟩ := idx_facts t
  have htv : t.val = (i 0).val / 5000 := rfl
  refine ⟨t, flush3_15 t, ?_⟩
  rw [mem_blk15]
  intro a
  match a with
  | ⟨0, _⟩ => show win3_15.index t (0 : Fin 2) * 5000 ≤ (i 0).val ∧ (i 0).val < win3_15.index t (0 : Fin 2) * 5000 + 5000; omega
  | ⟨1, _⟩ => show win3_15.index t (1 : Fin 2) * 64 ≤ (i 1).val ∧ (i 1).val < win3_15.index t (1 : Fin 2) * 64 + 64; omega

/-- Output 15's array after the region: the layer of the arrays the region found. -/
theorem final15 (c : Dev nD) : (dat3 V c).arrAt 15 cfg3.N = G V c :=
  (dat3 V c).arrAt_eq_of_cover 15 (G V c) (fun t _ => flushed15 V c t) (cover15)

end Cert.Gin.Layer3

end
-- ==== Proof.RegionHead.lean ====
/-
  The classifier's region: the array it leaves.

  One grid point loads the pooled graph features, both weight matrices and both bias vectors whole, and writes the
  whole result: an affine map clamped at zero, then an affine map. The block is the array, so the output array
  ends holding the head of the arrays the region finds.
-/
import proofs.«152072_j43654047596746_2_alg».proof.Proof.Gen.KernelIdeal.Frame
import proofs.«152072_j43654047596746_2_alg».proof.Proof.Tiles

set_option maxRecDepth 16384

noncomputable section

namespace Cert.Gin.Head

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The head of the whole arrays the region finds. -/
abbrev G (c : Dev nD) : S1024x6.Idx → EReal :=
  affine (M := 1024) (K := 32) (N := 6)
    (affineRelu (M := 1024) (K := 64) (N := 32) (V c main_v124) (V c main_arg21) (V c main_arg22))
    (V c main_arg23) (V c main_arg24)

/-- The printed index maps at the one grid point: every block is its whole array. -/
theorem idx_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (0 : Fin 2) = 0 ∧ win4_5.index t (1 : Fin 2) = 0 :=
  (by decide +kernel : ∀ t : Fin grid4.N, _)

/-! ## Each window's block, read where it sits in its array -/

theorem mat0 (c : Dev nD) (t : Fin cfg4.N) (a : Fin 1024) (b : Fin 64) : iblk4 V c 0 t (ix2 a b) = V c main_v124 (ix2 a b) := by
  obtain ⟨e0a, e0b, e1a, e1b, e2, e3a, e3b, e4, e5a, e5b⟩ := idx_facts t
  show V c main_v124 (((cfg4.win 0).blk t).view.emb (ix2 a b)) = V c main_v124 (ix2 a b)
  refine congrArg _ (funext fun d => Fin.ext ?_)
  match d with
  | ⟨0, _⟩ => show win4_0.index t (0 : Fin 2) * 1024 + 1 * a.val = a.val; omega
  | ⟨1, _⟩ => show win4_0.index t (1 : Fin 2) * 64 + 1 * b.val = b.val; omega

theorem mat1 (c : Dev nD) (t : Fin cfg4.N) (a : Fin 64) (b : Fin 32) : iblk4 V c 1 t (ix2 a b) = V c main_arg21 (ix2 a b) := by
  obtain ⟨e0a, e0b, e1a, e1b, e2, e3a, e3b, e4, e5a, e5b⟩ := idx_facts t
  show V c main_arg21 (((cfg4.win 1).blk t).view.emb (ix2 a b)) = V c main_arg21 (ix2 a b)
  refine congrArg _ (funext fun d => Fin.ext ?_)
  match d with
  | ⟨0, _⟩ => show win4_1.index t (0 : Fin 2) * 64 + 1 * a.val = a.val; omega
  | ⟨1, _⟩ => show win4_1.index t (1 : Fin 2) * 32 + 1 * b.val = b.val; omega

theorem vec2 (c : Dev nD) (t : Fin cfg4.N) (a : Fin 32) : iblk4 V c 2 t (ix1 a) = V c main_arg22 (ix1 a) := by
  obtain ⟨e0a, e0b, e1a, e1b, e2, e3a, e3b, e4, e5a, e5b⟩ := idx_facts t
  show V c main_arg22 (((cfg4.win 2).blk t).view.emb (ix1 a)) = V c main_arg22 (ix1 a)
  refine congrArg _ (funext fun d => Fin.ext ?_)
  match d with
  | ⟨0, _⟩ => show win4_2.index t (0 : Fin 1) * 32 + 1 * a.val = a.val; omega

theorem mat3 (c : Dev nD) (t : Fin cfg4.N) (a : Fin 32) (b : Fin 6) : iblk4 V c 3 t (ix2 a b) = V c main_arg23 (ix2 a b) := by
  obtain ⟨e0a, e0b, e1a, e1b, e2, e3a, e3b, e4, e5a, e5b⟩ := idx_facts t
  show V c main_arg23 (((cfg4.win 3).blk t).view.emb (ix2 a b)) = V c main_arg23 (ix2 a b)
  refine congrArg _ (funext fun d => Fin.ext ?_)
  match d with
  | ⟨0, _⟩ => show win4_3.index t (0 : Fin 2) * 32 + 1 * a.val = a.val; omega
  | ⟨1, _⟩ => show win4_3.index t (1 : Fin 2) * 6 + 1 * b.val = b.val; omega

theorem vec4 (c : Dev nD) (t : Fin cfg4.N) (a : Fin 6) : iblk4 V c 4 t (ix1 a) = V c main_arg24 (ix1 a) := by
  obtain ⟨e0a, e0b, e1a, e1b, e2, e3a, e3b, e4, e5a, e5b⟩ := idx_facts t
  show V c main_arg24 (((cfg4.win 4).blk t).view.emb (ix1 a)) = V c main_arg24 (ix1 a)
  refine congrArg _ (funext fun d => Fin.ext ?_)
  match d with
  | ⟨0, _⟩ => show win4_4.index t (0 : Fin 1) * 6 + 1 * a.val = a.val; omega

/-- The tile at `(p, q)` is the head of the whole arrays there. -/
theorem tile_eq (c : Dev nD) (t : Fin cfg4.N) (p : Fin 1024) (q : Fin 6) :
    k4_pay1 (iblk4 V c 0 t) (iblk4 V c 1 t) (iblk4 V c 2 t) (iblk4 V c 3 t) (iblk4 V c 4 t) (ix2 p q) = G V c (ix2 p q) := by
  refine (Tile.head_tile _ _ _ _ _ p q).trans ?_
  exact affine_congr (fun k => affineRelu_congr (fun j => mat0 V c t p j) (fun j => mat1 V c t j k) (vec2 V c t k))
    (fun k => mat3 V c t k q) (vec4 V c t q)

/-- What the one point writes back is the whole head. -/
theorem flushed5 (c : Dev nD) (t : Fin cfg4.N) :
    (dat4 V c).flushed 5 t = ((cfg4.win 5).blk t).view.read (Elt Ideal) (G V c) := by
  show (cfg4.win 5).cut (grid4.coords t) ((dat4 V c).after 5 t) = _
  rw [after4_5]
  unfold out4_5
  rw [View.canon_unit_zero hz2]
  simp only [View.ld_unit_zero (S := S1024x64) hz2, View.ld_unit_zero (S := S64x32) hz2, View.ld_unit_zero (S := S32) hz1,
    View.ld_unit_zero (S := S32x6) hz2, View.ld_unit_zero (S := S6) hz1]
  obtain ⟨e0a, e0b, e1a, e1b, e2, e3a, e3b, e4, e5a, e5b⟩ := idx_facts t
  funext j
  have hE : ((cfg4.win 5).blk t).view.emb j = ix2 (⟨(j 0).val, (j 0).isLt⟩ : Fin 1024) (⟨(j 1).val, (j 1).isLt⟩ : Fin 6) := by
    funext a; apply Fin.ext
    match a with
    | ⟨0, _⟩ => show win4_5.index t (0 : Fin 2) * 1024 + 1 * (j 0).val = (j 0).val; omega
    | ⟨1, _⟩ => show win4_5.index t (1 : Fin 2) * 6 + 1 * (j 1).val = (j 1).val; omega
  show k4_pay1 (iblk4 V c 0 t) (iblk4 V c 1 t) (iblk4 V c 2 t) (iblk4 V c 3 t) (iblk4 V c 4 t) j
      = G V c (((cfg4.win 5).blk t).view.emb j)
  rw [hE]
  exact (congrArg _ (eq_ix2 (n0 := 1024) (n1 := 6) j)).trans (tile_eq V c t ⟨(j 0).val, (j 0).isLt⟩ ⟨(j 1).val, (j 1).isLt⟩)

theorem mem_blk5 (t : Fin cfg4.N) (i : S1024x6.Idx) :
    i ∈ ((cfg4.win 5).blk t).view.set ↔ ∀ a : Fin 2, win4_5.index t a * S1024x6.size a ≤ (i a).val ∧ (i a).val < win4_5.index t a * S1024x6.size a + S1024x6.size a := by
  show i ∈ ((View.whole main_v125).slice (win4_5.rect t)).set ↔ _
  rw [View.set_slice_whole, Rect.mem_set_unit]
  exact Iff.rfl

theorem cover5 (i : S1024x6.Idx) : ∃ t : Fin cfg4.N, (cfg4.win 5).flush t = true ∧ i ∈ ((cfg4.win 5).blk t).view.set := by
  have hi0 : (i 0).val < 1024 := (i 0).isLt
  have hi1 : (i 1).val < 6 := (i 1).isLt
  let t : Fin cfg4.N := t4_0
  obtain ⟨e0a, e0b, e1a, e1b, e2, e3a, e3b, e4, e5a, e5b⟩ := idx_facts t
  refine ⟨t, flush4_5 t, ?_⟩
  rw [mem_blk5]
  intro a
  match a with
  | ⟨0, _⟩ => show win4_5.index t (0 : Fin 2) * 1024 ≤ (i 0).val ∧ (i 0).val < win4_5.index t (0 : Fin 2) * 1024 + 1024; omega
  | ⟨1, _⟩ => show win4_5.index t (1 : Fin 2) * 6 ≤ (i 1).val ∧ (i 1).val < win4_5.index t (1 : Fin 2) * 6 + 6; omega

/-- The output array after the region: the head of the arrays the region found. -/
theorem final5 (c : Dev nD) : (dat4 V c).arrAt 5 cfg4.N = G V c :=
  (dat4 V c).arrAt_eq_of_cover 5 (G V c) (fun t _ => flushed5 V c t) (cover5)

end Cert.Gin.Head

end
-- ==== Proof.KernelChain.lean ====
/-
  The kernel's arrays, segment by segment.

  Followed from the launch, every array a region of the kernel leaves is the network's array at the same place. A
  region leaves the specification's layer of the arrays it finds. Those are, by the segments before it: the
  features so far; the aggregate of the neighbours' features — gathered and scatter-added by whole-array operations
  from the kernel's copy of the features in a narrower float format, which on the extended reals is the same array —;
  and the layer's slices of the stacked parameters. The pooling before the head is whole-array operations again.
-/
import proofs.«152072_j43654047596746_2_alg».proof.Proof.KernelKept
import proofs.«152072_j43654047596746_2_alg».proof.Proof.RegionEmbed
import proofs.«152072_j43654047596746_2_alg».proof.Proof.RegionLayer1
import proofs.«152072_j43654047596746_2_alg».proof.Proof.RegionLayer2
import proofs.«152072_j43654047596746_2_alg».proof.Proof.RegionLayer3
import proofs.«152072_j43654047596746_2_alg».proof.Proof.RegionHead
import proofs.«152072_j43654047596746_2_alg».proof.Proof.Net

set_option maxRecDepth 16384

noncomputable section

namespace Cert.Gin.Chain

open Cert.KernelIdeal Cert.KernelIdeal.Gen Idealize.ShloMosaic Idealize.ShloMosaic.TcCoe Idealize.ShloMosaic.StableHlo Idealize.SL.Sem
open Cert.Gin

variable (m : (ℓ : Loc nD τ sig) → Buf (Elt Ideal) ℓ) (ρ : Dev nD → PrngReg) (c : Dev nD)

/-! ## The embedding -/

/-- The array the embedding region leaves is the embedded features. -/
theorem embed_eq : Embed.G (V1 m ρ) c = (Net.h0 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show hidden (M := 200000) (K := 128) (N := 64) (W1 m ρ c (Proc.devRef .tc main_arg0)) (W1 m ρ c (Proc.devRef .tc main_arg3)) (W1 m ρ c (Proc.devRef .tc main_arg4))
    (W1 m ρ c (Proc.devRef .tc main_arg5)) (W1 m ρ c (Proc.devRef .tc main_arg6)) (W1 m ρ c (Proc.devRef .tc main_arg7))
    (W1 m ρ c (Proc.devRef .tc main_arg8)) = _
  rw [Kept.W1_main_arg0 m ρ c, Kept.W1_main_arg3 m ρ c, Kept.W1_main_arg4 m ρ c, Kept.W1_main_arg5 m ρ c, Kept.W1_main_arg6 m ρ c,
    Kept.W1_main_arg7 m ρ c, Kept.W1_main_arg8 m ρ c]
  rfl

theorem W2_main_v4_0 : W2 m ρ c (Proc.devRef .tc main_v4_0) = (Net.h0 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W2_arr m ρ c 7).trans ((Embed.final7 (V1 m ρ) c).trans (embed_eq m ρ c))

theorem W2_main_v4_1 : W2 m ρ c (Proc.devRef .tc main_v4_1) = (Net.h0 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W2_arr m ρ c 8).trans ((Embed.final8 (V1 m ρ) c).trans (embed_eq m ρ c))

/-! ## Graph layer 1 -/

theorem W3_main_v4_0 : W3 m ρ c (Proc.devRef .tc main_v4_0) = (Net.h0 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps1 (W2 m ρ c) (Proc.devRef .tc main_v4_0) = _
  after_results_simp
  rw [W2_main_v4_0 m ρ c]

theorem W3_main_v15 : W3 m ρ c (Proc.devRef .tc main_v15) = Net.agg (m ((c : Thread nD τ).loc main_arg1)) (Net.h0 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps1 (W2 m ρ c) (Proc.devRef .tc main_v15) = _
  after_results_simp
  rw [Kept.W2_main_v3 m ρ c, W2_main_v4_1 m ρ c, Kept.W2_main_v1 m ρ c]
  rfl

theorem W3_main_v17 : W3 m ρ c (Proc.devRef .tc main_v17) = Net.mat0 (m ((c : Thread nD τ).loc main_arg9)) := by
  show StableHlo.after hostOps1 (W2 m ρ c) (Proc.devRef .tc main_v17) = _
  after_results_simp
  rw [Kept.W2_main_arg9 m ρ c]
  rfl

theorem W3_main_v19 : W3 m ρ c (Proc.devRef .tc main_v19) = Net.vec0 (m ((c : Thread nD τ).loc main_arg10)) := by
  show StableHlo.after hostOps1 (W2 m ρ c) (Proc.devRef .tc main_v19) = _
  after_results_simp
  rw [Kept.W2_main_arg10 m ρ c]
  rfl

theorem W3_main_v21 : W3 m ρ c (Proc.devRef .tc main_v21) = Net.vec0 (m ((c : Thread nD τ).loc main_arg11)) := by
  show StableHlo.after hostOps1 (W2 m ρ c) (Proc.devRef .tc main_v21) = _
  after_results_simp
  rw [Kept.W2_main_arg11 m ρ c]
  rfl

theorem W3_main_v23 : W3 m ρ c (Proc.devRef .tc main_v23) = Net.vec0 (m ((c : Thread nD τ).loc main_arg12)) := by
  show StableHlo.after hostOps1 (W2 m ρ c) (Proc.devRef .tc main_v23) = _
  after_results_simp
  rw [Kept.W2_main_arg12 m ρ c]
  rfl

theorem W3_main_v25 : W3 m ρ c (Proc.devRef .tc main_v25) = Net.vec0 (m ((c : Thread nD τ).loc main_arg13)) := by
  show StableHlo.after hostOps1 (W2 m ρ c) (Proc.devRef .tc main_v25) = _
  after_results_simp
  rw [Kept.W2_main_arg13 m ρ c]
  rfl

theorem W3_main_v27 : W3 m ρ c (Proc.devRef .tc main_v27) = Net.vec0 (m ((c : Thread nD τ).loc main_arg14)) := by
  show StableHlo.after hostOps1 (W2 m ρ c) (Proc.devRef .tc main_v27) = _
  after_results_simp
  rw [Kept.W2_main_arg14 m ρ c]
  rfl

theorem W3_main_v29 : W3 m ρ c (Proc.devRef .tc main_v29) = Net.mat0 (m ((c : Thread nD τ).loc main_arg15)) := by
  show StableHlo.after hostOps1 (W2 m ρ c) (Proc.devRef .tc main_v29) = _
  after_results_simp
  rw [Kept.W2_main_arg15 m ρ c]
  rfl

theorem W3_main_v31 : W3 m ρ c (Proc.devRef .tc main_v31) = Net.vec0 (m ((c : Thread nD τ).loc main_arg16)) := by
  show StableHlo.after hostOps1 (W2 m ρ c) (Proc.devRef .tc main_v31) = _
  after_results_simp
  rw [Kept.W2_main_arg16 m ρ c]
  rfl

theorem W3_main_v33 : W3 m ρ c (Proc.devRef .tc main_v33) = Net.vec0 (m ((c : Thread nD τ).loc main_arg17)) := by
  show StableHlo.after hostOps1 (W2 m ρ c) (Proc.devRef .tc main_v33) = _
  after_results_simp
  rw [Kept.W2_main_arg17 m ρ c]
  rfl

theorem W3_main_v35 : W3 m ρ c (Proc.devRef .tc main_v35) = Net.vec0 (m ((c : Thread nD τ).loc main_arg18)) := by
  show StableHlo.after hostOps1 (W2 m ρ c) (Proc.devRef .tc main_v35) = _
  after_results_simp
  rw [Kept.W2_main_arg18 m ρ c]
  rfl

theorem W3_main_v37 : W3 m ρ c (Proc.devRef .tc main_v37) = Net.vec0 (m ((c : Thread nD τ).loc main_arg19)) := by
  show StableHlo.after hostOps1 (W2 m ρ c) (Proc.devRef .tc main_v37) = _
  after_results_simp
  rw [Kept.W2_main_arg19 m ρ c]
  rfl

theorem W3_main_v39 : W3 m ρ c (Proc.devRef .tc main_v39) = Net.vec0 (m ((c : Thread nD τ).loc main_arg20)) := by
  show StableHlo.after hostOps1 (W2 m ρ c) (Proc.devRef .tc main_v39) = _
  after_results_simp
  rw [Kept.W2_main_arg20 m ρ c]
  rfl

/-- The arrays the region leaves are the features after layer 1. -/
theorem layer1_eq : Layer1.G (V3 m ρ) c = (Net.feat1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  show hidden (M := 200000) (K := 64) (N := 64) (hidden (M := 200000) (K := 64) (N := 64) (addRows (M := 200000) (K := 64) (W3 m ρ c (Proc.devRef .tc main_v4_0)) (W3 m ρ c (Proc.devRef .tc main_v15)))
      (W3 m ρ c (Proc.devRef .tc main_v17)) (W3 m ρ c (Proc.devRef .tc main_v19)) (W3 m ρ c (Proc.devRef .tc main_v21)) (W3 m ρ c (Proc.devRef .tc main_v23)) (W3 m ρ c (Proc.devRef .tc main_v25)) (W3 m ρ c (Proc.devRef .tc main_v27)))
      (W3 m ρ c (Proc.devRef .tc main_v29)) (W3 m ρ c (Proc.devRef .tc main_v31)) (W3 m ρ c (Proc.devRef .tc main_v33)) (W3 m ρ c (Proc.devRef .tc main_v35)) (W3 m ρ c (Proc.devRef .tc main_v37)) (W3 m ρ c (Proc.devRef .tc main_v39)) = _
  rw [W3_main_v4_0 m ρ c, W3_main_v15 m ρ c, W3_main_v17 m ρ c, W3_main_v19 m ρ c, W3_main_v21 m ρ c, W3_main_v23 m ρ c, W3_main_v25 m ρ c, W3_main_v27 m ρ c, W3_main_v29 m ρ c, W3_main_v31 m ρ c, W3_main_v33 m ρ c, W3_main_v35 m ρ c, W3_main_v37 m ρ c, W3_main_v39 m ρ c]
  rfl

theorem W4_main_v40_0 : W4 m ρ c (Proc.devRef .tc main_v40_0) = (Net.feat1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) :=
  (W4_arr m ρ c 14).trans ((Layer1.final14 (V3 m ρ) c).trans (layer1_eq m ρ c))

theorem W4_main_v40_1 : W4 m ρ c (Proc.devRef .tc main_v40_1) = (Net.feat1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) :=
  (W4_arr m ρ c 15).trans ((Layer1.final15 (V3 m ρ) c).trans (layer1_eq m ρ c))

/-! ## Graph layer 2 -/

theorem W5_main_v40_0 : W5 m ρ c (Proc.devRef .tc main_v40_0) = (Net.feat1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  show StableHlo.after hostOps2 (W4 m ρ c) (Proc.devRef .tc main_v40_0) = _
  after_results_simp
  rw [W4_main_v40_0 m ρ c]

theorem W5_main_v51 : W5 m ρ c (Proc.devRef .tc main_v51) = Net.agg (m ((c : Thread nD τ).loc main_arg1)) (Net.feat1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  show StableHlo.after hostOps2 (W4 m ρ c) (Proc.devRef .tc main_v51) = _
  after_results_simp
  rw [Kept.W4_main_v3 m ρ c, W4_main_v40_1 m ρ c, Kept.W4_main_v1 m ρ c]
  rfl

theorem W5_main_v53 : W5 m ρ c (Proc.devRef .tc main_v53) = Net.mat1 (m ((c : Thread nD τ).loc main_arg9)) := by
  show StableHlo.after hostOps2 (W4 m ρ c) (Proc.devRef .tc main_v53) = _
  after_results_simp
  rw [Kept.W4_main_arg9 m ρ c]
  rfl

theorem W5_main_v55 : W5 m ρ c (Proc.devRef .tc main_v55) = Net.vec1 (m ((c : Thread nD τ).loc main_arg10)) := by
  show StableHlo.after hostOps2 (W4 m ρ c) (Proc.devRef .tc main_v55) = _
  after_results_simp
  rw [Kept.W4_main_arg10 m ρ c]
  rfl

theorem W5_main_v57 : W5 m ρ c (Proc.devRef .tc main_v57) = Net.vec1 (m ((c : Thread nD τ).loc main_arg11)) := by
  show StableHlo.after hostOps2 (W4 m ρ c) (Proc.devRef .tc main_v57) = _
  after_results_simp
  rw [Kept.W4_main_arg11 m ρ c]
  rfl

theorem W5_main_v59 : W5 m ρ c (Proc.devRef .tc main_v59) = Net.vec1 (m ((c : Thread nD τ).loc main_arg12)) := by
  show StableHlo.after hostOps2 (W4 m ρ c) (Proc.devRef .tc main_v59) = _
  after_results_simp
  rw [Kept.W4_main_arg12 m ρ c]
  rfl

theorem W5_main_v61 : W5 m ρ c (Proc.devRef .tc main_v61) = Net.vec1 (m ((c : Thread nD τ).loc main_arg13)) := by
  show StableHlo.after hostOps2 (W4 m ρ c) (Proc.devRef .tc main_v61) = _
  after_results_simp
  rw [Kept.W4_main_arg13 m ρ c]
  rfl

theorem W5_main_v63 : W5 m ρ c (Proc.devRef .tc main_v63) = Net.vec1 (m ((c : Thread nD τ).loc main_arg14)) := by
  show StableHlo.after hostOps2 (W4 m ρ c) (Proc.devRef .tc main_v63) = _
  after_results_simp
  rw [Kept.W4_main_arg14 m ρ c]
  rfl

theorem W5_main_v65 : W5 m ρ c (Proc.devRef .tc main_v65) = Net.mat1 (m ((c : Thread nD τ).loc main_arg15)) := by
  show StableHlo.after hostOps2 (W4 m ρ c) (Proc.devRef .tc main_v65) = _
  after_results_simp
  rw [Kept.W4_main_arg15 m ρ c]
  rfl

theorem W5_main_v67 : W5 m ρ c (Proc.devRef .tc main_v67) = Net.vec1 (m ((c : Thread nD τ).loc main_arg16)) := by
  show StableHlo.after hostOps2 (W4 m ρ c) (Proc.devRef .tc main_v67) = _
  after_results_simp
  rw [Kept.W4_main_arg16 m ρ c]
  rfl

theorem W5_main_v69 : W5 m ρ c (Proc.devRef .tc main_v69) = Net.vec1 (m ((c : Thread nD τ).loc main_arg17)) := by
  show StableHlo.after hostOps2 (W4 m ρ c) (Proc.devRef .tc main_v69) = _
  after_results_simp
  rw [Kept.W4_main_arg17 m ρ c]
  rfl

theorem W5_main_v71 : W5 m ρ c (Proc.devRef .tc main_v71) = Net.vec1 (m ((c : Thread nD τ).loc main_arg18)) := by
  show StableHlo.after hostOps2 (W4 m ρ c) (Proc.devRef .tc main_v71) = _
  after_results_simp
  rw [Kept.W4_main_arg18 m ρ c]
  rfl

theorem W5_main_v73 : W5 m ρ c (Proc.devRef .tc main_v73) = Net.vec1 (m ((c : Thread nD τ).loc main_arg19)) := by
  show StableHlo.after hostOps2 (W4 m ρ c) (Proc.devRef .tc main_v73) = _
  after_results_simp
  rw [Kept.W4_main_arg19 m ρ c]
  rfl

theorem W5_main_v75 : W5 m ρ c (Proc.devRef .tc main_v75) = Net.vec1 (m ((c : Thread nD τ).loc main_arg20)) := by
  show StableHlo.after hostOps2 (W4 m ρ c) (Proc.devRef .tc main_v75) = _
  after_results_simp
  rw [Kept.W4_main_arg20 m ρ c]
  rfl

/-- The arrays the region leaves are the features after layer 2. -/
theorem layer2_eq : Layer2.G (V5 m ρ) c = (Net.feat2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  show hidden (M := 200000) (K := 64) (N := 64) (hidden (M := 200000) (K := 64) (N := 64) (addRows (M := 200000) (K := 64) (W5 m ρ c (Proc.devRef .tc main_v40_0)) (W5 m ρ c (Proc.devRef .tc main_v51)))
      (W5 m ρ c (Proc.devRef .tc main_v53)) (W5 m ρ c (Proc.devRef .tc main_v55)) (W5 m ρ c (Proc.devRef .tc main_v57)) (W5 m ρ c (Proc.devRef .tc main_v59)) (W5 m ρ c (Proc.devRef .tc main_v61)) (W5 m ρ c (Proc.devRef .tc main_v63)))
      (W5 m ρ c (Proc.devRef .tc main_v65)) (W5 m ρ c (Proc.devRef .tc main_v67)) (W5 m ρ c (Proc.devRef .tc main_v69)) (W5 m ρ c (Proc.devRef .tc main_v71)) (W5 m ρ c (Proc.devRef .tc main_v73)) (W5 m ρ c (Proc.devRef .tc main_v75)) = _
  rw [W5_main_v40_0 m ρ c, W5_main_v51 m ρ c, W5_main_v53 m ρ c, W5_main_v55 m ρ c, W5_main_v57 m ρ c, W5_main_v59 m ρ c, W5_main_v61 m ρ c, W5_main_v63 m ρ c, W5_main_v65 m ρ c, W5_main_v67 m ρ c, W5_main_v69 m ρ c, W5_main_v71 m ρ c, W5_main_v73 m ρ c, W5_main_v75 m ρ c]
  rfl

theorem W6_main_v76_0 : W6 m ρ c (Proc.devRef .tc main_v76_0) = (Net.feat2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) :=
  (W6_arr m ρ c 14).trans ((Layer2.final14 (V5 m ρ) c).trans (layer2_eq m ρ c))

theorem W6_main_v76_1 : W6 m ρ c (Proc.devRef .tc main_v76_1) = (Net.feat2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) :=
  (W6_arr m ρ c 15).trans ((Layer2.final15 (V5 m ρ) c).trans (layer2_eq m ρ c))

/-! ## Graph layer 3 -/

theorem W7_main_v76_0 : W7 m ρ c (Proc.devRef .tc main_v76_0) = (Net.feat2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  show StableHlo.after hostOps3 (W6 m ρ c) (Proc.devRef .tc main_v76_0) = _
  after_results_simp
  rw [W6_main_v76_0 m ρ c]

theorem W7_main_v87 : W7 m ρ c (Proc.devRef .tc main_v87) = Net.agg (m ((c : Thread nD τ).loc main_arg1)) (Net.feat2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  show StableHlo.after hostOps3 (W6 m ρ c) (Proc.devRef .tc main_v87) = _
  after_results_simp
  rw [Kept.W6_main_v3 m ρ c, W6_main_v76_1 m ρ c, Kept.W6_main_v1 m ρ c]
  rfl

theorem W7_main_v89 : W7 m ρ c (Proc.devRef .tc main_v89) = Net.mat2 (m ((c : Thread nD τ).loc main_arg9)) := by
  show StableHlo.after hostOps3 (W6 m ρ c) (Proc.devRef .tc main_v89) = _
  after_results_simp
  rw [Kept.W6_main_arg9 m ρ c]
  rfl

theorem W7_main_v91 : W7 m ρ c (Proc.devRef .tc main_v91) = Net.vec2 (m ((c : Thread nD τ).loc main_arg10)) := by
  show StableHlo.after hostOps3 (W6 m ρ c) (Proc.devRef .tc main_v91) = _
  after_results_simp
  rw [Kept.W6_main_arg10 m ρ c]
  rfl

theorem W7_main_v93 : W7 m ρ c (Proc.devRef .tc main_v93) = Net.vec2 (m ((c : Thread nD τ).loc main_arg11)) := by
  show StableHlo.after hostOps3 (W6 m ρ c) (Proc.devRef .tc main_v93) = _
  after_results_simp
  rw [Kept.W6_main_arg11 m ρ c]
  rfl

theorem W7_main_v95 : W7 m ρ c (Proc.devRef .tc main_v95) = Net.vec2 (m ((c : Thread nD τ).loc main_arg12)) := by
  show StableHlo.after hostOps3 (W6 m ρ c) (Proc.devRef .tc main_v95) = _
  after_results_simp
  rw [Kept.W6_main_arg12 m ρ c]
  rfl

theorem W7_main_v97 : W7 m ρ c (Proc.devRef .tc main_v97) = Net.vec2 (m ((c : Thread nD τ).loc main_arg13)) := by
  show StableHlo.after hostOps3 (W6 m ρ c) (Proc.devRef .tc main_v97) = _
  after_results_simp
  rw [Kept.W6_main_arg13 m ρ c]
  rfl

theorem W7_main_v99 : W7 m ρ c (Proc.devRef .tc main_v99) = Net.vec2 (m ((c : Thread nD τ).loc main_arg14)) := by
  show StableHlo.after hostOps3 (W6 m ρ c) (Proc.devRef .tc main_v99) = _
  after_results_simp
  rw [Kept.W6_main_arg14 m ρ c]
  rfl

theorem W7_main_v101 : W7 m ρ c (Proc.devRef .tc main_v101) = Net.mat2 (m ((c : Thread nD τ).loc main_arg15)) := by
  show StableHlo.after hostOps3 (W6 m ρ c) (Proc.devRef .tc main_v101) = _
  after_results_simp
  rw [Kept.W6_main_arg15 m ρ c]
  rfl

theorem W7_main_v103 : W7 m ρ c (Proc.devRef .tc main_v103) = Net.vec2 (m ((c : Thread nD τ).loc main_arg16)) := by
  show StableHlo.after hostOps3 (W6 m ρ c) (Proc.devRef .tc main_v103) = _
  after_results_simp
  rw [Kept.W6_main_arg16 m ρ c]
  rfl

theorem W7_main_v105 : W7 m ρ c (Proc.devRef .tc main_v105) = Net.vec2 (m ((c : Thread nD τ).loc main_arg17)) := by
  show StableHlo.after hostOps3 (W6 m ρ c) (Proc.devRef .tc main_v105) = _
  after_results_simp
  rw [Kept.W6_main_arg17 m ρ c]
  rfl

theorem W7_main_v107 : W7 m ρ c (Proc.devRef .tc main_v107) = Net.vec2 (m ((c : Thread nD τ).loc main_arg18)) := by
  show StableHlo.after hostOps3 (W6 m ρ c) (Proc.devRef .tc main_v107) = _
  after_results_simp
  rw [Kept.W6_main_arg18 m ρ c]
  rfl

theorem W7_main_v109 : W7 m ρ c (Proc.devRef .tc main_v109) = Net.vec2 (m ((c : Thread nD τ).loc main_arg19)) := by
  show StableHlo.after hostOps3 (W6 m ρ c) (Proc.devRef .tc main_v109) = _
  after_results_simp
  rw [Kept.W6_main_arg19 m ρ c]
  rfl

theorem W7_main_v111 : W7 m ρ c (Proc.devRef .tc main_v111) = Net.vec2 (m ((c : Thread nD τ).loc main_arg20)) := by
  show StableHlo.after hostOps3 (W6 m ρ c) (Proc.devRef .tc main_v111) = _
  after_results_simp
  rw [Kept.W6_main_arg20 m ρ c]
  rfl

/-- The arrays the region leaves are the features after layer 3. -/
theorem layer3_eq : Layer3.G (V7 m ρ) c = (Net.feat3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  show hidden (M := 200000) (K := 64) (N := 64) (hidden (M := 200000) (K := 64) (N := 64) (addRows (M := 200000) (K := 64) (W7 m ρ c (Proc.devRef .tc main_v76_0)) (W7 m ρ c (Proc.devRef .tc main_v87)))
      (W7 m ρ c (Proc.devRef .tc main_v89)) (W7 m ρ c (Proc.devRef .tc main_v91)) (W7 m ρ c (Proc.devRef .tc main_v93)) (W7 m ρ c (Proc.devRef .tc main_v95)) (W7 m ρ c (Proc.devRef .tc main_v97)) (W7 m ρ c (Proc.devRef .tc main_v99)))
      (W7 m ρ c (Proc.devRef .tc main_v101)) (W7 m ρ c (Proc.devRef .tc main_v103)) (W7 m ρ c (Proc.devRef .tc main_v105)) (W7 m ρ c (Proc.devRef .tc main_v107)) (W7 m ρ c (Proc.devRef .tc main_v109)) (W7 m ρ c (Proc.devRef .tc main_v111)) = _
  rw [W7_main_v76_0 m ρ c, W7_main_v87 m ρ c, W7_main_v89 m ρ c, W7_main_v91 m ρ c, W7_main_v93 m ρ c, W7_main_v95 m ρ c, W7_main_v97 m ρ c, W7_main_v99 m ρ c, W7_main_v101 m ρ c, W7_main_v103 m ρ c, W7_main_v105 m ρ c, W7_main_v107 m ρ c, W7_main_v109 m ρ c, W7_main_v111 m ρ c]
  rfl

theorem W8_main_v112_0 : W8 m ρ c (Proc.devRef .tc main_v112_0) = (Net.feat3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) :=
  (W8_arr m ρ c 14).trans ((Layer3.final14 (V7 m ρ) c).trans (layer3_eq m ρ c))

theorem W8_main_v112_1 : W8 m ρ c (Proc.devRef .tc main_v112_1) = (Net.feat3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) :=
  (W8_arr m ρ c 15).trans ((Layer3.final15 (V7 m ρ) c).trans (layer3_eq m ρ c))

/-! ## The pooling and the head -/

theorem W9_main_v124 : W9 m ρ c (Proc.devRef .tc main_v124) = Net.pool (m ((c : Thread nD τ).loc main_arg2)) (Net.feat3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  show StableHlo.after hostOps4 (W8 m ρ c) (Proc.devRef .tc main_v124) = _
  after_results_simp
  rw [Kept.W8_main_arg2 m ρ c, W8_main_v112_0 m ρ c]
  rfl

/-- The array the last region leaves is the network's result. -/
theorem head_eq : Head.G (V9 m ρ) c = (Net.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))) := by
  show affine (M := 1024) (K := 32) (N := 6) (affineRelu (M := 1024) (K := 64) (N := 32) (W9 m ρ c (Proc.devRef .tc main_v124)) (W9 m ρ c (Proc.devRef .tc main_arg21)) (W9 m ρ c (Proc.devRef .tc main_arg22)))
    (W9 m ρ c (Proc.devRef .tc main_arg23)) (W9 m ρ c (Proc.devRef .tc main_arg24)) = _
  rw [W9_main_v124 m ρ c, Kept.W9_main_arg21 m ρ c, Kept.W9_main_arg22 m ρ c, Kept.W9_main_arg23 m ρ c, Kept.W9_main_arg24 m ρ c]
  rfl

/-- THE KERNEL'S RESULT: the buffer the program returns ends holding the network's result of the launch arguments. -/
theorem result_eq : W10 m ρ c (Proc.devRef .tc main_v125) = (Net.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))) :=
  (W10_arr m ρ c 5).trans ((Head.final5 (V9 m ρ) c).trans (head_eq m ρ c))

end Cert.Gin.Chain

end
-- ==== Proof.RefOps.lean ====
/-
  The reference as a straight line of whole-array operations, in five stretches.

  The reference's @main is 306 whole-array operations and nothing else. They are listed here in program order, cut
  after the embedding, after each of the three graph layers, and at the end: every weakly fair execution of @main
  terminates, and each buffer then holds what the operations, run in order from the launch contents, leave in it.
-/
import proofs.«152072_j43654047596746_2_alg».proof.Proof.Gen.ReferenceIdeal
import Idealize.ShloMosaic.Lib.StableHlo.Run
import Idealize.ShloMosaic.PureOps.Ideal.Laws

set_option maxRecDepth 8192

noncomputable section

namespace Cert.Gin.RefOps

open Cert.ReferenceIdeal Cert.ReferenceIdeal.Gen Idealize.ShloMosaic Idealize.ShloMosaic.TcCoe Idealize.SL.Sem Idealize.ShloMosaic.StableHlo

variable {F : FTy → Type} [FloatOps F]

/-- Operations 1 … 27 of @main. -/
abbrev seg0 : List (HloOp τ sig (Elt F)) :=
  [ unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    reshape main_v0 main_v1 rfl shapeCasts_S1x1200000_S1200000,
    unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    reshape main_v2 main_v3 rfl shapeCasts_S1x1200000_S1200000,
    binary main_arg0 main_arg3 main_v4 ((fun l r => Host.dotGeneral dot_S200000x128_S128x64_S200000x64_1_0_0_1_n_n none l r) : (⟨S200000x128, .f32⟩ : BufTy).Contents (Elt F) → (⟨S128x64, .f32⟩ : BufTy).Contents (Elt F) → (⟨S200000x64, .f32⟩ : BufTy).Contents (Elt F)),
    unary main_arg4 main_v5 (broadcastInDim S1x64 ![1] bcast_S64_S1x64_1 : (⟨S64, .f32⟩ : BufTy).Contents (Elt F) → (⟨S1x64, .f32⟩ : BufTy).Contents (Elt F)),
    unary main_v5 main_v6 (broadcastInDim S200000x64 ![0, 1] bcast_S1x64_S200000x64_0_1 : (⟨S1x64, .f32⟩ : BufTy).Contents (Elt F) → (⟨S200000x64, .f32⟩ : BufTy).Contents (Elt F)),
    binary main_v4 main_v6 main_v7 (addf : (⟨S200000x64, .f32⟩ : BufTy).Contents (Elt F) → (⟨S200000x64, .f32⟩ : BufTy).Contents (Elt F) → (⟨S200000x64, .f32⟩ : BufTy).Contents (Elt F)),
    unary main_arg7 main_v8 (broadcastInDim S1x64 ![1] bcast_S64_S1x64_1 : (⟨S64, .f32⟩ : BufTy).Contents (Elt F) → (⟨S1x64, .f32⟩ : BufTy).Contents (Elt F)),
    unary main_v8 main_v9 (broadcastInDim S200000x64 ![0, 1] bcast_S1x64_S200000x64_0_1 : (⟨S1x64, .f32⟩ : BufTy).Contents (Elt F) → (⟨S200000x64, .f32⟩ : BufTy).Contents (Elt F)),
    binary main_v7 main_v9 main_v10 (subf : (⟨S200000x64, .f32⟩ : BufTy).Contents (Elt F) → (⟨S200000x64, .f32⟩ : BufTy).Contents (Elt F) → (⟨S200000x64, .f32⟩ : BufTy).Contents (Elt F)),
    nullary main_cst (constant S_ .f32 0x3727C5AC#32),
    unary main_cst main_v11 (broadcastInDim S64 ![] bcast_S_S64 : (⟨S_, .f32⟩ : BufTy).Contents (Elt F) → (⟨S64, .f32⟩ : BufTy).Contents (Elt F)),
    binary main_arg8 main_v11 main_v12 (addf : (⟨S64, .f32⟩ : BufTy).Contents (Elt F) → (⟨S64, .f32⟩ : BufTy).Contents (Elt F) → (⟨S64, .f32⟩ : BufTy).Contents (Elt F)),
    unary main_v12 main_v13 (Host.rsqrt : (⟨S64, .f32⟩ : BufTy).Contents (Elt F) → (⟨S64, .f32⟩ : BufTy).Contents (Elt F)),
    unary main_v13 main_v14 (broadcastInDim S1x64 ![1] bcast_S64_S1x64_1 : (⟨S64, .f32⟩ : BufTy).Contents (Elt F) → (⟨S1x64, .f32⟩ : BufTy).Contents (Elt F)),
    unary main_v14 main_v15 (broadcastInDim S200000x64 ![0, 1] bcast_S1x64_S200000x64_0_1 : (⟨S1x64, .f32⟩ : BufTy).Contents (Elt F) → (⟨S200000x64, .f32⟩ : BufTy).Contents (Elt F)),
    binary main_v10 main_v15 main_v16 (mulf : (⟨S200000x64, .f32⟩ : BufTy).Contents (Elt F) → (⟨S200000x64, .f32⟩ : BufTy).Contents (Elt F) → (⟨S200000x64, .f32⟩ : BufTy).Contents (Elt F)),
    unary main_arg5 main_v17 (broadcastInDim S1x64 ![1] bcast_S64_S1x64_1 : (⟨S64, .f32⟩ : BufTy).Contents (Elt F) → (⟨S1x64, .f32⟩ : BufTy).Contents (Elt F)),
    unary main_v17 main_v18 (broadcastInDim S200000x64 ![0, 1] bcast_S1x64_S200000x64_0_1 : (⟨S1x64, .f32⟩ : BufTy).Contents (Elt F) → (⟨S200000x64, .f32⟩ : BufTy).Contents (Elt F)),
    binary main_v16 main_v18 main_v19 (mulf : (⟨S200000x64, .f32⟩ : BufTy).Contents (Elt F) → (⟨S200000x64, .f32⟩ : BufTy).Contents (Elt F) → (⟨S200000x64, .f32⟩ : BufTy).Contents (Elt F)),
    unary main_arg6 main_v20 (broadcastInDim S1x64 ![1] bcast_S64_S1x64_1 : (⟨S64, .f32⟩ : BufTy).Contents (Elt F) → (⟨S1x64, .f32⟩ : BufTy).Contents (Elt F)),
    unary main_v20 main_v21 (broadcastInDim S200000x64 ![0, 1] bcast_S1x64_S200000x64_0_1 : (⟨S1x64, .f32⟩ : BufTy).Contents (Elt F) → (⟨S200000x64, .f32⟩ : BufTy).Contents (Elt F)),
    binary main_v19 main_v21 main_v22 (addf : (⟨S200000x64, .f32⟩ : BufTy).Contents (Elt F) → (⟨S200000x64, .f32⟩ : BufTy).Contents (Elt F) → (⟨S200000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S200000x64, .f32⟩) main_call0_v0) (broadcastInDim S200000x64 ![] bcast_S_S200000x64),
    TRef.binary (TRef.of (T := ⟨S200000x64, .f32⟩) main_v22) (TRef.of (T := ⟨S200000x64, .f32⟩) main_call0_v0) (TRef.of (T := ⟨S200000x64, .f32⟩) main_v23) maximumf ]

theorem seg0_sub : (seg0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The buffers segment 0 writes. -/
abbrev wr0 : List (Ref sig .tc) := [main_v0, main_v1, main_v2, main_v3, main_v4, main_v5, main_v6, main_v7, main_v8, main_v9, main_v10, main_cst, main_v11, main_v12, main_v13, main_v14, main_v15, main_v16, main_v17, main_v18, main_v19, main_v20, main_v21, main_v22, main_call0_cst, main_call0_v0, main_v23]

/-- Operations 28 … 111 of @main. -/
abbrev seg1 : List (HloOp τ sig (Elt F)) :=
  [ nullary main_c (constantI S_ 32 0#32),
    unary main_c main_v24 (broadcastInDim S1200000 ![] bcast_S_S1200000 : (⟨S_, .i32⟩ : BufTy).Contents (Elt F) → (⟨S1200000, .i32⟩ : BufTy).Contents (Elt F)),
    binary main_v1 main_v24 main_v25 (cmpi .slt : (⟨S1200000, .i32⟩ : BufTy).Contents (Elt F) → (⟨S1200000, .i32⟩ : BufTy).Contents (Elt F) → (⟨S1200000, .i1⟩ : BufTy).Contents (Elt F)),
    nullary main_c_0 (constantI S_ 32 200000#32),
    unary main_c_0 main_v26 (broadcastInDim S1200000 ![] bcast_S_S1200000 : (⟨S_, .i32⟩ : BufTy).Contents (Elt F) → (⟨S1200000, .i32⟩ : BufTy).Contents (Elt F)),
    binary main_v1 main_v26 main_v27 (addi : (⟨S1200000, .i32⟩ : BufTy).Contents (Elt F) → (⟨S1200000, .i32⟩ : BufTy).Contents (Elt F) → (⟨S1200000, .i32⟩ : BufTy).Contents (Elt F)),
    ternary main_v25 main_v27 main_v1 main_v28 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v28 main_v29 (broadcastInDim S1200000x1 ![0] bcast_S1200000_S1200000x1_0 : (⟨S1200000, .i32⟩ : BufTy).Contents (Elt F) → (⟨S1200000x1, .i32⟩ : BufTy).Contents (Elt F)),
    binary main_v23 main_v29 main_v30 ((fun x i => Host.gather gather_S200000x64_S1200000x1_S1200000x64_1_0_n_n_0_1_164 x i) : (⟨S200000x64, .f32⟩ : BufTy).Contents (Elt F) → (⟨S1200000x1, .i32⟩ : BufTy).Contents (Elt F) → (⟨S1200000x64, .f32⟩ : BufTy).Contents (Elt F)),
    nullary main_cst_1 (constant S_ .f32 0x00000000#32),
    unary main_cst_1 main_v31 (broadcastInDim S200000x64 ![] bcast_S_S200000x64 : (⟨S_, .f32⟩ : BufTy).Contents (Elt F) → (⟨S200000x64, .f32⟩ : BufTy).Contents (Elt F)),
    unary main_v3 main_v32 (broadcastInDim S1200000x1 ![0] bcast_S1200000_S1200000x1_0 : (⟨S1200000, .i32⟩ : BufTy).Contents (Elt F) → (⟨S1200000x1, .i32⟩ : BufTy).Contents (Elt F)),
    ternary main_v31 main_v32 main_v30 main_v33 ((fun x i u => Host.scatterAdd scatter_S200000x64_S1200000x1_S1200000x64_1_0_0_1 x i u) : (⟨S200000x64, .f32⟩ : BufTy).Contents (Elt F) → (⟨S1200000x1, .i32⟩ : BufTy).Contents (Elt F) → (⟨S1200000x64, .f32⟩ : BufTy).Contents (Elt F) → (⟨S200000x64, .f32⟩ : BufTy).Contents (Elt F)),
    binary main_v23 main_v33 main_v34 (addf : (⟨S200000x64, .f32⟩ : BufTy).Contents (Elt F) → (⟨S200000x64, .f32⟩ : BufTy).Contents (Elt F) → (⟨S200000x64, .f32⟩ : BufTy).Contents (Elt F)),
    unary main_arg9 main_v35 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v35 main_v36 rfl shapeCasts_S1x64x64_S64x64,
    binary main_v34 main_v36 main_v37 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    unary main_arg10 main_v38 ((extractStridedSlice S1x64 ![0, 0] · slices_S3x64_S1x64_0_0) : (⟨S3x64, .f32⟩ : BufTy).Contents (Elt F) → (⟨S1x64, .f32⟩ : BufTy).Contents (Elt F)),
    reshape main_v38 main_v39 rfl shapeCasts_S1x64_S64,
    unary main_v39 main_v40 (broadcastInDim S1x64 ![1] bcast_S64_S1x64_1 : (⟨S64, .f32⟩ : BufTy).Contents (Elt F) → (⟨S1x64, .f32⟩ : BufTy).Contents (Elt F)),
    unary main_v40 main_v41 (broadcastInDim S200000x64 ![0, 1] bcast_S1x64_S200000x64_0_1 : (⟨S1x64, .f32⟩ : BufTy).Contents (Elt F) → (⟨S200000x64, .f32⟩ : BufTy).Contents (Elt F)),
    binary main_v37 main_v41 main_v42 (addf : (⟨S200000x64, .f32⟩ : BufTy).Contents (Elt F) → (⟨S200000x64, .f32⟩ : BufTy).Contents (Elt F) → (⟨S200000x64, .f32⟩ : BufTy).Contents (Elt F)),
    unary main_arg11 main_v43 ((extractStridedSlice S1x64 ![0, 0] · slices_S3x64_S1x64_0_0) : (⟨S3x64, .f32⟩ : BufTy).Contents (Elt F) → (⟨S1x64, .f32⟩ : BufTy).Contents (Elt F)),
    reshape main_v43 main_v44 rfl shapeCasts_S1x64_S64,
    unary main_arg12 main_v45 ((extractStridedSlice S1x64 ![0, 0] · slices_S3x64_S1x64_0_0) : (⟨S3x64, .f32⟩ : BufTy).Contents (Elt F) → (⟨S1x64, .f32⟩ : BufTy).Contents (Elt F)),
    reshape main_v45 main_v46 rfl shapeCasts_S1x64_S64,
    unary main_arg13 main_v47 ((extractStridedSlice S1x64 ![0, 0] · slices_S3x64_S1x64_0_0) : (⟨S3x64, .f32⟩ : BufTy).Contents (Elt F) → (⟨S1x64, .f32⟩ : BufTy).Contents (Elt F)),
    reshape main_v47 main_v48 rfl shapeCasts_S1x64_S64,
    unary main_arg14 main_v49 ((extractStridedSlice S1x64 ![0, 0] · slices_S3x64_S1x64_0_0) : (⟨S3x64, .f32⟩ : BufTy).Contents (Elt F) → (⟨S1x64, .f32⟩ : BufTy).Contents (Elt F)),
    reshape main_v49 main_v50 rfl shapeCasts_S1x64_S64,
    unary main_v48 main_v51 (broadcastInDim S1x64 ![1] bcast_S64_S1x64_1 : (⟨S64, .f32⟩ : BufTy).Contents (Elt F) → (⟨S1x64, .f32⟩ : BufTy).Contents (Elt F)),
    unary main_v51 main_v52 (broadcastInDim S200000x64 ![0, 1] bcast_S1x64_S200000x64_0_1 : (⟨S1x64, .f32⟩ : BufTy).Contents (Elt F) → (⟨S200000x64, .f32⟩ : BufTy).Contents (Elt F)),
    binary main_v42 main_v52 main_v53 (subf : (⟨S200000x64, .f32⟩ : BufTy).Contents (Elt F) → (⟨S200000x64, .f32⟩ : BufTy).Contents (Elt F) → (⟨S200000x64, .f32⟩ : BufTy).Contents (Elt F)),
    nullary main_cst_2 (constant S_ .f32 0x3727C5AC#32),
    unary main_cst_2 main_v54 (broadcastInDim S64 ![] bcast_S_S64 : (⟨S_, .f32⟩ : BufTy).Contents (Elt F) → (⟨S64, .f32⟩ : BufTy).Contents (Elt F)),
    binary main_v50 main_v54 main_v55 (addf : (⟨S64, .f32⟩ : BufTy).Contents (Elt F) → (⟨S64, .f32⟩ : BufTy).Contents (Elt F) → (⟨S64, .f32⟩ : BufTy).Contents (Elt F)),
    unary main_v55 main_v56 (Host.rsqrt : (⟨S64, .f32⟩ : BufTy).Contents (Elt F) → (⟨S64, .f32⟩ : BufTy).Contents (Elt F)),
    unary main_v56 main_v57 (broadcastInDim S1x64 ![1] bcast_S64_S1x64_1 : (⟨S64, .f32⟩ : BufTy).Contents (Elt F) → (⟨S1x64, .f32⟩ : BufTy).Contents (Elt F)),
    unary main_v57 main_v58 (broadcastInDim S200000x64 ![0, 1] bcast_S1x64_S200000x64_0_1 : (⟨S1x64, .f32⟩ : BufTy).Contents (Elt F) → (⟨S200000x64, .f32⟩ : BufTy).Contents (Elt F)),
    binary main_v53 main_v58 main_v59 (mulf : (⟨S200000x64, .f32⟩ : BufTy).Contents (Elt F) → (⟨S200000x64, .f32⟩ : BufTy).Contents (Elt F) → (⟨S200000x64, .f32⟩ : BufTy).Contents (Elt F)),
    unary main_v44 main_v60 (broadcastInDim S1x64 ![1] bcast_S64_S1x64_1 : (⟨S64, .f32⟩ : BufTy).Contents (Elt F) → (⟨S1x64, .f32⟩ : BufTy).Contents (Elt F)),
    unary main_v60 main_v61 (broadcastInDim S200000x64 ![0, 1] bcast_S1x64_S200000x64_0_1 : (⟨S1x64, .f32⟩ : BufTy).Contents (Elt F) → (⟨S200000x64, .f32⟩ : BufTy).Contents (Elt F)),
    binary main_v59 main_v61 main_v62 (mulf : (⟨S200000x64, .f32⟩ : BufTy).Contents (Elt F) → (⟨S200000x64, .f32⟩ : BufTy).Contents (Elt F) → (⟨S200000x64, .f32⟩ : BufTy).Contents (Elt F)),
    unary main_v46 main_v63 (broadcastInDim S1x64 ![1] bcast_S64_S1x64_1 : (⟨S64, .f32⟩ : BufTy).Contents (Elt F) → (⟨S1x64, .f32⟩ : BufTy).Contents (Elt F)),
    unary main_v63 main_v64 (broadcastInDim S200000x64 ![0, 1] bcast_S1x64_S200000x64_0_1 : (⟨S1x64, .f32⟩ : BufTy).Contents (Elt F) → (⟨S200000x64, .f32⟩ : BufTy).Contents (Elt F)),
    binary main_v62 main_v64 main_v65 (addf : (⟨S200000x64, .f32⟩ : BufTy).Contents (Elt F) → (⟨S200000x64, .f32⟩ : BufTy).Contents (Elt F) → (⟨S200000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S200000x64, .f32⟩) main_call1_v0) (broadcastInDim S200000x64 ![] bcast_S_S200000x64),
    TRef.binary (TRef.of (T := ⟨S200000x64, .f32⟩) main_v65) (TRef.of (T := ⟨S200000x64, .f32⟩) main_call1_v0) (TRef.of (T := ⟨S200000x64, .f32⟩) main_v66) maximumf,
    unary main_arg15 main_v67 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v67 main_v68 rfl shapeCasts_S1x64x64_S64x64,
    binary main_v66 main_v68 main_v69 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    unary main_arg16 main_v70 ((extractStridedSlice S1x64 ![0, 0] · slices_S3x64_S1x64_0_0) : (⟨S3x64, .f32⟩ : BufTy).Contents (Elt F) → (⟨S1x64, .f32⟩ : BufTy).Contents (Elt F)),
    reshape main_v70 main_v71 rfl shapeCasts_S1x64_S64,
    unary main_v71 main_v72 (broadcastInDim S1x64 ![1] bcast_S64_S1x64_1 : (⟨S64, .f32⟩ : BufTy).Contents (Elt F) → (⟨S1x64, .f32⟩ : BufTy).Contents (Elt F)),
    unary main_v72 main_v73 (broadcastInDim S200000x64 ![0, 1] bcast_S1x64_S200000x64_0_1 : (⟨S1x64, .f32⟩ : BufTy).Contents (Elt F) → (⟨S200000x64, .f32⟩ : BufTy).Contents (Elt F)),
    binary main_v69 main_v73 main_v74 (addf : (⟨S200000x64, .f32⟩ : BufTy).Contents (Elt F) → (⟨S200000x64, .f32⟩ : BufTy).Contents (Elt F) → (⟨S200000x64, .f32⟩ : BufTy).Contents (Elt F)),
    unary main_arg17 main_v75 ((extractStridedSlice S1x64 ![0, 0] · slices_S3x64_S1x64_0_0) : (⟨S3x64, .f32⟩ : BufTy).Contents (Elt F) → (⟨S1x64, .f32⟩ : BufTy).Contents (Elt F)),
    reshape main_v75 main_v76 rfl shapeCasts_S1x64_S64,
    unary main_arg18 main_v77 ((extractStridedSlice S1x64 ![0, 0] · slices_S3x64_S1x64_0_0) : (⟨S3x64, .f32⟩ : BufTy).Contents (Elt F) → (⟨S1x64, .f32⟩ : BufTy).Contents (Elt F)),
    reshape main_v77 main_v78 rfl shapeCasts_S1x64_S64,
    unary main_arg19 main_v79 ((extractStridedSlice S1x64 ![0, 0] · slices_S3x64_S1x64_0_0) : (⟨S3x64, .f32⟩ : BufTy).Contents (Elt F) → (⟨S1x64, .f32⟩ : BufTy).Contents (Elt F)),
    reshape main_v79 main_v80 rfl shapeCasts_S1x64_S64,
    unary main_arg20 main_v81 ((extractStridedSlice S1x64 ![0, 0] · slices_S3x64_S1x64_0_0) : (⟨S3x64, .f32⟩ : BufTy).Contents (Elt F) → (⟨S1x64, .f32⟩ : BufTy).Contents (Elt F)),
    reshape main_v81 main_v82 rfl shapeCasts_S1x64_S64,
    unary main_v80 main_v83 (broadcastInDim S1x64 ![1] bcast_S64_S1x64_1 : (⟨S64, .f32⟩ : BufTy).Contents (Elt F) → (⟨S1x64, .f32⟩ : BufTy).Contents (Elt F)),
    unary main_v83 main_v84 (broadcastInDim S200000x64 ![0, 1] bcast_S1x64_S200000x64_0_1 : (⟨S1x64, .f32⟩ : BufTy).Contents (Elt F) → (⟨S200000x64, .f32⟩ : BufTy).Contents (Elt F)),
    binary main_v74 main_v84 main_v85 (subf : (⟨S200000x64, .f32⟩ : BufTy).Contents (Elt F) → (⟨S200000x64, .f32⟩ : BufTy).Contents (Elt F) → (⟨S200000x64, .f32⟩ : BufTy).Contents (Elt F)),
    nullary main_cst_3 (constant S_ .f32 0x3727C5AC#32),
    unary main_cst_3 main_v86 (broadcastInDim S64 ![] bcast_S_S64 : (⟨S_, .f32⟩ : BufTy).Contents (Elt F) → (⟨S64, .f32⟩ : BufTy).Contents (Elt F)),
    binary main_v82 main_v86 main_v87 (addf : (⟨S64, .f32⟩ : BufTy).Contents (Elt F) → (⟨S64, .f32⟩ : BufTy).Contents (Elt F) → (⟨S64, .f32⟩ : BufTy).Contents (Elt F)),
    unary main_v87 main_v88 (Host.rsqrt : (⟨S64, .f32⟩ : BufTy).Contents (Elt F) → (⟨S64, .f32⟩ : BufTy).Contents (Elt F)),
    unary main_v88 main_v89 (broadcastInDim S1x64 ![1] bcast_S64_S1x64_1 : (⟨S64, .f32⟩ : BufTy).Contents (Elt F) → (⟨S1x64, .f32⟩ : BufTy).Contents (Elt F)),
    unary main_v89 main_v90 (broadcastInDim S200000x64 ![0, 1] bcast_S1x64_S200000x64_0_1 : (⟨S1x64, .f32⟩ : BufTy).Contents (Elt F) → (⟨S200000x64, .f32⟩ : BufTy).Contents (Elt F)),
    binary main_v85 main_v90 main_v91 (mulf : (⟨S200000x64, .f32⟩ : BufTy).Contents (Elt F) → (⟨S200000x64, .f32⟩ : BufTy).Contents (Elt F) → (⟨S200000x64, .f32⟩ : BufTy).Contents (Elt F)),
    unary main_v76 main_v92 (broadcastInDim S1x64 ![1] bcast_S64_S1x64_1 : (⟨S64, .f32⟩ : BufTy).Contents (Elt F) → (⟨S1x64, .f32⟩ : BufTy).Contents (Elt F)),
    unary main_v92 main_v93 (broadcastInDim S200000x64 ![0, 1] bcast_S1x64_S200000x64_0_1 : (⟨S1x64, .f32⟩ : BufTy).Contents (Elt F) → (⟨S200000x64, .f32⟩ : BufTy).Contents (Elt F)),
    binary main_v91 main_v93 main_v94 (mulf : (⟨S200000x64, .f32⟩ : BufTy).Contents (Elt F) → (⟨S200000x64, .f32⟩ : BufTy).Contents (Elt F) → (⟨S200000x64, .f32⟩ : BufTy).Contents (Elt F)),
    unary main_v78 main_v95 (broadcastInDim S1x64 ![1] bcast_S64_S1x64_1 : (⟨S64, .f32⟩ : BufTy).Contents (Elt F) → (⟨S1x64, .f32⟩ : BufTy).Contents (Elt F)),
    unary main_v95 main_v96 (broadcastInDim S200000x64 ![0, 1] bcast_S1x64_S200000x64_0_1 : (⟨S1x64, .f32⟩ : BufTy).Contents (Elt F) → (⟨S200000x64, .f32⟩ : BufTy).Contents (Elt F)),
    binary main_v94 main_v96 main_v97 (addf : (⟨S200000x64, .f32⟩ : BufTy).Contents (Elt F) → (⟨S200000x64, .f32⟩ : BufTy).Contents (Elt F) → (⟨S200000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S200000x64, .f32⟩) main_call2_v0) (broadcastInDim S200000x64 ![] bcast_S_S200000x64),
    TRef.binary (TRef.of (T := ⟨S200000x64, .f32⟩) main_v97) (TRef.of (T := ⟨S200000x64, .f32⟩) main_call2_v0) (TRef.of (T := ⟨S200000x64, .f32⟩) main_v98) maximumf ]

theorem seg1_sub : (seg1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The buffers segment 1 writes. -/
abbrev wr1 : List (Ref sig .tc) := [main_c, main_v24, main_v25, main_c_0, main_v26, main_v27, main_v28, main_v29, main_v30, main_cst_1, main_v31, main_v32, main_v33, main_v34, main_v35, main_v36, main_v37, main_v38, main_v39, main_v40, main_v41, main_v42, main_v43, main_v44, main_v45, main_v46, main_v47, main_v48, main_v49, main_v50, main_v51, main_v52, main_v53, main_cst_2, main_v54, main_v55, main_v56, main_v57, main_v58, main_v59, main_v60, main_v61, main_v62, main_v63, main_v64, main_v65, main_call1_cst, main_call1_v0, main_v66, main_v67, main_v68, main_v69, main_v70, main_v71, main_v72, main_v73, main_v74, main_v75, main_v76, main_v77, main_v78, main_v79, main_v80, main_v81, main_v82, main_v83, main_v84, main_v85, main_cst_3, main_v86, main_v87, main_v88, main_v89, main_v90, main_v91, main_v92, main_v93, main_v94, main_v95, main_v96, main_v97, main_call2_cst, main_call2_v0, main_v98]

/-- Operations 112 … 195 of @main. -/
abbrev seg2 : List (HloOp τ sig (Elt F)) :=
  [ nullary main_c_4 (constantI S_ 32 0#32),
    unary main_c_4 main_v99 (broadcastInDim S1200000 ![] bcast_S_S1200000 : (⟨S_, .i32⟩ : BufTy).Contents (Elt F) → (⟨S1200000, .i32⟩ : BufTy).Contents (Elt F)),
    binary main_v1 main_v99 main_v100 (cmpi .slt : (⟨S1200000, .i32⟩ : BufTy).Contents (Elt F) → (⟨S1200000, .i32⟩ : BufTy).Contents (Elt F) → (⟨S1200000, .i1⟩ : BufTy).Contents (Elt F)),
    nullary main_c_5 (constantI S_ 32 200000#32),
    unary main_c_5 main_v101 (broadcastInDim S1200000 ![] bcast_S_S1200000 : (⟨S_, .i32⟩ : BufTy).Contents (Elt F) → (⟨S1200000, .i32⟩ : BufTy).Contents (Elt F)),
    binary main_v1 main_v101 main_v102 (addi : (⟨S1200000, .i32⟩ : BufTy).Contents (Elt F) → (⟨S1200000, .i32⟩ : BufTy).Contents (Elt F) → (⟨S1200000, .i32⟩ : BufTy).Contents (Elt F)),
    ternary main_v100 main_v102 main_v1 main_v103 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v103 main_v104 (broadcastInDim S1200000x1 ![0] bcast_S1200000_S1200000x1_0 : (⟨S1200000, .i32⟩ : BufTy).Contents (Elt F) → (⟨S1200000x1, .i32⟩ : BufTy).Contents (Elt F)),
    binary main_v98 main_v104 main_v105 ((fun x i => Host.gather gather_S200000x64_S1200000x1_S1200000x64_1_0_n_n_0_1_164 x i) : (⟨S200000x64, .f32⟩ : BufTy).Contents (Elt F) → (⟨S1200000x1, .i32⟩ : BufTy).Contents (Elt F) → (⟨S1200000x64, .f32⟩ : BufTy).Contents (Elt F)),
    nullary main_cst_6 (constant S_ .f32 0x00000000#32),
    unary main_cst_6 main_v106 (broadcastInDim S200000x64 ![] bcast_S_S200000x64 : (⟨S_, .f32⟩ : BufTy).Contents (Elt F) → (⟨S200000x64, .f32⟩ : BufTy).Contents (Elt F)),
    unary main_v3 main_v107 (broadcastInDim S1200000x1 ![0] bcast_S1200000_S1200000x1_0 : (⟨S1200000, .i32⟩ : BufTy).Contents (Elt F) → (⟨S1200000x1, .i32⟩ : BufTy).Contents (Elt F)),
    ternary main_v106 main_v107 main_v105 main_v108 ((fun x i u => Host.scatterAdd scatter_S200000x64_S1200000x1_S1200000x64_1_0_0_1 x i u) : (⟨S200000x64, .f32⟩ : BufTy).Contents (Elt F) → (⟨S1200000x1, .i32⟩ : BufTy).Contents (Elt F) → (⟨S1200000x64, .f32⟩ : BufTy).Contents (Elt F) → (⟨S200000x64, .f32⟩ : BufTy).Contents (Elt F)),
    binary main_v98 main_v108 main_v109 (addf : (⟨S200000x64, .f32⟩ : BufTy).Contents (Elt F) → (⟨S200000x64, .f32⟩ : BufTy).Contents (Elt F) → (⟨S200000x64, .f32⟩ : BufTy).Contents (Elt F)),
    unary main_arg9 main_v110 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v110 main_v111 rfl shapeCasts_S1x64x64_S64x64,
    binary main_v109 main_v111 main_v112 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    unary main_arg10 main_v113 ((extractStridedSlice S1x64 ![1, 0] · slices_S3x64_S1x64_1_0) : (⟨S3x64, .f32⟩ : BufTy).Contents (Elt F) → (⟨S1x64, .f32⟩ : BufTy).Contents (Elt F)),
    reshape main_v113 main_v114 rfl shapeCasts_S1x64_S64,
    unary main_v114 main_v115 (broadcastInDim S1x64 ![1] bcast_S64_S1x64_1 : (⟨S64, .f32⟩ : BufTy).Contents (Elt F) → (⟨S1x64, .f32⟩ : BufTy).Contents (Elt F)),
    unary main_v115 main_v116 (broadcastInDim S200000x64 ![0, 1] bcast_S1x64_S200000x64_0_1 : (⟨S1x64, .f32⟩ : BufTy).Contents (Elt F) → (⟨S200000x64, .f32⟩ : BufTy).Contents (Elt F)),
    binary main_v112 main_v116 main_v117 (addf : (⟨S200000x64, .f32⟩ : BufTy).Contents (Elt F) → (⟨S200000x64, .f32⟩ : BufTy).Contents (Elt F) → (⟨S200000x64, .f32⟩ : BufTy).Contents (Elt F)),
    unary main_arg11 main_v118 ((extractStridedSlice S1x64 ![1, 0] · slices_S3x64_S1x64_1_0) : (⟨S3x64, .f32⟩ : BufTy).Contents (Elt F) → (⟨S1x64, .f32⟩ : BufTy).Contents (Elt F)),
    reshape main_v118 main_v119 rfl shapeCasts_S1x64_S64,
    unary main_arg12 main_v120 ((extractStridedSlice S1x64 ![1, 0] · slices_S3x64_S1x64_1_0) : (⟨S3x64, .f32⟩ : BufTy).Contents (Elt F) → (⟨S1x64, .f32⟩ : BufTy).Contents (Elt F)),
    reshape main_v120 main_v121 rfl shapeCasts_S1x64_S64,
    unary main_arg13 main_v122 ((extractStridedSlice S1x64 ![1, 0] · slices_S3x64_S1x64_1_0) : (⟨S3x64, .f32⟩ : BufTy).Contents (Elt F) → (⟨S1x64, .f32⟩ : BufTy).Contents (Elt F)),
    reshape main_v122 main_v123 rfl shapeCasts_S1x64_S64,
    unary main_arg14 main_v124 ((extractStridedSlice S1x64 ![1, 0] · slices_S3x64_S1x64_1_0) : (⟨S3x64, .f32⟩ : BufTy).Contents (Elt F) → (⟨S1x64, .f32⟩ : BufTy).Contents (Elt F)),
    reshape main_v124 main_v125 rfl shapeCasts_S1x64_S64,
    unary main_v123 main_v126 (broadcastInDim S1x64 ![1] bcast_S64_S1x64_1 : (⟨S64, .f32⟩ : BufTy).Contents (Elt F) → (⟨S1x64, .f32⟩ : BufTy).Contents (Elt F)),
    unary main_v126 main_v127 (broadcastInDim S200000x64 ![0, 1] bcast_S1x64_S200000x64_0_1 : (⟨S1x64, .f32⟩ : BufTy).Contents (Elt F) → (⟨S200000x64, .f32⟩ : BufTy).Contents (Elt F)),
    binary main_v117 main_v127 main_v128 (subf : (⟨S200000x64, .f32⟩ : BufTy).Contents (Elt F) → (⟨S200000x64, .f32⟩ : BufTy).Contents (Elt F) → (⟨S200000x64, .f32⟩ : BufTy).Contents (Elt F)),
    nullary main_cst_7 (constant S_ .f32 0x3727C5AC#32),
    unary main_cst_7 main_v129 (broadcastInDim S64 ![] bcast_S_S64 : (⟨S_, .f32⟩ : BufTy).Contents (Elt F) → (⟨S64, .f32⟩ : BufTy).Contents (Elt F)),
    binary main_v125 main_v129 main_v130 (addf : (⟨S64, .f32⟩ : BufTy).Contents (Elt F) → (⟨S64, .f32⟩ : BufTy).Contents (Elt F) → (⟨S64, .f32⟩ : BufTy).Contents (Elt F)),
    unary main_v130 main_v131 (Host.rsqrt : (⟨S64, .f32⟩ : BufTy).Contents (Elt F) → (⟨S64, .f32⟩ : BufTy).Contents (Elt F)),
    unary main_v131 main_v132 (broadcastInDim S1x64 ![1] bcast_S64_S1x64_1 : (⟨S64, .f32⟩ : BufTy).Contents (Elt F) → (⟨S1x64, .f32⟩ : BufTy).Contents (Elt F)),
    unary main_v132 main_v133 (broadcastInDim S200000x64 ![0, 1] bcast_S1x64_S200000x64_0_1 : (⟨S1x64, .f32⟩ : BufTy).Contents (Elt F) → (⟨S200000x64, .f32⟩ : BufTy).Contents (Elt F)),
    binary main_v128 main_v133 main_v134 (mulf : (⟨S200000x64, .f32⟩ : BufTy).Contents (Elt F) → (⟨S200000x64, .f32⟩ : BufTy).Contents (Elt F) → (⟨S200000x64, .f32⟩ : BufTy).Contents (Elt F)),
    unary main_v119 main_v135 (broadcastInDim S1x64 ![1] bcast_S64_S1x64_1 : (⟨S64, .f32⟩ : BufTy).Contents (Elt F) → (⟨S1x64, .f32⟩ : BufTy).Contents (Elt F)),
    unary main_v135 main_v136 (broadcastInDim S200000x64 ![0, 1] bcast_S1x64_S200000x64_0_1 : (⟨S1x64, .f32⟩ : BufTy).Contents (Elt F) → (⟨S200000x64, .f32⟩ : BufTy).Contents (Elt F)),
    binary main_v134 main_v136 main_v137 (mulf : (⟨S200000x64, .f32⟩ : BufTy).Contents (Elt F) → (⟨S200000x64, .f32⟩ : BufTy).Contents (Elt F) → (⟨S200000x64, .f32⟩ : BufTy).Contents (Elt F)),
    unary main_v121 main_v138 (broadcastInDim S1x64 ![1] bcast_S64_S1x64_1 : (⟨S64, .f32⟩ : BufTy).Contents (Elt F) → (⟨S1x64, .f32⟩ : BufTy).Contents (Elt F)),
    unary main_v138 main_v139 (broadcastInDim S200000x64 ![0, 1] bcast_S1x64_S200000x64_0_1 : (⟨S1x64, .f32⟩ : BufTy).Contents (Elt F) → (⟨S200000x64, .f32⟩ : BufTy).Contents (Elt F)),
    binary main_v137 main_v139 main_v140 (addf : (⟨S200000x64, .f32⟩ : BufTy).Contents (Elt F) → (⟨S200000x64, .f32⟩ : BufTy).Contents (Elt F) → (⟨S200000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S200000x64, .f32⟩) main_call3_v0) (broadcastInDim S200000x64 ![] bcast_S_S200000x64),
    TRef.binary (TRef.of (T := ⟨S200000x64, .f32⟩) main_v140) (TRef.of (T := ⟨S200000x64, .f32⟩) main_call3_v0) (TRef.of (T := ⟨S200000x64, .f32⟩) main_v141) maximumf,
    unary main_arg15 main_v142 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v142 main_v143 rfl shapeCasts_S1x64x64_S64x64,
    binary main_v141 main_v143 main_v144 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    unary main_arg16 main_v145 ((extractStridedSlice S1x64 ![1, 0] · slices_S3x64_S1x64_1_0) : (⟨S3x64, .f32⟩ : BufTy).Contents (Elt F) → (⟨S1x64, .f32⟩ : BufTy).Contents (Elt F)),
    reshape main_v145 main_v146 rfl shapeCasts_S1x64_S64,
    unary main_v146 main_v147 (broadcastInDim S1x64 ![1] bcast_S64_S1x64_1 : (⟨S64, .f32⟩ : BufTy).Contents (Elt F) → (⟨S1x64, .f32⟩ : BufTy).Contents (Elt F)),
    unary main_v147 main_v148 (broadcastInDim S200000x64 ![0, 1] bcast_S1x64_S200000x64_0_1 : (⟨S1x64, .f32⟩ : BufTy).Contents (Elt F) → (⟨S200000x64, .f32⟩ : BufTy).Contents (Elt F)),
    binary main_v144 main_v148 main_v149 (addf : (⟨S200000x64, .f32⟩ : BufTy).Contents (Elt F) → (⟨S200000x64, .f32⟩ : BufTy).Contents (Elt F) → (⟨S200000x64, .f32⟩ : BufTy).Contents (Elt F)),
    unary main_arg17 main_v150 ((extractStridedSlice S1x64 ![1, 0] · slices_S3x64_S1x64_1_0) : (⟨S3x64, .f32⟩ : BufTy).Contents (Elt F) → (⟨S1x64, .f32⟩ : BufTy).Contents (Elt F)),
    reshape main_v150 main_v151 rfl shapeCasts_S1x64_S64,
    unary main_arg18 main_v152 ((extractStridedSlice S1x64 ![1, 0] · slices_S3x64_S1x64_1_0) : (⟨S3x64, .f32⟩ : BufTy).Contents (Elt F) → (⟨S1x64, .f32⟩ : BufTy).Contents (Elt F)),
    reshape main_v152 main_v153 rfl shapeCasts_S1x64_S64,
    unary main_arg19 main_v154 ((extractStridedSlice S1x64 ![1, 0] · slices_S3x64_S1x64_1_0) : (⟨S3x64, .f32⟩ : BufTy).Contents (Elt F) → (⟨S1x64, .f32⟩ : BufTy).Contents (Elt F)),
    reshape main_v154 main_v155 rfl shapeCasts_S1x64_S64,
    unary main_arg20 main_v156 ((extractStridedSlice S1x64 ![1, 0] · slices_S3x64_S1x64_1_0) : (⟨S3x64, .f32⟩ : BufTy).Contents (Elt F) → (⟨S1x64, .f32⟩ : BufTy).Contents (Elt F)),
    reshape main_v156 main_v157 rfl shapeCasts_S1x64_S64,
    unary main_v155 main_v158 (broadcastInDim S1x64 ![1] bcast_S64_S1x64_1 : (⟨S64, .f32⟩ : BufTy).Contents (Elt F) → (⟨S1x64, .f32⟩ : BufTy).Contents (Elt F)),
    unary main_v158 main_v159 (broadcastInDim S200000x64 ![0, 1] bcast_S1x64_S200000x64_0_1 : (⟨S1x64, .f32⟩ : BufTy).Contents (Elt F) → (⟨S200000x64, .f32⟩ : BufTy).Contents (Elt F)),
    binary main_v149 main_v159 main_v160 (subf : (⟨S200000x64, .f32⟩ : BufTy).Contents (Elt F) → (⟨S200000x64, .f32⟩ : BufTy).Contents (Elt F) → (⟨S200000x64, .f32⟩ : BufTy).Contents (Elt F)),
    nullary main_cst_8 (constant S_ .f32 0x3727C5AC#32),
    unary main_cst_8 main_v161 (broadcastInDim S64 ![] bcast_S_S64 : (⟨S_, .f32⟩ : BufTy).Contents (Elt F) → (⟨S64, .f32⟩ : BufTy).Contents (Elt F)),
    binary main_v157 main_v161 main_v162 (addf : (⟨S64, .f32⟩ : BufTy).Contents (Elt F) → (⟨S64, .f32⟩ : BufTy).Contents (Elt F) → (⟨S64, .f32⟩ : BufTy).Contents (Elt F)),
    unary main_v162 main_v163 (Host.rsqrt : (⟨S64, .f32⟩ : BufTy).Contents (Elt F) → (⟨S64, .f32⟩ : BufTy).Contents (Elt F)),
    unary main_v163 main_v164 (broadcastInDim S1x64 ![1] bcast_S64_S1x64_1 : (⟨S64, .f32⟩ : BufTy).Contents (Elt F) → (⟨S1x64, .f32⟩ : BufTy).Contents (Elt F)),
    unary main_v164 main_v165 (broadcastInDim S200000x64 ![0, 1] bcast_S1x64_S200000x64_0_1 : (⟨S1x64, .f32⟩ : BufTy).Contents (Elt F) → (⟨S200000x64, .f32⟩ : BufTy).Contents (Elt F)),
    binary main_v160 main_v165 main_v166 (mulf : (⟨S200000x64, .f32⟩ : BufTy).Contents (Elt F) → (⟨S200000x64, .f32⟩ : BufTy).Contents (Elt F) → (⟨S200000x64, .f32⟩ : BufTy).Contents (Elt F)),
    unary main_v151 main_v167 (broadcastInDim S1x64 ![1] bcast_S64_S1x64_1 : (⟨S64, .f32⟩ : BufTy).Contents (Elt F) → (⟨S1x64, .f32⟩ : BufTy).Contents (Elt F)),
    unary main_v167 main_v168 (broadcastInDim S200000x64 ![0, 1] bcast_S1x64_S200000x64_0_1 : (⟨S1x64, .f32⟩ : BufTy).Contents (Elt F) → (⟨S200000x64, .f32⟩ : BufTy).Contents (Elt F)),
    binary main_v166 main_v168 main_v169 (mulf : (⟨S200000x64, .f32⟩ : BufTy).Contents (Elt F) → (⟨S200000x64, .f32⟩ : BufTy).Contents (Elt F) → (⟨S200000x64, .f32⟩ : BufTy).Contents (Elt F)),
    unary main_v153 main_v170 (broadcastInDim S1x64 ![1] bcast_S64_S1x64_1 : (⟨S64, .f32⟩ : BufTy).Contents (Elt F) → (⟨S1x64, .f32⟩ : BufTy).Contents (Elt F)),
    unary main_v170 main_v171 (broadcastInDim S200000x64 ![0, 1] bcast_S1x64_S200000x64_0_1 : (⟨S1x64, .f32⟩ : BufTy).Contents (Elt F) → (⟨S200000x64, .f32⟩ : BufTy).Contents (Elt F)),
    binary main_v169 main_v171 main_v172 (addf : (⟨S200000x64, .f32⟩ : BufTy).Contents (Elt F) → (⟨S200000x64, .f32⟩ : BufTy).Contents (Elt F) → (⟨S200000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S200000x64, .f32⟩) main_call4_v0) (broadcastInDim S200000x64 ![] bcast_S_S200000x64),
    TRef.binary (TRef.of (T := ⟨S200000x64, .f32⟩) main_v172) (TRef.of (T := ⟨S200000x64, .f32⟩) main_call4_v0) (TRef.of (T := ⟨S200000x64, .f32⟩) main_v173) maximumf ]

theorem seg2_sub : (seg2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The buffers segment 2 writes. -/
abbrev wr2 : List (Ref sig .tc) := [main_c_4, main_v99, main_v100, main_c_5, main_v101, main_v102, main_v103, main_v104, main_v105, main_cst_6, main_v106, main_v107, main_v108, main_v109, main_v110, main_v111, main_v112, main_v113, main_v114, main_v115, main_v116, main_v117, main_v118, main_v119, main_v120, main_v121, main_v122, main_v123, main_v124, main_v125, main_v126, main_v127, main_v128, main_cst_7, main_v129, main_v130, main_v131, main_v132, main_v133, main_v134, main_v135, main_v136, main_v137, main_v138, main_v139, main_v140, main_call3_cst, main_call3_v0, main_v141, main_v142, main_v143, main_v144, main_v145, main_v146, main_v147, main_v148, main_v149, main_v150, main_v151, main_v152, main_v153, main_v154, main_v155, main_v156, main_v157, main_v158, main_v159, main_v160, main_cst_8, main_v161, main_v162, main_v163, main_v164, main_v165, main_v166, main_v167, main_v168, main_v169, main_v170, main_v171, main_v172, main_call4_cst, main_call4_v0, main_v173]

/-- Operations 196 … 279 of @main. -/
abbrev seg3 : List (HloOp τ sig (Elt F)) :=
  [ nullary main_c_9 (constantI S_ 32 0#32),
    unary main_c_9 main_v174 (broadcastInDim S1200000 ![] bcast_S_S1200000 : (⟨S_, .i32⟩ : BufTy).Contents (Elt F) → (⟨S1200000, .i32⟩ : BufTy).Contents (Elt F)),
    binary main_v1 main_v174 main_v175 (cmpi .slt : (⟨S1200000, .i32⟩ : BufTy).Contents (Elt F) → (⟨S1200000, .i32⟩ : BufTy).Contents (Elt F) → (⟨S1200000, .i1⟩ : BufTy).Contents (Elt F)),
    nullary main_c_10 (constantI S_ 32 200000#32),
    unary main_c_10 main_v176 (broadcastInDim S1200000 ![] bcast_S_S1200000 : (⟨S_, .i32⟩ : BufTy).Contents (Elt F) → (⟨S1200000, .i32⟩ : BufTy).Contents (Elt F)),
    binary main_v1 main_v176 main_v177 (addi : (⟨S1200000, .i32⟩ : BufTy).Contents (Elt F) → (⟨S1200000, .i32⟩ : BufTy).Contents (Elt F) → (⟨S1200000, .i32⟩ : BufTy).Contents (Elt F)),
    ternary main_v175 main_v177 main_v1 main_v178 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v178 main_v179 (broadcastInDim S1200000x1 ![0] bcast_S1200000_S1200000x1_0 : (⟨S1200000, .i32⟩ : BufTy).Contents (Elt F) → (⟨S1200000x1, .i32⟩ : BufTy).Contents (Elt F)),
    binary main_v173 main_v179 main_v180 ((fun x i => Host.gather gather_S200000x64_S1200000x1_S1200000x64_1_0_n_n_0_1_164 x i) : (⟨S200000x64, .f32⟩ : BufTy).Contents (Elt F) → (⟨S1200000x1, .i32⟩ : BufTy).Contents (Elt F) → (⟨S1200000x64, .f32⟩ : BufTy).Contents (Elt F)),
    nullary main_cst_11 (constant S_ .f32 0x00000000#32),
    unary main_cst_11 main_v181 (broadcastInDim S200000x64 ![] bcast_S_S200000x64 : (⟨S_, .f32⟩ : BufTy).Contents (Elt F) → (⟨S200000x64, .f32⟩ : BufTy).Contents (Elt F)),
    unary main_v3 main_v182 (broadcastInDim S1200000x1 ![0] bcast_S1200000_S1200000x1_0 : (⟨S1200000, .i32⟩ : BufTy).Contents (Elt F) → (⟨S1200000x1, .i32⟩ : BufTy).Contents (Elt F)),
    ternary main_v181 main_v182 main_v180 main_v183 ((fun x i u => Host.scatterAdd scatter_S200000x64_S1200000x1_S1200000x64_1_0_0_1 x i u) : (⟨S200000x64, .f32⟩ : BufTy).Contents (Elt F) → (⟨S1200000x1, .i32⟩ : BufTy).Contents (Elt F) → (⟨S1200000x64, .f32⟩ : BufTy).Contents (Elt F) → (⟨S200000x64, .f32⟩ : BufTy).Contents (Elt F)),
    binary main_v173 main_v183 main_v184 (addf : (⟨S200000x64, .f32⟩ : BufTy).Contents (Elt F) → (⟨S200000x64, .f32⟩ : BufTy).Contents (Elt F) → (⟨S200000x64, .f32⟩ : BufTy).Contents (Elt F)),
    unary main_arg9 main_v185 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v185 main_v186 rfl shapeCasts_S1x64x64_S64x64,
    binary main_v184 main_v186 main_v187 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    unary main_arg10 main_v188 ((extractStridedSlice S1x64 ![2, 0] · slices_S3x64_S1x64_2_0) : (⟨S3x64, .f32⟩ : BufTy).Contents (Elt F) → (⟨S1x64, .f32⟩ : BufTy).Contents (Elt F)),
    reshape main_v188 main_v189 rfl shapeCasts_S1x64_S64,
    unary main_v189 main_v190 (broadcastInDim S1x64 ![1] bcast_S64_S1x64_1 : (⟨S64, .f32⟩ : BufTy).Contents (Elt F) → (⟨S1x64, .f32⟩ : BufTy).Contents (Elt F)),
    unary main_v190 main_v191 (broadcastInDim S200000x64 ![0, 1] bcast_S1x64_S200000x64_0_1 : (⟨S1x64, .f32⟩ : BufTy).Contents (Elt F) → (⟨S200000x64, .f32⟩ : BufTy).Contents (Elt F)),
    binary main_v187 main_v191 main_v192 (addf : (⟨S200000x64, .f32⟩ : BufTy).Contents (Elt F) → (⟨S200000x64, .f32⟩ : BufTy).Contents (Elt F) → (⟨S200000x64, .f32⟩ : BufTy).Contents (Elt F)),
    unary main_arg11 main_v193 ((extractStridedSlice S1x64 ![2, 0] · slices_S3x64_S1x64_2_0) : (⟨S3x64, .f32⟩ : BufTy).Contents (Elt F) → (⟨S1x64, .f32⟩ : BufTy).Contents (Elt F)),
    reshape main_v193 main_v194 rfl shapeCasts_S1x64_S64,
    unary main_arg12 main_v195 ((extractStridedSlice S1x64 ![2, 0] · slices_S3x64_S1x64_2_0) : (⟨S3x64, .f32⟩ : BufTy).Contents (Elt F) → (⟨S1x64, .f32⟩ : BufTy).Contents (Elt F)),
    reshape main_v195 main_v196 rfl shapeCasts_S1x64_S64,
    unary main_arg13 main_v197 ((extractStridedSlice S1x64 ![2, 0] · slices_S3x64_S1x64_2_0) : (⟨S3x64, .f32⟩ : BufTy).Contents (Elt F) → (⟨S1x64, .f32⟩ : BufTy).Contents (Elt F)),
    reshape main_v197 main_v198 rfl shapeCasts_S1x64_S64,
    unary main_arg14 main_v199 ((extractStridedSlice S1x64 ![2, 0] · slices_S3x64_S1x64_2_0) : (⟨S3x64, .f32⟩ : BufTy).Contents (Elt F) → (⟨S1x64, .f32⟩ : BufTy).Contents (Elt F)),
    reshape main_v199 main_v200 rfl shapeCasts_S1x64_S64,
    unary main_v198 main_v201 (broadcastInDim S1x64 ![1] bcast_S64_S1x64_1 : (⟨S64, .f32⟩ : BufTy).Contents (Elt F) → (⟨S1x64, .f32⟩ : BufTy).Contents (Elt F)),
    unary main_v201 main_v202 (broadcastInDim S200000x64 ![0, 1] bcast_S1x64_S200000x64_0_1 : (⟨S1x64, .f32⟩ : BufTy).Contents (Elt F) → (⟨S200000x64, .f32⟩ : BufTy).Contents (Elt F)),
    binary main_v192 main_v202 main_v203 (subf : (⟨S200000x64, .f32⟩ : BufTy).Contents (Elt F) → (⟨S200000x64, .f32⟩ : BufTy).Contents (Elt F) → (⟨S200000x64, .f32⟩ : BufTy).Contents (Elt F)),
    nullary main_cst_12 (constant S_ .f32 0x3727C5AC#32),
    unary main_cst_12 main_v204 (broadcastInDim S64 ![] bcast_S_S64 : (⟨S_, .f32⟩ : BufTy).Contents (Elt F) → (⟨S64, .f32⟩ : BufTy).Contents (Elt F)),
    binary main_v200 main_v204 main_v205 (addf : (⟨S64, .f32⟩ : BufTy).Contents (Elt F) → (⟨S64, .f32⟩ : BufTy).Contents (Elt F) → (⟨S64, .f32⟩ : BufTy).Contents (Elt F)),
    unary main_v205 main_v206 (Host.rsqrt : (⟨S64, .f32⟩ : BufTy).Contents (Elt F) → (⟨S64, .f32⟩ : BufTy).Contents (Elt F)),
    unary main_v206 main_v207 (broadcastInDim S1x64 ![1] bcast_S64_S1x64_1 : (⟨S64, .f32⟩ : BufTy).Contents (Elt F) → (⟨S1x64, .f32⟩ : BufTy).Contents (Elt F)),
    unary main_v207 main_v208 (broadcastInDim S200000x64 ![0, 1] bcast_S1x64_S200000x64_0_1 : (⟨S1x64, .f32⟩ : BufTy).Contents (Elt F) → (⟨S200000x64, .f32⟩ : BufTy).Contents (Elt F)),
    binary main_v203 main_v208 main_v209 (mulf : (⟨S200000x64, .f32⟩ : BufTy).Contents (Elt F) → (⟨S200000x64, .f32⟩ : BufTy).Contents (Elt F) → (⟨S200000x64, .f32⟩ : BufTy).Contents (Elt F)),
    unary main_v194 main_v210 (broadcastInDim S1x64 ![1] bcast_S64_S1x64_1 : (⟨S64, .f32⟩ : BufTy).Contents (Elt F) → (⟨S1x64, .f32⟩ : BufTy).Contents (Elt F)),
    unary main_v210 main_v211 (broadcastInDim S200000x64 ![0, 1] bcast_S1x64_S200000x64_0_1 : (⟨S1x64, .f32⟩ : BufTy).Contents (Elt F) → (⟨S200000x64, .f32⟩ : BufTy).Contents (Elt F)),
    binary main_v209 main_v211 main_v212 (mulf : (⟨S200000x64, .f32⟩ : BufTy).Contents (Elt F) → (⟨S200000x64, .f32⟩ : BufTy).Contents (Elt F) → (⟨S200000x64, .f32⟩ : BufTy).Contents (Elt F)),
    unary main_v196 main_v213 (broadcastInDim S1x64 ![1] bcast_S64_S1x64_1 : (⟨S64, .f32⟩ : BufTy).Contents (Elt F) → (⟨S1x64, .f32⟩ : BufTy).Contents (Elt F)),
    unary main_v213 main_v214 (broadcastInDim S200000x64 ![0, 1] bcast_S1x64_S200000x64_0_1 : (⟨S1x64, .f32⟩ : BufTy).Contents (Elt F) → (⟨S200000x64, .f32⟩ : BufTy).Contents (Elt F)),
    binary main_v212 main_v214 main_v215 (addf : (⟨S200000x64, .f32⟩ : BufTy).Contents (Elt F) → (⟨S200000x64, .f32⟩ : BufTy).Contents (Elt F) → (⟨S200000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S200000x64, .f32⟩) main_call5_v0) (broadcastInDim S200000x64 ![] bcast_S_S200000x64),
    TRef.binary (TRef.of (T := ⟨S200000x64, .f32⟩) main_v215) (TRef.of (T := ⟨S200000x64, .f32⟩) main_call5_v0) (TRef.of (T := ⟨S200000x64, .f32⟩) main_v216) maximumf,
    unary main_arg15 main_v217 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v217 main_v218 rfl shapeCasts_S1x64x64_S64x64,
    binary main_v216 main_v218 main_v219 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    unary main_arg16 main_v220 ((extractStridedSlice S1x64 ![2, 0] · slices_S3x64_S1x64_2_0) : (⟨S3x64, .f32⟩ : BufTy).Contents (Elt F) → (⟨S1x64, .f32⟩ : BufTy).Contents (Elt F)),
    reshape main_v220 main_v221 rfl shapeCasts_S1x64_S64,
    unary main_v221 main_v222 (broadcastInDim S1x64 ![1] bcast_S64_S1x64_1 : (⟨S64, .f32⟩ : BufTy).Contents (Elt F) → (⟨S1x64, .f32⟩ : BufTy).Contents (Elt F)),
    unary main_v222 main_v223 (broadcastInDim S200000x64 ![0, 1] bcast_S1x64_S200000x64_0_1 : (⟨S1x64, .f32⟩ : BufTy).Contents (Elt F) → (⟨S200000x64, .f32⟩ : BufTy).Contents (Elt F)),
    binary main_v219 main_v223 main_v224 (addf : (⟨S200000x64, .f32⟩ : BufTy).Contents (Elt F) → (⟨S200000x64, .f32⟩ : BufTy).Contents (Elt F) → (⟨S200000x64, .f32⟩ : BufTy).Contents (Elt F)),
    unary main_arg17 main_v225 ((extractStridedSlice S1x64 ![2, 0] · slices_S3x64_S1x64_2_0) : (⟨S3x64, .f32⟩ : BufTy).Contents (Elt F) → (⟨S1x64, .f32⟩ : BufTy).Contents (Elt F)),
    reshape main_v225 main_v226 rfl shapeCasts_S1x64_S64,
    unary main_arg18 main_v227 ((extractStridedSlice S1x64 ![2, 0] · slices_S3x64_S1x64_2_0) : (⟨S3x64, .f32⟩ : BufTy).Contents (Elt F) → (⟨S1x64, .f32⟩ : BufTy).Contents (Elt F)),
    reshape main_v227 main_v228 rfl shapeCasts_S1x64_S64,
    unary main_arg19 main_v229 ((extractStridedSlice S1x64 ![2, 0] · slices_S3x64_S1x64_2_0) : (⟨S3x64, .f32⟩ : BufTy).Contents (Elt F) → (⟨S1x64, .f32⟩ : BufTy).Contents (Elt F)),
    reshape main_v229 main_v230 rfl shapeCasts_S1x64_S64,
    unary main_arg20 main_v231 ((extractStridedSlice S1x64 ![2, 0] · slices_S3x64_S1x64_2_0) : (⟨S3x64, .f32⟩ : BufTy).Contents (Elt F) → (⟨S1x64, .f32⟩ : BufTy).Contents (Elt F)),
    reshape main_v231 main_v232 rfl shapeCasts_S1x64_S64,
    unary main_v230 main_v233 (broadcastInDim S1x64 ![1] bcast_S64_S1x64_1 : (⟨S64, .f32⟩ : BufTy).Contents (Elt F) → (⟨S1x64, .f32⟩ : BufTy).Contents (Elt F)),
    unary main_v233 main_v234 (broadcastInDim S200000x64 ![0, 1] bcast_S1x64_S200000x64_0_1 : (⟨S1x64, .f32⟩ : BufTy).Contents (Elt F) → (⟨S200000x64, .f32⟩ : BufTy).Contents (Elt F)),
    binary main_v224 main_v234 main_v235 (subf : (⟨S200000x64, .f32⟩ : BufTy).Contents (Elt F) → (⟨S200000x64, .f32⟩ : BufTy).Contents (Elt F) → (⟨S200000x64, .f32⟩ : BufTy).Contents (Elt F)),
    nullary main_cst_13 (constant S_ .f32 0x3727C5AC#32),
    unary main_cst_13 main_v236 (broadcastInDim S64 ![] bcast_S_S64 : (⟨S_, .f32⟩ : BufTy).Contents (Elt F) → (⟨S64, .f32⟩ : BufTy).Contents (Elt F)),
    binary main_v232 main_v236 main_v237 (addf : (⟨S64, .f32⟩ : BufTy).Contents (Elt F) → (⟨S64, .f32⟩ : BufTy).Contents (Elt F) → (⟨S64, .f32⟩ : BufTy).Contents (Elt F)),
    unary main_v237 main_v238 (Host.rsqrt : (⟨S64, .f32⟩ : BufTy).Contents (Elt F) → (⟨S64, .f32⟩ : BufTy).Contents (Elt F)),
    unary main_v238 main_v239 (broadcastInDim S1x64 ![1] bcast_S64_S1x64_1 : (⟨S64, .f32⟩ : BufTy).Contents (Elt F) → (⟨S1x64, .f32⟩ : BufTy).Contents (Elt F)),
    unary main_v239 main_v240 (broadcastInDim S200000x64 ![0, 1] bcast_S1x64_S200000x64_0_1 : (⟨S1x64, .f32⟩ : BufTy).Contents (Elt F) → (⟨S200000x64, .f32⟩ : BufTy).Contents (Elt F)),
    binary main_v235 main_v240 main_v241 (mulf : (⟨S200000x64, .f32⟩ : BufTy).Contents (Elt F) → (⟨S200000x64, .f32⟩ : BufTy).Contents (Elt F) → (⟨S200000x64, .f32⟩ : BufTy).Contents (Elt F)),
    unary main_v226 main_v242 (broadcastInDim S1x64 ![1] bcast_S64_S1x64_1 : (⟨S64, .f32⟩ : BufTy).Contents (Elt F) → (⟨S1x64, .f32⟩ : BufTy).Contents (Elt F)),
    unary main_v242 main_v243 (broadcastInDim S200000x64 ![0, 1] bcast_S1x64_S200000x64_0_1 : (⟨S1x64, .f32⟩ : BufTy).Contents (Elt F) → (⟨S200000x64, .f32⟩ : BufTy).Contents (Elt F)),
    binary main_v241 main_v243 main_v244 (mulf : (⟨S200000x64, .f32⟩ : BufTy).Contents (Elt F) → (⟨S200000x64, .f32⟩ : BufTy).Contents (Elt F) → (⟨S200000x64, .f32⟩ : BufTy).Contents (Elt F)),
    unary main_v228 main_v245 (broadcastInDim S1x64 ![1] bcast_S64_S1x64_1 : (⟨S64, .f32⟩ : BufTy).Contents (Elt F) → (⟨S1x64, .f32⟩ : BufTy).Contents (Elt F)),
    unary main_v245 main_v246 (broadcastInDim S200000x64 ![0, 1] bcast_S1x64_S200000x64_0_1 : (⟨S1x64, .f32⟩ : BufTy).Contents (Elt F) → (⟨S200000x64, .f32⟩ : BufTy).Contents (Elt F)),
    binary main_v244 main_v246 main_v247 (addf : (⟨S200000x64, .f32⟩ : BufTy).Contents (Elt F) → (⟨S200000x64, .f32⟩ : BufTy).Contents (Elt F) → (⟨S200000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S200000x64, .f32⟩) main_call6_v0) (broadcastInDim S200000x64 ![] bcast_S_S200000x64),
    TRef.binary (TRef.of (T := ⟨S200000x64, .f32⟩) main_v247) (TRef.of (T := ⟨S200000x64, .f32⟩) main_call6_v0) (TRef.of (T := ⟨S200000x64, .f32⟩) main_v248) maximumf ]

theorem seg3_sub : (seg3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The buffers segment 3 writes. -/
abbrev wr3 : List (Ref sig .tc) := [main_c_9, main_v174, main_v175, main_c_10, main_v176, main_v177, main_v178, main_v179, main_v180, main_cst_11, main_v181, main_v182, main_v183, main_v184, main_v185, main_v186, main_v187, main_v188, main_v189, main_v190, main_v191, main_v192, main_v193, main_v194, main_v195, main_v196, main_v197, main_v198, main_v199, main_v200, main_v201, main_v202, main_v203, main_cst_12, main_v204, main_v205, main_v206, main_v207, main_v208, main_v209, main_v210, main_v211, main_v212, main_v213, main_v214, main_v215, main_call5_cst, main_call5_v0, main_v216, main_v217, main_v218, main_v219, main_v220, main_v221, main_v222, main_v223, main_v224, main_v225, main_v226, main_v227, main_v228, main_v229, main_v230, main_v231, main_v232, main_v233, main_v234, main_v235, main_cst_13, main_v236, main_v237, main_v238, main_v239, main_v240, main_v241, main_v242, main_v243, main_v244, main_v245, main_v246, main_v247, main_call6_cst, main_call6_v0, main_v248]

/-- Operations 280 … 306 of @main. -/
abbrev seg4 : List (HloOp τ sig (Elt F)) :=
  [ nullary main_cst_14 (constant S_ .f32 0x00000000#32),
    unary main_cst_14 main_v249 (broadcastInDim S1024x64 ![] bcast_S_S1024x64 : (⟨S_, .f32⟩ : BufTy).Contents (Elt F) → (⟨S1024x64, .f32⟩ : BufTy).Contents (Elt F)),
    unary main_arg2 main_v250 (broadcastInDim S200000x1 ![0] bcast_S200000_S200000x1_0 : (⟨S200000, .i32⟩ : BufTy).Contents (Elt F) → (⟨S200000x1, .i32⟩ : BufTy).Contents (Elt F)),
    ternary main_v249 main_v250 main_v248 main_v251 ((fun x i u => Host.scatterAdd scatter_S1024x64_S200000x1_S200000x64_1_0_0_1 x i u) : (⟨S1024x64, .f32⟩ : BufTy).Contents (Elt F) → (⟨S200000x1, .i32⟩ : BufTy).Contents (Elt F) → (⟨S200000x64, .f32⟩ : BufTy).Contents (Elt F) → (⟨S1024x64, .f32⟩ : BufTy).Contents (Elt F)),
    nullary main_cst_15 (constant S_ .f32 0x3F800000#32),
    unary main_cst_15 main_v252 (broadcastInDim S200000 ![] bcast_S_S200000 : (⟨S_, .f32⟩ : BufTy).Contents (Elt F) → (⟨S200000, .f32⟩ : BufTy).Contents (Elt F)),
    nullary main_cst_16 (constant S_ .f32 0x00000000#32),
    unary main_cst_16 main_v253 (broadcastInDim S1024 ![] bcast_S_S1024 : (⟨S_, .f32⟩ : BufTy).Contents (Elt F) → (⟨S1024, .f32⟩ : BufTy).Contents (Elt F)),
    unary main_arg2 main_v254 (broadcastInDim S200000x1 ![0] bcast_S200000_S200000x1_0 : (⟨S200000, .i32⟩ : BufTy).Contents (Elt F) → (⟨S200000x1, .i32⟩ : BufTy).Contents (Elt F)),
    ternary main_v253 main_v254 main_v252 main_v255 ((fun x i u => Host.scatterAdd scatter_S1024_S200000x1_S200000_n_0_0_1 x i u) : (⟨S1024, .f32⟩ : BufTy).Contents (Elt F) → (⟨S200000x1, .i32⟩ : BufTy).Contents (Elt F) → (⟨S200000, .f32⟩ : BufTy).Contents (Elt F) → (⟨S1024, .f32⟩ : BufTy).Contents (Elt F)),
    nullary main_cst_17 (constant S_ .f32 0x3F800000#32),
    unary main_cst_17 main_v256 (broadcastInDim S1024 ![] bcast_S_S1024 : (⟨S_, .f32⟩ : BufTy).Contents (Elt F) → (⟨S1024, .f32⟩ : BufTy).Contents (Elt F)),
    binary main_v255 main_v256 main_v257 (maximumf : (⟨S1024, .f32⟩ : BufTy).Contents (Elt F) → (⟨S1024, .f32⟩ : BufTy).Contents (Elt F) → (⟨S1024, .f32⟩ : BufTy).Contents (Elt F)),
    unary main_v257 main_v258 (broadcastInDim S1024x1 ![0] bcast_S1024_S1024x1_0 : (⟨S1024, .f32⟩ : BufTy).Contents (Elt F) → (⟨S1024x1, .f32⟩ : BufTy).Contents (Elt F)),
    unary main_v258 main_v259 (broadcastInDim S1024x64 ![0, 1] bcast_S1024x1_S1024x64_0_1 : (⟨S1024x1, .f32⟩ : BufTy).Contents (Elt F) → (⟨S1024x64, .f32⟩ : BufTy).Contents (Elt F)),
    binary main_v251 main_v259 main_v260 (Host.divf : (⟨S1024x64, .f32⟩ : BufTy).Contents (Elt F) → (⟨S1024x64, .f32⟩ : BufTy).Contents (Elt F) → (⟨S1024x64, .f32⟩ : BufTy).Contents (Elt F)),
    binary main_v260 main_arg21 main_v261 ((fun l r => Host.dotGeneral dot_S1024x64_S64x32_S1024x32_1_0_0_1_n_n none l r) : (⟨S1024x64, .f32⟩ : BufTy).Contents (Elt F) → (⟨S64x32, .f32⟩ : BufTy).Contents (Elt F) → (⟨S1024x32, .f32⟩ : BufTy).Contents (Elt F)),
    unary main_arg22 main_v262 (broadcastInDim S1x32 ![1] bcast_S32_S1x32_1 : (⟨S32, .f32⟩ : BufTy).Contents (Elt F) → (⟨S1x32, .f32⟩ : BufTy).Contents (Elt F)),
    unary main_v262 main_v263 (broadcastInDim S1024x32 ![0, 1] bcast_S1x32_S1024x32_0_1 : (⟨S1x32, .f32⟩ : BufTy).Contents (Elt F) → (⟨S1024x32, .f32⟩ : BufTy).Contents (Elt F)),
    binary main_v261 main_v263 main_v264 (addf : (⟨S1024x32, .f32⟩ : BufTy).Contents (Elt F) → (⟨S1024x32, .f32⟩ : BufTy).Contents (Elt F) → (⟨S1024x32, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S1024x32, .f32⟩) main_call7_v0) (broadcastInDim S1024x32 ![] bcast_S_S1024x32),
    TRef.binary (TRef.of (T := ⟨S1024x32, .f32⟩) main_v264) (TRef.of (T := ⟨S1024x32, .f32⟩) main_call7_v0) (TRef.of (T := ⟨S1024x32, .f32⟩) main_v265) maximumf,
    binary main_v265 main_arg23 main_v266 ((fun l r => Host.dotGeneral dot_S1024x32_S32x6_S1024x6_1_0_0_1_n_n none l r) : (⟨S1024x32, .f32⟩ : BufTy).Contents (Elt F) → (⟨S32x6, .f32⟩ : BufTy).Contents (Elt F) → (⟨S1024x6, .f32⟩ : BufTy).Contents (Elt F)),
    unary main_arg24 main_v267 (broadcastInDim S1x6 ![1] bcast_S6_S1x6_1 : (⟨S6, .f32⟩ : BufTy).Contents (Elt F) → (⟨S1x6, .f32⟩ : BufTy).Contents (Elt F)),
    unary main_v267 main_v268 (broadcastInDim S1024x6 ![0, 1] bcast_S1x6_S1024x6_0_1 : (⟨S1x6, .f32⟩ : BufTy).Contents (Elt F) → (⟨S1024x6, .f32⟩ : BufTy).Contents (Elt F)),
    binary main_v266 main_v268 main_v269 (addf : (⟨S1024x6, .f32⟩ : BufTy).Contents (Elt F) → (⟨S1024x6, .f32⟩ : BufTy).Contents (Elt F) → (⟨S1024x6, .f32⟩ : BufTy).Contents (Elt F)) ]

theorem seg4_sub : (seg4 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- The buffers segment 4 writes. -/
abbrev wr4 : List (Ref sig .tc) := [main_cst_14, main_v249, main_v250, main_v251, main_cst_15, main_v252, main_cst_16, main_v253, main_v254, main_v255, main_cst_17, main_v256, main_v257, main_v258, main_v259, main_v260, main_v261, main_v262, main_v263, main_v264, main_call7_cst, main_call7_v0, main_v265, main_v266, main_v267, main_v268, main_v269]

/-- @main's operations, in order. -/
abbrev ops : List (HloOp τ sig (Elt F)) := seg0 ++ (seg1 ++ (seg2 ++ (seg3 ++ seg4)))

set_option maxHeartbeats 4000000 in
/-- @main is the straight line of its operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨seg0_sub, List.forall_append.mpr ⟨seg1_sub, List.forall_append.mpr ⟨seg2_sub,
    List.forall_append.mpr ⟨seg3_sub, seg4_sub⟩⟩⟩⟩

theorem seg0_fresh : (seg0 : List (HloOp τ sig (Elt F))).Forall fun op => op.fresh = ∅ := by
  simp only [List.Forall]; repeat' constructor
theorem seg1_fresh : (seg1 : List (HloOp τ sig (Elt F))).Forall fun op => op.fresh = ∅ := by
  simp only [List.Forall]; repeat' constructor
theorem seg2_fresh : (seg2 : List (HloOp τ sig (Elt F))).Forall fun op => op.fresh = ∅ := by
  simp only [List.Forall]; repeat' constructor
theorem seg3_fresh : (seg3 : List (HloOp τ sig (Elt F))).Forall fun op => op.fresh = ∅ := by
  simp only [List.Forall]; repeat' constructor
theorem seg4_fresh : (seg4 : List (HloOp τ sig (Elt F))).Forall fun op => op.fresh = ∅ := by
  simp only [List.Forall]; repeat' constructor

theorem ops_fresh : ∀ op ∈ (ops : List (HloOp τ sig (Elt F))), op.fresh = ∅ :=
  List.forall_iff_forall_mem.mp (List.forall_append.mpr ⟨seg0_fresh, List.forall_append.mpr ⟨seg1_fresh,
    List.forall_append.mpr ⟨seg2_fresh, List.forall_append.mpr ⟨seg3_fresh, seg4_fresh⟩⟩⟩⟩)

/-- Every weakly fair execution of @main terminates, each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.Gin.RefOps

end
-- ==== Proof.LibRowBlockMatmul.lean ====
/-
  A block of rows of a plain matrix product.

  For the plain contraction `[M, K] × [K, N] → [M, N]` on the extended reals, the host's product (no accumulator)
  and the matrix unit's product into the zero matrix are one function, and both read at `(r, c)` as
  `Σ_k lhs (r, k) · rhs (k, c)`. Hence a product computed on a BLOCK OF ROWS of the left operand — a `[Mb, K]` matrix
  whose row `p` is row `r` of the whole `[Mt, K]` matrix — has, at `(p, c)`, the entry `(r, c)` of the whole product:
  a row of the product depends on that row of the left operand only. All at any extents, and whatever the float
  formats of the four matrices (on the extended reals a change of format is the identity).
-/
import Idealize.ShloMosaic.Lib.ValueIdx
import Idealize.ShloMosaic.PureOps.Ideal.Laws
import proofs.«152072_j43654047596746_2_alg».proof.Proof.LibPlainMatmul

namespace Cert.RowBlockMatmul

open Idealize.ShloMosaic Idealize.ShloMosaic.ValueIdx

/-- The host's product is the matrix unit's product into the zero matrix, for any dimension numbers. -/
theorem dotGeneral_eq_matmul_zero {sl sr so : Shape} {φ₁ φ₂ : FTy} (d : DotDims sl sr so)
    (prec : Option ContractPrecision) (sched : HostSchedule) (lhs : FVec Ideal sl φ₁) (rhs : FVec Ideal sr φ₂) :
    FloatOps.dotGeneral d prec sched lhs rhs = FloatOps.matmul d prec lhs rhs (constant so .f32 0x00000000#32) := by
  funext j
  rw [Ideal.dotGeneral_apply, Ideal.matmul_constant_zero_apply]

variable {M K N : ℕ}

/-- The host's plain product at `(r, c)`: the sum over `k` of `lhs (r, k) · rhs (k, c)`. -/
theorem plainDot_apply {φ₁ φ₂ : FTy} (sched : HostSchedule) (lhs : FVec Ideal ⟨2, ![M, K]⟩ φ₁)
    (rhs : FVec Ideal ⟨2, ![K, N]⟩ φ₂) (r : Fin M) (c : Fin N) :
    FloatOps.dotGeneral (DotDims.plain M K N) none sched lhs rhs (ix2 r c)
      = ∑ k : Fin K, lhs (ix2 r k) * rhs (ix2 k c) := by
  rw [dotGeneral_eq_matmul_zero]
  exact Cert.PlainMatmul.plain_apply lhs rhs r c

/-- A block of rows: if row `p` of `Xb` is row `r` of `X`, and column `c` of `Wb` is column `c` of `W`, the matrix
    unit's product of the blocks at `(p, c)` is the host's product of the whole matrices at `(r, c)`. -/
theorem rowBlock_apply {Mb Mt : ℕ} {φ₁ φ₂ ψ₁ ψ₂ : FTy} (sched : HostSchedule)
    (X : FVec Ideal ⟨2, ![Mt, K]⟩ ψ₁) (W : FVec Ideal ⟨2, ![K, N]⟩ ψ₂)
    (Xb : FVec Ideal ⟨2, ![Mb, K]⟩ φ₁) (Wb : FVec Ideal ⟨2, ![K, N]⟩ φ₂) (p : Fin Mb) (c : Fin N) (r : Fin Mt)
    (hX : ∀ k : Fin K, Xb (ix2 p k) = X (ix2 r k)) (hW : ∀ k : Fin K, Wb (ix2 k c) = W (ix2 k c)) :
    FloatOps.matmul (DotDims.plain Mb K N) none Xb Wb (constant ⟨2, ![Mb, N]⟩ .f32 0x00000000#32) (ix2 p c)
      = FloatOps.dotGeneral (DotDims.plain Mt K N) none sched X W (ix2 r c) := by
  rw [Cert.PlainMatmul.plain_apply, plainDot_apply]
  exact Finset.sum_congr rfl fun k _ => by rw [hX k, hW k]

end Cert.RowBlockMatmul
-- ==== Proof.RefLayers.lean ====
/-
  The reference's layers, as it spells them.

  The reference computes every layer on whole arrays: a product with the weights, then each of the layer's vectors
  laid out as one row and repeated down the rows, combined entry by entry. Read at an entry `(r, c)` on the extended
  reals, the product is the plain sum over the contracted coordinate and a repeated row is the vector's lane `c`, so
  the reference's spelling of a hidden layer, and of the head, is the specification's.
-/
import proofs.«152072_j43654047596746_2_alg».proof.Proof.Gen.ReferenceIdeal
import proofs.«152072_j43654047596746_2_alg».proof.Proof.Spec
import proofs.«152072_j43654047596746_2_alg».proof.Proof.LibRowBlockMatmul
import Idealize.ShloMosaic.Lib.Pipeline.Value

set_option maxRecDepth 16384

noncomputable section

namespace Cert.Gin.Ref

open Cert.ReferenceIdeal Cert.ReferenceIdeal.Gen Idealize.ShloMosaic Idealize.ShloMosaic.ValueIdx

/-! ## A vector as a row repeated down the rows, and the four products -/

theorem row64 (v : FVec Ideal S64 .f32) (r : Fin 200000) (c : Fin 64) :
    broadcastInDim S200000x64 ![0, 1] bcast_S1x64_S200000x64_0_1 (broadcastInDim S1x64 ![1] bcast_S64_S1x64_1 v) (ix2 r c) = v (ix1 c) :=
  (broadcastInDim_apply _ bcast_S1x64_S200000x64_0_1 _ (ix2 r c) (ix2 (0 : Fin 1) c) (fun a => match a with
    | ⟨0, _⟩ => by show 0 = if (1 : Nat) = 1 then 0 else r.val; rw [if_pos rfl]
    | ⟨1, _⟩ => by show c.val = if (64 : Nat) = 1 then 0 else c.val; rw [if_neg (by decide)])).trans
  (broadcastInDim_apply _ bcast_S64_S1x64_1 v (ix2 (0 : Fin 1) c) (ix1 c) (fun a => match a with
    | ⟨0, _⟩ => by show c.val = if (64 : Nat) = 1 then 0 else c.val; rw [if_neg (by decide)]))

theorem row32 (v : FVec Ideal S32 .f32) (r : Fin 1024) (c : Fin 32) :
    broadcastInDim S1024x32 ![0, 1] bcast_S1x32_S1024x32_0_1 (broadcastInDim S1x32 ![1] bcast_S32_S1x32_1 v) (ix2 r c) = v (ix1 c) :=
  (broadcastInDim_apply _ bcast_S1x32_S1024x32_0_1 _ (ix2 r c) (ix2 (0 : Fin 1) c) (fun a => match a with
    | ⟨0, _⟩ => by show 0 = if (1 : Nat) = 1 then 0 else r.val; rw [if_pos rfl]
    | ⟨1, _⟩ => by show c.val = if (32 : Nat) = 1 then 0 else c.val; rw [if_neg (by decide)])).trans
  (broadcastInDim_apply _ bcast_S32_S1x32_1 v (ix2 (0 : Fin 1) c) (ix1 c) (fun a => match a with
    | ⟨0, _⟩ => by show c.val = if (32 : Nat) = 1 then 0 else c.val; rw [if_neg (by decide)]))

theorem row6 (v : FVec Ideal S6 .f32) (r : Fin 1024) (c : Fin 6) :
    broadcastInDim S1024x6 ![0, 1] bcast_S1x6_S1024x6_0_1 (broadcastInDim S1x6 ![1] bcast_S6_S1x6_1 v) (ix2 r c) = v (ix1 c) :=
  (broadcastInDim_apply _ bcast_S1x6_S1024x6_0_1 _ (ix2 r c) (ix2 (0 : Fin 1) c) (fun a => match a with
    | ⟨0, _⟩ => by show 0 = if (1 : Nat) = 1 then 0 else r.val; rw [if_pos rfl]
    | ⟨1, _⟩ => by show c.val = if (6 : Nat) = 1 then 0 else c.val; rw [if_neg (by decide)])).trans
  (broadcastInDim_apply _ bcast_S6_S1x6_1 v (ix2 (0 : Fin 1) c) (ix1 c) (fun a => match a with
    | ⟨0, _⟩ => by show c.val = if (6 : Nat) = 1 then 0 else c.val; rw [if_neg (by decide)]))

theorem dot128 (X : FVec Ideal S200000x128 .f32) (W : FVec Ideal S128x64 .f32) (r : Fin 200000) (c : Fin 64) :
    Host.dotGeneral dot_S200000x128_S128x64_S200000x64_1_0_0_1_n_n none X W (ix2 r c) = ∑ k : Fin 128, X (ix2 r k) * W (ix2 k c) := by
  simp only [Host.dotGeneral]
  exact Cert.RowBlockMatmul.plainDot_apply (M := 200000) (K := 128) (N := 64) _ X W r c

theorem dot64 (X : FVec Ideal S200000x64 .f32) (W : FVec Ideal S64x64 .f32) (r : Fin 200000) (c : Fin 64) :
    Host.dotGeneral dot_S200000x64_S64x64_S200000x64_1_0_0_1_n_n none X W (ix2 r c) = ∑ k : Fin 64, X (ix2 r k) * W (ix2 k c) := by
  simp only [Host.dotGeneral]
  exact Cert.RowBlockMatmul.plainDot_apply (M := 200000) (K := 64) (N := 64) _ X W r c

theorem dot64x32 (X : FVec Ideal S1024x64 .f32) (W : FVec Ideal S64x32 .f32) (r : Fin 1024) (c : Fin 32) :
    Host.dotGeneral dot_S1024x64_S64x32_S1024x32_1_0_0_1_n_n none X W (ix2 r c) = ∑ k : Fin 64, X (ix2 r k) * W (ix2 k c) := by
  simp only [Host.dotGeneral]
  exact Cert.RowBlockMatmul.plainDot_apply (M := 1024) (K := 64) (N := 32) _ X W r c

theorem dot32x6 (X : FVec Ideal S1024x32 .f32) (W : FVec Ideal S32x6 .f32) (r : Fin 1024) (c : Fin 6) :
    Host.dotGeneral dot_S1024x32_S32x6_S1024x6_1_0_0_1_n_n none X W (ix2 r c) = ∑ k : Fin 32, X (ix2 r k) * W (ix2 k c) := by
  simp only [Host.dotGeneral]
  exact Cert.RowBlockMatmul.plainDot_apply (M := 1024) (K := 32) (N := 6) _ X W r c

/-! ## A hidden layer, as the reference spells it -/

/-- The reference's spelling of a hidden layer over whole arrays — product, bias, mean, inverse deviation, scale, shift, clamp,
    each vector laid out as a row and repeated down the rows — is the specification's hidden layer. -/
theorem host_hidden128 (X : FVec Ideal S200000x128 .f32) (W : FVec Ideal S128x64 .f32) (b γ β μ v : FVec Ideal S64 .f32) :
    maximumf (addf (mulf (mulf (subf (addf (Host.dotGeneral dot_S200000x128_S128x64_S200000x64_1_0_0_1_n_n none X W)
      (broadcastInDim S200000x64 ![0, 1] bcast_S1x64_S200000x64_0_1 (broadcastInDim S1x64 ![1] bcast_S64_S1x64_1 b)))
      (broadcastInDim S200000x64 ![0, 1] bcast_S1x64_S200000x64_0_1 (broadcastInDim S1x64 ![1] bcast_S64_S1x64_1 μ)))
      (broadcastInDim S200000x64 ![0, 1] bcast_S1x64_S200000x64_0_1 (broadcastInDim S1x64 ![1] bcast_S64_S1x64_1
        (Host.rsqrt (addf v (broadcastInDim S64 ![] bcast_S_S64 (constant S_ .f32 0x3727C5AC#32)))))))
      (broadcastInDim S200000x64 ![0, 1] bcast_S1x64_S200000x64_0_1 (broadcastInDim S1x64 ![1] bcast_S64_S1x64_1 γ)))
      (broadcastInDim S200000x64 ![0, 1] bcast_S1x64_S200000x64_0_1 (broadcastInDim S1x64 ![1] bcast_S64_S1x64_1 β)))
      (broadcastInDim S200000x64 ![] bcast_S_S200000x64 (constant S_ .f32 0x00000000#32))
    = hidden X W b γ β μ v := by
  funext i
  obtain ⟨r, c, rfl⟩ : ∃ (r : Fin 200000) (c : Fin 64), i = ix2 r c := ⟨i 0, i 1, eq_ix2 i⟩
  simp only [maximumf_apply, addf_apply, mulf_apply, subf_apply, dot128]
  rw [row64 b r c, row64 μ r c, row64 γ r c, row64 β r c, row64 _ r c]
  rfl

/-- The reference's spelling of a hidden layer over 64 input lanes: product, bias, mean, inverse deviation, scale,
    shift, clamp, each vector laid out as a row and repeated down the rows. -/
def hostHidden64 (X : FVec Ideal S200000x64 .f32) (W : FVec Ideal S64x64 .f32) (b γ β μ v : FVec Ideal S64 .f32) :
    FVec Ideal S200000x64 .f32 :=
  maximumf (addf (mulf (mulf (subf (addf (Host.dotGeneral dot_S200000x64_S64x64_S200000x64_1_0_0_1_n_n none X W)
      (broadcastInDim S200000x64 ![0, 1] bcast_S1x64_S200000x64_0_1 (broadcastInDim S1x64 ![1] bcast_S64_S1x64_1 b)))
      (broadcastInDim S200000x64 ![0, 1] bcast_S1x64_S200000x64_0_1 (broadcastInDim S1x64 ![1] bcast_S64_S1x64_1 μ)))
      (broadcastInDim S200000x64 ![0, 1] bcast_S1x64_S200000x64_0_1 (broadcastInDim S1x64 ![1] bcast_S64_S1x64_1
        (Host.rsqrt (addf v (broadcastInDim S64 ![] bcast_S_S64 (constant S_ .f32 0x3727C5AC#32)))))))
      (broadcastInDim S200000x64 ![0, 1] bcast_S1x64_S200000x64_0_1 (broadcastInDim S1x64 ![1] bcast_S64_S1x64_1 γ)))
      (broadcastInDim S200000x64 ![0, 1] bcast_S1x64_S200000x64_0_1 (broadcastInDim S1x64 ![1] bcast_S64_S1x64_1 β)))
      (broadcastInDim S200000x64 ![] bcast_S_S200000x64 (constant S_ .f32 0x00000000#32))

/-- That spelling is the specification's hidden layer. -/
theorem host_hidden64 (X : FVec Ideal S200000x64 .f32) (W : FVec Ideal S64x64 .f32) (b γ β μ v : FVec Ideal S64 .f32) :
    hostHidden64 X W b γ β μ v = hidden X W b γ β μ v := by
  unfold hostHidden64
  funext i
  obtain ⟨r, c, rfl⟩ : ∃ (r : Fin 200000) (c : Fin 64), i = ix2 r c := ⟨i 0, i 1, eq_ix2 i⟩
  simp only [maximumf_apply, addf_apply, mulf_apply, subf_apply, dot64]
  rw [row64 b r c, row64 μ r c, row64 γ r c, row64 β r c, row64 _ r c]
  rfl

/-- A graph layer's two hidden layers, one after the other, as the reference spells them. -/
theorem host_layer (X : FVec Ideal S200000x64 .f32) (W1 : FVec Ideal S64x64 .f32) (b1 γ1 β1 μ1 v1 : FVec Ideal S64 .f32)
    (W2 : FVec Ideal S64x64 .f32) (b2 γ2 β2 μ2 v2 : FVec Ideal S64 .f32) :
    hostHidden64 (hostHidden64 X W1 b1 γ1 β1 μ1 v1) W2 b2 γ2 β2 μ2 v2
      = hidden (hidden X W1 b1 γ1 β1 μ1 v1) W2 b2 γ2 β2 μ2 v2 := by
  rw [host_hidden64, host_hidden64]

/-- The reference's spelling of the output head over whole arrays is the specification's head. -/
theorem host_head (P : FVec Ideal S1024x64 .f32) (W1 : FVec Ideal S64x32 .f32) (b1 : FVec Ideal S32 .f32)
    (W2 : FVec Ideal S32x6 .f32) (b2 : FVec Ideal S6 .f32) :
    addf (Host.dotGeneral dot_S1024x32_S32x6_S1024x6_1_0_0_1_n_n none
      (maximumf (addf (Host.dotGeneral dot_S1024x64_S64x32_S1024x32_1_0_0_1_n_n none P W1)
        (broadcastInDim S1024x32 ![0, 1] bcast_S1x32_S1024x32_0_1 (broadcastInDim S1x32 ![1] bcast_S32_S1x32_1 b1)))
        (broadcastInDim S1024x32 ![] bcast_S_S1024x32 (constant S_ .f32 0x00000000#32))) W2)
      (broadcastInDim S1024x6 ![0, 1] bcast_S1x6_S1024x6_0_1 (broadcastInDim S1x6 ![1] bcast_S6_S1x6_1 b2))
    = affine (affineRelu P W1 b1) W2 b2 := by
  funext i
  obtain ⟨r, c, rfl⟩ : ∃ (r : Fin 1024) (c : Fin 6), i = ix2 r c := ⟨i 0, i 1, eq_ix2 i⟩
  simp only [addf_apply, dot32x6, maximumf_apply, dot64x32]
  rw [row6 b2 r c]
  simp only [row32 b1 r]
  rfl

end Cert.Gin.Ref

end
-- ==== Proof.LibAfterAppend.lean ====
/-
  Reading buffers back through two stretches of whole-array operations.

  `StableHlo.after ops V` is what every buffer of a device holds after the operations `ops`, run in order from the
  contents `V`. Running one stretch and then another is running them in a row: the contents after `l₁ ++ l₂` are the
  contents after `l₂`, started from the contents after `l₁`. This lets a long straight-line program be read back one
  stretch at a time, each over contents that are no further specified.
-/
import Idealize.ShloMosaic.Lib.StableHlo.Run

namespace AfterAppend

open Idealize.ShloMosaic Idealize.ShloMosaic.StableHlo

variable {τ : Topo} {sig : RefSig} {Val : EltTy → Type}

/-- The contents after two stretches in a row are the contents after the second, from those after the first. -/
theorem after_append : ∀ (l₁ l₂ : List (HloOp τ sig Val)) (V : Valuation τ sig Val),
    after (l₁ ++ l₂) V = after l₂ (after l₁ V)
  | [], _, _ => rfl
  | op :: l₁, l₂, V => by
    rw [List.cons_append, after_cons, after_cons]
    exact after_append l₁ l₂ _

end AfterAppend
-- ==== Proof.RefRun.lean ====
/-
  The reference's run, stretch by stretch.

  Run in order from the launch contents, the reference's operations leave in the buffer it returns the network's
  result of the arguments. Read one stretch at a time: the first stretch cuts the two index rows out of the edge list
  and leaves the embedded features; each of the next three leaves a graph layer of the features before it,
  aggregated along those rows, with that layer's slices of the stacked parameters; the last pools over the graphs and
  applies the head. A buffer a stretch does not write — an argument, an index row — is carried over it unchanged.
-/
import proofs.«152072_j43654047596746_2_alg».proof.Proof.RefOps
import proofs.«152072_j43654047596746_2_alg».proof.Proof.RefLayers
import proofs.«152072_j43654047596746_2_alg».proof.Proof.Net
import proofs.«152072_j43654047596746_2_alg».proof.Proof.LibAfterAppend

set_option maxRecDepth 16384

noncomputable section

namespace Cert.Gin.RefRun

open Cert.ReferenceIdeal Cert.ReferenceIdeal.Gen Idealize.ShloMosaic Idealize.ShloMosaic.TcCoe Idealize.SL.Sem Idealize.ShloMosaic.StableHlo
open Cert.Gin Cert.Gin.RefOps

variable (m : (ℓ : Loc nD τ sig) → Buf (Elt Ideal) ℓ) (c : Dev nD)

/-! ## The contents after each stretch -/

def U1 : Valuation τ sig (Elt Ideal) := after seg0 (launchContents m c)
def U2 : Valuation τ sig (Elt Ideal) := after seg1 (U1 m c)
def U3 : Valuation τ sig (Elt Ideal) := after seg2 (U2 m c)
def U4 : Valuation τ sig (Elt Ideal) := after seg3 (U3 m c)
def U5 : Valuation τ sig (Elt Ideal) := after seg4 (U4 m c)

/-- The whole line's contents are the last stretch's. -/
theorem after_ops : after ops (launchContents m c) = U5 m c := by
  unfold U5 U4 U3 U2 U1
  rw [AfterAppend.after_append, AfterAppend.after_append, AfterAppend.after_append, AfterAppend.after_append]

/-! ## What each stretch writes -/

theorem seg0_writes : (seg0 : List (HloOp τ sig (Elt Ideal))).Forall fun op => op.writes ⊆ ((wr0).map (Proc.devRef (τ := τ) .tc)).toFinset := by
  simp only [List.Forall, nullary_writes, unary_writes, binary_writes, ternary_writes, quaternary_writes, reshape_writes,
    binaryIndexed_writes, Finset.singleton_subset_iff, List.mem_toFinset]
  repeat' constructor
  all_goals exact List.mem_map.mpr ⟨_, by decide, rfl⟩

theorem seg1_writes : (seg1 : List (HloOp τ sig (Elt Ideal))).Forall fun op => op.writes ⊆ ((wr1).map (Proc.devRef (τ := τ) .tc)).toFinset := by
  simp only [List.Forall, nullary_writes, unary_writes, binary_writes, ternary_writes, quaternary_writes, reshape_writes,
    binaryIndexed_writes, Finset.singleton_subset_iff, List.mem_toFinset]
  repeat' constructor
  all_goals exact List.mem_map.mpr ⟨_, by decide, rfl⟩

theorem seg2_writes : (seg2 : List (HloOp τ sig (Elt Ideal))).Forall fun op => op.writes ⊆ ((wr2).map (Proc.devRef (τ := τ) .tc)).toFinset := by
  simp only [List.Forall, nullary_writes, unary_writes, binary_writes, ternary_writes, quaternary_writes, reshape_writes,
    binaryIndexed_writes, Finset.singleton_subset_iff, List.mem_toFinset]
  repeat' constructor
  all_goals exact List.mem_map.mpr ⟨_, by decide, rfl⟩

theorem seg3_writes : (seg3 : List (HloOp τ sig (Elt Ideal))).Forall fun op => op.writes ⊆ ((wr3).map (Proc.devRef (τ := τ) .tc)).toFinset := by
  simp only [List.Forall, nullary_writes, unary_writes, binary_writes, ternary_writes, quaternary_writes, reshape_writes,
    binaryIndexed_writes, Finset.singleton_subset_iff, List.mem_toFinset]
  repeat' constructor
  all_goals exact List.mem_map.mpr ⟨_, by decide, rfl⟩

theorem seg4_writes : (seg4 : List (HloOp τ sig (Elt Ideal))).Forall fun op => op.writes ⊆ ((wr4).map (Proc.devRef (τ := τ) .tc)).toFinset := by
  simp only [List.Forall, nullary_writes, unary_writes, binary_writes, ternary_writes, quaternary_writes, reshape_writes,
    binaryIndexed_writes, Finset.singleton_subset_iff, List.mem_toFinset]
  repeat' constructor
  all_goals exact List.mem_map.mpr ⟨_, by decide, rfl⟩

/-! ## Buffers carried over the stretches -/

theorem U1_main_arg9 : U1 m c (Proc.devRef .tc main_arg9) = (m ((c.tc : Thread nD τ).loc main_arg9)) :=
  (after_of_writes_sub seg0 (launchContents m c) seg0_writes (by decide)).trans rfl

theorem U2_main_arg9 : U2 m c (Proc.devRef .tc main_arg9) = (m ((c.tc : Thread nD τ).loc main_arg9)) :=
  (after_of_writes_sub seg1 (U1 m c) seg1_writes (by decide)).trans (U1_main_arg9 m c)

theorem U3_main_arg9 : U3 m c (Proc.devRef .tc main_arg9) = (m ((c.tc : Thread nD τ).loc main_arg9)) :=
  (after_of_writes_sub seg2 (U2 m c) seg2_writes (by decide)).trans (U2_main_arg9 m c)

theorem U1_main_arg10 : U1 m c (Proc.devRef .tc main_arg10) = (m ((c.tc : Thread nD τ).loc main_arg10)) :=
  (after_of_writes_sub seg0 (launchContents m c) seg0_writes (by decide)).trans rfl

theorem U2_main_arg10 : U2 m c (Proc.devRef .tc main_arg10) = (m ((c.tc : Thread nD τ).loc main_arg10)) :=
  (after_of_writes_sub seg1 (U1 m c) seg1_writes (by decide)).trans (U1_main_arg10 m c)

theorem U3_main_arg10 : U3 m c (Proc.devRef .tc main_arg10) = (m ((c.tc : Thread nD τ).loc main_arg10)) :=
  (after_of_writes_sub seg2 (U2 m c) seg2_writes (by decide)).trans (U2_main_arg10 m c)

theorem U1_main_arg11 : U1 m c (Proc.devRef .tc main_arg11) = (m ((c.tc : Thread nD τ).loc main_arg11)) :=
  (after_of_writes_sub seg0 (launchContents m c) seg0_writes (by decide)).trans rfl

theorem U2_main_arg11 : U2 m c (Proc.devRef .tc main_arg11) = (m ((c.tc : Thread nD τ).loc main_arg11)) :=
  (after_of_writes_sub seg1 (U1 m c) seg1_writes (by decide)).trans (U1_main_arg11 m c)

theorem U3_main_arg11 : U3 m c (Proc.devRef .tc main_arg11) = (m ((c.tc : Thread nD τ).loc main_arg11)) :=
  (after_of_writes_sub seg2 (U2 m c) seg2_writes (by decide)).trans (U2_main_arg11 m c)

theorem U1_main_arg12 : U1 m c (Proc.devRef .tc main_arg12) = (m ((c.tc : Thread nD τ).loc main_arg12)) :=
  (after_of_writes_sub seg0 (launchContents m c) seg0_writes (by decide)).trans rfl

theorem U2_main_arg12 : U2 m c (Proc.devRef .tc main_arg12) = (m ((c.tc : Thread nD τ).loc main_arg12)) :=
  (after_of_writes_sub seg1 (U1 m c) seg1_writes (by decide)).trans (U1_main_arg12 m c)

theorem U3_main_arg12 : U3 m c (Proc.devRef .tc main_arg12) = (m ((c.tc : Thread nD τ).loc main_arg12)) :=
  (after_of_writes_sub seg2 (U2 m c) seg2_writes (by decide)).trans (U2_main_arg12 m c)

theorem U1_main_arg13 : U1 m c (Proc.devRef .tc main_arg13) = (m ((c.tc : Thread nD τ).loc main_arg13)) :=
  (after_of_writes_sub seg0 (launchContents m c) seg0_writes (by decide)).trans rfl

theorem U2_main_arg13 : U2 m c (Proc.devRef .tc main_arg13) = (m ((c.tc : Thread nD τ).loc main_arg13)) :=
  (after_of_writes_sub seg1 (U1 m c) seg1_writes (by decide)).trans (U1_main_arg13 m c)

theorem U3_main_arg13 : U3 m c (Proc.devRef .tc main_arg13) = (m ((c.tc : Thread nD τ).loc main_arg13)) :=
  (after_of_writes_sub seg2 (U2 m c) seg2_writes (by decide)).trans (U2_main_arg13 m c)

theorem U1_main_arg14 : U1 m c (Proc.devRef .tc main_arg14) = (m ((c.tc : Thread nD τ).loc main_arg14)) :=
  (after_of_writes_sub seg0 (launchContents m c) seg0_writes (by decide)).trans rfl

theorem U2_main_arg14 : U2 m c (Proc.devRef .tc main_arg14) = (m ((c.tc : Thread nD τ).loc main_arg14)) :=
  (after_of_writes_sub seg1 (U1 m c) seg1_writes (by decide)).trans (U1_main_arg14 m c)

theorem U3_main_arg14 : U3 m c (Proc.devRef .tc main_arg14) = (m ((c.tc : Thread nD τ).loc main_arg14)) :=
  (after_of_writes_sub seg2 (U2 m c) seg2_writes (by decide)).trans (U2_main_arg14 m c)

theorem U1_main_arg15 : U1 m c (Proc.devRef .tc main_arg15) = (m ((c.tc : Thread nD τ).loc main_arg15)) :=
  (after_of_writes_sub seg0 (launchContents m c) seg0_writes (by decide)).trans rfl

theorem U2_main_arg15 : U2 m c (Proc.devRef .tc main_arg15) = (m ((c.tc : Thread nD τ).loc main_arg15)) :=
  (after_of_writes_sub seg1 (U1 m c) seg1_writes (by decide)).trans (U1_main_arg15 m c)

theorem U3_main_arg15 : U3 m c (Proc.devRef .tc main_arg15) = (m ((c.tc : Thread nD τ).loc main_arg15)) :=
  (after_of_writes_sub seg2 (U2 m c) seg2_writes (by decide)).trans (U2_main_arg15 m c)

theorem U1_main_arg16 : U1 m c (Proc.devRef .tc main_arg16) = (m ((c.tc : Thread nD τ).loc main_arg16)) :=
  (after_of_writes_sub seg0 (launchContents m c) seg0_writes (by decide)).trans rfl

theorem U2_main_arg16 : U2 m c (Proc.devRef .tc main_arg16) = (m ((c.tc : Thread nD τ).loc main_arg16)) :=
  (after_of_writes_sub seg1 (U1 m c) seg1_writes (by decide)).trans (U1_main_arg16 m c)

theorem U3_main_arg16 : U3 m c (Proc.devRef .tc main_arg16) = (m ((c.tc : Thread nD τ).loc main_arg16)) :=
  (after_of_writes_sub seg2 (U2 m c) seg2_writes (by decide)).trans (U2_main_arg16 m c)

theorem U1_main_arg17 : U1 m c (Proc.devRef .tc main_arg17) = (m ((c.tc : Thread nD τ).loc main_arg17)) :=
  (after_of_writes_sub seg0 (launchContents m c) seg0_writes (by decide)).trans rfl

theorem U2_main_arg17 : U2 m c (Proc.devRef .tc main_arg17) = (m ((c.tc : Thread nD τ).loc main_arg17)) :=
  (after_of_writes_sub seg1 (U1 m c) seg1_writes (by decide)).trans (U1_main_arg17 m c)

theorem U3_main_arg17 : U3 m c (Proc.devRef .tc main_arg17) = (m ((c.tc : Thread nD τ).loc main_arg17)) :=
  (after_of_writes_sub seg2 (U2 m c) seg2_writes (by decide)).trans (U2_main_arg17 m c)

theorem U1_main_arg18 : U1 m c (Proc.devRef .tc main_arg18) = (m ((c.tc : Thread nD τ).loc main_arg18)) :=
  (after_of_writes_sub seg0 (launchContents m c) seg0_writes (by decide)).trans rfl

theorem U2_main_arg18 : U2 m c (Proc.devRef .tc main_arg18) = (m ((c.tc : Thread nD τ).loc main_arg18)) :=
  (after_of_writes_sub seg1 (U1 m c) seg1_writes (by decide)).trans (U1_main_arg18 m c)

theorem U3_main_arg18 : U3 m c (Proc.devRef .tc main_arg18) = (m ((c.tc : Thread nD τ).loc main_arg18)) :=
  (after_of_writes_sub seg2 (U2 m c) seg2_writes (by decide)).trans (U2_main_arg18 m c)

theorem U1_main_arg19 : U1 m c (Proc.devRef .tc main_arg19) = (m ((c.tc : Thread nD τ).loc main_arg19)) :=
  (after_of_writes_sub seg0 (launchContents m c) seg0_writes (by decide)).trans rfl

theorem U2_main_arg19 : U2 m c (Proc.devRef .tc main_arg19) = (m ((c.tc : Thread nD τ).loc main_arg19)) :=
  (after_of_writes_sub seg1 (U1 m c) seg1_writes (by decide)).trans (U1_main_arg19 m c)

theorem U3_main_arg19 : U3 m c (Proc.devRef .tc main_arg19) = (m ((c.tc : Thread nD τ).loc main_arg19)) :=
  (after_of_writes_sub seg2 (U2 m c) seg2_writes (by decide)).trans (U2_main_arg19 m c)

theorem U1_main_arg20 : U1 m c (Proc.devRef .tc main_arg20) = (m ((c.tc : Thread nD τ).loc main_arg20)) :=
  (after_of_writes_sub seg0 (launchContents m c) seg0_writes (by decide)).trans rfl

theorem U2_main_arg20 : U2 m c (Proc.devRef .tc main_arg20) = (m ((c.tc : Thread nD τ).loc main_arg20)) :=
  (after_of_writes_sub seg1 (U1 m c) seg1_writes (by decide)).trans (U1_main_arg20 m c)

theorem U3_main_arg20 : U3 m c (Proc.devRef .tc main_arg20) = (m ((c.tc : Thread nD τ).loc main_arg20)) :=
  (after_of_writes_sub seg2 (U2 m c) seg2_writes (by decide)).trans (U2_main_arg20 m c)

theorem U1_main_arg2 : U1 m c (Proc.devRef .tc main_arg2) = (m ((c.tc : Thread nD τ).loc main_arg2)) :=
  (after_of_writes_sub seg0 (launchContents m c) seg0_writes (by decide)).trans rfl

theorem U2_main_arg2 : U2 m c (Proc.devRef .tc main_arg2) = (m ((c.tc : Thread nD τ).loc main_arg2)) :=
  (after_of_writes_sub seg1 (U1 m c) seg1_writes (by decide)).trans (U1_main_arg2 m c)

theorem U3_main_arg2 : U3 m c (Proc.devRef .tc main_arg2) = (m ((c.tc : Thread nD τ).loc main_arg2)) :=
  (after_of_writes_sub seg2 (U2 m c) seg2_writes (by decide)).trans (U2_main_arg2 m c)

theorem U4_main_arg2 : U4 m c (Proc.devRef .tc main_arg2) = (m ((c.tc : Thread nD τ).loc main_arg2)) :=
  (after_of_writes_sub seg3 (U3 m c) seg3_writes (by decide)).trans (U3_main_arg2 m c)

theorem U1_main_arg21 : U1 m c (Proc.devRef .tc main_arg21) = (m ((c.tc : Thread nD τ).loc main_arg21)) :=
  (after_of_writes_sub seg0 (launchContents m c) seg0_writes (by decide)).trans rfl

theorem U2_main_arg21 : U2 m c (Proc.devRef .tc main_arg21) = (m ((c.tc : Thread nD τ).loc main_arg21)) :=
  (after_of_writes_sub seg1 (U1 m c) seg1_writes (by decide)).trans (U1_main_arg21 m c)

theorem U3_main_arg21 : U3 m c (Proc.devRef .tc main_arg21) = (m ((c.tc : Thread nD τ).loc main_arg21)) :=
  (after_of_writes_sub seg2 (U2 m c) seg2_writes (by decide)).trans (U2_main_arg21 m c)

theorem U4_main_arg21 : U4 m c (Proc.devRef .tc main_arg21) = (m ((c.tc : Thread nD τ).loc main_arg21)) :=
  (after_of_writes_sub seg3 (U3 m c) seg3_writes (by decide)).trans (U3_main_arg21 m c)

theorem U1_main_arg22 : U1 m c (Proc.devRef .tc main_arg22) = (m ((c.tc : Thread nD τ).loc main_arg22)) :=
  (after_of_writes_sub seg0 (launchContents m c) seg0_writes (by decide)).trans rfl

theorem U2_main_arg22 : U2 m c (Proc.devRef .tc main_arg22) = (m ((c.tc : Thread nD τ).loc main_arg22)) :=
  (after_of_writes_sub seg1 (U1 m c) seg1_writes (by decide)).trans (U1_main_arg22 m c)

theorem U3_main_arg22 : U3 m c (Proc.devRef .tc main_arg22) = (m ((c.tc : Thread nD τ).loc main_arg22)) :=
  (after_of_writes_sub seg2 (U2 m c) seg2_writes (by decide)).trans (U2_main_arg22 m c)

theorem U4_main_arg22 : U4 m c (Proc.devRef .tc main_arg22) = (m ((c.tc : Thread nD τ).loc main_arg22)) :=
  (after_of_writes_sub seg3 (U3 m c) seg3_writes (by decide)).trans (U3_main_arg22 m c)

theorem U1_main_arg23 : U1 m c (Proc.devRef .tc main_arg23) = (m ((c.tc : Thread nD τ).loc main_arg23)) :=
  (after_of_writes_sub seg0 (launchContents m c) seg0_writes (by decide)).trans rfl

theorem U2_main_arg23 : U2 m c (Proc.devRef .tc main_arg23) = (m ((c.tc : Thread nD τ).loc main_arg23)) :=
  (after_of_writes_sub seg1 (U1 m c) seg1_writes (by decide)).trans (U1_main_arg23 m c)

theorem U3_main_arg23 : U3 m c (Proc.devRef .tc main_arg23) = (m ((c.tc : Thread nD τ).loc main_arg23)) :=
  (after_of_writes_sub seg2 (U2 m c) seg2_writes (by decide)).trans (U2_main_arg23 m c)

theorem U4_main_arg23 : U4 m c (Proc.devRef .tc main_arg23) = (m ((c.tc : Thread nD τ).loc main_arg23)) :=
  (after_of_writes_sub seg3 (U3 m c) seg3_writes (by decide)).trans (U3_main_arg23 m c)

theorem U1_main_arg24 : U1 m c (Proc.devRef .tc main_arg24) = (m ((c.tc : Thread nD τ).loc main_arg24)) :=
  (after_of_writes_sub seg0 (launchContents m c) seg0_writes (by decide)).trans rfl

theorem U2_main_arg24 : U2 m c (Proc.devRef .tc main_arg24) = (m ((c.tc : Thread nD τ).loc main_arg24)) :=
  (after_of_writes_sub seg1 (U1 m c) seg1_writes (by decide)).trans (U1_main_arg24 m c)

theorem U3_main_arg24 : U3 m c (Proc.devRef .tc main_arg24) = (m ((c.tc : Thread nD τ).loc main_arg24)) :=
  (after_of_writes_sub seg2 (U2 m c) seg2_writes (by decide)).trans (U2_main_arg24 m c)

theorem U4_main_arg24 : U4 m c (Proc.devRef .tc main_arg24) = (m ((c.tc : Thread nD τ).loc main_arg24)) :=
  (after_of_writes_sub seg3 (U3 m c) seg3_writes (by decide)).trans (U3_main_arg24 m c)

theorem U1_main_v1 : U1 m c (Proc.devRef .tc main_v1) = Net.srcRow (m ((c.tc : Thread nD τ).loc main_arg1)) := by
  show after seg0 (launchContents m c) (Proc.devRef .tc main_v1) = _
  after_results_simp <;> rfl

theorem U2_main_v1 : U2 m c (Proc.devRef .tc main_v1) = Net.srcRow (m ((c.tc : Thread nD τ).loc main_arg1)) :=
  (after_of_writes_sub seg1 (U1 m c) seg1_writes (by decide)).trans (U1_main_v1 m c)

theorem U3_main_v1 : U3 m c (Proc.devRef .tc main_v1) = Net.srcRow (m ((c.tc : Thread nD τ).loc main_arg1)) :=
  (after_of_writes_sub seg2 (U2 m c) seg2_writes (by decide)).trans (U2_main_v1 m c)

theorem U1_main_v3 : U1 m c (Proc.devRef .tc main_v3) = Net.dstRow (m ((c.tc : Thread nD τ).loc main_arg1)) := by
  show after seg0 (launchContents m c) (Proc.devRef .tc main_v3) = _
  after_results_simp <;> rfl

theorem U2_main_v3 : U2 m c (Proc.devRef .tc main_v3) = Net.dstRow (m ((c.tc : Thread nD τ).loc main_arg1)) :=
  (after_of_writes_sub seg1 (U1 m c) seg1_writes (by decide)).trans (U1_main_v3 m c)

theorem U3_main_v3 : U3 m c (Proc.devRef .tc main_v3) = Net.dstRow (m ((c.tc : Thread nD τ).loc main_arg1)) :=
  (after_of_writes_sub seg2 (U2 m c) seg2_writes (by decide)).trans (U2_main_v3 m c)

/-! ## The features after each stretch -/

/-- After the first stretch: the embedded features. -/
theorem U1_main_v23 : U1 m c (Proc.devRef .tc main_v23) = (Net.h0 (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  show after seg0 (launchContents m c) (Proc.devRef .tc main_v23) = _
  after_results_simp
  exact Ref.host_hidden128 _ _ _ _ _ _ _

set_option maxHeartbeats 4000000 in
/-- After stretch 1: the features after graph layer 1. -/
theorem U2_main_v98 : U2 m c (Proc.devRef .tc main_v98) = (Net.feat1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) := by
  show after seg1 (U1 m c) (Proc.devRef .tc main_v98) = _
  after_results_simp
  rw [U1_main_v23 m c, U1_main_v1 m c, U1_main_v3 m c, U1_main_arg9 m c, U1_main_arg10 m c, U1_main_arg11 m c, U1_main_arg12 m c, U1_main_arg13 m c, U1_main_arg14 m c, U1_main_arg15 m c, U1_main_arg16 m c, U1_main_arg17 m c, U1_main_arg18 m c, U1_main_arg19 m c, U1_main_arg20 m c]
  exact (Ref.host_layer _ _ _ _ _ _ _ _ _ _ _ _ _).trans rfl

set_option maxHeartbeats 4000000 in
/-- After stretch 2: the features after graph layer 2. -/
theorem U3_main_v173 : U3 m c (Proc.devRef .tc main_v173) = (Net.feat2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) := by
  show after seg2 (U2 m c) (Proc.devRef .tc main_v173) = _
  after_results_simp
  rw [U2_main_v98 m c, U2_main_v1 m c, U2_main_v3 m c, U2_main_arg9 m c, U2_main_arg10 m c, U2_main_arg11 m c, U2_main_arg12 m c, U2_main_arg13 m c, U2_main_arg14 m c, U2_main_arg15 m c, U2_main_arg16 m c, U2_main_arg17 m c, U2_main_arg18 m c, U2_main_arg19 m c, U2_main_arg20 m c]
  exact (Ref.host_layer _ _ _ _ _ _ _ _ _ _ _ _ _).trans rfl

set_option maxHeartbeats 4000000 in
/-- After stretch 3: the features after graph layer 3. -/
theorem U4_main_v248 : U4 m c (Proc.devRef .tc main_v248) = (Net.feat3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) := by
  show after seg3 (U3 m c) (Proc.devRef .tc main_v248) = _
  after_results_simp
  rw [U3_main_v173 m c, U3_main_v1 m c, U3_main_v3 m c, U3_main_arg9 m c, U3_main_arg10 m c, U3_main_arg11 m c, U3_main_arg12 m c, U3_main_arg13 m c, U3_main_arg14 m c, U3_main_arg15 m c, U3_main_arg16 m c, U3_main_arg17 m c, U3_main_arg18 m c, U3_main_arg19 m c, U3_main_arg20 m c]
  exact (Ref.host_layer _ _ _ _ _ _ _ _ _ _ _ _ _).trans rfl

set_option maxHeartbeats 4000000 in
/-- After the last stretch: the network's result. -/
theorem U5_main_v269 : U5 m c (Proc.devRef .tc main_v269) = (Net.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))) := by
  show after seg4 (U4 m c) (Proc.devRef .tc main_v269) = _
  after_results_simp
  rw [U4_main_v248 m c, U4_main_arg2 m c, U4_main_arg21 m c, U4_main_arg22 m c, U4_main_arg23 m c, U4_main_arg24 m c]
  exact (Ref.host_head _ _ _ _ _).trans rfl

/-! ## The run -/

theorem ops_writes : (ops : List (HloOp τ sig (Elt Ideal))).Forall fun op => op.writes ⊆ ((wr0 ++ (wr1 ++ (wr2 ++ (wr3 ++ wr4)))).map (Proc.devRef (τ := τ) .tc)).toFinset := by
  have sub : ∀ (A B : List (Ref sig .tc)) (l : List (HloOp τ sig (Elt Ideal))), (∀ x ∈ A, x ∈ B) →
      (l.Forall fun op => op.writes ⊆ (A.map (Proc.devRef (τ := τ) .tc)).toFinset) →
      l.Forall fun op => op.writes ⊆ (B.map (Proc.devRef (τ := τ) .tc)).toFinset := fun A B l hAB h =>
    List.forall_iff_forall_mem.mpr fun op hop => (List.forall_iff_forall_mem.mp h op hop).trans fun x hx => by
      obtain ⟨y, hy, rfl⟩ := List.mem_map.mp (List.mem_toFinset.mp hx)
      exact List.mem_toFinset.mpr (List.mem_map.mpr ⟨y, hAB y hy, rfl⟩)
  refine List.forall_append.mpr ⟨sub _ _ _ (fun x hx => by simp only [List.mem_append]; tauto) seg0_writes, List.forall_append.mpr
    ⟨sub _ _ _ (fun x hx => by simp only [List.mem_append]; tauto) seg1_writes, List.forall_append.mpr
    ⟨sub _ _ _ (fun x hx => by simp only [List.mem_append]; tauto) seg2_writes, List.forall_append.mpr
    ⟨sub _ _ _ (fun x hx => by simp only [List.mem_append]; tauto) seg3_writes,
     sub _ _ _ (fun x hx => by simp only [List.mem_append]; tauto) seg4_writes⟩⟩⟩⟩

/-- No operation writes an argument. -/
theorem arg_kept (b : Ref sig .tc) (hb : b ∉ wr0 ++ (wr1 ++ (wr2 ++ (wr3 ++ wr4)))) :
    after ops (launchContents m c) (Proc.devRef .tc b) = m ((c.tc : Thread nD τ).loc b) :=
  (after_of_writes_sub ops (launchContents m c) ops_writes hb).trans rfl

/-- THE REFERENCE'S RUN: every weakly fair execution terminates; the returned buffer then holds the network's result
    of the arguments, and the arguments are as launched. -/
theorem run (ρ : Dev nD → PrngReg) :
    θ_run defs (onTc (τ := τ) (main (F := Ideal))) ⟨m, fun _ => 0, ρ⟩ fun r => ∀ c : Dev nD,
      r.2.mem ((c.tc : Thread nD τ).loc main_v269) = (Net.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun r h c =>
    ⟨(h c main_v269).trans ((congrFun (after_ops m c) _).trans (U5_main_v269 m c)),
     (h c main_arg0).trans (arg_kept m c main_arg0 (by decide)),
     (h c main_arg1).trans (arg_kept m c main_arg1 (by decide)),
     (h c main_arg2).trans (arg_kept m c main_arg2 (by decide)),
     (h c main_arg3).trans (arg_kept m c main_arg3 (by decide)),
     (h c main_arg4).trans (arg_kept m c main_arg4 (by decide)),
     (h c main_arg5).trans (arg_kept m c main_arg5 (by decide)),
     (h c main_arg6).trans (arg_kept m c main_arg6 (by decide)),
     (h c main_arg7).trans (arg_kept m c main_arg7 (by decide)),
     (h c main_arg8).trans (arg_kept m c main_arg8 (by decide)),
     (h c main_arg9).trans (arg_kept m c main_arg9 (by decide)),
     (h c main_arg10).trans (arg_kept m c main_arg10 (by decide)),
     (h c main_arg11).trans (arg_kept m c main_arg11 (by decide)),
     (h c main_arg12).trans (arg_kept m c main_arg12 (by decide)),
     (h c main_arg13).trans (arg_kept m c main_arg13 (by decide)),
     (h c main_arg14).trans (arg_kept m c main_arg14 (by decide)),
     (h c main_arg15).trans (arg_kept m c main_arg15 (by decide)),
     (h c main_arg16).trans (arg_kept m c main_arg16 (by decide)),
     (h c main_arg17).trans (arg_kept m c main_arg17 (by decide)),
     (h c main_arg18).trans (arg_kept m c main_arg18 (by decide)),
     (h c main_arg19).trans (arg_kept m c main_arg19 (by decide)),
     (h c main_arg20).trans (arg_kept m c main_arg20 (by decide)),
     (h c main_arg21).trans (arg_kept m c main_arg21 (by decide)),
     (h c main_arg22).trans (arg_kept m c main_arg22 (by decide)),
     (h c main_arg23).trans (arg_kept m c main_arg23 (by decide)),
     (h c main_arg24).trans (arg_kept m c main_arg24 (by decide))⟩)
    (run_fold m ρ)

end Cert.Gin.RefRun

end
-- ==== Proof.lean ====
/-
  A graph-isomorphism network, tiled: the kernel against the whole-array reference.

  The network embeds 200000 nodes' features through a dense layer with fixed-statistics normalisation and a clamp
  at zero, applies three graph layers — each adds to a node's features the sum of its in-neighbours' features and
  sends the result through two such dense layers —, averages the nodes of each of 1024 graphs, and classifies by an
  affine map, a clamp and an affine map. The kernel runs every dense chain as a tiled region over blocks of 5000 rows
  (products on the matrix unit with operands in a narrower float format) and keeps the gather / scatter-add of the
  aggregation and the pooling as whole-array operations between the regions; the reference is whole-array operations
  throughout.

  On the extended reals a change of float format is the identity and a matrix product into a zero accumulator is the
  plain sum over the contracted coordinate, so nothing but the tiling separates the two programs. A dense layer's
  entry depends on its own row of the input only: a region's block of rows is the same rows of the layer of the whole
  arrays, the blocks cover every row, and each region leaves the network's array of the same stretch. The
  aggregation and the pooling are the same operations of equal arrays. No law of the extended reals is used beyond
  the congruence of sums, so the precondition is never opened.

  Both programs end with the network's result of the arguments (`Net.out`): the kernel by its regions one after the
  other, the reference by its operations read one stretch at a time. The two kernel programs' frames are the generated
  ones; the reference's is its run with the result dropped. The kernel's idealization rewrote nothing, so there is
  nothing to preserve.
-/
import proofs.«152072_j43654047596746_2_alg».proof.Defs
import proofs.«152072_j43654047596746_2_alg».proof.Proof.Gen.Kernel
import proofs.«152072_j43654047596746_2_alg».proof.Proof.Gen.Kernel.Frame
import proofs.«152072_j43654047596746_2_alg».proof.Proof.Gen.KernelIdeal
import proofs.«152072_j43654047596746_2_alg».proof.Proof.Gen.KernelIdeal.Frame
import proofs.«152072_j43654047596746_2_alg».proof.Proof.Gen.ReferenceIdeal
import proofs.«152072_j43654047596746_2_alg».proof.Proof.Gen.Pre_finite_inputs
import proofs.«152072_j43654047596746_2_alg».proof.Proof.KernelRun
import proofs.«152072_j43654047596746_2_alg».proof.Proof.KernelChain
import proofs.«152072_j43654047596746_2_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.Gin.RefRun.run m ρ)

theorem preserves : Cert.preserves_Kernel_KernelIdeal := trivial

/-- From memories that agree on the arguments both programs end with the network's result of the kernel's arguments
    in the returned buffer. -/
theorem algebraic : Cert.algebraic_KernelIdeal_ReferenceIdeal := by
  intro m ρ m' ρ' _ hagree
  refine ⟨fun c => Cert.Gin.Net.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)), ?_, ?_⟩
  · exact (θ_run Cert.KernelIdeal.defs _ _).mono
      (fun r h c => ⟨(h c).1.trans (Cert.Gin.Chain.result_eq m ρ c), (h c).2⟩)
      (Cert.KernelIdeal.Result.run_result (F := Ideal) m ρ)
  · refine (θ_run Cert.ReferenceIdeal.defs _ _).mono (fun _ h c => ⟨(h c).1.trans ?_, (h c).2⟩)
      (Cert.Gin.RefRun.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, Cert.Proof.preserves,
    Cert.Proof.algebraic⟩

end
